-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v177)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v177) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S4x128 : Shape := ⟨2, ![4, 128]⟩
abbrev S512x40 : Shape := ⟨2, ![512, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S4x128 : S_.BroadcastsInDim S4x128 (![] : Fin 0 → Fin S4x128.rank)
  reducesTo_S4x128_S_d0_1 : S4x128.ReducesTo [0, 1] S_
  bcast_S_S512x40 : S_.BroadcastsInDim S512x40 (![] : Fin 0 → Fin S512x40.rank)
  reducesTo_S512x40_S_d0_1 : S512x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S512x40 .f32) (main_arg9 : FVec F S40 .f32) (main_v33 : IVec S_ 1) : IVec S_ 1 :=
  let main_v34 : FVec F S512x40 .f32 := Host.absf main_arg8
  let main_cst_12 : FVec F S_ .f32 := constant S_ .f32 0x7F800000#32
  let main_v35 : FVec F S512x40 .f32 := broadcastInDim S512x40 ![] bcast_S_S512x40 main_cst_12
  let main_v36 : IVec S512x40 1 := cmpf .olt main_v34 main_v35
  let main_c_13 : IVec S_ 1 := constantI S_ 1 1#1
  let main_v37 : IVec S_ 1 := (fun x v => Host.reduce IntOp.andi x v reducesTo_S512x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S3x128 .f32) (main_arg6 : FVec F S4x128 .f32) (main_arg7 : FVec F S4x128 .f32) (main_arg8 : FVec F S512x40 .f32) (main_arg9 : FVec F S40 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S4x128 .f32 := Host.absf main_arg6
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg7
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x1600000 32) (main_arg2 : FVec F S256x128 .f32) (main_arg3 : FVec F S128 .f32) (main_arg4 : FVec F S3x128x128 .f32) (main_arg5 : FVec F S3x128 .f32) (main_arg6 : FVec F S4x128 .f32) (main_arg7 : FVec F S4x128 .f32) (main_arg8 : FVec F S512x40 .f32) (main_arg9 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S4x128 : Shape := ⟨2, ![4, 128]⟩
abbrev S512x40 : Shape := ⟨2, ![512, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S1x128x128 : Shape := ⟨3, ![1, 128, 128]⟩
abbrev S128x128 : Shape := ⟨2, ![128, 128]⟩
abbrev S100000x512 : Shape := ⟨2, ![100000, 512]⟩
abbrev S1x40 : Shape := ⟨2, ![1, 40]⟩
abbrev S100000x40 : Shape := ⟨2, ![100000, 40]⟩
abbrev S5000x512 : Shape := ⟨2, ![5000, 512]⟩
abbrev S5000x40 : Shape := ⟨2, ![5000, 40]⟩

abbrev nBuf : Space → Nat
  | .hbm => 306
  | .vmem => 50
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S3x128x128, .f32⟩
  | 5 => ⟨S3x128, .f32⟩
  | 6 => ⟨S4x128, .f32⟩
  | 7 => ⟨S4x128, .f32⟩
  | 8 => ⟨S512x40, .f32⟩
  | 9 => ⟨S40, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S100000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S100000x128, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000x128, .f32⟩
  | 53 => ⟨S1700000x1, .f32⟩
  | 54 => ⟨S1700000x128, .f32⟩
  | 55 => ⟨S1700000x128, .f32⟩
  | 56 => ⟨S_, .f32⟩
  | 57 => ⟨S100000x128, .f32⟩
  | 58 => ⟨S1700000x1, .i32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S128, .f32⟩
  | 65 => ⟨S_, .f32⟩
  | 66 => ⟨S128, .f32⟩
  | 67 => ⟨S128, .f32⟩
  | 68 => ⟨S_, .i32⟩
  | 69 => ⟨S_, .f32⟩
  | 70 => ⟨S128, .f32⟩
  | 71 => ⟨S1x128, .f32⟩
  | 72 => ⟨S_, .f32⟩
  | 73 => ⟨S1x128, .f32⟩
  | 74 => ⟨S1x128, .f32⟩
  | 75 => ⟨S100000x128, .f32⟩
  | 76 => ⟨S100000x128, .f32⟩
  | 77 => ⟨S100000x128, .f32⟩
  | 78 => ⟨S_, .f32⟩
  | 79 => ⟨S_, .f32⟩
  | 80 => ⟨S_, .f32⟩
  | 81 => ⟨S_, .f32⟩
  | 82 => ⟨S128, .f32⟩
  | 83 => ⟨S128, .f32⟩
  | 84 => ⟨S128, .f32⟩
  | 85 => ⟨S_, .f32⟩
  | 86 => ⟨S_, .i1⟩
  | 87 => ⟨S_, .f32⟩
  | 88 => ⟨S_, .f32⟩
  | 89 => ⟨S128, .f32⟩
  | 90 => ⟨S128, .f32⟩
  | 91 => ⟨S1x128, .f32⟩
  | 92 => ⟨S128, .f32⟩
  | 93 => ⟨S_, .f32⟩
  | 94 => ⟨S128, .f32⟩
  | 95 => ⟨S128, .f32⟩
  | 96 => ⟨S128, .f32⟩
  | 97 => ⟨S128, .f32⟩
  | 98 => ⟨S1x128, .f32⟩
  | 99 => ⟨S128, .f32⟩
  | 100 => ⟨S128, .f32⟩
  | 101 => ⟨S128, .f32⟩
  | 102 => ⟨S1x128, .f32⟩
  | 103 => ⟨S1x128, .f32⟩
  | 104 => ⟨S100000x128, .f32⟩
  | 105 => ⟨S1x128x128, .f32⟩
  | 106 => ⟨S128x128, .f32⟩
  | 107 => ⟨S1x128, .f32⟩
  | 108 => ⟨S128, .f32⟩
  | 109 => ⟨S100000x128, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x128, .f32⟩
  | 119 => ⟨S1700000x1, .f32⟩
  | 120 => ⟨S1700000x128, .f32⟩
  | 121 => ⟨S1700000x128, .f32⟩
  | 122 => ⟨S_, .f32⟩
  | 123 => ⟨S100000x128, .f32⟩
  | 124 => ⟨S1700000x1, .i32⟩
  | 125 => ⟨S100000x128, .f32⟩
  | 126 => ⟨S1x128, .f32⟩
  | 127 => ⟨S100000x128, .f32⟩
  | _ => ⟨S100000x256, .f32⟩

abbrev hbmTy0_1 (i : Nat) : BufTy := match i % 128 with
  | 0 => ⟨S100000x128, .f32⟩
  | 1 => ⟨S_, .f32⟩
  | 2 => ⟨S128, .f32⟩
  | 3 => ⟨S_, .f32⟩
  | 4 => ⟨S128, .f32⟩
  | 5 => ⟨S128, .f32⟩
  | 6 => ⟨S_, .i32⟩
  | 7 => ⟨S_, .f32⟩
  | 8 => ⟨S128, .f32⟩
  | 9 => ⟨S1x128, .f32⟩
  | 10 => ⟨S_, .f32⟩
  | 11 => ⟨S1x128, .f32⟩
  | 12 => ⟨S1x128, .f32⟩
  | 13 => ⟨S100000x128, .f32⟩
  | 14 => ⟨S100000x128, .f32⟩
  | 15 => ⟨S100000x128, .f32⟩
  | 16 => ⟨S_, .f32⟩
  | 17 => ⟨S_, .f32⟩
  | 18 => ⟨S_, .f32⟩
  | 19 => ⟨S_, .f32⟩
  | 20 => ⟨S128, .f32⟩
  | 21 => ⟨S128, .f32⟩
  | 22 => ⟨S128, .f32⟩
  | 23 => ⟨S_, .f32⟩
  | 24 => ⟨S_, .i1⟩
  | 25 => ⟨S_, .f32⟩
  | 26 => ⟨S_, .f32⟩
  | 27 => ⟨S128, .f32⟩
  | 28 => ⟨S128, .f32⟩
  | 29 => ⟨S1x128, .f32⟩
  | 30 => ⟨S128, .f32⟩
  | 31 => ⟨S_, .f32⟩
  | 32 => ⟨S128, .f32⟩
  | 33 => ⟨S128, .f32⟩
  | 34 => ⟨S128, .f32⟩
  | 35 => ⟨S128, .f32⟩
  | 36 => ⟨S1x128, .f32⟩
  | 37 => ⟨S128, .f32⟩
  | 38 => ⟨S128, .f32⟩
  | 39 => ⟨S128, .f32⟩
  | 40 => ⟨S1x128, .f32⟩
  | 41 => ⟨S1x128, .f32⟩
  | 42 => ⟨S100000x128, .f32⟩
  | 43 => ⟨S1x128x128, .f32⟩
  | 44 => ⟨S128x128, .f32⟩
  | 45 => ⟨S1x128, .f32⟩
  | 46 => ⟨S128, .f32⟩
  | 47 => ⟨S100000x128, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S128, .f32⟩
  | 69 => ⟨S_, .f32⟩
  | 70 => ⟨S128, .f32⟩
  | 71 => ⟨S128, .f32⟩
  | 72 => ⟨S_, .i32⟩
  | 73 => ⟨S_, .f32⟩
  | 74 => ⟨S128, .f32⟩
  | 75 => ⟨S1x128, .f32⟩
  | 76 => ⟨S_, .f32⟩
  | 77 => ⟨S1x128, .f32⟩
  | 78 => ⟨S1x128, .f32⟩
  | 79 => ⟨S100000x128, .f32⟩
  | 80 => ⟨S100000x128, .f32⟩
  | 81 => ⟨S100000x128, .f32⟩
  | 82 => ⟨S_, .f32⟩
  | 83 => ⟨S_, .f32⟩
  | 84 => ⟨S_, .f32⟩
  | 85 => ⟨S_, .f32⟩
  | 86 => ⟨S128, .f32⟩
  | 87 => ⟨S128, .f32⟩
  | 88 => ⟨S128, .f32⟩
  | 89 => ⟨S_, .f32⟩
  | 90 => ⟨S_, .i1⟩
  | 91 => ⟨S_, .f32⟩
  | 92 => ⟨S_, .f32⟩
  | 93 => ⟨S128, .f32⟩
  | 94 => ⟨S128, .f32⟩
  | 95 => ⟨S1x128, .f32⟩
  | 96 => ⟨S128, .f32⟩
  | 97 => ⟨S_, .f32⟩
  | 98 => ⟨S128, .f32⟩
  | 99 => ⟨S128, .f32⟩
  | 100 => ⟨S128, .f32⟩
  | 101 => ⟨S128, .f32⟩
  | 102 => ⟨S1x128, .f32⟩
  | 103 => ⟨S128, .f32⟩
  | 104 => ⟨S128, .f32⟩
  | 105 => ⟨S128, .f32⟩
  | 106 => ⟨S1x128, .f32⟩
  | 107 => ⟨S1x128, .f32⟩
  | 108 => ⟨S100000x128, .f32⟩
  | 109 => ⟨S1x128x128, .f32⟩
  | 110 => ⟨S128x128, .f32⟩
  | 111 => ⟨S1x128, .f32⟩
  | 112 => ⟨S128, .f32⟩
  | 113 => ⟨S100000x128, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x128, .f32⟩
  | 123 => ⟨S1700000x1, .f32⟩
  | 124 => ⟨S1700000x128, .f32⟩
  | 125 => ⟨S1700000x128, .f32⟩
  | 126 => ⟨S_, .f32⟩
  | 127 => ⟨S100000x128, .f32⟩
  | _ => ⟨S100000x256, .f32⟩

abbrev hbmTy0_2 (i : Nat) : BufTy := match i % 128 with
  | 0 => ⟨S1700000x1, .i32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S128, .f32⟩
  | 7 => ⟨S_, .f32⟩
  | 8 => ⟨S128, .f32⟩
  | 9 => ⟨S128, .f32⟩
  | 10 => ⟨S_, .i32⟩
  | 11 => ⟨S_, .f32⟩
  | 12 => ⟨S128, .f32⟩
  | 13 => ⟨S1x128, .f32⟩
  | 14 => ⟨S_, .f32⟩
  | 15 => ⟨S1x128, .f32⟩
  | 16 => ⟨S1x128, .f32⟩
  | 17 => ⟨S100000x128, .f32⟩
  | 18 => ⟨S100000x128, .f32⟩
  | 19 => ⟨S100000x128, .f32⟩
  | 20 => ⟨S_, .f32⟩
  | 21 => ⟨S_, .f32⟩
  | 22 => ⟨S_, .f32⟩
  | 23 => ⟨S_, .f32⟩
  | 24 => ⟨S128, .f32⟩
  | 25 => ⟨S128, .f32⟩
  | 26 => ⟨S128, .f32⟩
  | 27 => ⟨S_, .f32⟩
  | 28 => ⟨S_, .i1⟩
  | 29 => ⟨S_, .f32⟩
  | 30 => ⟨S_, .f32⟩
  | 31 => ⟨S128, .f32⟩
  | 32 => ⟨S128, .f32⟩
  | 33 => ⟨S1x128, .f32⟩
  | 34 => ⟨S128, .f32⟩
  | 35 => ⟨S_, .f32⟩
  | 36 => ⟨S128, .f32⟩
  | 37 => ⟨S128, .f32⟩
  | 38 => ⟨S128, .f32⟩
  | 39 => ⟨S128, .f32⟩
  | 40 => ⟨S1x128, .f32⟩
  | 41 => ⟨S128, .f32⟩
  | 42 => ⟨S128, .f32⟩
  | 43 => ⟨S128, .f32⟩
  | 44 => ⟨S1x128, .f32⟩
  | 45 => ⟨S1x128, .f32⟩
  | 46 => ⟨S100000x128, .f32⟩
  | 47 => ⟨S100000x512, .f32⟩
  | 48 => ⟨S1x40, .f32⟩
  | 49 => ⟨S100000x40, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S128x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x512, .f32⟩
  | .local _ .vmem, ⟨45, _⟩ => ⟨S5000x512, .f32⟩
  | .local _ .vmem, ⟨46, _⟩ => ⟨S512x40, .f32⟩
  | .local _ .vmem, ⟨47, _⟩ => ⟨S1x40, .f32⟩
  | .local _ .vmem, ⟨48, _⟩ => ⟨S5000x40, .f32⟩
  | .local _ .vmem, ⟨49, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_cst_0 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_v7 : Ref sig .tc := ⟨.hbm, 78, rfl⟩
abbrev main_call0_cst_1 : Ref sig .tc := ⟨.hbm, 79, rfl⟩
abbrev main_call0_v8 : Ref sig .tc := ⟨.hbm, 80, rfl⟩
abbrev main_call0_cst_2 : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_cst_3 : Ref sig .tc := ⟨.hbm, 85, rfl⟩
abbrev main_call0_v12 : Ref sig .tc := ⟨.hbm, 86, rfl⟩
abbrev main_call0_cst_4 : Ref sig .tc := ⟨.hbm, 87, rfl⟩
abbrev main_call0_call0_v0 : Ref sig .tc := ⟨.hbm, 88, rfl⟩
abbrev main_call0_call0_v1 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_cst_10 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_c_11 : Ref sig .tc := ⟨.hbm, 110, rfl⟩
abbrev main_v66 : Ref sig .tc := ⟨.hbm, 111, rfl⟩
abbrev main_v67 : Ref sig .tc := ⟨.hbm, 112, rfl⟩
abbrev main_c_12 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_13 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_14 : Ref sig .tc := ⟨.hbm, 129, rfl⟩
abbrev main_v82 : Ref sig .tc := ⟨.hbm, 130, rfl⟩
abbrev main_cst_15 : Ref sig .tc := ⟨.hbm, 131, rfl⟩
abbrev main_v83 : Ref sig .tc := ⟨.hbm, 132, rfl⟩
abbrev main_v84 : Ref sig .tc := ⟨.hbm, 133, rfl⟩
abbrev main_c_16 : Ref sig .tc := ⟨.hbm, 134, rfl⟩
abbrev main_call1_cst : Ref sig .tc := ⟨.hbm, 135, rfl⟩
abbrev main_call1_v0 : Ref sig .tc := ⟨.hbm, 136, rfl⟩
abbrev main_call1_v1 : Ref sig .tc := ⟨.hbm, 137, rfl⟩
abbrev main_call1_cst_0 : Ref sig .tc := ⟨.hbm, 138, rfl⟩
abbrev main_call1_v2 : Ref sig .tc := ⟨.hbm, 139, rfl⟩
abbrev main_call1_v3 : Ref sig .tc := ⟨.hbm, 140, rfl⟩
abbrev main_call1_v4 : Ref sig .tc := ⟨.hbm, 141, rfl⟩
abbrev main_call1_v5 : Ref sig .tc := ⟨.hbm, 142, rfl⟩
abbrev main_call1_v6 : Ref sig .tc := ⟨.hbm, 143, rfl⟩
abbrev main_call1_v7 : Ref sig .tc := ⟨.hbm, 144, rfl⟩
abbrev main_call1_cst_1 : Ref sig .tc := ⟨.hbm, 145, rfl⟩
abbrev main_call1_v8 : Ref sig .tc := ⟨.hbm, 146, rfl⟩
abbrev main_call1_cst_2 : Ref sig .tc := ⟨.hbm, 147, rfl⟩
abbrev main_call1_v9 : Ref sig .tc := ⟨.hbm, 148, rfl⟩
abbrev main_call1_v10 : Ref sig .tc := ⟨.hbm, 149, rfl⟩
abbrev main_call1_v11 : Ref sig .tc := ⟨.hbm, 150, rfl⟩
abbrev main_call1_cst_3 : Ref sig .tc := ⟨.hbm, 151, rfl⟩
abbrev main_call1_v12 : Ref sig .tc := ⟨.hbm, 152, rfl⟩
abbrev main_call1_cst_4 : Ref sig .tc := ⟨.hbm, 153, rfl⟩
abbrev main_call1_call0_v0 : Ref sig .tc := ⟨.hbm, 154, rfl⟩
abbrev main_call1_call0_v1 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_cst_17 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_c_18 : Ref sig .tc := ⟨.hbm, 176, rfl⟩
abbrev main_v104 : Ref sig .tc := ⟨.hbm, 177, rfl⟩
abbrev main_v105 : Ref sig .tc := ⟨.hbm, 178, rfl⟩
abbrev main_c_19 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_cst_20 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_cst_21 : Ref sig .tc := ⟨.hbm, 195, rfl⟩
abbrev main_v120 : Ref sig .tc := ⟨.hbm, 196, rfl⟩
abbrev main_cst_22 : Ref sig .tc := ⟨.hbm, 197, rfl⟩
abbrev main_v121 : Ref sig .tc := ⟨.hbm, 198, rfl⟩
abbrev main_v122 : Ref sig .tc := ⟨.hbm, 199, rfl⟩
abbrev main_c_23 : Ref sig .tc := ⟨.hbm, 200, rfl⟩
abbrev main_call2_cst : Ref sig .tc := ⟨.hbm, 201, rfl⟩
abbrev main_call2_v0 : Ref sig .tc := ⟨.hbm, 202, rfl⟩
abbrev main_call2_v1 : Ref sig .tc := ⟨.hbm, 203, rfl⟩
abbrev main_call2_cst_0 : Ref sig .tc := ⟨.hbm, 204, rfl⟩
abbrev main_call2_v2 : Ref sig .tc := ⟨.hbm, 205, rfl⟩
abbrev main_call2_v3 : Ref sig .tc := ⟨.hbm, 206, rfl⟩
abbrev main_call2_v4 : Ref sig .tc := ⟨.hbm, 207, rfl⟩
abbrev main_call2_v5 : Ref sig .tc := ⟨.hbm, 208, rfl⟩
abbrev main_call2_v6 : Ref sig .tc := ⟨.hbm, 209, rfl⟩
abbrev main_call2_v7 : Ref sig .tc := ⟨.hbm, 210, rfl⟩
abbrev main_call2_cst_1 : Ref sig .tc := ⟨.hbm, 211, rfl⟩
abbrev main_call2_v8 : Ref sig .tc := ⟨.hbm, 212, rfl⟩
abbrev main_call2_cst_2 : Ref sig .tc := ⟨.hbm, 213, rfl⟩
abbrev main_call2_v9 : Ref sig .tc := ⟨.hbm, 214, rfl⟩
abbrev main_call2_v10 : Ref sig .tc := ⟨.hbm, 215, rfl⟩
abbrev main_call2_v11 : Ref sig .tc := ⟨.hbm, 216, rfl⟩
abbrev main_call2_cst_3 : Ref sig .tc := ⟨.hbm, 217, rfl⟩
abbrev main_call2_v12 : Ref sig .tc := ⟨.hbm, 218, rfl⟩
abbrev main_call2_cst_4 : Ref sig .tc := ⟨.hbm, 219, rfl⟩
abbrev main_call2_call0_v0 : Ref sig .tc := ⟨.hbm, 220, rfl⟩
abbrev main_call2_call0_v1 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_cst_24 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_v134 : Ref sig .tc := ⟨.hbm, 234, rfl⟩
abbrev main_v135 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_c_25 : Ref sig .tc := ⟨.hbm, 242, rfl⟩
abbrev main_v142 : Ref sig .tc := ⟨.hbm, 243, rfl⟩
abbrev main_v143 : Ref sig .tc := ⟨.hbm, 244, rfl⟩
abbrev main_c_26 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_cst_27 : Ref sig .tc := ⟨.hbm, 254, rfl⟩
abbrev main_v152 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_cst_28 : Ref sig .tc := ⟨.hbm, 261, rfl⟩
abbrev main_v158 : Ref sig .tc := ⟨.hbm, 262, rfl⟩
abbrev main_cst_29 : Ref sig .tc := ⟨.hbm, 263, rfl⟩
abbrev main_v159 : Ref sig .tc := ⟨.hbm, 264, rfl⟩
abbrev main_v160 : Ref sig .tc := ⟨.hbm, 265, rfl⟩
abbrev main_c_30 : Ref sig .tc := ⟨.hbm, 266, rfl⟩
abbrev main_call3_cst : Ref sig .tc := ⟨.hbm, 267, rfl⟩
abbrev main_call3_v0 : Ref sig .tc := ⟨.hbm, 268, rfl⟩
abbrev main_call3_v1 : Ref sig .tc := ⟨.hbm, 269, rfl⟩
abbrev main_call3_cst_0 : Ref sig .tc := ⟨.hbm, 270, rfl⟩
abbrev main_call3_v2 : Ref sig .tc := ⟨.hbm, 271, rfl⟩
abbrev main_call3_v3 : Ref sig .tc := ⟨.hbm, 272, rfl⟩
abbrev main_call3_v4 : Ref sig .tc := ⟨.hbm, 273, rfl⟩
abbrev main_call3_v5 : Ref sig .tc := ⟨.hbm, 274, rfl⟩
abbrev main_call3_v6 : Ref sig .tc := ⟨.hbm, 275, rfl⟩
abbrev main_call3_v7 : Ref sig .tc := ⟨.hbm, 276, rfl⟩
abbrev main_call3_cst_1 : Ref sig .tc := ⟨.hbm, 277, rfl⟩
abbrev main_call3_v8 : Ref sig .tc := ⟨.hbm, 278, rfl⟩
abbrev main_call3_cst_2 : Ref sig .tc := ⟨.hbm, 279, rfl⟩
abbrev main_call3_v9 : Ref sig .tc := ⟨.hbm, 280, rfl⟩
abbrev main_call3_v10 : Ref sig .tc := ⟨.hbm, 281, rfl⟩
abbrev main_call3_v11 : Ref sig .tc := ⟨.hbm, 282, rfl⟩
abbrev main_call3_cst_3 : Ref sig .tc := ⟨.hbm, 283, rfl⟩
abbrev main_call3_v12 : Ref sig .tc := ⟨.hbm, 284, rfl⟩
abbrev main_call3_cst_4 : Ref sig .tc := ⟨.hbm, 285, rfl⟩
abbrev main_call3_call0_v0 : Ref sig .tc := ⟨.hbm, 286, rfl⟩
abbrev main_call3_call0_v1 : Ref sig .tc := ⟨.hbm, 287, rfl⟩
abbrev main_v161 : Ref sig .tc := ⟨.hbm, 288, rfl⟩
abbrev main_v162 : Ref sig .tc := ⟨.hbm, 289, rfl⟩
abbrev main_v163 : Ref sig .tc := ⟨.hbm, 290, rfl⟩
abbrev main_cst_31 : Ref sig .tc := ⟨.hbm, 291, rfl⟩
abbrev main_v164 : Ref sig .tc := ⟨.hbm, 292, rfl⟩
abbrev main_v165 : Ref sig .tc := ⟨.hbm, 293, rfl⟩
abbrev main_v166 : Ref sig .tc := ⟨.hbm, 294, rfl⟩
abbrev main_v167 : Ref sig .tc := ⟨.hbm, 295, rfl⟩
abbrev main_v168 : Ref sig .tc := ⟨.hbm, 296, rfl⟩
abbrev main_v169 : Ref sig .tc := ⟨.hbm, 297, rfl⟩
abbrev main_v170 : Ref sig .tc := ⟨.hbm, 298, rfl⟩
abbrev main_v171 : Ref sig .tc := ⟨.hbm, 299, rfl⟩
abbrev main_v172 : Ref sig .tc := ⟨.hbm, 300, rfl⟩
abbrev main_v173 : Ref sig .tc := ⟨.hbm, 301, rfl⟩
abbrev main_v174 : Ref sig .tc := ⟨.hbm, 302, rfl⟩
abbrev main_v175 : Ref sig .tc := ⟨.hbm, 303, rfl⟩
abbrev main_v176 : Ref sig .tc := ⟨.hbm, 304, rfl⟩
abbrev main_v177 : Ref sig .tc := ⟨.hbm, 305, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg2_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg2_0 : Ref sig .tc := ⟨.vmem, 41, rfl⟩
abbrev cc7_stg3_0 : Ref sig .tc := ⟨.vmem, 42, rfl⟩
abbrev cc7_stg3_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg2_0 : Ref sig .tc := ⟨.vmem, 47, rfl⟩
abbrev cc8_stg3_0 : Ref sig .tc := ⟨.vmem, 48, rfl⟩
abbrev cc8_stg3_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem3_0 : DmaSem sig := 42
abbrev cc7_sem3_1 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem3_0 : DmaSem sig := 48
abbrev cc8_sem3_1 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S512x40 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x40 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x40 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x128_S1x128_0_0 : S4x128.Slices ![0, 0] S1x128
  shapeCasts_S1x128_S128 : S1x128.ShapeCasts S128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S4x128_S1x128_1_0 : S4x128.Slices ![1, 0] S1x128
  slices_S3x128x128_S1x128x128_1_0_0 : S3x128x128.Slices ![1, 0, 0] S1x128x128
  slices_S3x128_S1x128_1_0 : S3x128.Slices ![1, 0] S1x128
  slices_S4x128_S1x128_2_0 : S4x128.Slices ![2, 0] S1x128
  slices_S3x128x128_S1x128x128_2_0_0 : S3x128x128.Slices ![2, 0, 0] S1x128x128
  slices_S3x128_S1x128_2_0 : S3x128.Slices ![2, 0] S1x128
  slices_S4x128_S1x128_3_0 : S4x128.Slices ![3, 0] S1x128
  concatenates_S100000x128_S100000x128_S100000x128_S100000x128_S100000x512_d1 : Shape.Concatenates [S100000x128, S100000x128, S100000x128, S100000x128] S100000x512 1
  shapeCasts_S40_S1x40 : S40.ShapeCasts S1x40
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x40_S512x40_0_0 : ∀ a, (![0, 0] : Fin 2 → Nat) a + S512x40.size a ≤ S512x40.size a
  h_S512x40 : 0 < S512x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x512_S512x40_S5000x40_1_0_0_1_n_n_wf : DotDims.WF S5000x512 S512x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S100000x128.size a
  hwx7_3 : ∀ i : grid7.Coords, EltTy.bits .f32 = 32 ∨ (Rect.block (s := S100000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x512.size a ≤ S100000x512.size a
  hwx8_0 : ∀ i : grid8.Coords, EltTy.bits .f32 = 32 ∨ (Rect.block (s := S100000x512) S5000x512.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x40.size a ≤ S512x40.size a
  hwx8_1 : ∀ i : grid8.Coords, EltTy.bits .f32 = 32 ∨ (Rect.block (s := S512x40) S512x40.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x40.size a ≤ S1x40.size a
  hwx8_2 : ∀ i : grid8.Coords, EltTy.bits .f32 = 32 ∨ (Rect.block (s := S1x40) S1x40.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x40.size a ≤ S100000x40.size a
  hwx8_3 : ∀ i : grid8.Coords, EltTy.bits .f32 = 32 ∨ (Rect.block (s := S100000x40) S5000x40.size (cc8_transform_3 i) (hinb8_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x512_S512x40_S5000x40_1_0_0_1_n_n : DotDims S5000x512 S512x40 S5000x40 where
  lhsContracting := [1]
  rhsContracting := [0]
  lhsNonContracting := [0]
  rhsNonContracting := [1]
  lhsBatch := []
  rhsBatch := []
  wf := dot_S5000x512_S512x40_S5000x40_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v81) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v96) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v97) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v98) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v98) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v100) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v103) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v119) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v134) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v135) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v136) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v136) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v138) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v141) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v157) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v172) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v173) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v174) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v175) S5000x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg8) S512x40.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v176) S1x40.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v177) S5000x40.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S4x128 : Shape := ⟨2, ![4, 128]⟩
abbrev S512x40 : Shape := ⟨2, ![512, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S1x128x128 : Shape := ⟨3, ![1, 128, 128]⟩
abbrev S128x128 : Shape := ⟨2, ![128, 128]⟩
abbrev S100000x512 : Shape := ⟨2, ![100000, 512]⟩
abbrev S100000x40 : Shape := ⟨2, ![100000, 40]⟩
abbrev S1x40 : Shape := ⟨2, ![1, 40]⟩

abbrev nBuf : Space → Nat
  | .hbm => 344
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S3x128x128, .f32⟩
  | 5 => ⟨S3x128, .f32⟩
  | 6 => ⟨S4x128, .f32⟩
  | 7 => ⟨S4x128, .f32⟩
  | 8 => ⟨S512x40, .f32⟩
  | 9 => ⟨S40, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S100000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S100000x128, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000x128, .f32⟩
  | 53 => ⟨S1700000x1, .f32⟩
  | 54 => ⟨S1700000x128, .f32⟩
  | 55 => ⟨S1700000x128, .f32⟩
  | 56 => ⟨S_, .f32⟩
  | 57 => ⟨S100000x128, .f32⟩
  | 58 => ⟨S1700000x1, .i32⟩
  | 59 => ⟨S100000x128, .f32⟩
  | 60 => ⟨S1x128, .f32⟩
  | 61 => ⟨S100000x128, .f32⟩
  | 62 => ⟨S100000x128, .f32⟩
  | 63 => ⟨S1x128, .f32⟩
  | 64 => ⟨S128, .f32⟩
  | 65 => ⟨S1x128, .f32⟩
  | 66 => ⟨S128, .f32⟩
  | 67 => ⟨S_, .f32⟩
  | 68 => ⟨S128, .f32⟩
  | 69 => ⟨S_, .f32⟩
  | 70 => ⟨S128, .f32⟩
  | 71 => ⟨S128, .f32⟩
  | 72 => ⟨S_, .i32⟩
  | 73 => ⟨S_, .f32⟩
  | 74 => ⟨S128, .f32⟩
  | 75 => ⟨S1x128, .f32⟩
  | 76 => ⟨S_, .f32⟩
  | 77 => ⟨S1x128, .f32⟩
  | 78 => ⟨S1x128, .f32⟩
  | 79 => ⟨S100000x128, .f32⟩
  | 80 => ⟨S100000x128, .f32⟩
  | 81 => ⟨S100000x128, .f32⟩
  | 82 => ⟨S_, .f32⟩
  | 83 => ⟨S_, .f32⟩
  | 84 => ⟨S_, .f32⟩
  | 85 => ⟨S_, .f32⟩
  | 86 => ⟨S128, .f32⟩
  | 87 => ⟨S128, .f32⟩
  | 88 => ⟨S128, .f32⟩
  | 89 => ⟨S_, .f32⟩
  | 90 => ⟨S_, .i1⟩
  | 91 => ⟨S_, .f32⟩
  | 92 => ⟨S_, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S_, .f32⟩
  | 99 => ⟨S128, .f32⟩
  | 100 => ⟨S128, .f32⟩
  | 101 => ⟨S128, .f32⟩
  | 102 => ⟨S1x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S1x128x128, .f32⟩
  | 115 => ⟨S128x128, .f32⟩
  | 116 => ⟨S1x128, .f32⟩
  | 117 => ⟨S128, .f32⟩
  | 118 => ⟨S100000x128, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000x128, .f32⟩
  | _ => ⟨S100000x256, .f32⟩

abbrev hbmTy0_1 (i : Nat) : BufTy := match i % 128 with
  | 0 => ⟨S1700000x1, .f32⟩
  | 1 => ⟨S1700000x128, .f32⟩
  | 2 => ⟨S1700000x128, .f32⟩
  | 3 => ⟨S_, .f32⟩
  | 4 => ⟨S100000x128, .f32⟩
  | 5 => ⟨S1700000x1, .i32⟩
  | 6 => ⟨S100000x128, .f32⟩
  | 7 => ⟨S1x128, .f32⟩
  | 8 => ⟨S100000x128, .f32⟩
  | 9 => ⟨S100000x128, .f32⟩
  | 10 => ⟨S1x128, .f32⟩
  | 11 => ⟨S128, .f32⟩
  | 12 => ⟨S1x128, .f32⟩
  | 13 => ⟨S128, .f32⟩
  | 14 => ⟨S_, .f32⟩
  | 15 => ⟨S128, .f32⟩
  | 16 => ⟨S_, .f32⟩
  | 17 => ⟨S128, .f32⟩
  | 18 => ⟨S128, .f32⟩
  | 19 => ⟨S_, .i32⟩
  | 20 => ⟨S_, .f32⟩
  | 21 => ⟨S128, .f32⟩
  | 22 => ⟨S1x128, .f32⟩
  | 23 => ⟨S_, .f32⟩
  | 24 => ⟨S1x128, .f32⟩
  | 25 => ⟨S1x128, .f32⟩
  | 26 => ⟨S100000x128, .f32⟩
  | 27 => ⟨S100000x128, .f32⟩
  | 28 => ⟨S100000x128, .f32⟩
  | 29 => ⟨S_, .f32⟩
  | 30 => ⟨S_, .f32⟩
  | 31 => ⟨S_, .f32⟩
  | 32 => ⟨S_, .f32⟩
  | 33 => ⟨S128, .f32⟩
  | 34 => ⟨S128, .f32⟩
  | 35 => ⟨S128, .f32⟩
  | 36 => ⟨S_, .f32⟩
  | 37 => ⟨S_, .i1⟩
  | 38 => ⟨S_, .f32⟩
  | 39 => ⟨S_, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S_, .f32⟩
  | 46 => ⟨S128, .f32⟩
  | 47 => ⟨S128, .f32⟩
  | 48 => ⟨S128, .f32⟩
  | 49 => ⟨S1x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S_, .f32⟩
  | 59 => ⟨S100000x128, .f32⟩
  | 60 => ⟨S100000x128, .f32⟩
  | 61 => ⟨S1x128x128, .f32⟩
  | 62 => ⟨S128x128, .f32⟩
  | 63 => ⟨S1x128, .f32⟩
  | 64 => ⟨S128, .f32⟩
  | 65 => ⟨S100000x128, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x128, .f32⟩
  | 75 => ⟨S1700000x1, .f32⟩
  | 76 => ⟨S1700000x128, .f32⟩
  | 77 => ⟨S1700000x128, .f32⟩
  | 78 => ⟨S_, .f32⟩
  | 79 => ⟨S100000x128, .f32⟩
  | 80 => ⟨S1700000x1, .i32⟩
  | 81 => ⟨S100000x128, .f32⟩
  | 82 => ⟨S1x128, .f32⟩
  | 83 => ⟨S100000x128, .f32⟩
  | 84 => ⟨S100000x128, .f32⟩
  | 85 => ⟨S1x128, .f32⟩
  | 86 => ⟨S128, .f32⟩
  | 87 => ⟨S1x128, .f32⟩
  | 88 => ⟨S128, .f32⟩
  | 89 => ⟨S_, .f32⟩
  | 90 => ⟨S128, .f32⟩
  | 91 => ⟨S_, .f32⟩
  | 92 => ⟨S128, .f32⟩
  | 93 => ⟨S128, .f32⟩
  | 94 => ⟨S_, .i32⟩
  | 95 => ⟨S_, .f32⟩
  | 96 => ⟨S128, .f32⟩
  | 97 => ⟨S1x128, .f32⟩
  | 98 => ⟨S_, .f32⟩
  | 99 => ⟨S1x128, .f32⟩
  | 100 => ⟨S1x128, .f32⟩
  | 101 => ⟨S100000x128, .f32⟩
  | 102 => ⟨S100000x128, .f32⟩
  | 103 => ⟨S100000x128, .f32⟩
  | 104 => ⟨S_, .f32⟩
  | 105 => ⟨S_, .f32⟩
  | 106 => ⟨S_, .f32⟩
  | 107 => ⟨S_, .f32⟩
  | 108 => ⟨S128, .f32⟩
  | 109 => ⟨S128, .f32⟩
  | 110 => ⟨S128, .f32⟩
  | 111 => ⟨S_, .f32⟩
  | 112 => ⟨S_, .i1⟩
  | 113 => ⟨S_, .f32⟩
  | 114 => ⟨S_, .f32⟩
  | 115 => ⟨S128, .f32⟩
  | 116 => ⟨S128, .f32⟩
  | 117 => ⟨S1x128, .f32⟩
  | 118 => ⟨S100000x128, .f32⟩
  | 119 => ⟨S100000x128, .f32⟩
  | 120 => ⟨S_, .f32⟩
  | 121 => ⟨S128, .f32⟩
  | 122 => ⟨S128, .f32⟩
  | 123 => ⟨S128, .f32⟩
  | 124 => ⟨S1x128, .f32⟩
  | 125 => ⟨S100000x128, .f32⟩
  | 126 => ⟨S100000x128, .f32⟩
  | 127 => ⟨S1x128, .f32⟩
  | _ => ⟨S100000x256, .f32⟩

abbrev hbmTy0_2 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S1x128x128, .f32⟩
  | 9 => ⟨S128x128, .f32⟩
  | 10 => ⟨S1x128, .f32⟩
  | 11 => ⟨S128, .f32⟩
  | 12 => ⟨S100000x128, .f32⟩
  | 13 => ⟨S_, .i32⟩
  | 14 => ⟨S1700000, .i32⟩
  | 15 => ⟨S1700000, .i1⟩
  | 16 => ⟨S_, .i32⟩
  | 17 => ⟨S1700000, .i32⟩
  | 18 => ⟨S1700000, .i32⟩
  | 19 => ⟨S1700000, .i32⟩
  | 20 => ⟨S1700000x1, .i32⟩
  | 21 => ⟨S1700000x128, .f32⟩
  | 22 => ⟨S1700000x1, .f32⟩
  | 23 => ⟨S1700000x128, .f32⟩
  | 24 => ⟨S1700000x128, .f32⟩
  | 25 => ⟨S_, .f32⟩
  | 26 => ⟨S100000x128, .f32⟩
  | 27 => ⟨S1700000x1, .i32⟩
  | 28 => ⟨S100000x128, .f32⟩
  | 29 => ⟨S1x128, .f32⟩
  | 30 => ⟨S100000x128, .f32⟩
  | 31 => ⟨S100000x128, .f32⟩
  | 32 => ⟨S1x128, .f32⟩
  | 33 => ⟨S128, .f32⟩
  | 34 => ⟨S1x128, .f32⟩
  | 35 => ⟨S128, .f32⟩
  | 36 => ⟨S_, .f32⟩
  | 37 => ⟨S128, .f32⟩
  | 38 => ⟨S_, .f32⟩
  | 39 => ⟨S128, .f32⟩
  | 40 => ⟨S128, .f32⟩
  | 41 => ⟨S_, .i32⟩
  | 42 => ⟨S_, .f32⟩
  | 43 => ⟨S128, .f32⟩
  | 44 => ⟨S1x128, .f32⟩
  | 45 => ⟨S_, .f32⟩
  | 46 => ⟨S1x128, .f32⟩
  | 47 => ⟨S1x128, .f32⟩
  | 48 => ⟨S100000x128, .f32⟩
  | 49 => ⟨S100000x128, .f32⟩
  | 50 => ⟨S100000x128, .f32⟩
  | 51 => ⟨S_, .f32⟩
  | 52 => ⟨S_, .f32⟩
  | 53 => ⟨S_, .f32⟩
  | 54 => ⟨S_, .f32⟩
  | 55 => ⟨S128, .f32⟩
  | 56 => ⟨S128, .f32⟩
  | 57 => ⟨S128, .f32⟩
  | 58 => ⟨S_, .f32⟩
  | 59 => ⟨S_, .i1⟩
  | 60 => ⟨S_, .f32⟩
  | 61 => ⟨S_, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S_, .f32⟩
  | 68 => ⟨S128, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x512, .f32⟩
  | 84 => ⟨S100000x40, .f32⟩
  | 85 => ⟨S1x40, .f32⟩
  | 86 => ⟨S100000x40, .f32⟩
  | 87 => ⟨S100000x40, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_call0_cst : Ref sig .tc := ⟨.hbm, 73, rfl⟩
abbrev main_call0_v0 : Ref sig .tc := ⟨.hbm, 74, rfl⟩
abbrev main_call0_v1 : Ref sig .tc := ⟨.hbm, 75, rfl⟩
abbrev main_call0_cst_0 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_v5 : Ref sig .tc := ⟨.hbm, 80, rfl⟩
abbrev main_call0_v6 : Ref sig .tc := ⟨.hbm, 81, rfl⟩
abbrev main_call0_v7 : Ref sig .tc := ⟨.hbm, 82, rfl⟩
abbrev main_call0_cst_1 : Ref sig .tc := ⟨.hbm, 83, rfl⟩
abbrev main_call0_v8 : Ref sig .tc := ⟨.hbm, 84, rfl⟩
abbrev main_call0_cst_2 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_cst_3 : Ref sig .tc := ⟨.hbm, 89, rfl⟩
abbrev main_call0_v12 : Ref sig .tc := ⟨.hbm, 90, rfl⟩
abbrev main_call0_cst_4 : Ref sig .tc := ⟨.hbm, 91, rfl⟩
abbrev main_call0_call0_v0 : Ref sig .tc := ⟨.hbm, 92, rfl⟩
abbrev main_call0_call0_v1 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_10 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_call1_cst : Ref sig .tc := ⟨.hbm, 111, rfl⟩
abbrev main_call1_v0 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_c_11 : Ref sig .tc := ⟨.hbm, 119, rfl⟩
abbrev main_v73 : Ref sig .tc := ⟨.hbm, 120, rfl⟩
abbrev main_v74 : Ref sig .tc := ⟨.hbm, 121, rfl⟩
abbrev main_c_12 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_13 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_14 : Ref sig .tc := ⟨.hbm, 142, rfl⟩
abbrev main_v93 : Ref sig .tc := ⟨.hbm, 143, rfl⟩
abbrev main_cst_15 : Ref sig .tc := ⟨.hbm, 144, rfl⟩
abbrev main_v94 : Ref sig .tc := ⟨.hbm, 145, rfl⟩
abbrev main_v95 : Ref sig .tc := ⟨.hbm, 146, rfl⟩
abbrev main_c_16 : Ref sig .tc := ⟨.hbm, 147, rfl⟩
abbrev main_call2_cst : Ref sig .tc := ⟨.hbm, 148, rfl⟩
abbrev main_call2_v0 : Ref sig .tc := ⟨.hbm, 149, rfl⟩
abbrev main_call2_v1 : Ref sig .tc := ⟨.hbm, 150, rfl⟩
abbrev main_call2_cst_0 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_call2_v5 : Ref sig .tc := ⟨.hbm, 155, rfl⟩
abbrev main_call2_v6 : Ref sig .tc := ⟨.hbm, 156, rfl⟩
abbrev main_call2_v7 : Ref sig .tc := ⟨.hbm, 157, rfl⟩
abbrev main_call2_cst_1 : Ref sig .tc := ⟨.hbm, 158, rfl⟩
abbrev main_call2_v8 : Ref sig .tc := ⟨.hbm, 159, rfl⟩
abbrev main_call2_cst_2 : Ref sig .tc := ⟨.hbm, 160, rfl⟩
abbrev main_call2_v9 : Ref sig .tc := ⟨.hbm, 161, rfl⟩
abbrev main_call2_v10 : Ref sig .tc := ⟨.hbm, 162, rfl⟩
abbrev main_call2_v11 : Ref sig .tc := ⟨.hbm, 163, rfl⟩
abbrev main_call2_cst_3 : Ref sig .tc := ⟨.hbm, 164, rfl⟩
abbrev main_call2_v12 : Ref sig .tc := ⟨.hbm, 165, rfl⟩
abbrev main_call2_cst_4 : Ref sig .tc := ⟨.hbm, 166, rfl⟩
abbrev main_call2_call0_v0 : Ref sig .tc := ⟨.hbm, 167, rfl⟩
abbrev main_call2_call0_v1 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_cst_17 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_call3_cst : Ref sig .tc := ⟨.hbm, 186, rfl⟩
abbrev main_call3_v0 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_c_18 : Ref sig .tc := ⟨.hbm, 194, rfl⟩
abbrev main_v118 : Ref sig .tc := ⟨.hbm, 195, rfl⟩
abbrev main_v119 : Ref sig .tc := ⟨.hbm, 196, rfl⟩
abbrev main_c_19 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_cst_20 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_cst_21 : Ref sig .tc := ⟨.hbm, 217, rfl⟩
abbrev main_v138 : Ref sig .tc := ⟨.hbm, 218, rfl⟩
abbrev main_cst_22 : Ref sig .tc := ⟨.hbm, 219, rfl⟩
abbrev main_v139 : Ref sig .tc := ⟨.hbm, 220, rfl⟩
abbrev main_v140 : Ref sig .tc := ⟨.hbm, 221, rfl⟩
abbrev main_c_23 : Ref sig .tc := ⟨.hbm, 222, rfl⟩
abbrev main_call4_cst : Ref sig .tc := ⟨.hbm, 223, rfl⟩
abbrev main_call4_v0 : Ref sig .tc := ⟨.hbm, 224, rfl⟩
abbrev main_call4_v1 : Ref sig .tc := ⟨.hbm, 225, rfl⟩
abbrev main_call4_cst_0 : Ref sig .tc := ⟨.hbm, 226, rfl⟩
abbrev main_call4_v2 : Ref sig .tc := ⟨.hbm, 227, rfl⟩
abbrev main_call4_v3 : Ref sig .tc := ⟨.hbm, 228, rfl⟩
abbrev main_call4_v4 : Ref sig .tc := ⟨.hbm, 229, rfl⟩
abbrev main_call4_v5 : Ref sig .tc := ⟨.hbm, 230, rfl⟩
abbrev main_call4_v6 : Ref sig .tc := ⟨.hbm, 231, rfl⟩
abbrev main_call4_v7 : Ref sig .tc := ⟨.hbm, 232, rfl⟩
abbrev main_call4_cst_1 : Ref sig .tc := ⟨.hbm, 233, rfl⟩
abbrev main_call4_v8 : Ref sig .tc := ⟨.hbm, 234, rfl⟩
abbrev main_call4_cst_2 : Ref sig .tc := ⟨.hbm, 235, rfl⟩
abbrev main_call4_v9 : Ref sig .tc := ⟨.hbm, 236, rfl⟩
abbrev main_call4_v10 : Ref sig .tc := ⟨.hbm, 237, rfl⟩
abbrev main_call4_v11 : Ref sig .tc := ⟨.hbm, 238, rfl⟩
abbrev main_call4_cst_3 : Ref sig .tc := ⟨.hbm, 239, rfl⟩
abbrev main_call4_v12 : Ref sig .tc := ⟨.hbm, 240, rfl⟩
abbrev main_call4_cst_4 : Ref sig .tc := ⟨.hbm, 241, rfl⟩
abbrev main_call4_call0_v0 : Ref sig .tc := ⟨.hbm, 242, rfl⟩
abbrev main_call4_call0_v1 : Ref sig .tc := ⟨.hbm, 243, rfl⟩
abbrev main_v141 : Ref sig .tc := ⟨.hbm, 244, rfl⟩
abbrev main_v142 : Ref sig .tc := ⟨.hbm, 245, rfl⟩
abbrev main_v143 : Ref sig .tc := ⟨.hbm, 246, rfl⟩
abbrev main_v144 : Ref sig .tc := ⟨.hbm, 247, rfl⟩
abbrev main_cst_24 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_call5_cst : Ref sig .tc := ⟨.hbm, 261, rfl⟩
abbrev main_call5_v0 : Ref sig .tc := ⟨.hbm, 262, rfl⟩
abbrev main_v157 : Ref sig .tc := ⟨.hbm, 263, rfl⟩
abbrev main_v158 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩
abbrev main_c_25 : Ref sig .tc := ⟨.hbm, 269, rfl⟩
abbrev main_v163 : Ref sig .tc := ⟨.hbm, 270, rfl⟩
abbrev main_v164 : Ref sig .tc := ⟨.hbm, 271, rfl⟩
abbrev main_c_26 : Ref sig .tc := ⟨.hbm, 272, rfl⟩
abbrev main_v165 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_v170 : Ref sig .tc := ⟨.hbm, 278, rfl⟩
abbrev main_v171 : Ref sig .tc := ⟨.hbm, 279, rfl⟩
abbrev main_v172 : Ref sig .tc := ⟨.hbm, 280, rfl⟩
abbrev main_cst_27 : Ref sig .tc := ⟨.hbm, 281, rfl⟩
abbrev main_v173 : Ref sig .tc := ⟨.hbm, 282, rfl⟩
abbrev main_v174 : Ref sig .tc := ⟨.hbm, 283, rfl⟩
abbrev main_v175 : Ref sig .tc := ⟨.hbm, 284, rfl⟩
abbrev main_v176 : Ref sig .tc := ⟨.hbm, 285, rfl⟩
abbrev main_v177 : Ref sig .tc := ⟨.hbm, 286, rfl⟩
abbrev main_v178 : Ref sig .tc := ⟨.hbm, 287, rfl⟩
abbrev main_v179 : Ref sig .tc := ⟨.hbm, 288, rfl⟩
abbrev main_v180 : Ref sig .tc := ⟨.hbm, 289, rfl⟩
abbrev main_v181 : Ref sig .tc := ⟨.hbm, 290, rfl⟩
abbrev main_v182 : Ref sig .tc := ⟨.hbm, 291, rfl⟩
abbrev main_cst_28 : Ref sig .tc := ⟨.hbm, 292, rfl⟩
abbrev main_v183 : Ref sig .tc := ⟨.hbm, 293, rfl⟩
abbrev main_cst_29 : Ref sig .tc := ⟨.hbm, 294, rfl⟩
abbrev main_v184 : Ref sig .tc := ⟨.hbm, 295, rfl⟩
abbrev main_v185 : Ref sig .tc := ⟨.hbm, 296, rfl⟩
abbrev main_c_30 : Ref sig .tc := ⟨.hbm, 297, rfl⟩
abbrev main_call6_cst : Ref sig .tc := ⟨.hbm, 298, rfl⟩
abbrev main_call6_v0 : Ref sig .tc := ⟨.hbm, 299, rfl⟩
abbrev main_call6_v1 : Ref sig .tc := ⟨.hbm, 300, rfl⟩
abbrev main_call6_cst_0 : Ref sig .tc := ⟨.hbm, 301, rfl⟩
abbrev main_call6_v2 : Ref sig .tc := ⟨.hbm, 302, rfl⟩
abbrev main_call6_v3 : Ref sig .tc := ⟨.hbm, 303, rfl⟩
abbrev main_call6_v4 : Ref sig .tc := ⟨.hbm, 304, rfl⟩
abbrev main_call6_v5 : Ref sig .tc := ⟨.hbm, 305, rfl⟩
abbrev main_call6_v6 : Ref sig .tc := ⟨.hbm, 306, rfl⟩
abbrev main_call6_v7 : Ref sig .tc := ⟨.hbm, 307, rfl⟩
abbrev main_call6_cst_1 : Ref sig .tc := ⟨.hbm, 308, rfl⟩
abbrev main_call6_v8 : Ref sig .tc := ⟨.hbm, 309, rfl⟩
abbrev main_call6_cst_2 : Ref sig .tc := ⟨.hbm, 310, rfl⟩
abbrev main_call6_v9 : Ref sig .tc := ⟨.hbm, 311, rfl⟩
abbrev main_call6_v10 : Ref sig .tc := ⟨.hbm, 312, rfl⟩
abbrev main_call6_v11 : Ref sig .tc := ⟨.hbm, 313, rfl⟩
abbrev main_call6_cst_3 : Ref sig .tc := ⟨.hbm, 314, rfl⟩
abbrev main_call6_v12 : Ref sig .tc := ⟨.hbm, 315, rfl⟩
abbrev main_call6_cst_4 : Ref sig .tc := ⟨.hbm, 316, rfl⟩
abbrev main_call6_call0_v0 : Ref sig .tc := ⟨.hbm, 317, rfl⟩
abbrev main_call6_call0_v1 : Ref sig .tc := ⟨.hbm, 318, rfl⟩
abbrev main_v186 : Ref sig .tc := ⟨.hbm, 319, rfl⟩
abbrev main_v187 : Ref sig .tc := ⟨.hbm, 320, rfl⟩
abbrev main_v188 : Ref sig .tc := ⟨.hbm, 321, rfl⟩
abbrev main_v189 : Ref sig .tc := ⟨.hbm, 322, rfl⟩
abbrev main_cst_31 : Ref sig .tc := ⟨.hbm, 323, rfl⟩
abbrev main_v190 : Ref sig .tc := ⟨.hbm, 324, rfl⟩
abbrev main_v191 : Ref sig .tc := ⟨.hbm, 325, rfl⟩
abbrev main_v192 : Ref sig .tc := ⟨.hbm, 326, rfl⟩
abbrev main_v193 : Ref sig .tc := ⟨.hbm, 327, rfl⟩
abbrev main_v194 : Ref sig .tc := ⟨.hbm, 328, rfl⟩
abbrev main_v195 : Ref sig .tc := ⟨.hbm, 329, rfl⟩
abbrev main_v196 : Ref sig .tc := ⟨.hbm, 330, rfl⟩
abbrev main_v197 : Ref sig .tc := ⟨.hbm, 331, rfl⟩
abbrev main_v198 : Ref sig .tc := ⟨.hbm, 332, rfl⟩
abbrev main_v199 : Ref sig .tc := ⟨.hbm, 333, rfl⟩
abbrev main_v200 : Ref sig .tc := ⟨.hbm, 334, rfl⟩
abbrev main_v201 : Ref sig .tc := ⟨.hbm, 335, rfl⟩
abbrev main_call7_cst : Ref sig .tc := ⟨.hbm, 336, rfl⟩
abbrev main_call7_v0 : Ref sig .tc := ⟨.hbm, 337, rfl⟩
abbrev main_v202 : Ref sig .tc := ⟨.hbm, 338, rfl⟩
abbrev main_v203 : Ref sig .tc := ⟨.hbm, 339, rfl⟩
abbrev main_v204 : Ref sig .tc := ⟨.hbm, 340, rfl⟩
abbrev main_v205 : Ref sig .tc := ⟨.hbm, 341, rfl⟩
abbrev main_v206 : Ref sig .tc := ⟨.hbm, 342, rfl⟩
abbrev main_v207 : Ref sig .tc := ⟨.hbm, 343, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128_S1x128_0_0 : S4x128.Slices ![0, 0] S1x128
  shapeCasts_S1x128_S128 : S1x128.ShapeCasts S128
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  slices_S4x128_S1x128_1_0 : S4x128.Slices ![1, 0] S1x128
  slices_S3x128x128_S1x128x128_1_0_0 : S3x128x128.Slices ![1, 0, 0] S1x128x128
  slices_S3x128_S1x128_1_0 : S3x128.Slices ![1, 0] S1x128
  slices_S4x128_S1x128_2_0 : S4x128.Slices ![2, 0] S1x128
  slices_S3x128x128_S1x128x128_2_0_0 : S3x128x128.Slices ![2, 0, 0] S1x128x128
  slices_S3x128_S1x128_2_0 : S3x128.Slices ![2, 0] S1x128
  slices_S4x128_S1x128_3_0 : S4x128.Slices ![3, 0] S1x128
  concatenates_S100000x128_S100000x128_S100000x128_S100000x128_S100000x512_d1 : Shape.Concatenates [S100000x128, S100000x128, S100000x128, S100000x128] S100000x512 1
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x512_S512x40_S100000x40_1_0_0_1_n_n_wf : DotDims.WF S100000x512 S512x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x512_S512x40_S100000x40_1_0_0_1_n_n : DotDims S100000x512 S512x40 S100000x40 where
  lhsContracting := [1]
  rhsContracting := [0]
  lhsNonContracting := [0]
  rhsNonContracting := [1]
  lhsBatch := []
  rhsBatch := []
  wf := dot_S100000x512_S512x40_S100000x40_1_0_0_1_n_n_wf

class Facts : Prop extends Facts₀ where

variable [Facts]
-- ==== Proof.KFrame.Data0.lean ====
import proofs.«131845_j5600637354059_1_alg».proof.Proof.Gen.Kernel.Launch
import proofs.«131845_j5600637354059_1_alg».proof.Proof.Gen.Kernel.Skeleton
import Idealize.ShloMosaic.Lib.Pipeline.FrameBody
import Idealize.ShloMosaic.Lib.Pipeline.Frame
import Idealize.ShloMosaic.Lib.Ring

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Pipeline 0 (`cc0__matmul_kernel`) at the entry contents `V`: the windows' blocks, what the body leaves, the proof data -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each staging buffer read or written whole -/

abbrev r0_0 : Rect S5000x256 := Rect.unit (s := S5000x256) ![0, 0] S5000x256.size inb_S5000x256_S5000x256_0_0
abbrev r0_1 : Rect S256x128 := Rect.unit (s := S256x128) ![0, 0] S256x128.size inb_S256x128_S256x128_0_0
abbrev r0_2 : Rect S5000x128 := Rect.unit (s := S5000x128) ![0, 0] S5000x128.size inb_S5000x128_S5000x128_0_0

/-! ## What the body leaves in the output window's buffer -/

/-- Window 2's staging buffer after the body, from the input windows' blocks: its one store, of the whole buffer. -/
def out0_2 (x0 : Vec F S5000x256 .f32) (x1 : Vec F S256x128 .f32) : Vec F S5000x128 .f32 :=
  View.canon [⟨r0_2, k0_pay1 (View.ld x0 r0_0) (View.ld x1 r0_1)⟩]

/-- The one store is of the whole buffer, so it covers it. -/
theorem cover0_2 (p0 : Vec F S5000x128 .f32) (y : S5000x128.Idx) :
    ∃ pc ∈ ([⟨r0_2, p0⟩] : List (View.Piece (Elt F) S5000x128 .f32)), y ∈ pc.1.set :=
  View.cover_of_tiled [⟨r0_2, p0⟩] S5000x128.size (by rfl) y

/-! ## The pipeline's proof data -/

/-- The proof data of pipeline 0 on core `c`: the arrays as the region finds them (`V`); after the body at point `t`
    each input's buffer at its block and the output's at `out0_2` of the input blocks; the invariant holds the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

end Cert.Kernel.Hand

end
-- ==== Proof.KFrame.Data1.lean ====
import proofs.«131845_j5600637354059_1_alg».proof.Proof.Gen.Kernel.Launch
import proofs.«131845_j5600637354059_1_alg».proof.Proof.Gen.Kernel.Skeleton
import Idealize.ShloMosaic.Lib.Pipeline.FrameBody
import Idealize.ShloMosaic.Lib.Pipeline.Frame
import Idealize.ShloMosaic.Lib.Ring

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Pipeline 1 (`cc1__affine_relu_kernel`) at the entry contents `V`: the windows' blocks, what the body leaves, the proof data -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each staging buffer read or written whole -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0
abbrev r1_2 : Rect S1x128 := Rect.unit (s := S1x128) ![0, 0] S1x128.size inb_S1x128_S1x128_0_0
abbrev r1_3 : Rect S5000x128 := Rect.unit (s := S5000x128) ![0, 0] S5000x128.size inb_S5000x128_S5000x128_0_0

/-! ## What the body leaves in the output window's buffer -/

/-- Window 3's staging buffer after the body, from the input windows' blocks: its one store, of the whole buffer. -/
def out1_3 (x0 : Vec F S5000x128 .f32) (x1 : Vec F S1x128 .f32) (x2 : Vec F S1x128 .f32) : Vec F S5000x128 .f32 :=
  View.canon [⟨r1_3, k1_pay1 (View.ld x0 r1_0) (View.ld x1 r1_1) (View.ld x2 r1_2)⟩]

/-- The one store is of the whole buffer, so it covers it. -/
theorem cover1_3 (p0 : Vec F S5000x128 .f32) (y : S5000x128.Idx) :
    ∃ pc ∈ ([⟨r1_3, p0⟩] : List (View.Piece (Elt F) S5000x128 .f32)), y ∈ pc.1.set :=
  View.cover_of_tiled [⟨r1_3, p0⟩] S5000x128.size (by rfl) y

/-! ## The pipeline's proof data -/

/-- The proof data of pipeline 1 on core `c`: the arrays as the region finds them (`V`); after the body at point `t`
    each input's buffer at its block and the output's at `out1_3` of the input blocks; the invariant holds the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

end Cert.Kernel.Hand

end
-- ==== Proof.KFrame.Data2.lean ====
import proofs.«131845_j5600637354059_1_alg».proof.Proof.Gen.Kernel.Launch
import proofs.«131845_j5600637354059_1_alg».proof.Proof.Gen.Kernel.Skeleton
import Idealize.ShloMosaic.Lib.Pipeline.FrameBody
import Idealize.ShloMosaic.Lib.Pipeline.Frame
import Idealize.ShloMosaic.Lib.Ring

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Pipeline 2 (`cc2__matmul_kernel`) at the entry contents `V`: the windows' blocks, what the body leaves, the proof data -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each staging buffer read or written whole -/

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S5000x128 := Rect.unit (s := S5000x128) ![0, 0] S5000x128.size inb_S5000x128_S5000x128_0_0

/-! ## What the body leaves in the output window's buffer -/

/-- Window 2's staging buffer after the body, from the input windows' blocks: its one store, of the whole buffer. -/
def out2_2 (x0 : Vec F S5000x128 .f32) (x1 : Vec F S128x128 .f32) : Vec F S5000x128 .f32 :=
  View.canon [⟨r2_2, k2_pay1 (View.ld x0 r2_0) (View.ld x1 r2_1)⟩]

/-- The one store is of the whole buffer, so it covers it. -/
theorem cover2_2 (p0 : Vec F S5000x128 .f32) (y : S5000x128.Idx) :
    ∃ pc ∈ ([⟨r2_2, p0⟩] : List (View.Piece (Elt F) S5000x128 .f32)), y ∈ pc.1.set :=
  View.cover_of_tiled [⟨r2_2, p0⟩] S5000x128.size (by rfl) y

/-! ## The pipeline's proof data -/

/-- The proof data of pipeline 2 on core `c`: the arrays as the region finds them (`V`); after the body at point `t`
    each input's buffer at its block and the output's at `out2_2` of the input blocks; the invariant holds the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

end Cert.Kernel.Hand

end
-- ==== Proof.KFrame.Data3.lean ====
import proofs.«131845_j5600637354059_1_alg».proof.Proof.Gen.Kernel.Launch
import proofs.«131845_j5600637354059_1_alg».proof.Proof.Gen.Kernel.Skeleton
import Idealize.ShloMosaic.Lib.Pipeline.FrameBody
import Idealize.ShloMosaic.Lib.Pipeline.Frame
import Idealize.ShloMosaic.Lib.Ring

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Pipeline 3 (`cc3__affine_relu_kernel`) at the entry contents `V`: the windows' blocks, what the body leaves, the proof data -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: each staging buffer read or written whole -/

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0
abbrev r3_2 : Rect S1x128 := Rect.unit (s := S1x128) ![0, 0] S1x128.size inb_S1x128_S1x128_0_0
abbrev r3_3 : Rect S5000x128 := Rect.unit (s := S5000x128) ![0, 0] S5000x128.size inb_S5000x128_S5000x128_0_0

/-! ## What the body leaves in the output window's buffer -/

/-- Window 3's staging buffer after the body, from the input windows' blocks: its one store, of the whole buffer. -/
def out3_3 (x0 : Vec F S5000x128 .f32) (x1 : Vec F S1x128 .f32) (x2 : Vec F S1x128 .f32) : Vec F S5000x128 .f32 :=
  View.canon [⟨r3_3, k3_pay1 (View.ld x0 r3_0) (View.ld x1 r3_1) (View.ld x2 r3_2)⟩]

/-- The one store is of the whole buffer, so it covers it. -/
theorem cover3_3 (p0 : Vec F S5000x128 .f32) (y : S5000x128.Idx) :
    ∃ pc ∈ ([⟨r3_3, p0⟩] : List (View.Piece (Elt F) S5000x128 .f32)), y ∈ pc.1.set :=
  View.cover_of_tiled [⟨r3_3, p0⟩] S5000x128.size (by rfl) y

/-! ## The pipeline's proof data -/

/-- The proof data of pipeline 3 on core `c`: the arrays as the region finds them (`V`); after the body at point `t`
    each input's buffer at its block and the output's at `out3_3` of the input blocks; the invariant holds the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

end Cert.Kernel.Hand

end
-- ==== Proof.KFrame.Data4.lean ====
import proofs.«131845_j5600637354059_1_alg».proof.Proof.Gen.Kernel.Launch
import proofs.«131845_j5600637354059_1_alg».proof.Proof.Gen.Kernel.Skeleton
import Idealize.ShloMosaic.Lib.Pipeline.FrameBody
import Idealize.ShloMosaic.Lib.Pipeline.Frame
import Idealize.ShloMosaic.Lib.Ring

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Pipeline 4 (`cc4__matmul_kernel`) at the entry contents `V`: the windows' blocks, what the body leaves, the proof data -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses: each staging buffer read or written whole -/

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S5000x128 := Rect.unit (s := S5000x128) ![0, 0] S5000x128.size inb_S5000x128_S5000x128_0_0

/-! ## What the body leaves in the output window's buffer -/

/-- Window 2's staging buffer after the body, from the input windows' blocks: its one store, of the whole buffer. -/
def out4_2 (x0 : Vec F S5000x128 .f32) (x1 : Vec F S128x128 .f32) : Vec F S5000x128 .f32 :=
  View.canon [⟨r4_2, k4_pay1 (View.ld x0 r4_0) (View.ld x1 r4_1)⟩]

/-- The one store is of the whole buffer, so it covers it. -/
theorem cover4_2 (p0 : Vec F S5000x128 .f32) (y : S5000x128.Idx) :
    ∃ pc ∈ ([⟨r4_2, p0⟩] : List (View.Piece (Elt F) S5000x128 .f32)), y ∈ pc.1.set :=
  View.cover_of_tiled [⟨r4_2, p0⟩] S5000x128.size (by rfl) y

/-! ## The pipeline's proof data -/

/-- The proof data of pipeline 4 on core `c`: the arrays as the region finds them (`V`); after the body at point `t`
    each input's buffer at its block and the output's at `out4_2` of the input blocks; the invariant holds the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

end Cert.Kernel.Hand

end
-- ==== Proof.KFrame.Data5.lean ====
import proofs.«131845_j5600637354059_1_alg».proof.Proof.Gen.Kernel.Launch
import proofs.«131845_j5600637354059_1_alg».proof.Proof.Gen.Kernel.Skeleton
import Idealize.ShloMosaic.Lib.Pipeline.FrameBody
import Idealize.ShloMosaic.Lib.Pipeline.Frame
import Idealize.ShloMosaic.Lib.Ring

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Pipeline 5 (`cc5__affine_relu_kernel`) at the entry contents `V`: the windows' blocks, what the body leaves, the proof data -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The body's accesses: each staging buffer read or written whole -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0
abbrev r5_2 : Rect S1x128 := Rect.unit (s := S1x128) ![0, 0] S1x128.size inb_S1x128_S1x128_0_0
abbrev r5_3 : Rect S5000x128 := Rect.unit (s := S5000x128) ![0, 0] S5000x128.size inb_S5000x128_S5000x128_0_0

/-! ## What the body leaves in the output window's buffer -/

/-- Window 3's staging buffer after the body, from the input windows' blocks: its one store, of the whole buffer. -/
def out5_3 (x0 : Vec F S5000x128 .f32) (x1 : Vec F S1x128 .f32) (x2 : Vec F S1x128 .f32) : Vec F S5000x128 .f32 :=
  View.canon [⟨r5_3, k5_pay1 (View.ld x0 r5_0) (View.ld x1 r5_1) (View.ld x2 r5_2)⟩]

/-- The one store is of the whole buffer, so it covers it. -/
theorem cover5_3 (p0 : Vec F S5000x128 .f32) (y : S5000x128.Idx) :
    ∃ pc ∈ ([⟨r5_3, p0⟩] : List (View.Piece (Elt F) S5000x128 .f32)), y ∈ pc.1.set :=
  View.cover_of_tiled [⟨r5_3, p0⟩] S5000x128.size (by rfl) y

/-! ## The pipeline's proof data -/

/-- The proof data of pipeline 5 on core `c`: the arrays as the region finds them (`V`); after the body at point `t`
    each input's buffer at its block and the output's at `out5_3` of the input blocks; the invariant holds the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

end Cert.Kernel.Hand

end
-- ==== Proof.KFrame.Data6.lean ====
import proofs.«131845_j5600637354059_1_alg».proof.Proof.Gen.Kernel.Launch
import proofs.«131845_j5600637354059_1_alg».proof.Proof.Gen.Kernel.Skeleton
import Idealize.ShloMosaic.Lib.Pipeline.FrameBody
import Idealize.ShloMosaic.Lib.Pipeline.Frame
import Idealize.ShloMosaic.Lib.Ring

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Pipeline 6 (`cc6__matmul_kernel`) at the entry contents `V`: the windows' blocks, what the body leaves, the proof data -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The body's accesses: each staging buffer read or written whole -/

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S5000x128 := Rect.unit (s := S5000x128) ![0, 0] S5000x128.size inb_S5000x128_S5000x128_0_0

/-! ## What the body leaves in the output window's buffer -/

/-- Window 2's staging buffer after the body, from the input windows' blocks: its one store, of the whole buffer. -/
def out6_2 (x0 : Vec F S5000x128 .f32) (x1 : Vec F S128x128 .f32) : Vec F S5000x128 .f32 :=
  View.canon [⟨r6_2, k6_pay1 (View.ld x0 r6_0) (View.ld x1 r6_1)⟩]

/-- The one store is of the whole buffer, so it covers it. -/
theorem cover6_2 (p0 : Vec F S5000x128 .f32) (y : S5000x128.Idx) :
    ∃ pc ∈ ([⟨r6_2, p0⟩] : List (View.Piece (Elt F) S5000x128 .f32)), y ∈ pc.1.set :=
  View.cover_of_tiled [⟨r6_2, p0⟩] S5000x128.size (by rfl) y

/-! ## The pipeline's proof data -/

/-- The proof data of pipeline 6 on core `c`: the arrays as the region finds them (`V`); after the body at point `t`
    each input's buffer at its block and the output's at `out6_2` of the input blocks; the invariant holds the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

end Cert.Kernel.Hand

end
-- ==== Proof.KFrame.Data7.lean ====
import proofs.«131845_j5600637354059_1_alg».proof.Proof.Gen.Kernel.Launch
import proofs.«131845_j5600637354059_1_alg».proof.Proof.Gen.Kernel.Skeleton
import Idealize.ShloMosaic.Lib.Pipeline.FrameBody
import Idealize.ShloMosaic.Lib.Pipeline.Frame
import Idealize.ShloMosaic.Lib.Ring

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Pipeline 7 (`cc7__affine_relu_kernel`) at the entry contents `V`: the windows' blocks, what the body leaves, the proof data -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The body's accesses: each staging buffer read or written whole -/

abbrev r7_0 : Rect S5000x128 := Rect.unit (s := S5000x128) ![0, 0] S5000x128.size inb_S5000x128_S5000x128_0_0
abbrev r7_1 : Rect S1x128 := Rect.unit (s := S1x128) ![0, 0] S1x128.size inb_S1x128_S1x128_0_0
abbrev r7_2 : Rect S1x128 := Rect.unit (s := S1x128) ![0, 0] S1x128.size inb_S1x128_S1x128_0_0
abbrev r7_3 : Rect S5000x128 := Rect.unit (s := S5000x128) ![0, 0] S5000x128.size inb_S5000x128_S5000x128_0_0

/-! ## What the body leaves in the output window's buffer -/

/-- Window 3's staging buffer after the body, from the input windows' blocks: its one store, of the whole buffer. -/
def out7_3 (x0 : Vec F S5000x128 .f32) (x1 : Vec F S1x128 .f32) (x2 : Vec F S1x128 .f32) : Vec F S5000x128 .f32 :=
  View.canon [⟨r7_3, k7_pay1 (View.ld x0 r7_0) (View.ld x1 r7_1) (View.ld x2 r7_2)⟩]

/-- The one store is of the whole buffer, so it covers it. -/
theorem cover7_3 (p0 : Vec F S5000x128 .f32) (y : S5000x128.Idx) :
    ∃ pc ∈ ([⟨r7_3, p0⟩] : List (View.Piece (Elt F) S5000x128 .f32)), y ∈ pc.1.set :=
  View.cover_of_tiled [⟨r7_3, p0⟩] S5000x128.size (by rfl) y

/-! ## The pipeline's proof data -/

/-- The proof data of pipeline 7 on core `c`: the arrays as the region finds them (`V`); after the body at point `t`
    each input's buffer at its block and the output's at `out7_3` of the input blocks; the invariant holds the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

end Cert.Kernel.Hand

end
-- ==== Proof.KFrame.Data8.lean ====
import proofs.«131845_j5600637354059_1_alg».proof.Proof.Gen.Kernel.Launch
import proofs.«131845_j5600637354059_1_alg».proof.Proof.Gen.Kernel.Skeleton
import Idealize.ShloMosaic.Lib.Pipeline.FrameBody
import Idealize.ShloMosaic.Lib.Pipeline.Frame
import Idealize.ShloMosaic.Lib.Ring

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Pipeline 8 (`cc8__matmul_bias_kernel`) at the entry contents `V`: the windows' blocks, what the body leaves, the proof data -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The body's accesses: each staging buffer read or written whole -/

abbrev r8_0 : Rect S5000x512 := Rect.unit (s := S5000x512) ![0, 0] S5000x512.size inb_S5000x512_S5000x512_0_0
abbrev r8_1 : Rect S512x40 := Rect.unit (s := S512x40) ![0, 0] S512x40.size inb_S512x40_S512x40_0_0
abbrev r8_2 : Rect S1x40 := Rect.unit (s := S1x40) ![0, 0] S1x40.size inb_S1x40_S1x40_0_0
abbrev r8_3 : Rect S5000x40 := Rect.unit (s := S5000x40) ![0, 0] S5000x40.size inb_S5000x40_S5000x40_0_0

/-! ## What the body leaves in the output window's buffer -/

/-- Window 3's staging buffer after the body, from the input windows' blocks: its one store, of the whole buffer. -/
def out8_3 (x0 : Vec F S5000x512 .f32) (x1 : Vec F S512x40 .f32) (x2 : Vec F S1x40 .f32) : Vec F S5000x40 .f32 :=
  View.canon [⟨r8_3, k8_pay1 (View.ld x0 r8_0) (View.ld x1 r8_1) (View.ld x2 r8_2)⟩]

/-- The one store is of the whole buffer, so it covers it. -/
theorem cover8_3 (p0 : Vec F S5000x40 .f32) (y : S5000x40.Idx) :
    ∃ pc ∈ ([⟨r8_3, p0⟩] : List (View.Piece (Elt F) S5000x40 .f32)), y ∈ pc.1.set :=
  View.cover_of_tiled [⟨r8_3, p0⟩] S5000x40.size (by rfl) y

/-! ## The pipeline's proof data -/

/-- The proof data of pipeline 8 on core `c`: the arrays as the region finds them (`V`); after the body at point `t`
    each input's buffer at its block and the output's at `out8_3` of the input blocks; the invariant holds the scoped
    rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

end Cert.Kernel.Hand

end
-- ==== Proof.KFrame.Chain.lean ====
import proofs.«131845_j5600637354059_1_alg».proof.Proof.KFrame.Data0
import proofs.«131845_j5600637354059_1_alg».proof.Proof.KFrame.Data1
import proofs.«131845_j5600637354059_1_alg».proof.Proof.KFrame.Data2
import proofs.«131845_j5600637354059_1_alg».proof.Proof.KFrame.Data3
import proofs.«131845_j5600637354059_1_alg».proof.Proof.KFrame.Data4
import proofs.«131845_j5600637354059_1_alg».proof.Proof.KFrame.Data5
import proofs.«131845_j5600637354059_1_alg».proof.Proof.KFrame.Data6
import proofs.«131845_j5600637354059_1_alg».proof.Proof.KFrame.Data7
import proofs.«131845_j5600637354059_1_alg».proof.Proof.KFrame.Data8
import proofs.«131845_j5600637354059_1_alg».proof.Proof.Gen.Kernel.Regions
import Idealize.ShloMosaic.Lib.Pipeline.RegionsLoop
import Idealize.ShloMosaic.Lib.Pipeline.FrameSuffix

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary between the items of @main: a fold from the launch memory

A stretch of host operations leaves `StableHlo.after` of its operations; a region leaves its arrays at what its pipeline's
write-backs leave (the inputs as entered, the output's blocks folded) and every other buffer as entered. -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- A buffer `hostOps0` does not write is as before it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The contents region 0 is entered at, read at the TensorCore's references (what its proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array is as entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- Region 0's exit contents at the TensorCore's references. -/
abbrev V2 : (c : Dev nD) → (b : Ref sig .tc) → Buf (Elt F) ((c : Thread nD τ).loc b) := fun c b => W2 m ρ c b
/-- At region 0's exit each of its arrays holds what the pipeline leaves (`hF0`) and every other buffer what it held
    at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After `hostOps1`. -/
abbrev W3 : Dev nD → Valuation τ sig (Elt F) := fun c => StableHlo.after hostOps1 (W2 m ρ c)
/-- A buffer `hostOps1` does not write is as before it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- After `hostOps1_1`. -/
abbrev W4 : Dev nD → Valuation τ sig (Elt F) := fun c => StableHlo.after hostOps1_1 (W3 m ρ c)
/-- A buffer `hostOps1_1` does not write is as before it. -/
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
/-- After `hostOps1_2`. -/
abbrev W5 : Dev nD → Valuation τ sig (Elt F) := fun c => StableHlo.after hostOps1_2 (W4 m ρ c)
/-- A buffer `hostOps1_2` does not write is as before it. -/
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
/-- The contents region 1 is entered at, read at the TensorCore's references (what its proof data take). -/
abbrev V5 : (c : Dev nD) → (b : Ref sig .tc) → Buf (Elt F) ((c : Thread nD τ).loc b) := fun c b => W5 m ρ c b
/-- At region 1's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- An input window's array is as entered. -/
theorem W6_in (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin _).trans (A_eq1 (V5 m ρ) c w))
/-- Region 1's exit contents at the TensorCore's references. -/
abbrev V6 : (c : Dev nD) → (b : Ref sig .tc) → Buf (Elt F) ((c : Thread nD τ).loc b) := fun c b => W6 m ρ c b
/-- At region 1's exit each of its arrays holds what the pipeline leaves (`hF1`) and every other buffer what it held
    at entry (`hrest1`). -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After `hostOps2`. -/
abbrev W7 : Dev nD → Valuation τ sig (Elt F) := fun c => StableHlo.after hostOps2 (W6 m ρ c)
/-- A buffer `hostOps2` does not write is as before it. -/
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
/-- The contents region 2 is entered at, read at the TensorCore's references (what its proof data take). -/
abbrev V7 : (c : Dev nD) → (b : Ref sig .tc) → Buf (Elt F) ((c : Thread nD τ).loc b) := fun c b => W7 m ρ c b
/-- At region 2's exit: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- An input window's array is as entered. -/
theorem W8_in (c : Dev nD) (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hin _).trans (A_eq2 (V7 m ρ) c w))
/-- Region 2's exit contents at the TensorCore's references. -/
abbrev V8 : (c : Dev nD) → (b : Ref sig .tc) → Buf (Elt F) ((c : Thread nD τ).loc b) := fun c b => W8 m ρ c b
/-- At region 2's exit each of its arrays holds what the pipeline leaves (`hF2`) and every other buffer what it held
    at entry (`hrest2`). -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- After `hostOps3`. -/
abbrev W9 : Dev nD → Valuation τ sig (Elt F) := fun c => StableHlo.after hostOps3 (W8 m ρ c)
/-- A buffer `hostOps3` does not write is as before it. -/
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h
/-- After `hostOps3_1`. -/
abbrev W10 : Dev nD → Valuation τ sig (Elt F) := fun c => StableHlo.after hostOps3_1 (W9 m ρ c)
/-- A buffer `hostOps3_1` does not write is as before it. -/
theorem W10_of (c : Dev nD) (r : Ref sig .tc) (h : r ∉ hostOps3_1_W) : W10 m ρ c (Proc.devRef .tc r) = W9 m ρ c (Proc.devRef .tc r) :=
  StableHlo.after_of_writes_sub hostOps3_1 _ hostOps3_1_writes h
/-- After `hostOps3_2`. -/
abbrev W11 : Dev nD → Valuation τ sig (Elt F) := fun c => StableHlo.after hostOps3_2 (W10 m ρ c)
/-- A buffer `hostOps3_2` does not write is as before it. -/
theorem W11_of (c : Dev nD) (r : Ref sig .tc) (h : r ∉ hostOps3_2_W) : W11 m ρ c (Proc.devRef .tc r) = W10 m ρ c (Proc.devRef .tc r) :=
  StableHlo.after_of_writes_sub hostOps3_2 _ hostOps3_2_writes h
/-- The contents region 3 is entered at, read at the TensorCore's references (what its proof data take). -/
abbrev V11 : (c : Dev nD) → (b : Ref sig .tc) → Buf (Elt F) ((c : Thread nD τ).loc b) := fun c b => W11 m ρ c b
/-- At region 3's exit: its arrays at what the pipeline leaves, every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- An input window's array is as entered. -/
theorem W12_in (c : Dev nD) (w : Fin cfg3.W) (hin : (cfg3.win w).isOut = false) :
    W12 m ρ c (Proc.devRef .tc (Pipeline.arrRef spec3 w)) = W11 m ρ c (Proc.devRef .tc (Pipeline.arrRef spec3 w)) :=
  (W12_arr m ρ c w).trans (((dat3 (V11 m ρ) c).arrAt_in w hin _).trans (A_eq3 (V11 m ρ) c w))
/-- Region 3's exit contents at the TensorCore's references. -/
abbrev V12 : (c : Dev nD) → (b : Ref sig .tc) → Buf (Elt F) ((c : Thread nD τ).loc b) := fun c b => W12 m ρ c b
/-- At region 3's exit each of its arrays holds what the pipeline leaves (`hF3`) and every other buffer what it held
    at entry (`hrest3`). -/
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)
/-- After `hostOps4`. -/
abbrev W13 : Dev nD → Valuation τ sig (Elt F) := fun c => StableHlo.after hostOps4 (W12 m ρ c)
/-- A buffer `hostOps4` does not write is as before it. -/
theorem W13_of (c : Dev nD) (r : Ref sig .tc) (h : r ∉ hostOps4_W) : W13 m ρ c (Proc.devRef .tc r) = W12 m ρ c (Proc.devRef .tc r) :=
  StableHlo.after_of_writes_sub hostOps4 _ hostOps4_writes h
/-- The contents region 4 is entered at, read at the TensorCore's references (what its proof data take). -/
abbrev V13 : (c : Dev nD) → (b : Ref sig .tc) → Buf (Elt F) ((c : Thread nD τ).loc b) := fun c b => W13 m ρ c b
/-- At region 4's exit: its arrays at what the pipeline leaves, every other buffer as entered. -/
def W14 (c : Dev nD) : Valuation τ sig (Elt F) :=
  Pipeline.withArrays spec4 c (W13 m ρ c) fun w => (dat4 (V13 m ρ) c).arrAt w cfg4.N
theorem W14_arr (c : Dev nD) (w : Fin cfg4.W) :
    W14 m ρ c (Proc.devRef .tc (Pipeline.arrRef spec4 w)) = (dat4 (V13 m ρ) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
/-- An input window's array is as entered. -/
theorem W14_in (c : Dev nD) (w : Fin cfg4.W) (hin : (cfg4.win w).isOut = false) :
    W14 m ρ c (Proc.devRef .tc (Pipeline.arrRef spec4 w)) = W13 m ρ c (Proc.devRef .tc (Pipeline.arrRef spec4 w)) :=
  (W14_arr m ρ c w).trans (((dat4 (V13 m ρ) c).arrAt_in w hin _).trans (A_eq4 (V13 m ρ) c w))
/-- Region 4's exit contents at the TensorCore's references. -/
abbrev V14 : (c : Dev nD) → (b : Ref sig .tc) → Buf (Elt F) ((c : Thread nD τ).loc b) := fun c b => W14 m ρ c b
/-- At region 4's exit each of its arrays holds what the pipeline leaves (`hF4`) and every other buffer what it held
    at entry (`hrest4`). -/
theorem hF4 (c : Dev nD) (w : Fin cfg4.W) : (dat4 (V13 m ρ) c).arrAt w cfg4.N = V14 m ρ c (Pipeline.arrRef spec4 w) :=
  (W14_arr m ρ c w).symm
theorem hrest4 (c : Dev nD) : ∀ b, b ∉ Finset.univ.image (Pipeline.arrRef spec4) → V14 m ρ c b = V13 m ρ c b :=
  fun b hb => W14_of_ne m ρ c b fun w e => hb (Finset.mem_image.mpr ⟨w, Finset.mem_univ _, e⟩)
/-- After `hostOps5`. -/
abbrev W15 : Dev nD → Valuation τ sig (Elt F) := fun c => StableHlo.after hostOps5 (W14 m ρ c)
/-- A buffer `hostOps5` does not write is as before it. -/
theorem W15_of (c : Dev nD) (r : Ref sig .tc) (h : r ∉ hostOps5_W) : W15 m ρ c (Proc.devRef .tc r) = W14 m ρ c (Proc.devRef .tc r) :=
  StableHlo.after_of_writes_sub hostOps5 _ hostOps5_writes h
/-- After `hostOps5_1`. -/
abbrev W16 : Dev nD → Valuation τ sig (Elt F) := fun c => StableHlo.after hostOps5_1 (W15 m ρ c)
/-- A buffer `hostOps5_1` does not write is as before it. -/
theorem W16_of (c : Dev nD) (r : Ref sig .tc) (h : r ∉ hostOps5_1_W) : W16 m ρ c (Proc.devRef .tc r) = W15 m ρ c (Proc.devRef .tc r) :=
  StableHlo.after_of_writes_sub hostOps5_1 _ hostOps5_1_writes h
/-- After `hostOps5_2`. -/
abbrev W17 : Dev nD → Valuation τ sig (Elt F) := fun c => StableHlo.after hostOps5_2 (W16 m ρ c)
/-- A buffer `hostOps5_2` does not write is as before it. -/
theorem W17_of (c : Dev nD) (r : Ref sig .tc) (h : r ∉ hostOps5_2_W) : W17 m ρ c (Proc.devRef .tc r) = W16 m ρ c (Proc.devRef .tc r) :=
  StableHlo.after_of_writes_sub hostOps5_2 _ hostOps5_2_writes h
/-- The contents region 5 is entered at, read at the TensorCore's references (what its proof data take). -/
abbrev V17 : (c : Dev nD) → (b : Ref sig .tc) → Buf (Elt F) ((c : Thread nD τ).loc b) := fun c b => W17 m ρ c b
/-- At region 5's exit: its arrays at what the pipeline leaves, every other buffer as entered. -/
def W18 (c : Dev nD) : Valuation τ sig (Elt F) :=
  Pipeline.withArrays spec5 c (W17 m ρ c) fun w => (dat5 (V17 m ρ) c).arrAt w cfg5.N
theorem W18_arr (c : Dev nD) (w : Fin cfg5.W) :
    W18 m ρ c (Proc.devRef .tc (Pipeline.arrRef spec5 w)) = (dat5 (V17 m ρ) c).arrAt w cfg5.N := by
  unfold W18; exact Pipeline.withArrays_arr spec5 launch5.win.arr_inj c _ _ w
theorem W18_of_ne (c : Dev nD) (b : Ref sig .tc) (hb : ∀ w, Pipeline.arrRef spec5 w ≠ b) :
    W18 m ρ c (Proc.devRef .tc b) = W17 m ρ c (Proc.devRef .tc b) := by
  unfold W18; exact Pipeline.withArrays_of_ne spec5 c _ _ b hb
/-- An input window's array is as entered. -/
theorem W18_in (c : Dev nD) (w : Fin cfg5.W) (hin : (cfg5.win w).isOut = false) :
    W18 m ρ c (Proc.devRef .tc (Pipeline.arrRef spec5 w)) = W17 m ρ c (Proc.devRef .tc (Pipeline.arrRef spec5 w)) :=
  (W18_arr m ρ c w).trans (((dat5 (V17 m ρ) c).arrAt_in w hin _).trans (A_eq5 (V17 m ρ) c w))
/-- Region 5's exit contents at the TensorCore's references. -/
abbrev V18 : (c : Dev nD) → (b : Ref sig .tc) → Buf (Elt F) ((c : Thread nD τ).loc b) := fun c b => W18 m ρ c b
/-- At region 5's exit each of its arrays holds what the pipeline leaves (`hF5`) and every other buffer what it held
    at entry (`hrest5`). -/
theorem hF5 (c : Dev nD) (w : Fin cfg5.W) : (dat5 (V17 m ρ) c).arrAt w cfg5.N = V18 m ρ c (Pipeline.arrRef spec5 w) :=
  (W18_arr m ρ c w).symm
theorem hrest5 (c : Dev nD) : ∀ b, b ∉ Finset.univ.image (Pipeline.arrRef spec5) → V18 m ρ c b = V17 m ρ c b :=
  fun b hb => W18_of_ne m ρ c b fun w e => hb (Finset.mem_image.mpr ⟨w, Finset.mem_univ _, e⟩)
/-- After `hostOps6`. -/
abbrev W19 : Dev nD → Valuation τ sig (Elt F) := fun c => StableHlo.after hostOps6 (W18 m ρ c)
/-- A buffer `hostOps6` does not write is as before it. -/
theorem W19_of (c : Dev nD) (r : Ref sig .tc) (h : r ∉ hostOps6_W) : W19 m ρ c (Proc.devRef .tc r) = W18 m ρ c (Proc.devRef .tc r) :=
  StableHlo.after_of_writes_sub hostOps6 _ hostOps6_writes h
/-- The contents region 6 is entered at, read at the TensorCore's references (what its proof data take). -/
abbrev V19 : (c : Dev nD) → (b : Ref sig .tc) → Buf (Elt F) ((c : Thread nD τ).loc b) := fun c b => W19 m ρ c b
/-- At region 6's exit: its arrays at what the pipeline leaves, every other buffer as entered. -/
def W20 (c : Dev nD) : Valuation τ sig (Elt F) :=
  Pipeline.withArrays spec6 c (W19 m ρ c) fun w => (dat6 (V19 m ρ) c).arrAt w cfg6.N
theorem W20_arr (c : Dev nD) (w : Fin cfg6.W) :
    W20 m ρ c (Proc.devRef .tc (Pipeline.arrRef spec6 w)) = (dat6 (V19 m ρ) c).arrAt w cfg6.N := by
  unfold W20; exact Pipeline.withArrays_arr spec6 launch6.win.arr_inj c _ _ w
theorem W20_of_ne (c : Dev nD) (b : Ref sig .tc) (hb : ∀ w, Pipeline.arrRef spec6 w ≠ b) :
    W20 m ρ c (Proc.devRef .tc b) = W19 m ρ c (Proc.devRef .tc b) := by
  unfold W20; exact Pipeline.withArrays_of_ne spec6 c _ _ b hb
/-- An input window's array is as entered. -/
theorem W20_in (c : Dev nD) (w : Fin cfg6.W) (hin : (cfg6.win w).isOut = false) :
    W20 m ρ c (Proc.devRef .tc (Pipeline.arrRef spec6 w)) = W19 m ρ c (Proc.devRef .tc (Pipeline.arrRef spec6 w)) :=
  (W20_arr m ρ c w).trans (((dat6 (V19 m ρ) c).arrAt_in w hin _).trans (A_eq6 (V19 m ρ) c w))
/-- Region 6's exit contents at the TensorCore's references. -/
abbrev V20 : (c : Dev nD) → (b : Ref sig .tc) → Buf (Elt F) ((c : Thread nD τ).loc b) := fun c b => W20 m ρ c b
/-- At region 6's exit each of its arrays holds what the pipeline leaves (`hF6`) and every other buffer what it held
    at entry (`hrest6`). -/
theorem hF6 (c : Dev nD) (w : Fin cfg6.W) : (dat6 (V19 m ρ) c).arrAt w cfg6.N = V20 m ρ c (Pipeline.arrRef spec6 w) :=
  (W20_arr m ρ c w).symm
theorem hrest6 (c : Dev nD) : ∀ b, b ∉ Finset.univ.image (Pipeline.arrRef spec6) → V20 m ρ c b = V19 m ρ c b :=
  fun b hb => W20_of_ne m ρ c b fun w e => hb (Finset.mem_image.mpr ⟨w, Finset.mem_univ _, e⟩)
/-- After `hostOps7`. -/
abbrev W21 : Dev nD → Valuation τ sig (Elt F) := fun c => StableHlo.after hostOps7 (W20 m ρ c)
/-- A buffer `hostOps7` does not write is as before it. -/
theorem W21_of (c : Dev nD) (r : Ref sig .tc) (h : r ∉ hostOps7_W) : W21 m ρ c (Proc.devRef .tc r) = W20 m ρ c (Proc.devRef .tc r) :=
  StableHlo.after_of_writes_sub hostOps7 _ hostOps7_writes h
/-- After `hostOps7_1`. -/
abbrev W22 : Dev nD → Valuation τ sig (Elt F) := fun c => StableHlo.after hostOps7_1 (W21 m ρ c)
/-- A buffer `hostOps7_1` does not write is as before it. -/
theorem W22_of (c : Dev nD) (r : Ref sig .tc) (h : r ∉ hostOps7_1_W) : W22 m ρ c (Proc.devRef .tc r) = W21 m ρ c (Proc.devRef .tc r) :=
  StableHlo.after_of_writes_sub hostOps7_1 _ hostOps7_1_writes h
/-- After `hostOps7_2`. -/
abbrev W23 : Dev nD → Valuation τ sig (Elt F) := fun c => StableHlo.after hostOps7_2 (W22 m ρ c)
/-- A buffer `hostOps7_2` does not write is as before it. -/
theorem W23_of (c : Dev nD) (r : Ref sig .tc) (h : r ∉ hostOps7_2_W) : W23 m ρ c (Proc.devRef .tc r) = W22 m ρ c (Proc.devRef .tc r) :=
  StableHlo.after_of_writes_sub hostOps7_2 _ hostOps7_2_writes h
/-- The contents region 7 is entered at, read at the TensorCore's references (what its proof data take). -/
abbrev V23 : (c : Dev nD) → (b : Ref sig .tc) → Buf (Elt F) ((c : Thread nD τ).loc b) := fun c b => W23 m ρ c b
/-- At region 7's exit: its arrays at what the pipeline leaves, every other buffer as entered. -/
def W24 (c : Dev nD) : Valuation τ sig (Elt F) :=
  Pipeline.withArrays spec7 c (W23 m ρ c) fun w => (dat7 (V23 m ρ) c).arrAt w cfg7.N
theorem W24_arr (c : Dev nD) (w : Fin cfg7.W) :
    W24 m ρ c (Proc.devRef .tc (Pipeline.arrRef spec7 w)) = (dat7 (V23 m ρ) c).arrAt w cfg7.N := by
  unfold W24; exact Pipeline.withArrays_arr spec7 launch7.win.arr_inj c _ _ w
theorem W24_of_ne (c : Dev nD) (b : Ref sig .tc) (hb : ∀ w, Pipeline.arrRef spec7 w ≠ b) :
    W24 m ρ c (Proc.devRef .tc b) = W23 m ρ c (Proc.devRef .tc b) := by
  unfold W24; exact Pipeline.withArrays_of_ne spec7 c _ _ b hb
/-- An input window's array is as entered. -/
theorem W24_in (c : Dev nD) (w : Fin cfg7.W) (hin : (cfg7.win w).isOut = false) :
    W24 m ρ c (Proc.devRef .tc (Pipeline.arrRef spec7 w)) = W23 m ρ c (Proc.devRef .tc (Pipeline.arrRef spec7 w)) :=
  (W24_arr m ρ c w).trans (((dat7 (V23 m ρ) c).arrAt_in w hin _).trans (A_eq7 (V23 m ρ) c w))
/-- Region 7's exit contents at the TensorCore's references. -/
abbrev V24 : (c : Dev nD) → (b : Ref sig .tc) → Buf (Elt F) ((c : Thread nD τ).loc b) := fun c b => W24 m ρ c b
/-- At region 7's exit each of its arrays holds what the pipeline leaves (`hF7`) and every other buffer what it held
    at entry (`hrest7`). -/
theorem hF7 (c : Dev nD) (w : Fin cfg7.W) : (dat7 (V23 m ρ) c).arrAt w cfg7.N = V24 m ρ c (Pipeline.arrRef spec7 w) :=
  (W24_arr m ρ c w).symm
theorem hrest7 (c : Dev nD) : ∀ b, b ∉ Finset.univ.image (Pipeline.arrRef spec7) → V24 m ρ c b = V23 m ρ c b :=
  fun b hb => W24_of_ne m ρ c b fun w e => hb (Finset.mem_image.mpr ⟨w, Finset.mem_univ _, e⟩)
/-- After `hostOps8`. -/
abbrev W25 : Dev nD → Valuation τ sig (Elt F) := fun c => StableHlo.after hostOps8 (W24 m ρ c)
/-- A buffer `hostOps8` does not write is as before it. -/
theorem W25_of (c : Dev nD) (r : Ref sig .tc) (h : r ∉ hostOps8_W) : W25 m ρ c (Proc.devRef .tc r) = W24 m ρ c (Proc.devRef .tc r) :=
  StableHlo.after_of_writes_sub hostOps8 _ hostOps8_writes h
/-- The contents region 8 is entered at, read at the TensorCore's references (what its proof data take). -/
abbrev V25 : (c : Dev nD) → (b : Ref sig .tc) → Buf (Elt F) ((c : Thread nD τ).loc b) := fun c b => W25 m ρ c b
/-- At region 8's exit: its arrays at what the pipeline leaves, every other buffer as entered. -/
def W26 (c : Dev nD) : Valuation τ sig (Elt F) :=
  Pipeline.withArrays spec8 c (W25 m ρ c) fun w => (dat8 (V25 m ρ) c).arrAt w cfg8.N
theorem W26_arr (c : Dev nD) (w : Fin cfg8.W) :
    W26 m ρ c (Proc.devRef .tc (Pipeline.arrRef spec8 w)) = (dat8 (V25 m ρ) c).arrAt w cfg8.N := by
  unfold W26; exact Pipeline.withArrays_arr spec8 launch8.win.arr_inj c _ _ w
theorem W26_of_ne (c : Dev nD) (b : Ref sig .tc) (hb : ∀ w, Pipeline.arrRef spec8 w ≠ b) :
    W26 m ρ c (Proc.devRef .tc b) = W25 m ρ c (Proc.devRef .tc b) := by
  unfold W26; exact Pipeline.withArrays_of_ne spec8 c _ _ b hb
/-- An input window's array is as entered. -/
theorem W26_in (c : Dev nD) (w : Fin cfg8.W) (hin : (cfg8.win w).isOut = false) :
    W26 m ρ c (Proc.devRef .tc (Pipeline.arrRef spec8 w)) = W25 m ρ c (Proc.devRef .tc (Pipeline.arrRef spec8 w)) :=
  (W26_arr m ρ c w).trans (((dat8 (V25 m ρ) c).arrAt_in w hin _).trans (A_eq8 (V25 m ρ) c w))
/-- Region 8's exit contents at the TensorCore's references. -/
abbrev V26 : (c : Dev nD) → (b : Ref sig .tc) → Buf (Elt F) ((c : Thread nD τ).loc b) := fun c b => W26 m ρ c b
/-- At region 8's exit each of its arrays holds what the pipeline leaves (`hF8`) and every other buffer what it held
    at entry (`hrest8`). -/
theorem hF8 (c : Dev nD) (w : Fin cfg8.W) : (dat8 (V25 m ρ) c).arrAt w cfg8.N = V26 m ρ c (Pipeline.arrRef spec8 w) :=
  (W26_arr m ρ c w).symm
theorem hrest8 (c : Dev nD) : ∀ b, b ∉ Finset.univ.image (Pipeline.arrRef spec8) → V26 m ρ c b = V25 m ρ c b :=
  fun b hb => W26_of_ne m ρ c b fun w e => hb (Finset.mem_image.mpr ⟨w, Finset.mem_univ _, e⟩)

/-! ## The arguments end as launched: no host operation writes one, and a region reads one through an input window or
    does not touch it -/
theorem W26_main_arg0 (c : Dev nD) : W26 m ρ c (Proc.devRef .tc main_arg0) = m ((c : Thread nD τ).loc main_arg0) :=
  (W26_of_ne m ρ c main_arg0 (by decide)).trans <| (W25_of m ρ c main_arg0 (by decide)).trans <| (W24_of_ne m ρ c main_arg0 (by decide)).trans <| (W23_of m ρ c main_arg0 (by decide)).trans <| (W22_of m ρ c main_arg0 (by decide)).trans <| (W21_of m ρ c main_arg0 (by decide)).trans <| (W20_of_ne m ρ c main_arg0 (by decide)).trans <| (W19_of m ρ c main_arg0 (by decide)).trans <| (W18_of_ne m ρ c main_arg0 (by decide)).trans <| (W17_of m ρ c main_arg0 (by decide)).trans <| (W16_of m ρ c main_arg0 (by decide)).trans <| (W15_of m ρ c main_arg0 (by decide)).trans <| (W14_of_ne m ρ c main_arg0 (by decide)).trans <| (W13_of m ρ c main_arg0 (by decide)).trans <| (W12_of_ne m ρ c main_arg0 (by decide)).trans <| (W11_of m ρ c main_arg0 (by decide)).trans <| (W10_of m ρ c main_arg0 (by decide)).trans <| (W9_of m ρ c main_arg0 (by decide)).trans <| (W8_of_ne m ρ c main_arg0 (by decide)).trans <| (W7_of m ρ c main_arg0 (by decide)).trans <| (W6_of_ne m ρ c main_arg0 (by decide)).trans <| (W5_of m ρ c main_arg0 (by decide)).trans <| (W4_of m ρ c main_arg0 (by decide)).trans <| (W3_of m ρ c main_arg0 (by decide)).trans <| (W2_in m ρ c 0 rfl).trans <| (W1_of m ρ c main_arg0 (by decide)).trans <| rfl
theorem W26_main_arg1 (c : Dev nD) : W26 m ρ c (Proc.devRef .tc main_arg1) = m ((c : Thread nD τ).loc main_arg1) :=
  (W26_of_ne m ρ c main_arg1 (by decide)).trans <| (W25_of m ρ c main_arg1 (by decide)).trans <| (W24_of_ne m ρ c main_arg1 (by decide)).trans <| (W23_of m ρ c main_arg1 (by decide)).trans <| (W22_of m ρ c main_arg1 (by decide)).trans <| (W21_of m ρ c main_arg1 (by decide)).trans <| (W20_of_ne m ρ c main_arg1 (by decide)).trans <| (W19_of m ρ c main_arg1 (by decide)).trans <| (W18_of_ne m ρ c main_arg1 (by decide)).trans <| (W17_of m ρ c main_arg1 (by decide)).trans <| (W16_of m ρ c main_arg1 (by decide)).trans <| (W15_of m ρ c main_arg1 (by decide)).trans <| (W14_of_ne m ρ c main_arg1 (by decide)).trans <| (W13_of m ρ c main_arg1 (by decide)).trans <| (W12_of_ne m ρ c main_arg1 (by decide)).trans <| (W11_of m ρ c main_arg1 (by decide)).trans <| (W10_of m ρ c main_arg1 (by decide)).trans <| (W9_of m ρ c main_arg1 (by decide)).trans <| (W8_of_ne m ρ c main_arg1 (by decide)).trans <| (W7_of m ρ c main_arg1 (by decide)).trans <| (W6_of_ne m ρ c main_arg1 (by decide)).trans <| (W5_of m ρ c main_arg1 (by decide)).trans <| (W4_of m ρ c main_arg1 (by decide)).trans <| (W3_of m ρ c main_arg1 (by decide)).trans <| (W2_of_ne m ρ c main_arg1 (by decide)).trans <| (W1_of m ρ c main_arg1 (by decide)).trans <| rfl
theorem W26_main_arg2 (c : Dev nD) : W26 m ρ c (Proc.devRef .tc main_arg2) = m ((c : Thread nD τ).loc main_arg2) :=
  (W26_of_ne m ρ c main_arg2 (by decide)).trans <| (W25_of m ρ c main_arg2 (by decide)).trans <| (W24_of_ne m ρ c main_arg2 (by decide)).trans <| (W23_of m ρ c main_arg2 (by decide)).trans <| (W22_of m ρ c main_arg2 (by decide)).trans <| (W21_of m ρ c main_arg2 (by decide)).trans <| (W20_of_ne m ρ c main_arg2 (by decide)).trans <| (W19_of m ρ c main_arg2 (by decide)).trans <| (W18_of_ne m ρ c main_arg2 (by decide)).trans <| (W17_of m ρ c main_arg2 (by decide)).trans <| (W16_of m ρ c main_arg2 (by decide)).trans <| (W15_of m ρ c main_arg2 (by decide)).trans <| (W14_of_ne m ρ c main_arg2 (by decide)).trans <| (W13_of m ρ c main_arg2 (by decide)).trans <| (W12_of_ne m ρ c main_arg2 (by decide)).trans <| (W11_of m ρ c main_arg2 (by decide)).trans <| (W10_of m ρ c main_arg2 (by decide)).trans <| (W9_of m ρ c main_arg2 (by decide)).trans <| (W8_of_ne m ρ c main_arg2 (by decide)).trans <| (W7_of m ρ c main_arg2 (by decide)).trans <| (W6_of_ne m ρ c main_arg2 (by decide)).trans <| (W5_of m ρ c main_arg2 (by decide)).trans <| (W4_of m ρ c main_arg2 (by decide)).trans <| (W3_of m ρ c main_arg2 (by decide)).trans <| (W2_in m ρ c 1 rfl).trans <| (W1_of m ρ c main_arg2 (by decide)).trans <| rfl
theorem W26_main_arg3 (c : Dev nD) : W26 m ρ c (Proc.devRef .tc main_arg3) = m ((c : Thread nD τ).loc main_arg3) :=
  (W26_of_ne m ρ c main_arg3 (by decide)).trans <| (W25_of m ρ c main_arg3 (by decide)).trans <| (W24_of_ne m ρ c main_arg3 (by decide)).trans <| (W23_of m ρ c main_arg3 (by decide)).trans <| (W22_of m ρ c main_arg3 (by decide)).trans <| (W21_of m ρ c main_arg3 (by decide)).trans <| (W20_of_ne m ρ c main_arg3 (by decide)).trans <| (W19_of m ρ c main_arg3 (by decide)).trans <| (W18_of_ne m ρ c main_arg3 (by decide)).trans <| (W17_of m ρ c main_arg3 (by decide)).trans <| (W16_of m ρ c main_arg3 (by decide)).trans <| (W15_of m ρ c main_arg3 (by decide)).trans <| (W14_of_ne m ρ c main_arg3 (by decide)).trans <| (W13_of m ρ c main_arg3 (by decide)).trans <| (W12_of_ne m ρ c main_arg3 (by decide)).trans <| (W11_of m ρ c main_arg3 (by decide)).trans <| (W10_of m ρ c main_arg3 (by decide)).trans <| (W9_of m ρ c main_arg3 (by decide)).trans <| (W8_of_ne m ρ c main_arg3 (by decide)).trans <| (W7_of m ρ c main_arg3 (by decide)).trans <| (W6_of_ne m ρ c main_arg3 (by decide)).trans <| (W5_of m ρ c main_arg3 (by decide)).trans <| (W4_of m ρ c main_arg3 (by decide)).trans <| (W3_of m ρ c main_arg3 (by decide)).trans <| (W2_of_ne m ρ c main_arg3 (by decide)).trans <| (W1_of m ρ c main_arg3 (by decide)).trans <| rfl
theorem W26_main_arg4 (c : Dev nD) : W26 m ρ c (Proc.devRef .tc main_arg4) = m ((c : Thread nD τ).loc main_arg4) :=
  (W26_of_ne m ρ c main_arg4 (by decide)).trans <| (W25_of m ρ c main_arg4 (by decide)).trans <| (W24_of_ne m ρ c main_arg4 (by decide)).trans <| (W23_of m ρ c main_arg4 (by decide)).trans <| (W22_of m ρ c main_arg4 (by decide)).trans <| (W21_of m ρ c main_arg4 (by decide)).trans <| (W20_of_ne m ρ c main_arg4 (by decide)).trans <| (W19_of m ρ c main_arg4 (by decide)).trans <| (W18_of_ne m ρ c main_arg4 (by decide)).trans <| (W17_of m ρ c main_arg4 (by decide)).trans <| (W16_of m ρ c main_arg4 (by decide)).trans <| (W15_of m ρ c main_arg4 (by decide)).trans <| (W14_of_ne m ρ c main_arg4 (by decide)).trans <| (W13_of m ρ c main_arg4 (by decide)).trans <| (W12_of_ne m ρ c main_arg4 (by decide)).trans <| (W11_of m ρ c main_arg4 (by decide)).trans <| (W10_of m ρ c main_arg4 (by decide)).trans <| (W9_of m ρ c main_arg4 (by decide)).trans <| (W8_of_ne m ρ c main_arg4 (by decide)).trans <| (W7_of m ρ c main_arg4 (by decide)).trans <| (W6_of_ne m ρ c main_arg4 (by decide)).trans <| (W5_of m ρ c main_arg4 (by decide)).trans <| (W4_of m ρ c main_arg4 (by decide)).trans <| (W3_of m ρ c main_arg4 (by decide)).trans <| (W2_of_ne m ρ c main_arg4 (by decide)).trans <| (W1_of m ρ c main_arg4 (by decide)).trans <| rfl
theorem W26_main_arg5 (c : Dev nD) : W26 m ρ c (Proc.devRef .tc main_arg5) = m ((c : Thread nD τ).loc main_arg5) :=
  (W26_of_ne m ρ c main_arg5 (by decide)).trans <| (W25_of m ρ c main_arg5 (by decide)).trans <| (W24_of_ne m ρ c main_arg5 (by decide)).trans <| (W23_of m ρ c main_arg5 (by decide)).trans <| (W22_of m ρ c main_arg5 (by decide)).trans <| (W21_of m ρ c main_arg5 (by decide)).trans <| (W20_of_ne m ρ c main_arg5 (by decide)).trans <| (W19_of m ρ c main_arg5 (by decide)).trans <| (W18_of_ne m ρ c main_arg5 (by decide)).trans <| (W17_of m ρ c main_arg5 (by decide)).trans <| (W16_of m ρ c main_arg5 (by decide)).trans <| (W15_of m ρ c main_arg5 (by decide)).trans <| (W14_of_ne m ρ c main_arg5 (by decide)).trans <| (W13_of m ρ c main_arg5 (by decide)).trans <| (W12_of_ne m ρ c main_arg5 (by decide)).trans <| (W11_of m ρ c main_arg5 (by decide)).trans <| (W10_of m ρ c main_arg5 (by decide)).trans <| (W9_of m ρ c main_arg5 (by decide)).trans <| (W8_of_ne m ρ c main_arg5 (by decide)).trans <| (W7_of m ρ c main_arg5 (by decide)).trans <| (W6_of_ne m ρ c main_arg5 (by decide)).trans <| (W5_of m ρ c main_arg5 (by decide)).trans <| (W4_of m ρ c main_arg5 (by decide)).trans <| (W3_of m ρ c main_arg5 (by decide)).trans <| (W2_of_ne m ρ c main_arg5 (by decide)).trans <| (W1_of m ρ c main_arg5 (by decide)).trans <| rfl
theorem W26_main_arg6 (c : Dev nD) : W26 m ρ c (Proc.devRef .tc main_arg6) = m ((c : Thread nD τ).loc main_arg6) :=
  (W26_of_ne m ρ c main_arg6 (by decide)).trans <| (W25_of m ρ c main_arg6 (by decide)).trans <| (W24_of_ne m ρ c main_arg6 (by decide)).trans <| (W23_of m ρ c main_arg6 (by decide)).trans <| (W22_of m ρ c main_arg6 (by decide)).trans <| (W21_of m ρ c main_arg6 (by decide)).trans <| (W20_of_ne m ρ c main_arg6 (by decide)).trans <| (W19_of m ρ c main_arg6 (by decide)).trans <| (W18_of_ne m ρ c main_arg6 (by decide)).trans <| (W17_of m ρ c main_arg6 (by decide)).trans <| (W16_of m ρ c main_arg6 (by decide)).trans <| (W15_of m ρ c main_arg6 (by decide)).trans <| (W14_of_ne m ρ c main_arg6 (by decide)).trans <| (W13_of m ρ c main_arg6 (by decide)).trans <| (W12_of_ne m ρ c main_arg6 (by decide)).trans <| (W11_of m ρ c main_arg6 (by decide)).trans <| (W10_of m ρ c main_arg6 (by decide)).trans <| (W9_of m ρ c main_arg6 (by decide)).trans <| (W8_of_ne m ρ c main_arg6 (by decide)).trans <| (W7_of m ρ c main_arg6 (by decide)).trans <| (W6_of_ne m ρ c main_arg6 (by decide)).trans <| (W5_of m ρ c main_arg6 (by decide)).trans <| (W4_of m ρ c main_arg6 (by decide)).trans <| (W3_of m ρ c main_arg6 (by decide)).trans <| (W2_of_ne m ρ c main_arg6 (by decide)).trans <| (W1_of m ρ c main_arg6 (by decide)).trans <| rfl
theorem W26_main_arg7 (c : Dev nD) : W26 m ρ c (Proc.devRef .tc main_arg7) = m ((c : Thread nD τ).loc main_arg7) :=
  (W26_of_ne m ρ c main_arg7 (by decide)).trans <| (W25_of m ρ c main_arg7 (by decide)).trans <| (W24_of_ne m ρ c main_arg7 (by decide)).trans <| (W23_of m ρ c main_arg7 (by decide)).trans <| (W22_of m ρ c main_arg7 (by decide)).trans <| (W21_of m ρ c main_arg7 (by decide)).trans <| (W20_of_ne m ρ c main_arg7 (by decide)).trans <| (W19_of m ρ c main_arg7 (by decide)).trans <| (W18_of_ne m ρ c main_arg7 (by decide)).trans <| (W17_of m ρ c main_arg7 (by decide)).trans <| (W16_of m ρ c main_arg7 (by decide)).trans <| (W15_of m ρ c main_arg7 (by decide)).trans <| (W14_of_ne m ρ c main_arg7 (by decide)).trans <| (W13_of m ρ c main_arg7 (by decide)).trans <| (W12_of_ne m ρ c main_arg7 (by decide)).trans <| (W11_of m ρ c main_arg7 (by decide)).trans <| (W10_of m ρ c main_arg7 (by decide)).trans <| (W9_of m ρ c main_arg7 (by decide)).trans <| (W8_of_ne m ρ c main_arg7 (by decide)).trans <| (W7_of m ρ c main_arg7 (by decide)).trans <| (W6_of_ne m ρ c main_arg7 (by decide)).trans <| (W5_of m ρ c main_arg7 (by decide)).trans <| (W4_of m ρ c main_arg7 (by decide)).trans <| (W3_of m ρ c main_arg7 (by decide)).trans <| (W2_of_ne m ρ c main_arg7 (by decide)).trans <| (W1_of m ρ c main_arg7 (by decide)).trans <| rfl
theorem W26_main_arg8 (c : Dev nD) : W26 m ρ c (Proc.devRef .tc main_arg8) = m ((c : Thread nD τ).loc main_arg8) :=
  (W26_in m ρ c 1 rfl).trans <| (W25_of m ρ c main_arg8 (by decide)).trans <| (W24_of_ne m ρ c main_arg8 (by decide)).trans <| (W23_of m ρ c main_arg8 (by decide)).trans <| (W22_of m ρ c main_arg8 (by decide)).trans <| (W21_of m ρ c main_arg8 (by decide)).trans <| (W20_of_ne m ρ c main_arg8 (by decide)).trans <| (W19_of m ρ c main_arg8 (by decide)).trans <| (W18_of_ne m ρ c main_arg8 (by decide)).trans <| (W17_of m ρ c main_arg8 (by decide)).trans <| (W16_of m ρ c main_arg8 (by decide)).trans <| (W15_of m ρ c main_arg8 (by decide)).trans <| (W14_of_ne m ρ c main_arg8 (by decide)).trans <| (W13_of m ρ c main_arg8 (by decide)).trans <| (W12_of_ne m ρ c main_arg8 (by decide)).trans <| (W11_of m ρ c main_arg8 (by decide)).trans <| (W10_of m ρ c main_arg8 (by decide)).trans <| (W9_of m ρ c main_arg8 (by decide)).trans <| (W8_of_ne m ρ c main_arg8 (by decide)).trans <| (W7_of m ρ c main_arg8 (by decide)).trans <| (W6_of_ne m ρ c main_arg8 (by decide)).trans <| (W5_of m ρ c main_arg8 (by decide)).trans <| (W4_of m ρ c main_arg8 (by decide)).trans <| (W3_of m ρ c main_arg8 (by decide)).trans <| (W2_of_ne m ρ c main_arg8 (by decide)).trans <| (W1_of m ρ c main_arg8 (by decide)).trans <| rfl
theorem W26_main_arg9 (c : Dev nD) : W26 m ρ c (Proc.devRef .tc main_arg9) = m ((c : Thread nD τ).loc main_arg9) :=
  (W26_of_ne m ρ c main_arg9 (by decide)).trans <| (W25_of m ρ c main_arg9 (by decide)).trans <| (W24_of_ne m ρ c main_arg9 (by decide)).trans <| (W23_of m ρ c main_arg9 (by decide)).trans <| (W22_of m ρ c main_arg9 (by decide)).trans <| (W21_of m ρ c main_arg9 (by decide)).trans <| (W20_of_ne m ρ c main_arg9 (by decide)).trans <| (W19_of m ρ c main_arg9 (by decide)).trans <| (W18_of_ne m ρ c main_arg9 (by decide)).trans <| (W17_of m ρ c main_arg9 (by decide)).trans <| (W16_of m ρ c main_arg9 (by decide)).trans <| (W15_of m ρ c main_arg9 (by decide)).trans <| (W14_of_ne m ρ c main_arg9 (by decide)).trans <| (W13_of m ρ c main_arg9 (by decide)).trans <| (W12_of_ne m ρ c main_arg9 (by decide)).trans <| (W11_of m ρ c main_arg9 (by decide)).trans <| (W10_of m ρ c main_arg9 (by decide)).trans <| (W9_of m ρ c main_arg9 (by decide)).trans <| (W8_of_ne m ρ c main_arg9 (by decide)).trans <| (W7_of m ρ c main_arg9 (by decide)).trans <| (W6_of_ne m ρ c main_arg9 (by decide)).trans <| (W5_of m ρ c main_arg9 (by decide)).trans <| (W4_of m ρ c main_arg9 (by decide)).trans <| (W3_of m ρ c main_arg9 (by decide)).trans <| (W2_of_ne m ρ c main_arg9 (by decide)).trans <| (W1_of m ρ c main_arg9 (by decide)).trans <| rfl

end Cert.Kernel.Hand

end
-- ==== Proof.KFrame.RunBase.lean ====
import proofs.«131845_j5600637354059_1_alg».proof.Proof.KFrame.Chain
import Idealize.ShloMosaic.Lib.Pipeline.RegionsLoop
import Idealize.ShloMosaic.Lib.Pipeline.FrameSuffix
import Idealize.ShloMosaic.Lib.Tactic

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data family and the thread state the segments of @main are stated over -/

/-- Every pipeline's proof data, each at its region's entry contents — a literal `match`, so that the pinned
    configuration at a numeral reduces to the printed one. -/
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V7 m ρ) c
  | ⟨3, _⟩ => fun c => dat3 (V11 m ρ) c
  | ⟨4, _⟩ => fun c => dat4 (V13 m ρ) c
  | ⟨5, _⟩ => fun c => dat5 (V17 m ρ) c
  | ⟨6, _⟩ => fun c => dat6 (V19 m ρ) c
  | ⟨7, _⟩ => fun c => dat7 (V23 m ρ) c
  | ⟨8, _⟩ => fun c => dat8 (V25 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents `W26`, the generator
    register at some state. -/
abbrev Tₙ (c : Dev nD) : sProp 𝕄 := iprop(StableHlo.held (c : Thread nD τ) (Pipeline.ucRefs τ sig) (W26 m ρ c) ∗ ∃ r, prngReg c r)

end Cert.Kernel.Hand

end
-- ==== Proof.KFrame.Body0.lean ====
import proofs.«131845_j5600637354059_1_alg».proof.Proof.KFrame.Data0
import proofs.«131845_j5600637354059_1_alg».proof.Proof.Gen.Kernel.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 0 (`cc0__matmul_kernel`): the body's triple and the body obligation, at the entry contents `V` -/

/-! ## An input window's current staging buffer holds its block at every point -/

/-- Input window 0: fetched at this point or not (then its block index has not moved since the fetch), the current staging
    buffer holds the block of its array, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1: fetched at this point or not (then its block index has not moved since the fetch), the current staging
    buffer holds the block of its array, for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's triple -/

set_option maxHeartbeats 1000000 in
/-- The kernel body on whole staging buffers, the inputs' at contents `x_j` and the output's at anything, runs to the
    continuation holding the inputs' as they were and the output's at `out0_2` of the inputs': the loads read the
    whole buffers, the one store overwrites the whole output buffer. -/
theorem sound_kernel0 (c : Dev nD) (E : Set ℕ) (i : grid0.Coords) (arg1 : Memref sig .tc .vmem S5000x256 .f32) (harg1 : arg1.IsWhole) (arg2 : Memref sig .tc .vmem S256x128 .f32) (harg2 : arg2.IsWhole) (arg3 : Memref sig .tc .vmem S5000x128 .f32) (harg3 : arg3.IsWhole)
    (x0 : Vec F S5000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KFrame.Reg0.lean ====
import proofs.«131845_j5600637354059_1_alg».proof.Proof.KFrame.RunBase
import proofs.«131845_j5600637354059_1_alg».proof.Proof.KFrame.Body0

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- REGION 0 over the thread state: entered from every unscoped buffer at `W1`, left at `W2`. Its arrays are split
    out of the unscoped buffers and put back at the exit contents; the generator register goes into the pipeline's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KFrame.Body1.lean ====
import proofs.«131845_j5600637354059_1_alg».proof.Proof.KFrame.Data1
import proofs.«131845_j5600637354059_1_alg».proof.Proof.Gen.Kernel.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 1 (`cc1__affine_relu_kernel`): the body's triple and the body obligation, at the entry contents `V` -/

/-! ## An input window's current staging buffer holds its block at every point -/

/-- Input window 0: fetched at this point or not (then its block index has not moved since the fetch), the current staging
    buffer holds the block of its array, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: fetched at this point or not (then its block index has not moved since the fetch), the current staging
    buffer holds the block of its array, for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: fetched at this point or not (then its block index has not moved since the fetch), the current staging
    buffer holds the block of its array, for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's triple -/

set_option maxHeartbeats 1000000 in
/-- The kernel body on whole staging buffers, the inputs' at contents `x_j` and the output's at anything, runs to the
    continuation holding the inputs' as they were and the output's at `out1_3` of the inputs': the loads read the
    whole buffers, the one store overwrites the whole output buffer. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__affine_relu_kernel i arg1 harg1 arg2 harg2 arg3 harg3 arg4 harg4) K := by
  simp only [cc1__affine_relu_kernel_eq_skeleton]; unfold cc1__affine_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KFrame.Reg1.lean ====
import proofs.«131845_j5600637354059_1_alg».proof.Proof.KFrame.RunBase
import proofs.«131845_j5600637354059_1_alg».proof.Proof.KFrame.Body1

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- REGION 1 over the thread state: entered from every unscoped buffer at `W5`, left at `W6`. Its arrays are split
    out of the unscoped buffers and put back at the exit contents; the generator register goes into the pipeline's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KFrame.Body2.lean ====
import proofs.«131845_j5600637354059_1_alg».proof.Proof.KFrame.Data2
import proofs.«131845_j5600637354059_1_alg».proof.Proof.Gen.Kernel.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 2 (`cc2__matmul_kernel`): the body's triple and the body obligation, at the entry contents `V` -/

/-! ## An input window's current staging buffer holds its block at every point -/

/-- Input window 0: fetched at this point or not (then its block index has not moved since the fetch), the current staging
    buffer holds the block of its array, for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1: fetched at this point or not (then its block index has not moved since the fetch), the current staging
    buffer holds the block of its array, for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body's triple -/

set_option maxHeartbeats 1000000 in
/-- The kernel body on whole staging buffers, the inputs' at contents `x_j` and the output's at anything, runs to the
    continuation holding the inputs' as they were and the output's at `out2_2` of the inputs': the loads read the
    whole buffers, the one store overwrites the whole output buffer. -/
theorem sound_kernel2 (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KFrame.Reg2.lean ====
import proofs.«131845_j5600637354059_1_alg».proof.Proof.KFrame.RunBase
import proofs.«131845_j5600637354059_1_alg».proof.Proof.KFrame.Body2

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- REGION 2 over the thread state: entered from every unscoped buffer at `W7`, left at `W8`. Its arrays are split
    out of the unscoped buffers and put back at the exit contents; the generator register goes into the pipeline's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KFrame.Body3.lean ====
import proofs.«131845_j5600637354059_1_alg».proof.Proof.KFrame.Data3
import proofs.«131845_j5600637354059_1_alg».proof.Proof.Gen.Kernel.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 3 (`cc3__affine_relu_kernel`): the body's triple and the body obligation, at the entry contents `V` -/

/-! ## An input window's current staging buffer holds its block at every point -/

/-- Input window 0: fetched at this point or not (then its block index has not moved since the fetch), the current staging
    buffer holds the block of its array, for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1: fetched at this point or not (then its block index has not moved since the fetch), the current staging
    buffer holds the block of its array, for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2: fetched at this point or not (then its block index has not moved since the fetch), the current staging
    buffer holds the block of its array, for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body's triple -/

set_option maxHeartbeats 1000000 in
/-- The kernel body on whole staging buffers, the inputs' at contents `x_j` and the output's at anything, runs to the
    continuation holding the inputs' as they were and the output's at `out3_3` of the inputs': the loads read the
    whole buffers, the one store overwrites the whole output buffer. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__affine_relu_kernel i arg1 harg1 arg2 harg2 arg3 harg3 arg4 harg4) K := by
  simp only [cc3__affine_relu_kernel_eq_skeleton]; unfold cc3__affine_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KFrame.Reg3.lean ====
import proofs.«131845_j5600637354059_1_alg».proof.Proof.KFrame.RunBase
import proofs.«131845_j5600637354059_1_alg».proof.Proof.KFrame.Body3

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- REGION 3 over the thread state: entered from every unscoped buffer at `W11`, left at `W12`. Its arrays are split
    out of the unscoped buffers and put back at the exit contents; the generator register goes into the pipeline's
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KFrame.Body4.lean ====
import proofs.«131845_j5600637354059_1_alg».proof.Proof.KFrame.Data4
import proofs.«131845_j5600637354059_1_alg».proof.Proof.Gen.Kernel.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 4 (`cc4__matmul_kernel`): the body's triple and the body obligation, at the entry contents `V` -/

/-! ## An input window's current staging buffer holds its block at every point -/

/-- Input window 0: fetched at this point or not (then its block index has not moved since the fetch), the current staging
    buffer holds the block of its array, for any proof data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1: fetched at this point or not (then its block index has not moved since the fetch), the current staging
    buffer holds the block of its array, for any proof data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body's triple -/

set_option maxHeartbeats 1000000 in
/-- The kernel body on whole staging buffers, the inputs' at contents `x_j` and the output's at anything, runs to the
    continuation holding the inputs' as they were and the output's at `out4_2` of the inputs': the loads read the
    whole buffers, the one store overwrites the whole output buffer. -/
theorem sound_kernel4 (c : Dev nD) (E : Set ℕ) (i : grid4.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's triple applies; the invariant and the
    core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KFrame.Reg4.lean ====
import proofs.«131845_j5600637354059_1_alg».proof.Proof.KFrame.RunBase
import proofs.«131845_j5600637354059_1_alg».proof.Proof.KFrame.Body4

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- REGION 4 over the thread state: entered from every unscoped buffer at `W13`, left at `W14`. Its arrays are split
    out of the unscoped buffers and put back at the exit contents; the generator register goes into the pipeline's
    invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V13 m ρ) c).loose
  hwaits := Pipeline.hwaits_of_owed_zero _ _ _ _ L lv 4 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec4 c (V13 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V13 m ρ c) (V14 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KFrame.Body5.lean ====
import proofs.«131845_j5600637354059_1_alg».proof.Proof.KFrame.Data5
import proofs.«131845_j5600637354059_1_alg».proof.Proof.Gen.Kernel.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 5 (`cc5__affine_relu_kernel`): the body's triple and the body obligation, at the entry contents `V` -/

/-! ## An input window's current staging buffer holds its block at every point -/

/-- Input window 0: fetched at this point or not (then its block index has not moved since the fetch), the current staging
    buffer holds the block of its array, for any proof data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1: fetched at this point or not (then its block index has not moved since the fetch), the current staging
    buffer holds the block of its array, for any proof data whose array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2: fetched at this point or not (then its block index has not moved since the fetch), the current staging
    buffer holds the block of its array, for any proof data whose array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body's triple -/

set_option maxHeartbeats 1000000 in
/-- The kernel body on whole staging buffers, the inputs' at contents `x_j` and the output's at anything, runs to the
    continuation holding the inputs' as they were and the output's at `out5_3` of the inputs': the loads read the
    whole buffers, the one store overwrites the whole output buffer. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__affine_relu_kernel i arg1 harg1 arg2 harg2 arg3 harg3 arg4 harg4) K := by
  simp only [cc5__affine_relu_kernel_eq_skeleton]; unfold cc5__affine_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the body's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KFrame.Reg5.lean ====
import proofs.«131845_j5600637354059_1_alg».proof.Proof.KFrame.RunBase
import proofs.«131845_j5600637354059_1_alg».proof.Proof.KFrame.Body5

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- REGION 5 over the thread state: entered from every unscoped buffer at `W17`, left at `W18`. Its arrays are split
    out of the unscoped buffers and put back at the exit contents; the generator register goes into the pipeline's
    invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V17 m ρ) c).loose
  hwaits := Pipeline.hwaits_of_owed_zero _ _ _ _ L lv 5 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec5 c (V17 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V17 m ρ c) (V18 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KFrame.Body6.lean ====
import proofs.«131845_j5600637354059_1_alg».proof.Proof.KFrame.Data6
import proofs.«131845_j5600637354059_1_alg».proof.Proof.Gen.Kernel.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 6 (`cc6__matmul_kernel`): the body's triple and the body obligation, at the entry contents `V` -/

/-! ## An input window's current staging buffer holds its block at every point -/

/-- Input window 0: fetched at this point or not (then its block index has not moved since the fetch), the current staging
    buffer holds the block of its array, for any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1: fetched at this point or not (then its block index has not moved since the fetch), the current staging
    buffer holds the block of its array, for any proof data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body's triple -/

set_option maxHeartbeats 1000000 in
/-- The kernel body on whole staging buffers, the inputs' at contents `x_j` and the output's at anything, runs to the
    continuation holding the inputs' as they were and the output's at `out6_2` of the inputs': the loads read the
    whole buffers, the one store overwrites the whole output buffer. -/
theorem sound_kernel6 (c : Dev nD) (E : Set ℕ) (i : grid6.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' buffers hold their blocks, so the body's triple applies; the invariant and the
    core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KFrame.Reg6.lean ====
import proofs.«131845_j5600637354059_1_alg».proof.Proof.KFrame.RunBase
import proofs.«131845_j5600637354059_1_alg».proof.Proof.KFrame.Body6

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- REGION 6 over the thread state: entered from every unscoped buffer at `W19`, left at `W20`. Its arrays are split
    out of the unscoped buffers and put back at the exit contents; the generator register goes into the pipeline's
    invariant and comes out; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V19 m ρ) c).loose
  hwaits := Pipeline.hwaits_of_owed_zero _ _ _ _ L lv 6 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec6 c (V19 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V19 m ρ c) (V20 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KFrame.Body7.lean ====
import proofs.«131845_j5600637354059_1_alg».proof.Proof.KFrame.Data7
import proofs.«131845_j5600637354059_1_alg».proof.Proof.Gen.Kernel.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 7 (`cc7__affine_relu_kernel`): the body's triple and the body obligation, at the entry contents `V` -/

/-! ## An input window's current staging buffer holds its block at every point -/

/-- Input window 0: fetched at this point or not (then its block index has not moved since the fetch), the current staging
    buffer holds the block of its array, for any proof data whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1: fetched at this point or not (then its block index has not moved since the fetch), the current staging
    buffer holds the block of its array, for any proof data whose array is `V`'s and whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2: fetched at this point or not (then its block index has not moved since the fetch), the current staging
    buffer holds the block of its array, for any proof data whose array is `V`'s and whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body's triple -/

set_option maxHeartbeats 1000000 in
/-- The kernel body on whole staging buffers, the inputs' at contents `x_j` and the output's at anything, runs to the
    continuation holding the inputs' as they were and the output's at `out7_3` of the inputs': the loads read the
    whole buffers, the one store overwrites the whole output buffer. -/
theorem sound_kernel7 (c : Dev nD) (E : Set ℕ) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__affine_relu_kernel i arg1 harg1 arg2 harg2 arg3 harg3 arg4 harg4) K := by
  simp only [cc7__affine_relu_kernel_eq_skeleton]; unfold cc7__affine_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so the body's triple applies; the invariant and the
    core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KFrame.Reg7.lean ====
import proofs.«131845_j5600637354059_1_alg».proof.Proof.KFrame.RunBase
import proofs.«131845_j5600637354059_1_alg».proof.Proof.KFrame.Body7

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- REGION 7 over the thread state: entered from every unscoped buffer at `W23`, left at `W24`. Its arrays are split
    out of the unscoped buffers and put back at the exit contents; the generator register goes into the pipeline's
    invariant and comes out; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V23 m ρ) c).loose
  hwaits := Pipeline.hwaits_of_owed_zero _ _ _ _ L lv 7 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec7 c (V23 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V23 m ρ c) (V24 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KFrame.Body8.lean ====
import proofs.«131845_j5600637354059_1_alg».proof.Proof.KFrame.Data8
import proofs.«131845_j5600637354059_1_alg».proof.Proof.Gen.Kernel.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 8 (`cc8__matmul_bias_kernel`): the body's triple and the body obligation, at the entry contents `V` -/

/-! ## An input window's current staging buffer holds its block at every point -/

/-- Input window 0: fetched at this point or not (then its block index has not moved since the fetch), the current staging
    buffer holds the block of its array, for any proof data whose array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1: fetched at this point or not (then its block index has not moved since the fetch), the current staging
    buffer holds the block of its array, for any proof data whose array is `V`'s and whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2: fetched at this point or not (then its block index has not moved since the fetch), the current staging
    buffer holds the block of its array, for any proof data whose array is `V`'s and whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body's triple -/

set_option maxHeartbeats 1000000 in
/-- The kernel body on whole staging buffers, the inputs' at contents `x_j` and the output's at anything, runs to the
    continuation holding the inputs' as they were and the output's at `out8_3` of the inputs': the loads read the
    whole buffers, the one store overwrites the whole output buffer. -/
theorem sound_kernel8 (c : Dev nD) (E : Set ℕ) (i : grid8.Coords) (arg1 : Memref sig .tc .vmem S5000x512 .f32) (harg1 : arg1.IsWhole) (arg2 : Memref sig .tc .vmem S512x40 .f32) (harg2 : arg2.IsWhole) (arg3 : Memref sig .tc .vmem S1x40 .f32) (harg3 : arg3.IsWhole) (arg4 : Memref sig .tc .vmem S5000x40 .f32) (harg4 : arg4.IsWhole)
    (x0 : Vec F S5000x512 .f32) (x1 : Vec F S512x40 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__matmul_bias_kernel i arg1 harg1 arg2 harg2 arg3 harg3 arg4 harg4) K := by
  simp only [cc8__matmul_bias_kernel_eq_skeleton]; unfold cc8__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' buffers hold their blocks, so the body's triple applies; the invariant and the
    core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.KFrame.Reg8.lean ====
import proofs.«131845_j5600637354059_1_alg».proof.Proof.KFrame.RunBase
import proofs.«131845_j5600637354059_1_alg».proof.Proof.KFrame.Body8

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- REGION 8 over the thread state: entered from every unscoped buffer at `W25`, left at `W26`. Its arrays are split
    out of the unscoped buffers and put back at the exit contents; the generator register goes into the pipeline's
    invariant and comes out; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V25 m ρ) c).loose
  hwaits := Pipeline.hwaits_of_owed_zero _ _ _ _ L lv 8 fun _ _ => rfl
  pre c := iprop(StableHlo.held (c : Thread nD τ) (Pipeline.ucRefs τ sig) (W25 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (V25 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V25 m ρ c) (V26 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.KFrame.Run.lean ====
import proofs.«131845_j5600637354059_1_alg».proof.Proof.KFrame.Reg0
import proofs.«131845_j5600637354059_1_alg».proof.Proof.KFrame.Reg1
import proofs.«131845_j5600637354059_1_alg».proof.Proof.KFrame.Reg2
import proofs.«131845_j5600637354059_1_alg».proof.Proof.KFrame.Reg3
import proofs.«131845_j5600637354059_1_alg».proof.Proof.KFrame.Reg4
import proofs.«131845_j5600637354059_1_alg».proof.Proof.KFrame.Reg5
import proofs.«131845_j5600637354059_1_alg».proof.Proof.KFrame.Reg6
import proofs.«131845_j5600637354059_1_alg».proof.Proof.KFrame.Reg7
import proofs.«131845_j5600637354059_1_alg».proof.Proof.KFrame.Reg8

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # @main as segments, and the launch -/

/-- @main's 26 segments in order: a host segment per stretch from its boundary's contents, a region per kernel call. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .host (hseg hostOps3_1 hostOps3_1_sub hostOps3_1_fresh (W9 m ρ)),
    .host (hseg hostOps3_2 hostOps3_2_sub hostOps3_2_fresh (W10 m ρ)),
    .region (reg3 m ρ),
    .host (hseg hostOps4 hostOps4_sub hostOps4_fresh (W12 m ρ)),
    .region (reg4 m ρ),
    .host (hseg hostOps5 hostOps5_sub hostOps5_fresh (W14 m ρ)),
    .host (hseg hostOps5_1 hostOps5_1_sub hostOps5_1_fresh (W15 m ρ)),
    .host (hseg hostOps5_2 hostOps5_2_sub hostOps5_2_fresh (W16 m ρ)),
    .region (reg5 m ρ),
    .host (hseg hostOps6 hostOps6_sub hostOps6_fresh (W18 m ρ)),
    .region (reg6 m ρ),
    .host (hseg hostOps7 hostOps7_sub hostOps7_fresh (W20 m ρ)),
    .host (hseg hostOps7_1 hostOps7_1_sub hostOps7_1_fresh (W21 m ρ)),
    .host (hseg hostOps7_2 hostOps7_2_sub hostOps7_2_fresh (W22 m ρ)),
    .region (reg7 m ρ),
    .host (hseg hostOps8 hostOps8_sub hostOps8_fresh (W24 m ρ)),
    .region (reg8 m ρ) ]

/-- @main is the run of the segments: it is the chain of its items, and the segments' run is the same chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of @main on the TensorCores terminates,
    nothing faulting, and in every final state each unscoped buffer holds the last boundary's contents `W26`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W26 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c => h c)

/-- THE FRAME: every weakly fair execution of @main terminates, nothing faulting, and every final state has the
    argument arrays as launched: each argument's buffer read off the last contents, which no item changed. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W26_main_arg0 m ρ c),
    (h c _ (mem_uc main_arg1 (by decide))).trans (W26_main_arg1 m ρ c),
    (h c _ (mem_uc main_arg2 (by decide))).trans (W26_main_arg2 m ρ c),
    (h c _ (mem_uc main_arg3 (by decide))).trans (W26_main_arg3 m ρ c),
    (h c _ (mem_uc main_arg4 (by decide))).trans (W26_main_arg4 m ρ c),
    (h c _ (mem_uc main_arg5 (by decide))).trans (W26_main_arg5 m ρ c),
    (h c _ (mem_uc main_arg6 (by decide))).trans (W26_main_arg6 m ρ c),
    (h c _ (mem_uc main_arg7 (by decide))).trans (W26_main_arg7 m ρ c),
    (h c _ (mem_uc main_arg8 (by decide))).trans (W26_main_arg8 m ρ c),
    (h c _ (mem_uc main_arg9 (by decide))).trans (W26_main_arg9 m ρ c)⟩) (run_all m ρ)

end Cert.Kernel.Hand

end
-- ==== Proof.KIFrame.Data0.lean ====
import proofs.«131845_j5600637354059_1_alg».proof.Proof.Gen.KernelIdeal.Launch
import proofs.«131845_j5600637354059_1_alg».proof.Proof.Gen.KernelIdeal.Skeleton
import Idealize.ShloMosaic.Lib.Pipeline.FrameBody
import Idealize.ShloMosaic.Lib.Pipeline.Frame
import Idealize.ShloMosaic.Lib.Ring

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Pipeline 0 (`cc0__matmul_kernel`) at the entry contents `V`: the windows' blocks, what the body leaves, the proof data -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each staging buffer read or written whole -/

abbrev r0_0 : Rect S5000x256 := Rect.unit (s := S5000x256) ![0, 0] S5000x256.size inb_S5000x256_S5000x256_0_0
abbrev r0_1 : Rect S256x128 := Rect.unit (s := S256x128) ![0, 0] S256x128.size inb_S256x128_S256x128_0_0
abbrev r0_2 : Rect S5000x128 := Rect.unit (s := S5000x128) ![0, 0] S5000x128.size inb_S5000x128_S5000x128_0_0

/-! ## What the body leaves in the output window's buffer -/

/-- Window 2's staging buffer after the body, from the input windows' blocks: its one store, of the whole buffer. -/
def out0_2 (x0 : Vec F S5000x256 .f32) (x1 : Vec F S256x128 .f32) : Vec F S5000x128 .f32 :=
  View.canon [⟨r0_2, k0_pay1 (View.ld x0 r0_0) (View.ld x1 r0_1)⟩]

/-- The one store is of the whole buffer, so it covers it. -/
theorem cover0_2 (p0 : Vec F S5000x128 .f32) (y : S5000x128.Idx) :
    ∃ pc ∈ ([⟨r0_2, p0⟩] : List (View.Piece (Elt F) S5000x128 .f32)), y ∈ pc.1.set :=
  View.cover_of_tiled [⟨r0_2, p0⟩] S5000x128.size (by rfl) y

/-! ## The pipeline's proof data -/

/-- The proof data of pipeline 0 on core `c`: the arrays as the region finds them (`V`); after the body at point `t`
    each input's buffer at its block and the output's at `out0_2` of the input blocks; the invariant holds the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

end Cert.KernelIdeal.Hand

end
-- ==== Proof.KIFrame.Data1.lean ====
import proofs.«131845_j5600637354059_1_alg».proof.Proof.Gen.KernelIdeal.Launch
import proofs.«131845_j5600637354059_1_alg».proof.Proof.Gen.KernelIdeal.Skeleton
import Idealize.ShloMosaic.Lib.Pipeline.FrameBody
import Idealize.ShloMosaic.Lib.Pipeline.Frame
import Idealize.ShloMosaic.Lib.Ring

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Pipeline 1 (`cc1__affine_relu_kernel`) at the entry contents `V`: the windows' blocks, what the body leaves, the proof data -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each staging buffer read or written whole -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0
abbrev r1_2 : Rect S1x128 := Rect.unit (s := S1x128) ![0, 0] S1x128.size inb_S1x128_S1x128_0_0
abbrev r1_3 : Rect S5000x128 := Rect.unit (s := S5000x128) ![0, 0] S5000x128.size inb_S5000x128_S5000x128_0_0

/-! ## What the body leaves in the output window's buffer -/

/-- Window 3's staging buffer after the body, from the input windows' blocks: its one store, of the whole buffer. -/
def out1_3 (x0 : Vec F S5000x128 .f32) (x1 : Vec F S1x128 .f32) (x2 : Vec F S1x128 .f32) : Vec F S5000x128 .f32 :=
  View.canon [⟨r1_3, k1_pay1 (View.ld x0 r1_0) (View.ld x1 r1_1) (View.ld x2 r1_2)⟩]

/-- The one store is of the whole buffer, so it covers it. -/
theorem cover1_3 (p0 : Vec F S5000x128 .f32) (y : S5000x128.Idx) :
    ∃ pc ∈ ([⟨r1_3, p0⟩] : List (View.Piece (Elt F) S5000x128 .f32)), y ∈ pc.1.set :=
  View.cover_of_tiled [⟨r1_3, p0⟩] S5000x128.size (by rfl) y

/-! ## The pipeline's proof data -/

/-- The proof data of pipeline 1 on core `c`: the arrays as the region finds them (`V`); after the body at point `t`
    each input's buffer at its block and the output's at `out1_3` of the input blocks; the invariant holds the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

end Cert.KernelIdeal.Hand

end
-- ==== Proof.KIFrame.Data2.lean ====
import proofs.«131845_j5600637354059_1_alg».proof.Proof.Gen.KernelIdeal.Launch
import proofs.«131845_j5600637354059_1_alg».proof.Proof.Gen.KernelIdeal.Skeleton
import Idealize.ShloMosaic.Lib.Pipeline.FrameBody
import Idealize.ShloMosaic.Lib.Pipeline.Frame
import Idealize.ShloMosaic.Lib.Ring

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Pipeline 2 (`cc2__matmul_kernel`) at the entry contents `V`: the windows' blocks, what the body leaves, the proof data -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each staging buffer read or written whole -/

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S5000x128 := Rect.unit (s := S5000x128) ![0, 0] S5000x128.size inb_S5000x128_S5000x128_0_0

/-! ## What the body leaves in the output window's buffer -/

/-- Window 2's staging buffer after the body, from the input windows' blocks: its one store, of the whole buffer. -/
def out2_2 (x0 : Vec F S5000x128 .f32) (x1 : Vec F S128x128 .f32) : Vec F S5000x128 .f32 :=
  View.canon [⟨r2_2, k2_pay1 (View.ld x0 r2_0) (View.ld x1 r2_1)⟩]

/-- The one store is of the whole buffer, so it covers it. -/
theorem cover2_2 (p0 : Vec F S5000x128 .f32) (y : S5000x128.Idx) :
    ∃ pc ∈ ([⟨r2_2, p0⟩] : List (View.Piece (Elt F) S5000x128 .f32)), y ∈ pc.1.set :=
  View.cover_of_tiled [⟨r2_2, p0⟩] S5000x128.size (by rfl) y

/-! ## The pipeline's proof data -/

/-- The proof data of pipeline 2 on core `c`: the arrays as the region finds them (`V`); after the body at point `t`
    each input's buffer at its block and the output's at `out2_2` of the input blocks; the invariant holds the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

end Cert.KernelIdeal.Hand

end
-- ==== Proof.KIFrame.Data3.lean ====
import proofs.«131845_j5600637354059_1_alg».proof.Proof.Gen.KernelIdeal.Launch
import proofs.«131845_j5600637354059_1_alg».proof.Proof.Gen.KernelIdeal.Skeleton
import Idealize.ShloMosaic.Lib.Pipeline.FrameBody
import Idealize.ShloMosaic.Lib.Pipeline.Frame
import Idealize.ShloMosaic.Lib.Ring

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Pipeline 3 (`cc3__affine_relu_kernel`) at the entry contents `V`: the windows' blocks, what the body leaves, the proof data -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: each staging buffer read or written whole -/

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0
abbrev r3_2 : Rect S1x128 := Rect.unit (s := S1x128) ![0, 0] S1x128.size inb_S1x128_S1x128_0_0
abbrev r3_3 : Rect S5000x128 := Rect.unit (s := S5000x128) ![0, 0] S5000x128.size inb_S5000x128_S5000x128_0_0

/-! ## What the body leaves in the output window's buffer -/

/-- Window 3's staging buffer after the body, from the input windows' blocks: its one store, of the whole buffer. -/
def out3_3 (x0 : Vec F S5000x128 .f32) (x1 : Vec F S1x128 .f32) (x2 : Vec F S1x128 .f32) : Vec F S5000x128 .f32 :=
  View.canon [⟨r3_3, k3_pay1 (View.ld x0 r3_0) (View.ld x1 r3_1) (View.ld x2 r3_2)⟩]

/-- The one store is of the whole buffer, so it covers it. -/
theorem cover3_3 (p0 : Vec F S5000x128 .f32) (y : S5000x128.Idx) :
    ∃ pc ∈ ([⟨r3_3, p0⟩] : List (View.Piece (Elt F) S5000x128 .f32)), y ∈ pc.1.set :=
  View.cover_of_tiled [⟨r3_3, p0⟩] S5000x128.size (by rfl) y

/-! ## The pipeline's proof data -/

/-- The proof data of pipeline 3 on core `c`: the arrays as the region finds them (`V`); after the body at point `t`
    each input's buffer at its block and the output's at `out3_3` of the input blocks; the invariant holds the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

end Cert.KernelIdeal.Hand

end
-- ==== Proof.KIFrame.Data4.lean ====
import proofs.«131845_j5600637354059_1_alg».proof.Proof.Gen.KernelIdeal.Launch
import proofs.«131845_j5600637354059_1_alg».proof.Proof.Gen.KernelIdeal.Skeleton
import Idealize.ShloMosaic.Lib.Pipeline.FrameBody
import Idealize.ShloMosaic.Lib.Pipeline.Frame
import Idealize.ShloMosaic.Lib.Ring

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Pipeline 4 (`cc4__matmul_kernel`) at the entry contents `V`: the windows' blocks, what the body leaves, the proof data -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses: each staging buffer read or written whole -/

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S5000x128 := Rect.unit (s := S5000x128) ![0, 0] S5000x128.size inb_S5000x128_S5000x128_0_0

/-! ## What the body leaves in the output window's buffer -/

/-- Window 2's staging buffer after the body, from the input windows' blocks: its one store, of the whole buffer. -/
def out4_2 (x0 : Vec F S5000x128 .f32) (x1 : Vec F S128x128 .f32) : Vec F S5000x128 .f32 :=
  View.canon [⟨r4_2, k4_pay1 (View.ld x0 r4_0) (View.ld x1 r4_1)⟩]

/-- The one store is of the whole buffer, so it covers it. -/
theorem cover4_2 (p0 : Vec F S5000x128 .f32) (y : S5000x128.Idx) :
    ∃ pc ∈ ([⟨r4_2, p0⟩] : List (View.Piece (Elt F) S5000x128 .f32)), y ∈ pc.1.set :=
  View.cover_of_tiled [⟨r4_2, p0⟩] S5000x128.size (by rfl) y

/-! ## The pipeline's proof data -/

/-- The proof data of pipeline 4 on core `c`: the arrays as the region finds them (`V`); after the body at point `t`
    each input's buffer at its block and the output's at `out4_2` of the input blocks; the invariant holds the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

end Cert.KernelIdeal.Hand

end
-- ==== Proof.KIFrame.Data5.lean ====
import proofs.«131845_j5600637354059_1_alg».proof.Proof.Gen.KernelIdeal.Launch
import proofs.«131845_j5600637354059_1_alg».proof.Proof.Gen.KernelIdeal.Skeleton
import Idealize.ShloMosaic.Lib.Pipeline.FrameBody
import Idealize.ShloMosaic.Lib.Pipeline.Frame
import Idealize.ShloMosaic.Lib.Ring

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Pipeline 5 (`cc5__affine_relu_kernel`) at the entry contents `V`: the windows' blocks, what the body leaves, the proof data -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The body's accesses: each staging buffer read or written whole -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0
abbrev r5_2 : Rect S1x128 := Rect.unit (s := S1x128) ![0, 0] S1x128.size inb_S1x128_S1x128_0_0
abbrev r5_3 : Rect S5000x128 := Rect.unit (s := S5000x128) ![0, 0] S5000x128.size inb_S5000x128_S5000x128_0_0

/-! ## What the body leaves in the output window's buffer -/

/-- Window 3's staging buffer after the body, from the input windows' blocks: its one store, of the whole buffer. -/
def out5_3 (x0 : Vec F S5000x128 .f32) (x1 : Vec F S1x128 .f32) (x2 : Vec F S1x128 .f32) : Vec F S5000x128 .f32 :=
  View.canon [⟨r5_3, k5_pay1 (View.ld x0 r5_0) (View.ld x1 r5_1) (View.ld x2 r5_2)⟩]

/-- The one store is of the whole buffer, so it covers it. -/
theorem cover5_3 (p0 : Vec F S5000x128 .f32) (y : S5000x128.Idx) :
    ∃ pc ∈ ([⟨r5_3, p0⟩] : List (View.Piece (Elt F) S5000x128 .f32)), y ∈ pc.1.set :=
  View.cover_of_tiled [⟨r5_3, p0⟩] S5000x128.size (by rfl) y

/-! ## The pipeline's proof data -/

/-- The proof data of pipeline 5 on core `c`: the arrays as the region finds them (`V`); after the body at point `t`
    each input's buffer at its block and the output's at `out5_3` of the input blocks; the invariant holds the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

end Cert.KernelIdeal.Hand

end
-- ==== Proof.KIFrame.Data6.lean ====
import proofs.«131845_j5600637354059_1_alg».proof.Proof.Gen.KernelIdeal.Launch
import proofs.«131845_j5600637354059_1_alg».proof.Proof.Gen.KernelIdeal.Skeleton
import Idealize.ShloMosaic.Lib.Pipeline.FrameBody
import Idealize.ShloMosaic.Lib.Pipeline.Frame
import Idealize.ShloMosaic.Lib.Ring

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Pipeline 6 (`cc6__matmul_kernel`) at the entry contents `V`: the windows' blocks, what the body leaves, the proof data -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The body's accesses: each staging buffer read or written whole -/

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S5000x128 := Rect.unit (s := S5000x128) ![0, 0] S5000x128.size inb_S5000x128_S5000x128_0_0

/-! ## What the body leaves in the output window's buffer -/

/-- Window 2's staging buffer after the body, from the input windows' blocks: its one store, of the whole buffer. -/
def out6_2 (x0 : Vec F S5000x128 .f32) (x1 : Vec F S128x128 .f32) : Vec F S5000x128 .f32 :=
  View.canon [⟨r6_2, k6_pay1 (View.ld x0 r6_0) (View.ld x1 r6_1)⟩]

/-- The one store is of the whole buffer, so it covers it. -/
theorem cover6_2 (p0 : Vec F S5000x128 .f32) (y : S5000x128.Idx) :
    ∃ pc ∈ ([⟨r6_2, p0⟩] : List (View.Piece (Elt F) S5000x128 .f32)), y ∈ pc.1.set :=
  View.cover_of_tiled [⟨r6_2, p0⟩] S5000x128.size (by rfl) y

/-! ## The pipeline's proof data -/

/-- The proof data of pipeline 6 on core `c`: the arrays as the region finds them (`V`); after the body at point `t`
    each input's buffer at its block and the output's at `out6_2` of the input blocks; the invariant holds the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

end Cert.KernelIdeal.Hand

end
-- ==== Proof.KIFrame.Data7.lean ====
import proofs.«131845_j5600637354059_1_alg».proof.Proof.Gen.KernelIdeal.Launch
import proofs.«131845_j5600637354059_1_alg».proof.Proof.Gen.KernelIdeal.Skeleton
import Idealize.ShloMosaic.Lib.Pipeline.FrameBody
import Idealize.ShloMosaic.Lib.Pipeline.Frame
import Idealize.ShloMosaic.Lib.Ring

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Pipeline 7 (`cc7__affine_relu_kernel`) at the entry contents `V`: the windows' blocks, what the body leaves, the proof data -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The body's accesses: each staging buffer read or written whole -/

abbrev r7_0 : Rect S5000x128 := Rect.unit (s := S5000x128) ![0, 0] S5000x128.size inb_S5000x128_S5000x128_0_0
abbrev r7_1 : Rect S1x128 := Rect.unit (s := S1x128) ![0, 0] S1x128.size inb_S1x128_S1x128_0_0
abbrev r7_2 : Rect S1x128 := Rect.unit (s := S1x128) ![0, 0] S1x128.size inb_S1x128_S1x128_0_0
abbrev r7_3 : Rect S5000x128 := Rect.unit (s := S5000x128) ![0, 0] S5000x128.size inb_S5000x128_S5000x128_0_0

/-! ## What the body leaves in the output window's buffer -/

/-- Window 3's staging buffer after the body, from the input windows' blocks: its one store, of the whole buffer. -/
def out7_3 (x0 : Vec F S5000x128 .f32) (x1 : Vec F S1x128 .f32) (x2 : Vec F S1x128 .f32) : Vec F S5000x128 .f32 :=
  View.canon [⟨r7_3, k7_pay1 (View.ld x0 r7_0) (View.ld x1 r7_1) (View.ld x2 r7_2)⟩]

/-- The one store is of the whole buffer, so it covers it. -/
theorem cover7_3 (p0 : Vec F S5000x128 .f32) (y : S5000x128.Idx) :
    ∃ pc ∈ ([⟨r7_3, p0⟩] : List (View.Piece (Elt F) S5000x128 .f32)), y ∈ pc.1.set :=
  View.cover_of_tiled [⟨r7_3, p0⟩] S5000x128.size (by rfl) y

/-! ## The pipeline's proof data -/

/-- The proof data of pipeline 7 on core `c`: the arrays as the region finds them (`V`); after the body at point `t`
    each input's buffer at its block and the output's at `out7_3` of the input blocks; the invariant holds the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

end Cert.KernelIdeal.Hand

end
-- ==== Proof.KIFrame.Data8.lean ====
import proofs.«131845_j5600637354059_1_alg».proof.Proof.Gen.KernelIdeal.Launch
import proofs.«131845_j5600637354059_1_alg».proof.Proof.Gen.KernelIdeal.Skeleton
import Idealize.ShloMosaic.Lib.Pipeline.FrameBody
import Idealize.ShloMosaic.Lib.Pipeline.Frame
import Idealize.ShloMosaic.Lib.Ring

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Pipeline 8 (`cc8__matmul_bias_kernel`) at the entry contents `V`: the windows' blocks, what the body leaves, the proof data -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The body's accesses: each staging buffer read or written whole -/

abbrev r8_0 : Rect S5000x512 := Rect.unit (s := S5000x512) ![0, 0] S5000x512.size inb_S5000x512_S5000x512_0_0
abbrev r8_1 : Rect S512x40 := Rect.unit (s := S512x40) ![0, 0] S512x40.size inb_S512x40_S512x40_0_0
abbrev r8_2 : Rect S1x40 := Rect.unit (s := S1x40) ![0, 0] S1x40.size inb_S1x40_S1x40_0_0
abbrev r8_3 : Rect S5000x40 := Rect.unit (s := S5000x40) ![0, 0] S5000x40.size inb_S5000x40_S5000x40_0_0

/-! ## What the body leaves in the output window's buffer -/

/-- Window 3's staging buffer after the body, from the input windows' blocks: its one store, of the whole buffer. -/
def out8_3 (x0 : Vec F S5000x512 .f32) (x1 : Vec F S512x40 .f32) (x2 : Vec F S1x40 .f32) : Vec F S5000x40 .f32 :=
  View.canon [⟨r8_3, k8_pay1 (View.ld x0 r8_0) (View.ld x1 r8_1) (View.ld x2 r8_2)⟩]

/-- The one store is of the whole buffer, so it covers it. -/
theorem cover8_3 (p0 : Vec F S5000x40 .f32) (y : S5000x40.Idx) :
    ∃ pc ∈ ([⟨r8_3, p0⟩] : List (View.Piece (Elt F) S5000x40 .f32)), y ∈ pc.1.set :=
  View.cover_of_tiled [⟨r8_3, p0⟩] S5000x40.size (by rfl) y

/-! ## The pipeline's proof data -/

/-- The proof data of pipeline 8 on core `c`: the arrays as the region finds them (`V`); after the body at point `t`
    each input's buffer at its block and the output's at `out8_3` of the input blocks; the invariant holds the scoped
    rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

end Cert.KernelIdeal.Hand

end
-- ==== Proof.KIFrame.Chain.lean ====
import proofs.«131845_j5600637354059_1_alg».proof.Proof.KIFrame.Data0
import proofs.«131845_j5600637354059_1_alg».proof.Proof.KIFrame.Data1
import proofs.«131845_j5600637354059_1_alg».proof.Proof.KIFrame.Data2
import proofs.«131845_j5600637354059_1_alg».proof.Proof.KIFrame.Data3
import proofs.«131845_j5600637354059_1_alg».proof.Proof.KIFrame.Data4
import proofs.«131845_j5600637354059_1_alg».proof.Proof.KIFrame.Data5
import proofs.«131845_j5600637354059_1_alg».proof.Proof.KIFrame.Data6
import proofs.«131845_j5600637354059_1_alg».proof.Proof.KIFrame.Data7
import proofs.«131845_j5600637354059_1_alg».proof.Proof.KIFrame.Data8
import proofs.«131845_j5600637354059_1_alg».proof.Proof.Gen.KernelIdeal.Regions
import Idealize.ShloMosaic.Lib.Pipeline.RegionsLoop
import Idealize.ShloMosaic.Lib.Pipeline.FrameSuffix

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary between the items of @main: a fold from the launch memory

A stretch of host operations leaves `StableHlo.after` of its operations; a region leaves its arrays at what its pipeline's
write-backs leave (the inputs as entered, the output's blocks folded) and every other buffer as entered. -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- A buffer `hostOps0` does not write is as before it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The contents region 0 is entered at, read at the TensorCore's references (what its proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array is as entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- Region 0's exit contents at the TensorCore's references. -/
abbrev V2 : (c : Dev nD) → (b : Ref sig .tc) → Buf (Elt F) ((c : Thread nD τ).loc b) := fun c b => W2 m ρ c b
/-- At region 0's exit each of its arrays holds what the pipeline leaves (`hF0`) and every other buffer what it held
    at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After `hostOps1`. -/
abbrev W3 : Dev nD → Valuation τ sig (Elt F) := fun c => StableHlo.after hostOps1 (W2 m ρ c)
/-- A buffer `hostOps1` does not write is as before it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- After `hostOps1_1`. -/
abbrev W4 : Dev nD → Valuation τ sig (Elt F) := fun c => StableHlo.after hostOps1_1 (W3 m ρ c)
/-- A buffer `hostOps1_1` does not write is as before it. -/
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
/-- After `hostOps1_2`. -/
abbrev W5 : Dev nD → Valuation τ sig (Elt F) := fun c => StableHlo.after hostOps1_2 (W4 m ρ c)
/-- A buffer `hostOps1_2` does not write is as before it. -/
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
/-- The contents region 1 is entered at, read at the TensorCore's references (what its proof data take). -/
abbrev V5 : (c : Dev nD) → (b : Ref sig .tc) → Buf (Elt F) ((c : Thread nD τ).loc b) := fun c b => W5 m ρ c b
/-- At region 1's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- An input window's array is as entered. -/
theorem W6_in (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin _).trans (A_eq1 (V5 m ρ) c w))
/-- Region 1's exit contents at the TensorCore's references. -/
abbrev V6 : (c : Dev nD) → (b : Ref sig .tc) → Buf (Elt F) ((c : Thread nD τ).loc b) := fun c b => W6 m ρ c b
/-- At region 1's exit each of its arrays holds what the pipeline leaves (`hF1`) and every other buffer what it held
    at entry (`hrest1`). -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After `hostOps2`. -/
abbrev W7 : Dev nD → Valuation τ sig (Elt F) := fun c => StableHlo.after hostOps2 (W6 m ρ c)
/-- A buffer `hostOps2` does not write is as before it. -/
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
/-- The contents region 2 is entered at, read at the TensorCore's references (what its proof data take). -/
abbrev V7 : (c : Dev nD) → (b : Ref sig .tc) → Buf (Elt F) ((c : Thread nD τ).loc b) := fun c b => W7 m ρ c b
/-- At region 2's exit: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- An input window's array is as entered. -/
theorem W8_in (c : Dev nD) (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hin _).trans (A_eq2 (V7 m ρ) c w))
/-- Region 2's exit contents at the TensorCore's references. -/
abbrev V8 : (c : Dev nD) → (b : Ref sig .tc) → Buf (Elt F) ((c : Thread nD τ).loc b) := fun c b => W8 m ρ c b
/-- At region 2's exit each of its arrays holds what the pipeline leaves (`hF2`) and every other buffer what it held
    at entry (`hrest2`). -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- After `hostOps3`. -/
abbrev W9 : Dev nD → Valuation τ sig (Elt F) := fun c => StableHlo.after hostOps3 (W8 m ρ c)
/-- A buffer `hostOps3` does not write is as before it. -/
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h
/-- After `hostOps3_1`. -/
abbrev W10 : Dev nD → Valuation τ sig (Elt F) := fun c => StableHlo.after hostOps3_1 (W9 m ρ c)
/-- A buffer `hostOps3_1` does not write is as before it. -/
theorem W10_of (c : Dev nD) (r : Ref sig .tc) (h : r ∉ hostOps3_1_W) : W10 m ρ c (Proc.devRef .tc r) = W9 m ρ c (Proc.devRef .tc r) :=
  StableHlo.after_of_writes_sub hostOps3_1 _ hostOps3_1_writes h
/-- After `hostOps3_2`. -/
abbrev W11 : Dev nD → Valuation τ sig (Elt F) := fun c => StableHlo.after hostOps3_2 (W10 m ρ c)
/-- A buffer `hostOps3_2` does not write is as before it. -/
theorem W11_of (c : Dev nD) (r : Ref sig .tc) (h : r ∉ hostOps3_2_W) : W11 m ρ c (Proc.devRef .tc r) = W10 m ρ c (Proc.devRef .tc r) :=
  StableHlo.after_of_writes_sub hostOps3_2 _ hostOps3_2_writes h
/-- The contents region 3 is entered at, read at the TensorCore's references (what its proof data take). -/
abbrev V11 : (c : Dev nD) → (b : Ref sig .tc) → Buf (Elt F) ((c : Thread nD τ).loc b) := fun c b => W11 m ρ c b
/-- At region 3's exit: its arrays at what the pipeline leaves, every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- An input window's array is as entered. -/
theorem W12_in (c : Dev nD) (w : Fin cfg3.W) (hin : (cfg3.win w).isOut = false) :
    W12 m ρ c (Proc.devRef .tc (Pipeline.arrRef spec3 w)) = W11 m ρ c (Proc.devRef .tc (Pipeline.arrRef spec3 w)) :=
  (W12_arr m ρ c w).trans (((dat3 (V11 m ρ) c).arrAt_in w hin _).trans (A_eq3 (V11 m ρ) c w))
/-- Region 3's exit contents at the TensorCore's references. -/
abbrev V12 : (c : Dev nD) → (b : Ref sig .tc) → Buf (Elt F) ((c : Thread nD τ).loc b) := fun c b => W12 m ρ c b
/-- At region 3's exit each of its arrays holds what the pipeline leaves (`hF3`) and every other buffer what it held
    at entry (`hrest3`). -/
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)
/-- After `hostOps4`. -/
abbrev W13 : Dev nD → Valuation τ sig (Elt F) := fun c => StableHlo.after hostOps4 (W12 m ρ c)
/-- A buffer `hostOps4` does not write is as before it. -/
theorem W13_of (c : Dev nD) (r : Ref sig .tc) (h : r ∉ hostOps4_W) : W13 m ρ c (Proc.devRef .tc r) = W12 m ρ c (Proc.devRef .tc r) :=
  StableHlo.after_of_writes_sub hostOps4 _ hostOps4_writes h
/-- The contents region 4 is entered at, read at the TensorCore's references (what its proof data take). -/
abbrev V13 : (c : Dev nD) → (b : Ref sig .tc) → Buf (Elt F) ((c : Thread nD τ).loc b) := fun c b => W13 m ρ c b
/-- At region 4's exit: its arrays at what the pipeline leaves, every other buffer as entered. -/
def W14 (c : Dev nD) : Valuation τ sig (Elt F) :=
  Pipeline.withArrays spec4 c (W13 m ρ c) fun w => (dat4 (V13 m ρ) c).arrAt w cfg4.N
theorem W14_arr (c : Dev nD) (w : Fin cfg4.W) :
    W14 m ρ c (Proc.devRef .tc (Pipeline.arrRef spec4 w)) = (dat4 (V13 m ρ) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
/-- An input window's array is as entered. -/
theorem W14_in (c : Dev nD) (w : Fin cfg4.W) (hin : (cfg4.win w).isOut = false) :
    W14 m ρ c (Proc.devRef .tc (Pipeline.arrRef spec4 w)) = W13 m ρ c (Proc.devRef .tc (Pipeline.arrRef spec4 w)) :=
  (W14_arr m ρ c w).trans (((dat4 (V13 m ρ) c).arrAt_in w hin _).trans (A_eq4 (V13 m ρ) c w))
/-- Region 4's exit contents at the TensorCore's references. -/
abbrev V14 : (c : Dev nD) → (b : Ref sig .tc) → Buf (Elt F) ((c : Thread nD τ).loc b) := fun c b => W14 m ρ c b
/-- At region 4's exit each of its arrays holds what the pipeline leaves (`hF4`) and every other buffer what it held
    at entry (`hrest4`). -/
theorem hF4 (c : Dev nD) (w : Fin cfg4.W) : (dat4 (V13 m ρ) c).arrAt w cfg4.N = V14 m ρ c (Pipeline.arrRef spec4 w) :=
  (W14_arr m ρ c w).symm
theorem hrest4 (c : Dev nD) : ∀ b, b ∉ Finset.univ.image (Pipeline.arrRef spec4) → V14 m ρ c b = V13 m ρ c b :=
  fun b hb => W14_of_ne m ρ c b fun w e => hb (Finset.mem_image.mpr ⟨w, Finset.mem_univ _, e⟩)
/-- After `hostOps5`. -/
abbrev W15 : Dev nD → Valuation τ sig (Elt F) := fun c => StableHlo.after hostOps5 (W14 m ρ c)
/-- A buffer `hostOps5` does not write is as before it. -/
theorem W15_of (c : Dev nD) (r : Ref sig .tc) (h : r ∉ hostOps5_W) : W15 m ρ c (Proc.devRef .tc r) = W14 m ρ c (Proc.devRef .tc r) :=
  StableHlo.after_of_writes_sub hostOps5 _ hostOps5_writes h
/-- After `hostOps5_1`. -/
abbrev W16 : Dev nD → Valuation τ sig (Elt F) := fun c => StableHlo.after hostOps5_1 (W15 m ρ c)
/-- A buffer `hostOps5_1` does not write is as before it. -/
theorem W16_of (c : Dev nD) (r : Ref sig .tc) (h : r ∉ hostOps5_1_W) : W16 m ρ c (Proc.devRef .tc r) = W15 m ρ c (Proc.devRef .tc r) :=
  StableHlo.after_of_writes_sub hostOps5_1 _ hostOps5_1_writes h
/-- After `hostOps5_2`. -/
abbrev W17 : Dev nD → Valuation τ sig (Elt F) := fun c => StableHlo.after hostOps5_2 (W16 m ρ c)
/-- A buffer `hostOps5_2` does not write is as before it. -/
theorem W17_of (c : Dev nD) (r : Ref sig .tc) (h : r ∉ hostOps5_2_W) : W17 m ρ c (Proc.devRef .tc r) = W16 m ρ c (Proc.devRef .tc r) :=
  StableHlo.after_of_writes_sub hostOps5_2 _ hostOps5_2_writes h
/-- The contents region 5 is entered at, read at the TensorCore's references (what its proof data take). -/
abbrev V17 : (c : Dev nD) → (b : Ref sig .tc) → Buf (Elt F) ((c : Thread nD τ).loc b) := fun c b => W17 m ρ c b
/-- At region 5's exit: its arrays at what the pipeline leaves, every other buffer as entered. -/
def W18 (c : Dev nD) : Valuation τ sig (Elt F) :=
  Pipeline.withArrays spec5 c (W17 m ρ c) fun w => (dat5 (V17 m ρ) c).arrAt w cfg5.N
theorem W18_arr (c : Dev nD) (w : Fin cfg5.W) :
    W18 m ρ c (Proc.devRef .tc (Pipeline.arrRef spec5 w)) = (dat5 (V17 m ρ) c).arrAt w cfg5.N := by
  unfold W18; exact Pipeline.withArrays_arr spec5 launch5.win.arr_inj c _ _ w
theorem W18_of_ne (c : Dev nD) (b : Ref sig .tc) (hb : ∀ w, Pipeline.arrRef spec5 w ≠ b) :
    W18 m ρ c (Proc.devRef .tc b) = W17 m ρ c (Proc.devRef .tc b) := by
  unfold W18; exact Pipeline.withArrays_of_ne spec5 c _ _ b hb
/-- An input window's array is as entered. -/
theorem W18_in (c : Dev nD) (w : Fin cfg5.W) (hin : (cfg5.win w).isOut = false) :
    W18 m ρ c (Proc.devRef .tc (Pipeline.arrRef spec5 w)) = W17 m ρ c (Proc.devRef .tc (Pipeline.arrRef spec5 w)) :=
  (W18_arr m ρ c w).trans (((dat5 (V17 m ρ) c).arrAt_in w hin _).trans (A_eq5 (V17 m ρ) c w))
/-- Region 5's exit contents at the TensorCore's references. -/
abbrev V18 : (c : Dev nD) → (b : Ref sig .tc) → Buf (Elt F) ((c : Thread nD τ).loc b) := fun c b => W18 m ρ c b
/-- At region 5's exit each of its arrays holds what the pipeline leaves (`hF5`) and every other buffer what it held
    at entry (`hrest5`). -/
theorem hF5 (c : Dev nD) (w : Fin cfg5.W) : (dat5 (V17 m ρ) c).arrAt w cfg5.N = V18 m ρ c (Pipeline.arrRef spec5 w) :=
  (W18_arr m ρ c w).symm
theorem hrest5 (c : Dev nD) : ∀ b, b ∉ Finset.univ.image (Pipeline.arrRef spec5) → V18 m ρ c b = V17 m ρ c b :=
  fun b hb => W18_of_ne m ρ c b fun w e => hb (Finset.mem_image.mpr ⟨w, Finset.mem_univ _, e⟩)
/-- After `hostOps6`. -/
abbrev W19 : Dev nD → Valuation τ sig (Elt F) := fun c => StableHlo.after hostOps6 (W18 m ρ c)
/-- A buffer `hostOps6` does not write is as before it. -/
theorem W19_of (c : Dev nD) (r : Ref sig .tc) (h : r ∉ hostOps6_W) : W19 m ρ c (Proc.devRef .tc r) = W18 m ρ c (Proc.devRef .tc r) :=
  StableHlo.after_of_writes_sub hostOps6 _ hostOps6_writes h
/-- The contents region 6 is entered at, read at the TensorCore's references (what its proof data take). -/
abbrev V19 : (c : Dev nD) → (b : Ref sig .tc) → Buf (Elt F) ((c : Thread nD τ).loc b) := fun c b => W19 m ρ c b
/-- At region 6's exit: its arrays at what the pipeline leaves, every other buffer as entered. -/
def W20 (c : Dev nD) : Valuation τ sig (Elt F) :=
  Pipeline.withArrays spec6 c (W19 m ρ c) fun w => (dat6 (V19 m ρ) c).arrAt w cfg6.N
theorem W20_arr (c : Dev nD) (w : Fin cfg6.W) :
    W20 m ρ c (Proc.devRef .tc (Pipeline.arrRef spec6 w)) = (dat6 (V19 m ρ) c).arrAt w cfg6.N := by
  unfold W20; exact Pipeline.withArrays_arr spec6 launch6.win.arr_inj c _ _ w
theorem W20_of_ne (c : Dev nD) (b : Ref sig .tc) (hb : ∀ w, Pipeline.arrRef spec6 w ≠ b) :
    W20 m ρ c (Proc.devRef .tc b) = W19 m ρ c (Proc.devRef .tc b) := by
  unfold W20; exact Pipeline.withArrays_of_ne spec6 c _ _ b hb
/-- An input window's array is as entered. -/
theorem W20_in (c : Dev nD) (w : Fin cfg6.W) (hin : (cfg6.win w).isOut = false) :
    W20 m ρ c (Proc.devRef .tc (Pipeline.arrRef spec6 w)) = W19 m ρ c (Proc.devRef .tc (Pipeline.arrRef spec6 w)) :=
  (W20_arr m ρ c w).trans (((dat6 (V19 m ρ) c).arrAt_in w hin _).trans (A_eq6 (V19 m ρ) c w))
/-- Region 6's exit contents at the TensorCore's references. -/
abbrev V20 : (c : Dev nD) → (b : Ref sig .tc) → Buf (Elt F) ((c : Thread nD τ).loc b) := fun c b => W20 m ρ c b
/-- At region 6's exit each of its arrays holds what the pipeline leaves (`hF6`) and every other buffer what it held
    at entry (`hrest6`). -/
theorem hF6 (c : Dev nD) (w : Fin cfg6.W) : (dat6 (V19 m ρ) c).arrAt w cfg6.N = V20 m ρ c (Pipeline.arrRef spec6 w) :=
  (W20_arr m ρ c w).symm
theorem hrest6 (c : Dev nD) : ∀ b, b ∉ Finset.univ.image (Pipeline.arrRef spec6) → V20 m ρ c b = V19 m ρ c b :=
  fun b hb => W20_of_ne m ρ c b fun w e => hb (Finset.mem_image.mpr ⟨w, Finset.mem_univ _, e⟩)
/-- After `hostOps7`. -/
abbrev W21 : Dev nD → Valuation τ sig (Elt F) := fun c => StableHlo.after hostOps7 (W20 m ρ c)
/-- A buffer `hostOps7` does not write is as before it. -/
theorem W21_of (c : Dev nD) (r : Ref sig .tc) (h : r ∉ hostOps7_W) : W21 m ρ c (Proc.devRef .tc r) = W20 m ρ c (Proc.devRef .tc r) :=
  StableHlo.after_of_writes_sub hostOps7 _ hostOps7_writes h
/-- After `hostOps7_1`. -/
abbrev W22 : Dev nD → Valuation τ sig (Elt F) := fun c => StableHlo.after hostOps7_1 (W21 m ρ c)
/-- A buffer `hostOps7_1` does not write is as before it. -/
theorem W22_of (c : Dev nD) (r : Ref sig .tc) (h : r ∉ hostOps7_1_W) : W22 m ρ c (Proc.devRef .tc r) = W21 m ρ c (Proc.devRef .tc r) :=
  StableHlo.after_of_writes_sub hostOps7_1 _ hostOps7_1_writes h
/-- After `hostOps7_2`. -/
abbrev W23 : Dev nD → Valuation τ sig (Elt F) := fun c => StableHlo.after hostOps7_2 (W22 m ρ c)
/-- A buffer `hostOps7_2` does not write is as before it. -/
theorem W23_of (c : Dev nD) (r : Ref sig .tc) (h : r ∉ hostOps7_2_W) : W23 m ρ c (Proc.devRef .tc r) = W22 m ρ c (Proc.devRef .tc r) :=
  StableHlo.after_of_writes_sub hostOps7_2 _ hostOps7_2_writes h
/-- The contents region 7 is entered at, read at the TensorCore's references (what its proof data take). -/
abbrev V23 : (c : Dev nD) → (b : Ref sig .tc) → Buf (Elt F) ((c : Thread nD τ).loc b) := fun c b => W23 m ρ c b
/-- At region 7's exit: its arrays at what the pipeline leaves, every other buffer as entered. -/
def W24 (c : Dev nD) : Valuation τ sig (Elt F) :=
  Pipeline.withArrays spec7 c (W23 m ρ c) fun w => (dat7 (V23 m ρ) c).arrAt w cfg7.N
theorem W24_arr (c : Dev nD) (w : Fin cfg7.W) :
    W24 m ρ c (Proc.devRef .tc (Pipeline.arrRef spec7 w)) = (dat7 (V23 m ρ) c).arrAt w cfg7.N := by
  unfold W24; exact Pipeline.withArrays_arr spec7 launch7.win.arr_inj c _ _ w
theorem W24_of_ne (c : Dev nD) (b : Ref sig .tc) (hb : ∀ w, Pipeline.arrRef spec7 w ≠ b) :
    W24 m ρ c (Proc.devRef .tc b) = W23 m ρ c (Proc.devRef .tc b) := by
  unfold W24; exact Pipeline.withArrays_of_ne spec7 c _ _ b hb
/-- An input window's array is as entered. -/
theorem W24_in (c : Dev nD) (w : Fin cfg7.W) (hin : (cfg7.win w).isOut = false) :
    W24 m ρ c (Proc.devRef .tc (Pipeline.arrRef spec7 w)) = W23 m ρ c (Proc.devRef .tc (Pipeline.arrRef spec7 w)) :=
  (W24_arr m ρ c w).trans (((dat7 (V23 m ρ) c).arrAt_in w hin _).trans (A_eq7 (V23 m ρ) c w))
/-- Region 7's exit contents at the TensorCore's references. -/
abbrev V24 : (c : Dev nD) → (b : Ref sig .tc) → Buf (Elt F) ((c : Thread nD τ).loc b) := fun c b => W24 m ρ c b
/-- At region 7's exit each of its arrays holds what the pipeline leaves (`hF7`) and every other buffer what it held
    at entry (`hrest7`). -/
theorem hF7 (c : Dev nD) (w : Fin cfg7.W) : (dat7 (V23 m ρ) c).arrAt w cfg7.N = V24 m ρ c (Pipeline.arrRef spec7 w) :=
  (W24_arr m ρ c w).symm
theorem hrest7 (c : Dev nD) : ∀ b, b ∉ Finset.univ.image (Pipeline.arrRef spec7) → V24 m ρ c b = V23 m ρ c b :=
  fun b hb => W24_of_ne m ρ c b fun w e => hb (Finset.mem_image.mpr ⟨w, Finset.mem_univ _, e⟩)
/-- After `hostOps8`. -/
abbrev W25 : Dev nD → Valuation τ sig (Elt F) := fun c => StableHlo.after hostOps8 (W24 m ρ c)
/-- A buffer `hostOps8` does not write is as before it. -/
theorem W25_of (c : Dev nD) (r : Ref sig .tc) (h : r ∉ hostOps8_W) : W25 m ρ c (Proc.devRef .tc r) = W24 m ρ c (Proc.devRef .tc r) :=
  StableHlo.after_of_writes_sub hostOps8 _ hostOps8_writes h
/-- The contents region 8 is entered at, read at the TensorCore's references (what its proof data take). -/
abbrev V25 : (c : Dev nD) → (b : Ref sig .tc) → Buf (Elt F) ((c : Thread nD τ).loc b) := fun c b => W25 m ρ c b
/-- At region 8's exit: its arrays at what the pipeline leaves, every other buffer as entered. -/
def W26 (c : Dev nD) : Valuation τ sig (Elt F) :=
  Pipeline.withArrays spec8 c (W25 m ρ c) fun w => (dat8 (V25 m ρ) c).arrAt w cfg8.N
theorem W26_arr (c : Dev nD) (w : Fin cfg8.W) :
    W26 m ρ c (Proc.devRef .tc (Pipeline.arrRef spec8 w)) = (dat8 (V25 m ρ) c).arrAt w cfg8.N := by
  unfold W26; exact Pipeline.withArrays_arr spec8 launch8.win.arr_inj c _ _ w
theorem W26_of_ne (c : Dev nD) (b : Ref sig .tc) (hb : ∀ w, Pipeline.arrRef spec8 w ≠ b) :
    W26 m ρ c (Proc.devRef .tc b) = W25 m ρ c (Proc.devRef .tc b) := by
  unfold W26; exact Pipeline.withArrays_of_ne spec8 c _ _ b hb
/-- An input window's array is as entered. -/
theorem W26_in (c : Dev nD) (w : Fin cfg8.W) (hin : (cfg8.win w).isOut = false) :
    W26 m ρ c (Proc.devRef .tc (Pipeline.arrRef spec8 w)) = W25 m ρ c (Proc.devRef .tc (Pipeline.arrRef spec8 w)) :=
  (W26_arr m ρ c w).trans (((dat8 (V25 m ρ) c).arrAt_in w hin _).trans (A_eq8 (V25 m ρ) c w))
/-- Region 8's exit contents at the TensorCore's references. -/
abbrev V26 : (c : Dev nD) → (b : Ref sig .tc) → Buf (Elt F) ((c : Thread nD τ).loc b) := fun c b => W26 m ρ c b
/-- At region 8's exit each of its arrays holds what the pipeline leaves (`hF8`) and every other buffer what it held
    at entry (`hrest8`). -/
theorem hF8 (c : Dev nD) (w : Fin cfg8.W) : (dat8 (V25 m ρ) c).arrAt w cfg8.N = V26 m ρ c (Pipeline.arrRef spec8 w) :=
  (W26_arr m ρ c w).symm
theorem hrest8 (c : Dev nD) : ∀ b, b ∉ Finset.univ.image (Pipeline.arrRef spec8) → V26 m ρ c b = V25 m ρ c b :=
  fun b hb => W26_of_ne m ρ c b fun w e => hb (Finset.mem_image.mpr ⟨w, Finset.mem_univ _, e⟩)

/-! ## The arguments end as launched: no host operation writes one, and a region reads one through an input window or
    does not touch it -/
theorem W26_main_arg0 (c : Dev nD) : W26 m ρ c (Proc.devRef .tc main_arg0) = m ((c : Thread nD τ).loc main_arg0) :=
  (W26_of_ne m ρ c main_arg0 (by decide)).trans <| (W25_of m ρ c main_arg0 (by decide)).trans <| (W24_of_ne m ρ c main_arg0 (by decide)).trans <| (W23_of m ρ c main_arg0 (by decide)).trans <| (W22_of m ρ c main_arg0 (by decide)).trans <| (W21_of m ρ c main_arg0 (by decide)).trans <| (W20_of_ne m ρ c main_arg0 (by decide)).trans <| (W19_of m ρ c main_arg0 (by decide)).trans <| (W18_of_ne m ρ c main_arg0 (by decide)).trans <| (W17_of m ρ c main_arg0 (by decide)).trans <| (W16_of m ρ c main_arg0 (by decide)).trans <| (W15_of m ρ c main_arg0 (by decide)).trans <| (W14_of_ne m ρ c main_arg0 (by decide)).trans <| (W13_of m ρ c main_arg0 (by decide)).trans <| (W12_of_ne m ρ c main_arg0 (by decide)).trans <| (W11_of m ρ c main_arg0 (by decide)).trans <| (W10_of m ρ c main_arg0 (by decide)).trans <| (W9_of m ρ c main_arg0 (by decide)).trans <| (W8_of_ne m ρ c main_arg0 (by decide)).trans <| (W7_of m ρ c main_arg0 (by decide)).trans <| (W6_of_ne m ρ c main_arg0 (by decide)).trans <| (W5_of m ρ c main_arg0 (by decide)).trans <| (W4_of m ρ c main_arg0 (by decide)).trans <| (W3_of m ρ c main_arg0 (by decide)).trans <| (W2_in m ρ c 0 rfl).trans <| (W1_of m ρ c main_arg0 (by decide)).trans <| rfl
theorem W26_main_arg1 (c : Dev nD) : W26 m ρ c (Proc.devRef .tc main_arg1) = m ((c : Thread nD τ).loc main_arg1) :=
  (W26_of_ne m ρ c main_arg1 (by decide)).trans <| (W25_of m ρ c main_arg1 (by decide)).trans <| (W24_of_ne m ρ c main_arg1 (by decide)).trans <| (W23_of m ρ c main_arg1 (by decide)).trans <| (W22_of m ρ c main_arg1 (by decide)).trans <| (W21_of m ρ c main_arg1 (by decide)).trans <| (W20_of_ne m ρ c main_arg1 (by decide)).trans <| (W19_of m ρ c main_arg1 (by decide)).trans <| (W18_of_ne m ρ c main_arg1 (by decide)).trans <| (W17_of m ρ c main_arg1 (by decide)).trans <| (W16_of m ρ c main_arg1 (by decide)).trans <| (W15_of m ρ c main_arg1 (by decide)).trans <| (W14_of_ne m ρ c main_arg1 (by decide)).trans <| (W13_of m ρ c main_arg1 (by decide)).trans <| (W12_of_ne m ρ c main_arg1 (by decide)).trans <| (W11_of m ρ c main_arg1 (by decide)).trans <| (W10_of m ρ c main_arg1 (by decide)).trans <| (W9_of m ρ c main_arg1 (by decide)).trans <| (W8_of_ne m ρ c main_arg1 (by decide)).trans <| (W7_of m ρ c main_arg1 (by decide)).trans <| (W6_of_ne m ρ c main_arg1 (by decide)).trans <| (W5_of m ρ c main_arg1 (by decide)).trans <| (W4_of m ρ c main_arg1 (by decide)).trans <| (W3_of m ρ c main_arg1 (by decide)).trans <| (W2_of_ne m ρ c main_arg1 (by decide)).trans <| (W1_of m ρ c main_arg1 (by decide)).trans <| rfl
theorem W26_main_arg2 (c : Dev nD) : W26 m ρ c (Proc.devRef .tc main_arg2) = m ((c : Thread nD τ).loc main_arg2) :=
  (W26_of_ne m ρ c main_arg2 (by decide)).trans <| (W25_of m ρ c main_arg2 (by decide)).trans <| (W24_of_ne m ρ c main_arg2 (by decide)).trans <| (W23_of m ρ c main_arg2 (by decide)).trans <| (W22_of m ρ c main_arg2 (by decide)).trans <| (W21_of m ρ c main_arg2 (by decide)).trans <| (W20_of_ne m ρ c main_arg2 (by decide)).trans <| (W19_of m ρ c main_arg2 (by decide)).trans <| (W18_of_ne m ρ c main_arg2 (by decide)).trans <| (W17_of m ρ c main_arg2 (by decide)).trans <| (W16_of m ρ c main_arg2 (by decide)).trans <| (W15_of m ρ c main_arg2 (by decide)).trans <| (W14_of_ne m ρ c main_arg2 (by decide)).trans <| (W13_of m ρ c main_arg2 (by decide)).trans <| (W12_of_ne m ρ c main_arg2 (by decide)).trans <| (W11_of m ρ c main_arg2 (by decide)).trans <| (W10_of m ρ c main_arg2 (by decide)).trans <| (W9_of m ρ c main_arg2 (by decide)).trans <| (W8_of_ne m ρ c main_arg2 (by decide)).trans <| (W7_of m ρ c main_arg2 (by decide)).trans <| (W6_of_ne m ρ c main_arg2 (by decide)).trans <| (W5_of m ρ c main_arg2 (by decide)).trans <| (W4_of m ρ c main_arg2 (by decide)).trans <| (W3_of m ρ c main_arg2 (by decide)).trans <| (W2_in m ρ c 1 rfl).trans <| (W1_of m ρ c main_arg2 (by decide)).trans <| rfl
theorem W26_main_arg3 (c : Dev nD) : W26 m ρ c (Proc.devRef .tc main_arg3) = m ((c : Thread nD τ).loc main_arg3) :=
  (W26_of_ne m ρ c main_arg3 (by decide)).trans <| (W25_of m ρ c main_arg3 (by decide)).trans <| (W24_of_ne m ρ c main_arg3 (by decide)).trans <| (W23_of m ρ c main_arg3 (by decide)).trans <| (W22_of m ρ c main_arg3 (by decide)).trans <| (W21_of m ρ c main_arg3 (by decide)).trans <| (W20_of_ne m ρ c main_arg3 (by decide)).trans <| (W19_of m ρ c main_arg3 (by decide)).trans <| (W18_of_ne m ρ c main_arg3 (by decide)).trans <| (W17_of m ρ c main_arg3 (by decide)).trans <| (W16_of m ρ c main_arg3 (by decide)).trans <| (W15_of m ρ c main_arg3 (by decide)).trans <| (W14_of_ne m ρ c main_arg3 (by decide)).trans <| (W13_of m ρ c main_arg3 (by decide)).trans <| (W12_of_ne m ρ c main_arg3 (by decide)).trans <| (W11_of m ρ c main_arg3 (by decide)).trans <| (W10_of m ρ c main_arg3 (by decide)).trans <| (W9_of m ρ c main_arg3 (by decide)).trans <| (W8_of_ne m ρ c main_arg3 (by decide)).trans <| (W7_of m ρ c main_arg3 (by decide)).trans <| (W6_of_ne m ρ c main_arg3 (by decide)).trans <| (W5_of m ρ c main_arg3 (by decide)).trans <| (W4_of m ρ c main_arg3 (by decide)).trans <| (W3_of m ρ c main_arg3 (by decide)).trans <| (W2_of_ne m ρ c main_arg3 (by decide)).trans <| (W1_of m ρ c main_arg3 (by decide)).trans <| rfl
theorem W26_main_arg4 (c : Dev nD) : W26 m ρ c (Proc.devRef .tc main_arg4) = m ((c : Thread nD τ).loc main_arg4) :=
  (W26_of_ne m ρ c main_arg4 (by decide)).trans <| (W25_of m ρ c main_arg4 (by decide)).trans <| (W24_of_ne m ρ c main_arg4 (by decide)).trans <| (W23_of m ρ c main_arg4 (by decide)).trans <| (W22_of m ρ c main_arg4 (by decide)).trans <| (W21_of m ρ c main_arg4 (by decide)).trans <| (W20_of_ne m ρ c main_arg4 (by decide)).trans <| (W19_of m ρ c main_arg4 (by decide)).trans <| (W18_of_ne m ρ c main_arg4 (by decide)).trans <| (W17_of m ρ c main_arg4 (by decide)).trans <| (W16_of m ρ c main_arg4 (by decide)).trans <| (W15_of m ρ c main_arg4 (by decide)).trans <| (W14_of_ne m ρ c main_arg4 (by decide)).trans <| (W13_of m ρ c main_arg4 (by decide)).trans <| (W12_of_ne m ρ c main_arg4 (by decide)).trans <| (W11_of m ρ c main_arg4 (by decide)).trans <| (W10_of m ρ c main_arg4 (by decide)).trans <| (W9_of m ρ c main_arg4 (by decide)).trans <| (W8_of_ne m ρ c main_arg4 (by decide)).trans <| (W7_of m ρ c main_arg4 (by decide)).trans <| (W6_of_ne m ρ c main_arg4 (by decide)).trans <| (W5_of m ρ c main_arg4 (by decide)).trans <| (W4_of m ρ c main_arg4 (by decide)).trans <| (W3_of m ρ c main_arg4 (by decide)).trans <| (W2_of_ne m ρ c main_arg4 (by decide)).trans <| (W1_of m ρ c main_arg4 (by decide)).trans <| rfl
theorem W26_main_arg5 (c : Dev nD) : W26 m ρ c (Proc.devRef .tc main_arg5) = m ((c : Thread nD τ).loc main_arg5) :=
  (W26_of_ne m ρ c main_arg5 (by decide)).trans <| (W25_of m ρ c main_arg5 (by decide)).trans <| (W24_of_ne m ρ c main_arg5 (by decide)).trans <| (W23_of m ρ c main_arg5 (by decide)).trans <| (W22_of m ρ c main_arg5 (by decide)).trans <| (W21_of m ρ c main_arg5 (by decide)).trans <| (W20_of_ne m ρ c main_arg5 (by decide)).trans <| (W19_of m ρ c main_arg5 (by decide)).trans <| (W18_of_ne m ρ c main_arg5 (by decide)).trans <| (W17_of m ρ c main_arg5 (by decide)).trans <| (W16_of m ρ c main_arg5 (by decide)).trans <| (W15_of m ρ c main_arg5 (by decide)).trans <| (W14_of_ne m ρ c main_arg5 (by decide)).trans <| (W13_of m ρ c main_arg5 (by decide)).trans <| (W12_of_ne m ρ c main_arg5 (by decide)).trans <| (W11_of m ρ c main_arg5 (by decide)).trans <| (W10_of m ρ c main_arg5 (by decide)).trans <| (W9_of m ρ c main_arg5 (by decide)).trans <| (W8_of_ne m ρ c main_arg5 (by decide)).trans <| (W7_of m ρ c main_arg5 (by decide)).trans <| (W6_of_ne m ρ c main_arg5 (by decide)).trans <| (W5_of m ρ c main_arg5 (by decide)).trans <| (W4_of m ρ c main_arg5 (by decide)).trans <| (W3_of m ρ c main_arg5 (by decide)).trans <| (W2_of_ne m ρ c main_arg5 (by decide)).trans <| (W1_of m ρ c main_arg5 (by decide)).trans <| rfl
theorem W26_main_arg6 (c : Dev nD) : W26 m ρ c (Proc.devRef .tc main_arg6) = m ((c : Thread nD τ).loc main_arg6) :=
  (W26_of_ne m ρ c main_arg6 (by decide)).trans <| (W25_of m ρ c main_arg6 (by decide)).trans <| (W24_of_ne m ρ c main_arg6 (by decide)).trans <| (W23_of m ρ c main_arg6 (by decide)).trans <| (W22_of m ρ c main_arg6 (by decide)).trans <| (W21_of m ρ c main_arg6 (by decide)).trans <| (W20_of_ne m ρ c main_arg6 (by decide)).trans <| (W19_of m ρ c main_arg6 (by decide)).trans <| (W18_of_ne m ρ c main_arg6 (by decide)).trans <| (W17_of m ρ c main_arg6 (by decide)).trans <| (W16_of m ρ c main_arg6 (by decide)).trans <| (W15_of m ρ c main_arg6 (by decide)).trans <| (W14_of_ne m ρ c main_arg6 (by decide)).trans <| (W13_of m ρ c main_arg6 (by decide)).trans <| (W12_of_ne m ρ c main_arg6 (by decide)).trans <| (W11_of m ρ c main_arg6 (by decide)).trans <| (W10_of m ρ c main_arg6 (by decide)).trans <| (W9_of m ρ c main_arg6 (by decide)).trans <| (W8_of_ne m ρ c main_arg6 (by decide)).trans <| (W7_of m ρ c main_arg6 (by decide)).trans <| (W6_of_ne m ρ c main_arg6 (by decide)).trans <| (W5_of m ρ c main_arg6 (by decide)).trans <| (W4_of m ρ c main_arg6 (by decide)).trans <| (W3_of m ρ c main_arg6 (by decide)).trans <| (W2_of_ne m ρ c main_arg6 (by decide)).trans <| (W1_of m ρ c main_arg6 (by decide)).trans <| rfl
theorem W26_main_arg7 (c : Dev nD) : W26 m ρ c (Proc.devRef .tc main_arg7) = m ((c : Thread nD τ).loc main_arg7) :=
  (W26_of_ne m ρ c main_arg7 (by decide)).trans <| (W25_of m ρ c main_arg7 (by decide)).trans <| (W24_of_ne m ρ c main_arg7 (by decide)).trans <| (W23_of m ρ c main_arg7 (by decide)).trans <| (W22_of m ρ c main_arg7 (by decide)).trans <| (W21_of m ρ c main_arg7 (by decide)).trans <| (W20_of_ne m ρ c main_arg7 (by decide)).trans <| (W19_of m ρ c main_arg7 (by decide)).trans <| (W18_of_ne m ρ c main_arg7 (by decide)).trans <| (W17_of m ρ c main_arg7 (by decide)).trans <| (W16_of m ρ c main_arg7 (by decide)).trans <| (W15_of m ρ c main_arg7 (by decide)).trans <| (W14_of_ne m ρ c main_arg7 (by decide)).trans <| (W13_of m ρ c main_arg7 (by decide)).trans <| (W12_of_ne m ρ c main_arg7 (by decide)).trans <| (W11_of m ρ c main_arg7 (by decide)).trans <| (W10_of m ρ c main_arg7 (by decide)).trans <| (W9_of m ρ c main_arg7 (by decide)).trans <| (W8_of_ne m ρ c main_arg7 (by decide)).trans <| (W7_of m ρ c main_arg7 (by decide)).trans <| (W6_of_ne m ρ c main_arg7 (by decide)).trans <| (W5_of m ρ c main_arg7 (by decide)).trans <| (W4_of m ρ c main_arg7 (by decide)).trans <| (W3_of m ρ c main_arg7 (by decide)).trans <| (W2_of_ne m ρ c main_arg7 (by decide)).trans <| (W1_of m ρ c main_arg7 (by decide)).trans <| rfl
theorem W26_main_arg8 (c : Dev nD) : W26 m ρ c (Proc.devRef .tc main_arg8) = m ((c : Thread nD τ).loc main_arg8) :=
  (W26_in m ρ c 1 rfl).trans <| (W25_of m ρ c main_arg8 (by decide)).trans <| (W24_of_ne m ρ c main_arg8 (by decide)).trans <| (W23_of m ρ c main_arg8 (by decide)).trans <| (W22_of m ρ c main_arg8 (by decide)).trans <| (W21_of m ρ c main_arg8 (by decide)).trans <| (W20_of_ne m ρ c main_arg8 (by decide)).trans <| (W19_of m ρ c main_arg8 (by decide)).trans <| (W18_of_ne m ρ c main_arg8 (by decide)).trans <| (W17_of m ρ c main_arg8 (by decide)).trans <| (W16_of m ρ c main_arg8 (by decide)).trans <| (W15_of m ρ c main_arg8 (by decide)).trans <| (W14_of_ne m ρ c main_arg8 (by decide)).trans <| (W13_of m ρ c main_arg8 (by decide)).trans <| (W12_of_ne m ρ c main_arg8 (by decide)).trans <| (W11_of m ρ c main_arg8 (by decide)).trans <| (W10_of m ρ c main_arg8 (by decide)).trans <| (W9_of m ρ c main_arg8 (by decide)).trans <| (W8_of_ne m ρ c main_arg8 (by decide)).trans <| (W7_of m ρ c main_arg8 (by decide)).trans <| (W6_of_ne m ρ c main_arg8 (by decide)).trans <| (W5_of m ρ c main_arg8 (by decide)).trans <| (W4_of m ρ c main_arg8 (by decide)).trans <| (W3_of m ρ c main_arg8 (by decide)).trans <| (W2_of_ne m ρ c main_arg8 (by decide)).trans <| (W1_of m ρ c main_arg8 (by decide)).trans <| rfl
theorem W26_main_arg9 (c : Dev nD) : W26 m ρ c (Proc.devRef .tc main_arg9) = m ((c : Thread nD τ).loc main_arg9) :=
  (W26_of_ne m ρ c main_arg9 (by decide)).trans <| (W25_of m ρ c main_arg9 (by decide)).trans <| (W24_of_ne m ρ c main_arg9 (by decide)).trans <| (W23_of m ρ c main_arg9 (by decide)).trans <| (W22_of m ρ c main_arg9 (by decide)).trans <| (W21_of m ρ c main_arg9 (by decide)).trans <| (W20_of_ne m ρ c main_arg9 (by decide)).trans <| (W19_of m ρ c main_arg9 (by decide)).trans <| (W18_of_ne m ρ c main_arg9 (by decide)).trans <| (W17_of m ρ c main_arg9 (by decide)).trans <| (W16_of m ρ c main_arg9 (by decide)).trans <| (W15_of m ρ c main_arg9 (by decide)).trans <| (W14_of_ne m ρ c main_arg9 (by decide)).trans <| (W13_of m ρ c main_arg9 (by decide)).trans <| (W12_of_ne m ρ c main_arg9 (by decide)).trans <| (W11_of m ρ c main_arg9 (by decide)).trans <| (W10_of m ρ c main_arg9 (by decide)).trans <| (W9_of m ρ c main_arg9 (by decide)).trans <| (W8_of_ne m ρ c main_arg9 (by decide)).trans <| (W7_of m ρ c main_arg9 (by decide)).trans <| (W6_of_ne m ρ c main_arg9 (by decide)).trans <| (W5_of m ρ c main_arg9 (by decide)).trans <| (W4_of m ρ c main_arg9 (by decide)).trans <| (W3_of m ρ c main_arg9 (by decide)).trans <| (W2_of_ne m ρ c main_arg9 (by decide)).trans <| (W1_of m ρ c main_arg9 (by decide)).trans <| rfl

end Cert.KernelIdeal.Hand

end
-- ==== Proof.KIFrame.RunBase.lean ====
import proofs.«131845_j5600637354059_1_alg».proof.Proof.KIFrame.Chain
import Idealize.ShloMosaic.Lib.Pipeline.RegionsLoop
import Idealize.ShloMosaic.Lib.Pipeline.FrameSuffix
import Idealize.ShloMosaic.Lib.Tactic

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data family and the thread state the segments of @main are stated over -/

/-- Every pipeline's proof data, each at its region's entry contents — a literal `match`, so that the pinned
    configuration at a numeral reduces to the printed one. -/
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V7 m ρ) c
  | ⟨3, _⟩ => fun c => dat3 (V11 m ρ) c
  | ⟨4, _⟩ => fun c => dat4 (V13 m ρ) c
  | ⟨5, _⟩ => fun c => dat5 (V17 m ρ) c
  | ⟨6, _⟩ => fun c => dat6 (V19 m ρ) c
  | ⟨7, _⟩ => fun c => dat7 (V23 m ρ) c
  | ⟨8, _⟩ => fun c => dat8 (V25 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents `W26`, the generator
    register at some state. -/
abbrev Tₙ (c : Dev nD) : sProp 𝕄 := iprop(StableHlo.held (c : Thread nD τ) (Pipeline.ucRefs τ sig) (W26 m ρ c) ∗ ∃ r, prngReg c r)

end Cert.KernelIdeal.Hand

end
-- ==== Proof.KIFrame.Body0.lean ====
import proofs.«131845_j5600637354059_1_alg».proof.Proof.KIFrame.Data0
import proofs.«131845_j5600637354059_1_alg».proof.Proof.Gen.KernelIdeal.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 0 (`cc0__matmul_kernel`): the body's triple and the body obligation, at the entry contents `V` -/

/-! ## An input window's current staging buffer holds its block at every point -/

/-- Input window 0: fetched at this point or not (then its block index has not moved since the fetch), the current staging
    buffer holds the block of its array, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1: fetched at this point or not (then its block index has not moved since the fetch), the current staging
    buffer holds the block of its array, for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's triple -/

set_option maxHeartbeats 1000000 in
/-- The kernel body on whole staging buffers, the inputs' at contents `x_j` and the output's at anything, runs to the
    continuation holding the inputs' as they were and the output's at `out0_2` of the inputs': the loads read the
    whole buffers, the one store overwrites the whole output buffer. -/
theorem sound_kernel0 (c : Dev nD) (E : Set ℕ) (i : grid0.Coords) (arg1 : Memref sig .tc .vmem S5000x256 .f32) (harg1 : arg1.IsWhole) (arg2 : Memref sig .tc .vmem S256x128 .f32) (harg2 : arg2.IsWhole) (arg3 : Memref sig .tc .vmem S5000x128 .f32) (harg3 : arg3.IsWhole)
    (x0 : Vec F S5000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIFrame.Reg0.lean ====
import proofs.«131845_j5600637354059_1_alg».proof.Proof.KIFrame.RunBase
import proofs.«131845_j5600637354059_1_alg».proof.Proof.KIFrame.Body0

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- REGION 0 over the thread state: entered from every unscoped buffer at `W1`, left at `W2`. Its arrays are split
    out of the unscoped buffers and put back at the exit contents; the generator register goes into the pipeline's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIFrame.Body1.lean ====
import proofs.«131845_j5600637354059_1_alg».proof.Proof.KIFrame.Data1
import proofs.«131845_j5600637354059_1_alg».proof.Proof.Gen.KernelIdeal.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 1 (`cc1__affine_relu_kernel`): the body's triple and the body obligation, at the entry contents `V` -/

/-! ## An input window's current staging buffer holds its block at every point -/

/-- Input window 0: fetched at this point or not (then its block index has not moved since the fetch), the current staging
    buffer holds the block of its array, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: fetched at this point or not (then its block index has not moved since the fetch), the current staging
    buffer holds the block of its array, for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: fetched at this point or not (then its block index has not moved since the fetch), the current staging
    buffer holds the block of its array, for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's triple -/

set_option maxHeartbeats 1000000 in
/-- The kernel body on whole staging buffers, the inputs' at contents `x_j` and the output's at anything, runs to the
    continuation holding the inputs' as they were and the output's at `out1_3` of the inputs': the loads read the
    whole buffers, the one store overwrites the whole output buffer. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__affine_relu_kernel i arg1 harg1 arg2 harg2 arg3 harg3 arg4 harg4) K := by
  simp only [cc1__affine_relu_kernel_eq_skeleton]; unfold cc1__affine_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIFrame.Reg1.lean ====
import proofs.«131845_j5600637354059_1_alg».proof.Proof.KIFrame.RunBase
import proofs.«131845_j5600637354059_1_alg».proof.Proof.KIFrame.Body1

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- REGION 1 over the thread state: entered from every unscoped buffer at `W5`, left at `W6`. Its arrays are split
    out of the unscoped buffers and put back at the exit contents; the generator register goes into the pipeline's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIFrame.Body2.lean ====
import proofs.«131845_j5600637354059_1_alg».proof.Proof.KIFrame.Data2
import proofs.«131845_j5600637354059_1_alg».proof.Proof.Gen.KernelIdeal.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 2 (`cc2__matmul_kernel`): the body's triple and the body obligation, at the entry contents `V` -/

/-! ## An input window's current staging buffer holds its block at every point -/

/-- Input window 0: fetched at this point or not (then its block index has not moved since the fetch), the current staging
    buffer holds the block of its array, for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1: fetched at this point or not (then its block index has not moved since the fetch), the current staging
    buffer holds the block of its array, for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body's triple -/

set_option maxHeartbeats 1000000 in
/-- The kernel body on whole staging buffers, the inputs' at contents `x_j` and the output's at anything, runs to the
    continuation holding the inputs' as they were and the output's at `out2_2` of the inputs': the loads read the
    whole buffers, the one store overwrites the whole output buffer. -/
theorem sound_kernel2 (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIFrame.Reg2.lean ====
import proofs.«131845_j5600637354059_1_alg».proof.Proof.KIFrame.RunBase
import proofs.«131845_j5600637354059_1_alg».proof.Proof.KIFrame.Body2

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- REGION 2 over the thread state: entered from every unscoped buffer at `W7`, left at `W8`. Its arrays are split
    out of the unscoped buffers and put back at the exit contents; the generator register goes into the pipeline's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIFrame.Body3.lean ====
import proofs.«131845_j5600637354059_1_alg».proof.Proof.KIFrame.Data3
import proofs.«131845_j5600637354059_1_alg».proof.Proof.Gen.KernelIdeal.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 3 (`cc3__affine_relu_kernel`): the body's triple and the body obligation, at the entry contents `V` -/

/-! ## An input window's current staging buffer holds its block at every point -/

/-- Input window 0: fetched at this point or not (then its block index has not moved since the fetch), the current staging
    buffer holds the block of its array, for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1: fetched at this point or not (then its block index has not moved since the fetch), the current staging
    buffer holds the block of its array, for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2: fetched at this point or not (then its block index has not moved since the fetch), the current staging
    buffer holds the block of its array, for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body's triple -/

set_option maxHeartbeats 1000000 in
/-- The kernel body on whole staging buffers, the inputs' at contents `x_j` and the output's at anything, runs to the
    continuation holding the inputs' as they were and the output's at `out3_3` of the inputs': the loads read the
    whole buffers, the one store overwrites the whole output buffer. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__affine_relu_kernel i arg1 harg1 arg2 harg2 arg3 harg3 arg4 harg4) K := by
  simp only [cc3__affine_relu_kernel_eq_skeleton]; unfold cc3__affine_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIFrame.Reg3.lean ====
import proofs.«131845_j5600637354059_1_alg».proof.Proof.KIFrame.RunBase
import proofs.«131845_j5600637354059_1_alg».proof.Proof.KIFrame.Body3

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- REGION 3 over the thread state: entered from every unscoped buffer at `W11`, left at `W12`. Its arrays are split
    out of the unscoped buffers and put back at the exit contents; the generator register goes into the pipeline's
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIFrame.Body4.lean ====
import proofs.«131845_j5600637354059_1_alg».proof.Proof.KIFrame.Data4
import proofs.«131845_j5600637354059_1_alg».proof.Proof.Gen.KernelIdeal.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 4 (`cc4__matmul_kernel`): the body's triple and the body obligation, at the entry contents `V` -/

/-! ## An input window's current staging buffer holds its block at every point -/

/-- Input window 0: fetched at this point or not (then its block index has not moved since the fetch), the current staging
    buffer holds the block of its array, for any proof data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1: fetched at this point or not (then its block index has not moved since the fetch), the current staging
    buffer holds the block of its array, for any proof data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body's triple -/

set_option maxHeartbeats 1000000 in
/-- The kernel body on whole staging buffers, the inputs' at contents `x_j` and the output's at anything, runs to the
    continuation holding the inputs' as they were and the output's at `out4_2` of the inputs': the loads read the
    whole buffers, the one store overwrites the whole output buffer. -/
theorem sound_kernel4 (c : Dev nD) (E : Set ℕ) (i : grid4.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's triple applies; the invariant and the
    core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KIFrame.Reg4.lean ====
import proofs.«131845_j5600637354059_1_alg».proof.Proof.KIFrame.RunBase
import proofs.«131845_j5600637354059_1_alg».proof.Proof.KIFrame.Body4

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- REGION 4 over the thread state: entered from every unscoped buffer at `W13`, left at `W14`. Its arrays are split
    out of the unscoped buffers and put back at the exit contents; the generator register goes into the pipeline's
    invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V13 m ρ) c).loose
  hwaits := Pipeline.hwaits_of_owed_zero _ _ _ _ L lv 4 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec4 c (V13 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V13 m ρ c) (V14 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIFrame.Body5.lean ====
import proofs.«131845_j5600637354059_1_alg».proof.Proof.KIFrame.Data5
import proofs.«131845_j5600637354059_1_alg».proof.Proof.Gen.KernelIdeal.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 5 (`cc5__affine_relu_kernel`): the body's triple and the body obligation, at the entry contents `V` -/

/-! ## An input window's current staging buffer holds its block at every point -/

/-- Input window 0: fetched at this point or not (then its block index has not moved since the fetch), the current staging
    buffer holds the block of its array, for any proof data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1: fetched at this point or not (then its block index has not moved since the fetch), the current staging
    buffer holds the block of its array, for any proof data whose array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2: fetched at this point or not (then its block index has not moved since the fetch), the current staging
    buffer holds the block of its array, for any proof data whose array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body's triple -/

set_option maxHeartbeats 1000000 in
/-- The kernel body on whole staging buffers, the inputs' at contents `x_j` and the output's at anything, runs to the
    continuation holding the inputs' as they were and the output's at `out5_3` of the inputs': the loads read the
    whole buffers, the one store overwrites the whole output buffer. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__affine_relu_kernel i arg1 harg1 arg2 harg2 arg3 harg3 arg4 harg4) K := by
  simp only [cc5__affine_relu_kernel_eq_skeleton]; unfold cc5__affine_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the body's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KIFrame.Reg5.lean ====
import proofs.«131845_j5600637354059_1_alg».proof.Proof.KIFrame.RunBase
import proofs.«131845_j5600637354059_1_alg».proof.Proof.KIFrame.Body5

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- REGION 5 over the thread state: entered from every unscoped buffer at `W17`, left at `W18`. Its arrays are split
    out of the unscoped buffers and put back at the exit contents; the generator register goes into the pipeline's
    invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V17 m ρ) c).loose
  hwaits := Pipeline.hwaits_of_owed_zero _ _ _ _ L lv 5 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec5 c (V17 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V17 m ρ c) (V18 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIFrame.Body6.lean ====
import proofs.«131845_j5600637354059_1_alg».proof.Proof.KIFrame.Data6
import proofs.«131845_j5600637354059_1_alg».proof.Proof.Gen.KernelIdeal.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 6 (`cc6__matmul_kernel`): the body's triple and the body obligation, at the entry contents `V` -/

/-! ## An input window's current staging buffer holds its block at every point -/

/-- Input window 0: fetched at this point or not (then its block index has not moved since the fetch), the current staging
    buffer holds the block of its array, for any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1: fetched at this point or not (then its block index has not moved since the fetch), the current staging
    buffer holds the block of its array, for any proof data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body's triple -/

set_option maxHeartbeats 1000000 in
/-- The kernel body on whole staging buffers, the inputs' at contents `x_j` and the output's at anything, runs to the
    continuation holding the inputs' as they were and the output's at `out6_2` of the inputs': the loads read the
    whole buffers, the one store overwrites the whole output buffer. -/
theorem sound_kernel6 (c : Dev nD) (E : Set ℕ) (i : grid6.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' buffers hold their blocks, so the body's triple applies; the invariant and the
    core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KIFrame.Reg6.lean ====
import proofs.«131845_j5600637354059_1_alg».proof.Proof.KIFrame.RunBase
import proofs.«131845_j5600637354059_1_alg».proof.Proof.KIFrame.Body6

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- REGION 6 over the thread state: entered from every unscoped buffer at `W19`, left at `W20`. Its arrays are split
    out of the unscoped buffers and put back at the exit contents; the generator register goes into the pipeline's
    invariant and comes out; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V19 m ρ) c).loose
  hwaits := Pipeline.hwaits_of_owed_zero _ _ _ _ L lv 6 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec6 c (V19 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V19 m ρ c) (V20 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIFrame.Body7.lean ====
import proofs.«131845_j5600637354059_1_alg».proof.Proof.KIFrame.Data7
import proofs.«131845_j5600637354059_1_alg».proof.Proof.Gen.KernelIdeal.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 7 (`cc7__affine_relu_kernel`): the body's triple and the body obligation, at the entry contents `V` -/

/-! ## An input window's current staging buffer holds its block at every point -/

/-- Input window 0: fetched at this point or not (then its block index has not moved since the fetch), the current staging
    buffer holds the block of its array, for any proof data whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1: fetched at this point or not (then its block index has not moved since the fetch), the current staging
    buffer holds the block of its array, for any proof data whose array is `V`'s and whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2: fetched at this point or not (then its block index has not moved since the fetch), the current staging
    buffer holds the block of its array, for any proof data whose array is `V`'s and whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body's triple -/

set_option maxHeartbeats 1000000 in
/-- The kernel body on whole staging buffers, the inputs' at contents `x_j` and the output's at anything, runs to the
    continuation holding the inputs' as they were and the output's at `out7_3` of the inputs': the loads read the
    whole buffers, the one store overwrites the whole output buffer. -/
theorem sound_kernel7 (c : Dev nD) (E : Set ℕ) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__affine_relu_kernel i arg1 harg1 arg2 harg2 arg3 harg3 arg4 harg4) K := by
  simp only [cc7__affine_relu_kernel_eq_skeleton]; unfold cc7__affine_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so the body's triple applies; the invariant and the
    core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KIFrame.Reg7.lean ====
import proofs.«131845_j5600637354059_1_alg».proof.Proof.KIFrame.RunBase
import proofs.«131845_j5600637354059_1_alg».proof.Proof.KIFrame.Body7

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- REGION 7 over the thread state: entered from every unscoped buffer at `W23`, left at `W24`. Its arrays are split
    out of the unscoped buffers and put back at the exit contents; the generator register goes into the pipeline's
    invariant and comes out; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V23 m ρ) c).loose
  hwaits := Pipeline.hwaits_of_owed_zero _ _ _ _ L lv 7 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec7 c (V23 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V23 m ρ c) (V24 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIFrame.Body8.lean ====
import proofs.«131845_j5600637354059_1_alg».proof.Proof.KIFrame.Data8
import proofs.«131845_j5600637354059_1_alg».proof.Proof.Gen.KernelIdeal.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 8 (`cc8__matmul_bias_kernel`): the body's triple and the body obligation, at the entry contents `V` -/

/-! ## An input window's current staging buffer holds its block at every point -/

/-- Input window 0: fetched at this point or not (then its block index has not moved since the fetch), the current staging
    buffer holds the block of its array, for any proof data whose array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1: fetched at this point or not (then its block index has not moved since the fetch), the current staging
    buffer holds the block of its array, for any proof data whose array is `V`'s and whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2: fetched at this point or not (then its block index has not moved since the fetch), the current staging
    buffer holds the block of its array, for any proof data whose array is `V`'s and whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body's triple -/

set_option maxHeartbeats 1000000 in
/-- The kernel body on whole staging buffers, the inputs' at contents `x_j` and the output's at anything, runs to the
    continuation holding the inputs' as they were and the output's at `out8_3` of the inputs': the loads read the
    whole buffers, the one store overwrites the whole output buffer. -/
theorem sound_kernel8 (c : Dev nD) (E : Set ℕ) (i : grid8.Coords) (arg1 : Memref sig .tc .vmem S5000x512 .f32) (harg1 : arg1.IsWhole) (arg2 : Memref sig .tc .vmem S512x40 .f32) (harg2 : arg2.IsWhole) (arg3 : Memref sig .tc .vmem S1x40 .f32) (harg3 : arg3.IsWhole) (arg4 : Memref sig .tc .vmem S5000x40 .f32) (harg4 : arg4.IsWhole)
    (x0 : Vec F S5000x512 .f32) (x1 : Vec F S512x40 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__matmul_bias_kernel i arg1 harg1 arg2 harg2 arg3 harg3 arg4 harg4) K := by
  simp only [cc8__matmul_bias_kernel_eq_skeleton]; unfold cc8__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' buffers hold their blocks, so the body's triple applies; the invariant and the
    core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KIFrame.Reg8.lean ====
import proofs.«131845_j5600637354059_1_alg».proof.Proof.KIFrame.RunBase
import proofs.«131845_j5600637354059_1_alg».proof.Proof.KIFrame.Body8

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- REGION 8 over the thread state: entered from every unscoped buffer at `W25`, left at `W26`. Its arrays are split
    out of the unscoped buffers and put back at the exit contents; the generator register goes into the pipeline's
    invariant and comes out; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V25 m ρ) c).loose
  hwaits := Pipeline.hwaits_of_owed_zero _ _ _ _ L lv 8 fun _ _ => rfl
  pre c := iprop(StableHlo.held (c : Thread nD τ) (Pipeline.ucRefs τ sig) (W25 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (V25 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V25 m ρ c) (V26 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KIFrame.Run.lean ====
import proofs.«131845_j5600637354059_1_alg».proof.Proof.KIFrame.Reg0
import proofs.«131845_j5600637354059_1_alg».proof.Proof.KIFrame.Reg1
import proofs.«131845_j5600637354059_1_alg».proof.Proof.KIFrame.Reg2
import proofs.«131845_j5600637354059_1_alg».proof.Proof.KIFrame.Reg3
import proofs.«131845_j5600637354059_1_alg».proof.Proof.KIFrame.Reg4
import proofs.«131845_j5600637354059_1_alg».proof.Proof.KIFrame.Reg5
import proofs.«131845_j5600637354059_1_alg».proof.Proof.KIFrame.Reg6
import proofs.«131845_j5600637354059_1_alg».proof.Proof.KIFrame.Reg7
import proofs.«131845_j5600637354059_1_alg».proof.Proof.KIFrame.Reg8

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # @main as segments, and the launch -/

/-- @main's 26 segments in order: a host segment per stretch from its boundary's contents, a region per kernel call. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .host (hseg hostOps3_1 hostOps3_1_sub hostOps3_1_fresh (W9 m ρ)),
    .host (hseg hostOps3_2 hostOps3_2_sub hostOps3_2_fresh (W10 m ρ)),
    .region (reg3 m ρ),
    .host (hseg hostOps4 hostOps4_sub hostOps4_fresh (W12 m ρ)),
    .region (reg4 m ρ),
    .host (hseg hostOps5 hostOps5_sub hostOps5_fresh (W14 m ρ)),
    .host (hseg hostOps5_1 hostOps5_1_sub hostOps5_1_fresh (W15 m ρ)),
    .host (hseg hostOps5_2 hostOps5_2_sub hostOps5_2_fresh (W16 m ρ)),
    .region (reg5 m ρ),
    .host (hseg hostOps6 hostOps6_sub hostOps6_fresh (W18 m ρ)),
    .region (reg6 m ρ),
    .host (hseg hostOps7 hostOps7_sub hostOps7_fresh (W20 m ρ)),
    .host (hseg hostOps7_1 hostOps7_1_sub hostOps7_1_fresh (W21 m ρ)),
    .host (hseg hostOps7_2 hostOps7_2_sub hostOps7_2_fresh (W22 m ρ)),
    .region (reg7 m ρ),
    .host (hseg hostOps8 hostOps8_sub hostOps8_fresh (W24 m ρ)),
    .region (reg8 m ρ) ]

/-- @main is the run of the segments: it is the chain of its items, and the segments' run is the same chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of @main on the TensorCores terminates,
    nothing faulting, and in every final state each unscoped buffer holds the last boundary's contents `W26`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W26 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c => h c)

/-- THE FRAME: every weakly fair execution of @main terminates, nothing faulting, and every final state has the
    argument arrays as launched: each argument's buffer read off the last contents, which no item changed. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W26_main_arg0 m ρ c),
    (h c _ (mem_uc main_arg1 (by decide))).trans (W26_main_arg1 m ρ c),
    (h c _ (mem_uc main_arg2 (by decide))).trans (W26_main_arg2 m ρ c),
    (h c _ (mem_uc main_arg3 (by decide))).trans (W26_main_arg3 m ρ c),
    (h c _ (mem_uc main_arg4 (by decide))).trans (W26_main_arg4 m ρ c),
    (h c _ (mem_uc main_arg5 (by decide))).trans (W26_main_arg5 m ρ c),
    (h c _ (mem_uc main_arg6 (by decide))).trans (W26_main_arg6 m ρ c),
    (h c _ (mem_uc main_arg7 (by decide))).trans (W26_main_arg7 m ρ c),
    (h c _ (mem_uc main_arg8 (by decide))).trans (W26_main_arg8 m ρ c),
    (h c _ (mem_uc main_arg9 (by decide))).trans (W26_main_arg9 m ρ c)⟩) (run_all m ρ)

end Cert.KernelIdeal.Hand

end
-- ==== Proof.Ref.Basic.lean ====
/- General facts about straight lines of host operations: a property of every operation of two lines holds of their concatenation; a chain of straight lines is the straight line of their concatenation; and the step that shows one operation's written buffer to be among a listed set of references. -/
import Idealize.ShloMosaic.Lib.StableHlo.Run
import Idealize.ShloMosaic.Lib.Pipeline.Regions
import Idealize.ShloMosaic.Lib.Pipeline.Frame

noncomputable section

namespace Cert.ReferenceIdeal.Hand

open Idealize.ShloMosaic Idealize.ShloMosaic.TcCoe Idealize.SL.Sem

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

section
variable {nD : Nat} {τ : Topo} {sig : RefSig} {Val : EltTy → Type} {Λ : Labels}

/-- Straight lines run one after the other are their concatenation run as one. -/
theorem chain_map_seq : ∀ ls : List (List (HloOp τ sig Val)),
    (Pipeline.chain (ls.map StableHlo.seq) : Prog (TpuEff nD τ sig Val Λ .tc) PUnit) = StableHlo.seq ls.flatten
  | [] => rfl
  | l :: ls => by
    rw [List.map_cons, Pipeline.chain_cons, chain_map_seq ls, List.flatten_cons, StableHlo.seq_append]
end

/-- One operation's written buffer is among the listed references: the builder's written set is the singleton of its
    result buffer, and that reference is found in the list by comparing references. -/
macro "writes_one" : tactic =>
  `(tactic| (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)))

end Cert.ReferenceIdeal.Hand

end
-- ==== Proof.Ref.Ops0.lean ====
/- The reference program's operations, stage by stage (part 0): each stage a literal list of the host operations in program order, a called function's operations listed at the call over that call's buffers. With each list: every operation touches TensorCore references only, and none leaves a result undetermined. -/
import proofs.«131845_j5600637354059_1_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]
/-- The edge lists with the self loops appended (source `main_v3`, target `main_v6`), the in-degree by a scatter-add of ones over the targets, its reciprocal square root, that vector gathered at the (wrapped) sources and at the (wrapped) targets, and the edge weight `main_v26`, their product. (33 operations, `main_v0` … `main_v26`.) -/
abbrev opsNorm : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S1700000 ![] bcast_S_S1700000 : (⟨S_, .i32⟩ : BufTy).Contents (Elt F) → (⟨S1700000, .i32⟩ : BufTy).Contents (Elt F)),
    StableHlo.binary main_v3 main_v12 main_v13 (cmpi .slt : (⟨S1700000, .i32⟩ : BufTy).Contents (Elt F) → (⟨S1700000, .i32⟩ : BufTy).Contents (Elt F) → (⟨S1700000, .i1⟩ : BufTy).Contents (Elt F)),
    StableHlo.nullary main_c_1 (constantI S_ 32 100000#32),
    StableHlo.unary main_c_1 main_v14 (broadcastInDim S1700000 ![] bcast_S_S1700000 : (⟨S_, .i32⟩ : BufTy).Contents (Elt F) → (⟨S1700000, .i32⟩ : BufTy).Contents (Elt F)),
    StableHlo.binary main_v3 main_v14 main_v15 (addi : (⟨S1700000, .i32⟩ : BufTy).Contents (Elt F) → (⟨S1700000, .i32⟩ : BufTy).Contents (Elt F) → (⟨S1700000, .i32⟩ : BufTy).Contents (Elt F)),
    StableHlo.ternary main_v13 main_v15 main_v3 main_v16 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v16 main_v17 (broadcastInDim S1700000x1 ![0] bcast_S1700000_S1700000x1_0 : (⟨S1700000, .i32⟩ : BufTy).Contents (Elt F) → (⟨S1700000x1, .i32⟩ : BufTy).Contents (Elt F)),
    StableHlo.binary main_v11 main_v17 main_v18 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_2 (constantI S_ 32 0#32),
    StableHlo.unary main_c_2 main_v19 (broadcastInDim S1700000 ![] bcast_S_S1700000 : (⟨S_, .i32⟩ : BufTy).Contents (Elt F) → (⟨S1700000, .i32⟩ : BufTy).Contents (Elt F)),
    StableHlo.binary main_v6 main_v19 main_v20 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v21 (broadcastInDim S1700000 ![] bcast_S_S1700000 : (⟨S_, .i32⟩ : BufTy).Contents (Elt F) → (⟨S1700000, .i32⟩ : BufTy).Contents (Elt F)),
    StableHlo.binary main_v6 main_v21 main_v22 (addi : (⟨S1700000, .i32⟩ : BufTy).Contents (Elt F) → (⟨S1700000, .i32⟩ : BufTy).Contents (Elt F) → (⟨S1700000, .i32⟩ : BufTy).Contents (Elt F)),
    StableHlo.ternary main_v20 main_v22 main_v6 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v23 main_v24 (broadcastInDim S1700000x1 ![0] bcast_S1700000_S1700000x1_0 : (⟨S1700000, .i32⟩ : BufTy).Contents (Elt F) → (⟨S1700000x1, .i32⟩ : BufTy).Contents (Elt F)),
    StableHlo.binary main_v11 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v18 main_v25 main_v26 (mulf : (⟨S1700000, .f32⟩ : BufTy).Contents (Elt F) → (⟨S1700000, .f32⟩ : BufTy).Contents (Elt F) → (⟨S1700000, .f32⟩ : BufTy).Contents (Elt F)) ]

theorem opsNorm_sub : (opsNorm : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

theorem opsNorm_fresh : (opsNorm : List (HloOp τ sig (Elt F))).Forall fun op => op.fresh = ∅ := by
  simp only [List.Forall]; repeat' constructor

/-- Layer 0's feature transform: the input features times the first weight matrix (`main_v27`). (1 operation, `main_v27` … `main_v27`.) -/
abbrev opsMm0 : List (HloOp τ sig (Elt F)) :=
  [ StableHlo.binary main_arg0 main_arg2 main_v27 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ]

theorem opsMm0_sub : (opsMm0 : List (HloOp τ sig (Elt F))).Forall fun op => op.bufs ⊆ StableHlo.tcRefs τ sig :=
  StableHlo.binary_bufs_sub ..

theorem opsMm0_fresh : (opsMm0 : List (HloOp τ sig (Elt F))).Forall fun op => op.fresh = ∅ := by
  simp only [List.Forall]; repeat' constructor

/-- Layer 0's aggregation: the transformed rows gathered at the (wrapped) sources, each scaled by its edge weight, summed into the target rows by a scatter-add over zeros, plus the bias row broadcast down the columns. (19 operations, `main_c_4` … `main_v43`.) -/
abbrev opsAgg0 : List (HloOp τ sig (Elt F)) :=
  [ StableHlo.nullary main_c_4 (constantI S_ 32 0#32),
    StableHlo.unary main_c_4 main_v28 (broadcastInDim S1700000 ![] bcast_S_S1700000 : (⟨S_, .i32⟩ : BufTy).Contents (Elt F) → (⟨S1700000, .i32⟩ : BufTy).Contents (Elt F)),
    StableHlo.binary main_v3 main_v28 main_v29 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v30 (broadcastInDim S1700000 ![] bcast_S_S1700000 : (⟨S_, .i32⟩ : BufTy).Contents (Elt F) → (⟨S1700000, .i32⟩ : BufTy).Contents (Elt F)),
    StableHlo.binary main_v3 main_v30 main_v31 (addi : (⟨S1700000, .i32⟩ : BufTy).Contents (Elt F) → (⟨S1700000, .i32⟩ : BufTy).Contents (Elt F) → (⟨S1700000, .i32⟩ : BufTy).Contents (Elt F)),
    StableHlo.ternary main_v29 main_v31 main_v3 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v32 main_v33 (broadcastInDim S1700000x1 ![0] bcast_S1700000_S1700000x1_0 : (⟨S1700000, .i32⟩ : BufTy).Contents (Elt F) → (⟨S1700000x1, .i32⟩ : BufTy).Contents (Elt F)),
    StableHlo.binary main_v27 main_v33 main_v34 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v26 main_v35 (broadcastInDim S1700000x1 ![0] bcast_S1700000_S1700000x1_0 : (⟨S1700000, .f32⟩ : BufTy).Contents (Elt F) → (⟨S1700000x1, .f32⟩ : BufTy).Contents (Elt F)),
    StableHlo.unary main_v35 main_v36 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v34 main_v36 main_v37 (mulf : (⟨S1700000x128, .f32⟩ : BufTy).Contents (Elt F) → (⟨S1700000x128, .f32⟩ : BufTy).Contents (Elt F) → (⟨S1700000x128, .f32⟩ : BufTy).Contents (Elt F)),
    StableHlo.nullary main_cst_6 (constant S_ .f32 0x00000000#32),
    StableHlo.unary main_cst_6 main_v38 (broadcastInDim S100000x128 ![] bcast_S_S100000x128 : (⟨S_, .f32⟩ : BufTy).Contents (Elt F) → (⟨S100000x128, .f32⟩ : BufTy).Contents (Elt F)),
    StableHlo.unary main_v6 main_v39 (broadcastInDim S1700000x1 ![0] bcast_S1700000_S1700000x1_0 : (⟨S1700000, .i32⟩ : BufTy).Contents (Elt F) → (⟨S1700000x1, .i32⟩ : BufTy).Contents (Elt F)),
    StableHlo.ternary main_v38 main_v39 main_v37 main_v40 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg3 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)) ]

theorem opsAgg0_sub : (opsAgg0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

theorem opsAgg0_fresh : (opsAgg0 : List (HloOp τ sig (Elt F))).Forall fun op => op.fresh = ∅ := by
  simp only [List.Forall]; repeat' constructor

/-- Layer 0's batch statistics: the scale and shift rows sliced out, the column sums of the aggregated array over 100000 rows divided by 100000 (the mean), and the variance: the column sums of the squared deviations from the mean divided by 100000 - 0, selected against a NaN row on 100000 - 0 > 0. (32 operations, `main_v44` … `main_v51`.) -/
abbrev opsStats0 : List (HloOp τ sig (Elt F)) :=
  [ StableHlo.unary main_arg6 main_v44 ((extractStridedSlice S1x128 ![0, 0] · slices_S4x128_S1x128_0_0) : (⟨S4x128, .f32⟩ : BufTy).Contents (Elt F) → (⟨S1x128, .f32⟩ : BufTy).Contents (Elt F)),
    StableHlo.reshape main_v44 main_v45 rfl shapeCasts_S1x128_S128,
    StableHlo.unary main_arg7 main_v46 ((extractStridedSlice S1x128 ![0, 0] · slices_S4x128_S1x128_0_0) : (⟨S4x128, .f32⟩ : BufTy).Contents (Elt F) → (⟨S1x128, .f32⟩ : BufTy).Contents (Elt F)),
    StableHlo.reshape main_v46 main_v47 rfl shapeCasts_S1x128_S128,
    StableHlo.nullary main_cst_7 (constant S_ .f32 0x00000000#32),
    StableHlo.binary main_v43 main_cst_7 main_v48 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_8 (constant S_ .f32 0x47C35000#32),
    StableHlo.unary main_cst_8 main_v49 (broadcastInDim S128 ![] bcast_S_S128 : (⟨S_, .f32⟩ : BufTy).Contents (Elt F) → (⟨S128, .f32⟩ : BufTy).Contents (Elt F)),
    StableHlo.binary main_v48 main_v49 main_v50 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32),
    StableHlo.TRef.nullary (.of main_call0_cst : StableHlo.TRef sig ⟨S_, .f32⟩) (constant S_ .f32 0x00000000#32),
    StableHlo.TRef.binary (.of main_v43 : StableHlo.TRef sig ⟨S100000x128, .f32⟩) (.of main_call0_cst : StableHlo.TRef sig ⟨S_, .f32⟩) (.of main_call0_v0 : StableHlo.TRef sig ⟨S128, .f32⟩) (fun x v => Host.reduceAdd x v reducesTo_S100000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S100000x128, .f32⟩) (broadcastInDim S100000x128 ![0, 1] bcast_S1x128_S100000x128_0_1),
    StableHlo.TRef.binary (.of main_v43 : StableHlo.TRef sig ⟨S100000x128, .f32⟩) (.of main_call0_v4 : StableHlo.TRef sig ⟨S100000x128, .f32⟩) (.of main_call0_v5 : StableHlo.TRef sig ⟨S100000x128, .f32⟩) subf,
    StableHlo.TRef.binary (.of main_call0_v5 : StableHlo.TRef sig ⟨S100000x128, .f32⟩) (.of main_call0_v5 : StableHlo.TRef sig ⟨S100000x128, .f32⟩) (.of main_call0_v6 : StableHlo.TRef sig ⟨S100000x128, .f32⟩) mulf,
    StableHlo.TRef.unary (.of main_c_9 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x128, .f32⟩) (.of main_call0_cst_2 : StableHlo.TRef sig ⟨S_, .f32⟩) (.of main_call0_v9 : StableHlo.TRef sig ⟨S128, .f32⟩) (fun x v => Host.reduceAdd x v reducesTo_S100000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v51 : StableHlo.TRef sig ⟨S128, .f32⟩) (fun p a b => select (broadcastInDim S128 ![] bcast_S_S128 p) a b) ]

theorem opsStats0_sub : (opsStats0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

theorem opsStats0_fresh : (opsStats0 : List (HloOp τ sig (Elt F))).Forall fun op => op.fresh = ∅ := by
  simp only [List.Forall]; repeat' constructor

/-- Layer 0's normalization: the aggregated array minus the mean row, times the reciprocal square root of variance + epsilon, times the scale row, plus the shift row, then the maximum with zero. (19 operations, `main_v52` … `main_v67`.) -/
abbrev opsBn0 : List (HloOp τ sig (Elt F)) :=
  [ StableHlo.unary main_v50 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v53 main_v54 (subf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3727C5AC#32),
    StableHlo.unary main_cst_10 main_v55 (broadcastInDim S128 ![] bcast_S_S128 : (⟨S_, .f32⟩ : BufTy).Contents (Elt F) → (⟨S128, .f32⟩ : BufTy).Contents (Elt F)),
    StableHlo.binary main_v51 main_v55 main_v56 (addf : (⟨S128, .f32⟩ : BufTy).Contents (Elt F) → (⟨S128, .f32⟩ : BufTy).Contents (Elt F) → (⟨S128, .f32⟩ : BufTy).Contents (Elt F)),
    StableHlo.unary main_v56 main_v57 (Host.rsqrt : (⟨S128, .f32⟩ : BufTy).Contents (Elt F) → (⟨S128, .f32⟩ : BufTy).Contents (Elt F)),
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v59 main_v60 (mulf : (⟨S100000x128, .f32⟩ : BufTy).Contents (Elt F) → (⟨S100000x128, .f32⟩ : BufTy).Contents (Elt F) → (⟨S100000x128, .f32⟩ : BufTy).Contents (Elt F)),
    StableHlo.unary main_v45 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (mulf : (⟨S100000x128, .f32⟩ : BufTy).Contents (Elt F) → (⟨S100000x128, .f32⟩ : BufTy).Contents (Elt F) → (⟨S100000x128, .f32⟩ : BufTy).Contents (Elt F)),
    StableHlo.unary main_v47 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v65 main_v66 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x128, .f32⟩) (broadcastInDim S100000x128 ![] bcast_S_S100000x128),
    StableHlo.TRef.binary (.of main_v66 : StableHlo.TRef sig ⟨S100000x128, .f32⟩) (.of main_call1_v0 : StableHlo.TRef sig ⟨S100000x128, .f32⟩) (.of main_v67 : StableHlo.TRef sig ⟨S100000x128, .f32⟩) maximumf ]

theorem opsBn0_sub : (opsBn0 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

theorem opsBn0_fresh : (opsBn0 : List (HloOp τ sig (Elt F))).Forall fun op => op.fresh = ∅ := by
  simp only [List.Forall]; repeat' constructor

end Cert.ReferenceIdeal.Hand

end
-- ==== Proof.Ref.Ops1.lean ====
/- The reference program's operations, stage by stage (part 1): each stage a literal list of the host operations in program order, a called function's operations listed at the call over that call's buffers. With each list: every operation touches TensorCore references only, and none leaves a result undetermined. -/
import proofs.«131845_j5600637354059_1_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]
/-- Layer 1's weight matrix and bias row, sliced out of the stacked parameters and reshaped, and the feature transform: the previous layer's output times the weight matrix. (5 operations, `main_v68` … `main_v72`.) -/
abbrev opsMm1 : List (HloOp τ sig (Elt F)) :=
  [ StableHlo.unary main_arg4 main_v68 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v68 main_v69 rfl shapeCasts_S1x128x128_S128x128,
    StableHlo.unary main_arg5 main_v70 ((extractStridedSlice S1x128 ![0, 0] · slices_S3x128_S1x128_0_0) : (⟨S3x128, .f32⟩ : BufTy).Contents (Elt F) → (⟨S1x128, .f32⟩ : BufTy).Contents (Elt F)),
    StableHlo.reshape main_v70 main_v71 rfl shapeCasts_S1x128_S128,
    StableHlo.binary main_v67 main_v69 main_v72 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

theorem opsMm1_sub : (opsMm1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub ..⟩

theorem opsMm1_fresh : (opsMm1 : List (HloOp τ sig (Elt F))).Forall fun op => op.fresh = ∅ := by
  simp only [List.Forall]; repeat' constructor

/-- Layer 1's aggregation: the transformed rows gathered at the (wrapped) sources, each scaled by its edge weight, summed into the target rows by a scatter-add over zeros, plus the bias row broadcast down the columns. (19 operations, `main_c_11` … `main_v88`.) -/
abbrev opsAgg1 : List (HloOp τ sig (Elt F)) :=
  [ StableHlo.nullary main_c_11 (constantI S_ 32 0#32),
    StableHlo.unary main_c_11 main_v73 (broadcastInDim S1700000 ![] bcast_S_S1700000 : (⟨S_, .i32⟩ : BufTy).Contents (Elt F) → (⟨S1700000, .i32⟩ : BufTy).Contents (Elt F)),
    StableHlo.binary main_v3 main_v73 main_v74 (cmpi .slt : (⟨S1700000, .i32⟩ : BufTy).Contents (Elt F) → (⟨S1700000, .i32⟩ : BufTy).Contents (Elt F) → (⟨S1700000, .i1⟩ : BufTy).Contents (Elt F)),
    StableHlo.nullary main_c_12 (constantI S_ 32 100000#32),
    StableHlo.unary main_c_12 main_v75 (broadcastInDim S1700000 ![] bcast_S_S1700000 : (⟨S_, .i32⟩ : BufTy).Contents (Elt F) → (⟨S1700000, .i32⟩ : BufTy).Contents (Elt F)),
    StableHlo.binary main_v3 main_v75 main_v76 (addi : (⟨S1700000, .i32⟩ : BufTy).Contents (Elt F) → (⟨S1700000, .i32⟩ : BufTy).Contents (Elt F) → (⟨S1700000, .i32⟩ : BufTy).Contents (Elt F)),
    StableHlo.ternary main_v74 main_v76 main_v3 main_v77 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v77 main_v78 (broadcastInDim S1700000x1 ![0] bcast_S1700000_S1700000x1_0 : (⟨S1700000, .i32⟩ : BufTy).Contents (Elt F) → (⟨S1700000x1, .i32⟩ : BufTy).Contents (Elt F)),
    StableHlo.binary main_v72 main_v78 main_v79 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v26 main_v80 (broadcastInDim S1700000x1 ![0] bcast_S1700000_S1700000x1_0 : (⟨S1700000, .f32⟩ : BufTy).Contents (Elt F) → (⟨S1700000x1, .f32⟩ : BufTy).Contents (Elt F)),
    StableHlo.unary main_v80 main_v81 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v79 main_v81 main_v82 (mulf : (⟨S1700000x128, .f32⟩ : BufTy).Contents (Elt F) → (⟨S1700000x128, .f32⟩ : BufTy).Contents (Elt F) → (⟨S1700000x128, .f32⟩ : BufTy).Contents (Elt F)),
    StableHlo.nullary main_cst_13 (constant S_ .f32 0x00000000#32),
    StableHlo.unary main_cst_13 main_v83 (broadcastInDim S100000x128 ![] bcast_S_S100000x128 : (⟨S_, .f32⟩ : BufTy).Contents (Elt F) → (⟨S100000x128, .f32⟩ : BufTy).Contents (Elt F)),
    StableHlo.unary main_v6 main_v84 (broadcastInDim S1700000x1 ![0] bcast_S1700000_S1700000x1_0 : (⟨S1700000, .i32⟩ : BufTy).Contents (Elt F) → (⟨S1700000x1, .i32⟩ : BufTy).Contents (Elt F)),
    StableHlo.ternary main_v83 main_v84 main_v82 main_v85 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_v71 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S100000x128 ![0, 1] bcast_S1x128_S100000x128_0_1 : (⟨S1x128, .f32⟩ : BufTy).Contents (Elt F) → (⟨S100000x128, .f32⟩ : BufTy).Contents (Elt F)),
    StableHlo.binary main_v85 main_v87 main_v88 (addf : (⟨S100000x128, .f32⟩ : BufTy).Contents (Elt F) → (⟨S100000x128, .f32⟩ : BufTy).Contents (Elt F) → (⟨S100000x128, .f32⟩ : BufTy).Contents (Elt F)) ]

theorem opsAgg1_sub : (opsAgg1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

theorem opsAgg1_fresh : (opsAgg1 : List (HloOp τ sig (Elt F))).Forall fun op => op.fresh = ∅ := by
  simp only [List.Forall]; repeat' constructor

/-- Layer 1's batch statistics: the scale and shift rows sliced out, the column sums of the aggregated array over 100000 rows divided by 100000 (the mean), and the variance: the column sums of the squared deviations from the mean divided by 100000 - 0, selected against a NaN row on 100000 - 0 > 0. (32 operations, `main_v89` … `main_v96`.) -/
abbrev opsStats1 : List (HloOp τ sig (Elt F)) :=
  [ StableHlo.unary main_arg6 main_v89 ((extractStridedSlice S1x128 ![1, 0] · slices_S4x128_S1x128_1_0) : (⟨S4x128, .f32⟩ : BufTy).Contents (Elt F) → (⟨S1x128, .f32⟩ : BufTy).Contents (Elt F)),
    StableHlo.reshape main_v89 main_v90 rfl shapeCasts_S1x128_S128,
    StableHlo.unary main_arg7 main_v91 ((extractStridedSlice S1x128 ![1, 0] · slices_S4x128_S1x128_1_0) : (⟨S4x128, .f32⟩ : BufTy).Contents (Elt F) → (⟨S1x128, .f32⟩ : BufTy).Contents (Elt F)),
    StableHlo.reshape main_v91 main_v92 rfl shapeCasts_S1x128_S128,
    StableHlo.nullary main_cst_14 (constant S_ .f32 0x00000000#32),
    StableHlo.binary main_v88 main_cst_14 main_v93 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_15 (constant S_ .f32 0x47C35000#32),
    StableHlo.unary main_cst_15 main_v94 (broadcastInDim S128 ![] bcast_S_S128 : (⟨S_, .f32⟩ : BufTy).Contents (Elt F) → (⟨S128, .f32⟩ : BufTy).Contents (Elt F)),
    StableHlo.binary main_v93 main_v94 main_v95 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary (.of main_call2_cst : StableHlo.TRef sig ⟨S_, .f32⟩) (constant S_ .f32 0x00000000#32),
    StableHlo.TRef.binary (.of main_v88 : StableHlo.TRef sig ⟨S100000x128, .f32⟩) (.of main_call2_cst : StableHlo.TRef sig ⟨S_, .f32⟩) (.of main_call2_v0 : StableHlo.TRef sig ⟨S128, .f32⟩) (fun x v => Host.reduceAdd x v reducesTo_S100000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S100000x128, .f32⟩) (broadcastInDim S100000x128 ![0, 1] bcast_S1x128_S100000x128_0_1),
    StableHlo.TRef.binary (.of main_v88 : StableHlo.TRef sig ⟨S100000x128, .f32⟩) (.of main_call2_v4 : StableHlo.TRef sig ⟨S100000x128, .f32⟩) (.of main_call2_v5 : StableHlo.TRef sig ⟨S100000x128, .f32⟩) subf,
    StableHlo.TRef.binary (.of main_call2_v5 : StableHlo.TRef sig ⟨S100000x128, .f32⟩) (.of main_call2_v5 : StableHlo.TRef sig ⟨S100000x128, .f32⟩) (.of main_call2_v6 : StableHlo.TRef sig ⟨S100000x128, .f32⟩) mulf,
    StableHlo.TRef.unary (.of main_c_16 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x128, .f32⟩) (.of main_call2_cst_2 : StableHlo.TRef sig ⟨S_, .f32⟩) (.of main_call2_v9 : StableHlo.TRef sig ⟨S128, .f32⟩) (fun x v => Host.reduceAdd x v reducesTo_S100000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v96 : StableHlo.TRef sig ⟨S128, .f32⟩) (fun p a b => select (broadcastInDim S128 ![] bcast_S_S128 p) a b) ]

theorem opsStats1_sub : (opsStats1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

theorem opsStats1_fresh : (opsStats1 : List (HloOp τ sig (Elt F))).Forall fun op => op.fresh = ∅ := by
  simp only [List.Forall]; repeat' constructor

/-- Layer 1's normalization: the aggregated array minus the mean row, times the reciprocal square root of variance + epsilon, times the scale row, plus the shift row, then the maximum with zero. (19 operations, `main_v97` … `main_v112`.) -/
abbrev opsBn1 : List (HloOp τ sig (Elt F)) :=
  [ StableHlo.unary main_v95 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S100000x128 ![0, 1] bcast_S1x128_S100000x128_0_1 : (⟨S1x128, .f32⟩ : BufTy).Contents (Elt F) → (⟨S100000x128, .f32⟩ : BufTy).Contents (Elt F)),
    StableHlo.binary main_v88 main_v98 main_v99 (subf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x3727C5AC#32),
    StableHlo.unary main_cst_17 main_v100 (broadcastInDim S128 ![] bcast_S_S128 : (⟨S_, .f32⟩ : BufTy).Contents (Elt F) → (⟨S128, .f32⟩ : BufTy).Contents (Elt F)),
    StableHlo.binary main_v96 main_v100 main_v101 (addf : (⟨S128, .f32⟩ : BufTy).Contents (Elt F) → (⟨S128, .f32⟩ : BufTy).Contents (Elt F) → (⟨S128, .f32⟩ : BufTy).Contents (Elt F)),
    StableHlo.unary main_v101 main_v102 (Host.rsqrt : (⟨S128, .f32⟩ : BufTy).Contents (Elt F) → (⟨S128, .f32⟩ : BufTy).Contents (Elt F)),
    StableHlo.unary main_v102 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S100000x128 ![0, 1] bcast_S1x128_S100000x128_0_1 : (⟨S1x128, .f32⟩ : BufTy).Contents (Elt F) → (⟨S100000x128, .f32⟩ : BufTy).Contents (Elt F)),
    StableHlo.binary main_v99 main_v104 main_v105 (mulf : (⟨S100000x128, .f32⟩ : BufTy).Contents (Elt F) → (⟨S100000x128, .f32⟩ : BufTy).Contents (Elt F) → (⟨S100000x128, .f32⟩ : BufTy).Contents (Elt F)),
    StableHlo.unary main_v90 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S100000x128 ![0, 1] bcast_S1x128_S100000x128_0_1 : (⟨S1x128, .f32⟩ : BufTy).Contents (Elt F) → (⟨S100000x128, .f32⟩ : BufTy).Contents (Elt F)),
    StableHlo.binary main_v105 main_v107 main_v108 (mulf : (⟨S100000x128, .f32⟩ : BufTy).Contents (Elt F) → (⟨S100000x128, .f32⟩ : BufTy).Contents (Elt F) → (⟨S100000x128, .f32⟩ : BufTy).Contents (Elt F)),
    StableHlo.unary main_v92 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S100000x128 ![0, 1] bcast_S1x128_S100000x128_0_1 : (⟨S1x128, .f32⟩ : BufTy).Contents (Elt F) → (⟨S100000x128, .f32⟩ : BufTy).Contents (Elt F)),
    StableHlo.binary main_v108 main_v110 main_v111 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x128, .f32⟩) (broadcastInDim S100000x128 ![] bcast_S_S100000x128),
    StableHlo.TRef.binary (.of main_v111 : StableHlo.TRef sig ⟨S100000x128, .f32⟩) (.of main_call3_v0 : StableHlo.TRef sig ⟨S100000x128, .f32⟩) (.of main_v112 : StableHlo.TRef sig ⟨S100000x128, .f32⟩) maximumf ]

theorem opsBn1_sub : (opsBn1 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

theorem opsBn1_fresh : (opsBn1 : List (HloOp τ sig (Elt F))).Forall fun op => op.fresh = ∅ := by
  simp only [List.Forall]; repeat' constructor

end Cert.ReferenceIdeal.Hand

end
-- ==== Proof.Ref.Ops2.lean ====
/- The reference program's operations, stage by stage (part 2): each stage a literal list of the host operations in program order, a called function's operations listed at the call over that call's buffers. With each list: every operation touches TensorCore references only, and none leaves a result undetermined. -/
import proofs.«131845_j5600637354059_1_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]
/-- Layer 2's weight matrix and bias row, sliced out of the stacked parameters and reshaped, and the feature transform: the previous layer's output times the weight matrix. (5 operations, `main_v113` … `main_v117`.) -/
abbrev opsMm2 : List (HloOp τ sig (Elt F)) :=
  [ StableHlo.unary main_arg4 main_v113 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v113 main_v114 rfl shapeCasts_S1x128x128_S128x128,
    StableHlo.unary main_arg5 main_v115 ((extractStridedSlice S1x128 ![1, 0] · slices_S3x128_S1x128_1_0) : (⟨S3x128, .f32⟩ : BufTy).Contents (Elt F) → (⟨S1x128, .f32⟩ : BufTy).Contents (Elt F)),
    StableHlo.reshape main_v115 main_v116 rfl shapeCasts_S1x128_S128,
    StableHlo.binary main_v112 main_v114 main_v117 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

theorem opsMm2_sub : (opsMm2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub ..⟩

theorem opsMm2_fresh : (opsMm2 : List (HloOp τ sig (Elt F))).Forall fun op => op.fresh = ∅ := by
  simp only [List.Forall]; repeat' constructor

/-- Layer 2's aggregation: the transformed rows gathered at the (wrapped) sources, each scaled by its edge weight, summed into the target rows by a scatter-add over zeros, plus the bias row broadcast down the columns. (19 operations, `main_c_18` … `main_v133`.) -/
abbrev opsAgg2 : List (HloOp τ sig (Elt F)) :=
  [ StableHlo.nullary main_c_18 (constantI S_ 32 0#32),
    StableHlo.unary main_c_18 main_v118 (broadcastInDim S1700000 ![] bcast_S_S1700000 : (⟨S_, .i32⟩ : BufTy).Contents (Elt F) → (⟨S1700000, .i32⟩ : BufTy).Contents (Elt F)),
    StableHlo.binary main_v3 main_v118 main_v119 (cmpi .slt : (⟨S1700000, .i32⟩ : BufTy).Contents (Elt F) → (⟨S1700000, .i32⟩ : BufTy).Contents (Elt F) → (⟨S1700000, .i1⟩ : BufTy).Contents (Elt F)),
    StableHlo.nullary main_c_19 (constantI S_ 32 100000#32),
    StableHlo.unary main_c_19 main_v120 (broadcastInDim S1700000 ![] bcast_S_S1700000 : (⟨S_, .i32⟩ : BufTy).Contents (Elt F) → (⟨S1700000, .i32⟩ : BufTy).Contents (Elt F)),
    StableHlo.binary main_v3 main_v120 main_v121 (addi : (⟨S1700000, .i32⟩ : BufTy).Contents (Elt F) → (⟨S1700000, .i32⟩ : BufTy).Contents (Elt F) → (⟨S1700000, .i32⟩ : BufTy).Contents (Elt F)),
    StableHlo.ternary main_v119 main_v121 main_v3 main_v122 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v122 main_v123 (broadcastInDim S1700000x1 ![0] bcast_S1700000_S1700000x1_0 : (⟨S1700000, .i32⟩ : BufTy).Contents (Elt F) → (⟨S1700000x1, .i32⟩ : BufTy).Contents (Elt F)),
    StableHlo.binary main_v117 main_v123 main_v124 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v26 main_v125 (broadcastInDim S1700000x1 ![0] bcast_S1700000_S1700000x1_0 : (⟨S1700000, .f32⟩ : BufTy).Contents (Elt F) → (⟨S1700000x1, .f32⟩ : BufTy).Contents (Elt F)),
    StableHlo.unary main_v125 main_v126 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v124 main_v126 main_v127 (mulf : (⟨S1700000x128, .f32⟩ : BufTy).Contents (Elt F) → (⟨S1700000x128, .f32⟩ : BufTy).Contents (Elt F) → (⟨S1700000x128, .f32⟩ : BufTy).Contents (Elt F)),
    StableHlo.nullary main_cst_20 (constant S_ .f32 0x00000000#32),
    StableHlo.unary main_cst_20 main_v128 (broadcastInDim S100000x128 ![] bcast_S_S100000x128 : (⟨S_, .f32⟩ : BufTy).Contents (Elt F) → (⟨S100000x128, .f32⟩ : BufTy).Contents (Elt F)),
    StableHlo.unary main_v6 main_v129 (broadcastInDim S1700000x1 ![0] bcast_S1700000_S1700000x1_0 : (⟨S1700000, .i32⟩ : BufTy).Contents (Elt F) → (⟨S1700000x1, .i32⟩ : BufTy).Contents (Elt F)),
    StableHlo.ternary main_v128 main_v129 main_v127 main_v130 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_v116 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S100000x128 ![0, 1] bcast_S1x128_S100000x128_0_1 : (⟨S1x128, .f32⟩ : BufTy).Contents (Elt F) → (⟨S100000x128, .f32⟩ : BufTy).Contents (Elt F)),
    StableHlo.binary main_v130 main_v132 main_v133 (addf : (⟨S100000x128, .f32⟩ : BufTy).Contents (Elt F) → (⟨S100000x128, .f32⟩ : BufTy).Contents (Elt F) → (⟨S100000x128, .f32⟩ : BufTy).Contents (Elt F)) ]

theorem opsAgg2_sub : (opsAgg2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

theorem opsAgg2_fresh : (opsAgg2 : List (HloOp τ sig (Elt F))).Forall fun op => op.fresh = ∅ := by
  simp only [List.Forall]; repeat' constructor

/-- Layer 2's batch statistics: the scale and shift rows sliced out, the column sums of the aggregated array over 100000 rows divided by 100000 (the mean), and the variance: the column sums of the squared deviations from the mean divided by 100000 - 0, selected against a NaN row on 100000 - 0 > 0. (32 operations, `main_v134` … `main_v141`.) -/
abbrev opsStats2 : List (HloOp τ sig (Elt F)) :=
  [ StableHlo.unary main_arg6 main_v134 ((extractStridedSlice S1x128 ![2, 0] · slices_S4x128_S1x128_2_0) : (⟨S4x128, .f32⟩ : BufTy).Contents (Elt F) → (⟨S1x128, .f32⟩ : BufTy).Contents (Elt F)),
    StableHlo.reshape main_v134 main_v135 rfl shapeCasts_S1x128_S128,
    StableHlo.unary main_arg7 main_v136 ((extractStridedSlice S1x128 ![2, 0] · slices_S4x128_S1x128_2_0) : (⟨S4x128, .f32⟩ : BufTy).Contents (Elt F) → (⟨S1x128, .f32⟩ : BufTy).Contents (Elt F)),
    StableHlo.reshape main_v136 main_v137 rfl shapeCasts_S1x128_S128,
    StableHlo.nullary main_cst_21 (constant S_ .f32 0x00000000#32),
    StableHlo.binary main_v133 main_cst_21 main_v138 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_22 (constant S_ .f32 0x47C35000#32),
    StableHlo.unary main_cst_22 main_v139 (broadcastInDim S128 ![] bcast_S_S128 : (⟨S_, .f32⟩ : BufTy).Contents (Elt F) → (⟨S128, .f32⟩ : BufTy).Contents (Elt F)),
    StableHlo.binary main_v138 main_v139 main_v140 (Host.divf : (⟨S128, .f32⟩ : BufTy).Contents (Elt F) → (⟨S128, .f32⟩ : BufTy).Contents (Elt F) → (⟨S128, .f32⟩ : BufTy).Contents (Elt F)),
    StableHlo.nullary main_c_23 (constantI S_ 32 0#32),
    StableHlo.TRef.nullary (.of main_call4_cst : StableHlo.TRef sig ⟨S_, .f32⟩) (constant S_ .f32 0x00000000#32),
    StableHlo.TRef.binary (.of main_v133 : StableHlo.TRef sig ⟨S100000x128, .f32⟩) (.of main_call4_cst : StableHlo.TRef sig ⟨S_, .f32⟩) (.of main_call4_v0 : StableHlo.TRef sig ⟨S128, .f32⟩) (fun x v => Host.reduceAdd x v reducesTo_S100000x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x47C35000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S100000x128, .f32⟩) (broadcastInDim S100000x128 ![0, 1] bcast_S1x128_S100000x128_0_1),
    StableHlo.TRef.binary (.of main_v133 : StableHlo.TRef sig ⟨S100000x128, .f32⟩) (.of main_call4_v4 : StableHlo.TRef sig ⟨S100000x128, .f32⟩) (.of main_call4_v5 : StableHlo.TRef sig ⟨S100000x128, .f32⟩) subf,
    StableHlo.TRef.binary (.of main_call4_v5 : StableHlo.TRef sig ⟨S100000x128, .f32⟩) (.of main_call4_v5 : StableHlo.TRef sig ⟨S100000x128, .f32⟩) (.of main_call4_v6 : StableHlo.TRef sig ⟨S100000x128, .f32⟩) mulf,
    StableHlo.TRef.unary (.of main_c_23 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47C35000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S100000x128, .f32⟩) (.of main_call4_cst_2 : StableHlo.TRef sig ⟨S_, .f32⟩) (.of main_call4_v9 : StableHlo.TRef sig ⟨S128, .f32⟩) (fun x v => Host.reduceAdd x v reducesTo_S100000x128_S128_d0 h_S_),
    StableHlo.TRef.unary (.of main_call4_v8 : StableHlo.TRef sig ⟨S_, .f32⟩) (.of main_call4_v10 : StableHlo.TRef sig ⟨S128, .f32⟩) (broadcastInDim S128 ![] bcast_S_S128),
    StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128, .f32⟩) (broadcastInDim S128 ![] bcast_S_S128),
    StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v141 : StableHlo.TRef sig ⟨S128, .f32⟩) (fun p a b => select (broadcastInDim S128 ![] bcast_S_S128 p) a b) ]

theorem opsStats2_sub : (opsStats2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

theorem opsStats2_fresh : (opsStats2 : List (HloOp τ sig (Elt F))).Forall fun op => op.fresh = ∅ := by
  simp only [List.Forall]; repeat' constructor

/-- Layer 2's normalization: the aggregated array minus the mean row, times the reciprocal square root of variance + epsilon, times the scale row, plus the shift row, then the maximum with zero. (19 operations, `main_v142` … `main_v157`.) -/
abbrev opsBn2 : List (HloOp τ sig (Elt F)) :=
  [ StableHlo.unary main_v140 main_v142 (broadcastInDim S1x128 ![1] bcast_S128_S1x128_1 : (⟨S128, .f32⟩ : BufTy).Contents (Elt F) → (⟨S1x128, .f32⟩ : BufTy).Contents (Elt F)),
    StableHlo.unary main_v142 main_v143 (broadcastInDim S100000x128 ![0, 1] bcast_S1x128_S100000x128_0_1 : (⟨S1x128, .f32⟩ : BufTy).Contents (Elt F) → (⟨S100000x128, .f32⟩ : BufTy).Contents (Elt F)),
    StableHlo.binary main_v133 main_v143 main_v144 (subf : (⟨S100000x128, .f32⟩ : BufTy).Contents (Elt F) → (⟨S100000x128, .f32⟩ : BufTy).Contents (Elt F) → (⟨S100000x128, .f32⟩ : BufTy).Contents (Elt F)),
    StableHlo.nullary main_cst_24 (constant S_ .f32 0x3727C5AC#32),
    StableHlo.unary main_cst_24 main_v145 (broadcastInDim S128 ![] bcast_S_S128 : (⟨S_, .f32⟩ : BufTy).Contents (Elt F) → (⟨S128, .f32⟩ : BufTy).Contents (Elt F)),
    StableHlo.binary main_v141 main_v145 main_v146 (addf : (⟨S128, .f32⟩ : BufTy).Contents (Elt F) → (⟨S128, .f32⟩ : BufTy).Contents (Elt F) → (⟨S128, .f32⟩ : BufTy).Contents (Elt F)),
    StableHlo.unary main_v146 main_v147 (Host.rsqrt : (⟨S128, .f32⟩ : BufTy).Contents (Elt F) → (⟨S128, .f32⟩ : BufTy).Contents (Elt F)),
    StableHlo.unary main_v147 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S100000x128 ![0, 1] bcast_S1x128_S100000x128_0_1 : (⟨S1x128, .f32⟩ : BufTy).Contents (Elt F) → (⟨S100000x128, .f32⟩ : BufTy).Contents (Elt F)),
    StableHlo.binary main_v144 main_v149 main_v150 (mulf : (⟨S100000x128, .f32⟩ : BufTy).Contents (Elt F) → (⟨S100000x128, .f32⟩ : BufTy).Contents (Elt F) → (⟨S100000x128, .f32⟩ : BufTy).Contents (Elt F)),
    StableHlo.unary main_v135 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S100000x128 ![0, 1] bcast_S1x128_S100000x128_0_1 : (⟨S1x128, .f32⟩ : BufTy).Contents (Elt F) → (⟨S100000x128, .f32⟩ : BufTy).Contents (Elt F)),
    StableHlo.binary main_v150 main_v152 main_v153 (mulf : (⟨S100000x128, .f32⟩ : BufTy).Contents (Elt F) → (⟨S100000x128, .f32⟩ : BufTy).Contents (Elt F) → (⟨S100000x128, .f32⟩ : BufTy).Contents (Elt F)),
    StableHlo.unary main_v137 main_v154 (broadcastInDim S1x128 ![1] bcast_S128_S1x128_1 : (⟨S128, .f32⟩ : BufTy).Contents (Elt F) → (⟨S1x128, .f32⟩ : BufTy).Contents (Elt F)),
    StableHlo.unary main_v154 main_v155 (broadcastInDim S100000x128 ![0, 1] bcast_S1x128_S100000x128_0_1 : (⟨S1x128, .f32⟩ : BufTy).Contents (Elt F) → (⟨S100000x128, .f32⟩ : BufTy).Contents (Elt F)),
    StableHlo.binary main_v153 main_v155 main_v156 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S100000x128, .f32⟩) (broadcastInDim S100000x128 ![] bcast_S_S100000x128),
    StableHlo.TRef.binary (.of main_v156 : StableHlo.TRef sig ⟨S100000x128, .f32⟩) (.of main_call5_v0 : StableHlo.TRef sig ⟨S100000x128, .f32⟩) (.of main_v157 : StableHlo.TRef sig ⟨S100000x128, .f32⟩) maximumf ]

theorem opsBn2_sub : (opsBn2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

theorem opsBn2_fresh : (opsBn2 : List (HloOp τ sig (Elt F))).Forall fun op => op.fresh = ∅ := by
  simp only [List.Forall]; repeat' constructor

end Cert.ReferenceIdeal.Hand

end
-- ==== Proof.Ref.Ops3.lean ====
/- The reference program's operations, stage by stage (part 3): each stage a literal list of the host operations in program order, a called function's operations listed at the call over that call's buffers. With each list: every operation touches TensorCore references only, and none leaves a result undetermined. -/
import proofs.«131845_j5600637354059_1_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]
/-- Layer 3's weight matrix and bias row, sliced out of the stacked parameters and reshaped, and the feature transform: the previous layer's output times the weight matrix. (5 operations, `main_v158` … `main_v162`.) -/
abbrev opsMm3 : List (HloOp τ sig (Elt F)) :=
  [ StableHlo.unary main_arg4 main_v158 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v158 main_v159 rfl shapeCasts_S1x128x128_S128x128,
    StableHlo.unary main_arg5 main_v160 ((extractStridedSlice S1x128 ![2, 0] · slices_S3x128_S1x128_2_0) : (⟨S3x128, .f32⟩ : BufTy).Contents (Elt F) → (⟨S1x128, .f32⟩ : BufTy).Contents (Elt F)),
    StableHlo.reshape main_v160 main_v161 rfl shapeCasts_S1x128_S128,
    StableHlo.binary main_v157 main_v159 main_v162 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

theorem opsMm3_sub : (opsMm3 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub ..⟩

theorem opsMm3_fresh : (opsMm3 : List (HloOp τ sig (Elt F))).Forall fun op => op.fresh = ∅ := by
  simp only [List.Forall]; repeat' constructor

/-- Layer 3's aggregation: the transformed rows gathered at the (wrapped) sources, each scaled by its edge weight, summed into the target rows by a scatter-add over zeros, plus the bias row broadcast down the columns. (19 operations, `main_c_25` … `main_v178`.) -/
abbrev opsAgg3 : List (HloOp τ sig (Elt F)) :=
  [ StableHlo.nullary main_c_25 (constantI S_ 32 0#32),
    StableHlo.unary main_c_25 main_v163 (broadcastInDim S1700000 ![] bcast_S_S1700000 : (⟨S_, .i32⟩ : BufTy).Contents (Elt F) → (⟨S1700000, .i32⟩ : BufTy).Contents (Elt F)),
    StableHlo.binary main_v3 main_v163 main_v164 (cmpi .slt : (⟨S1700000, .i32⟩ : BufTy).Contents (Elt F) → (⟨S1700000, .i32⟩ : BufTy).Contents (Elt F) → (⟨S1700000, .i1⟩ : BufTy).Contents (Elt F)),
    StableHlo.nullary main_c_26 (constantI S_ 32 100000#32),
    StableHlo.unary main_c_26 main_v165 (broadcastInDim S1700000 ![] bcast_S_S1700000 : (⟨S_, .i32⟩ : BufTy).Contents (Elt F) → (⟨S1700000, .i32⟩ : BufTy).Contents (Elt F)),
    StableHlo.binary main_v3 main_v165 main_v166 (addi : (⟨S1700000, .i32⟩ : BufTy).Contents (Elt F) → (⟨S1700000, .i32⟩ : BufTy).Contents (Elt F) → (⟨S1700000, .i32⟩ : BufTy).Contents (Elt F)),
    StableHlo.ternary main_v164 main_v166 main_v3 main_v167 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v167 main_v168 (broadcastInDim S1700000x1 ![0] bcast_S1700000_S1700000x1_0 : (⟨S1700000, .i32⟩ : BufTy).Contents (Elt F) → (⟨S1700000x1, .i32⟩ : BufTy).Contents (Elt F)),
    StableHlo.binary main_v162 main_v168 main_v169 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v26 main_v170 (broadcastInDim S1700000x1 ![0] bcast_S1700000_S1700000x1_0 : (⟨S1700000, .f32⟩ : BufTy).Contents (Elt F) → (⟨S1700000x1, .f32⟩ : BufTy).Contents (Elt F)),
    StableHlo.unary main_v170 main_v171 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v169 main_v171 main_v172 (mulf : (⟨S1700000x128, .f32⟩ : BufTy).Contents (Elt F) → (⟨S1700000x128, .f32⟩ : BufTy).Contents (Elt F) → (⟨S1700000x128, .f32⟩ : BufTy).Contents (Elt F)),
    StableHlo.nullary main_cst_27 (constant S_ .f32 0x00000000#32),
    StableHlo.unary main_cst_27 main_v173 (broadcastInDim S100000x128 ![] bcast_S_S100000x128 : (⟨S_, .f32⟩ : BufTy).Contents (Elt F) → (⟨S100000x128, .f32⟩ : BufTy).Contents (Elt F)),
    StableHlo.unary main_v6 main_v174 (broadcastInDim S1700000x1 ![0] bcast_S1700000_S1700000x1_0 : (⟨S1700000, .i32⟩ : BufTy).Contents (Elt F) → (⟨S1700000x1, .i32⟩ : BufTy).Contents (Elt F)),
    StableHlo.ternary main_v173 main_v174 main_v172 main_v175 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_v161 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S100000x128 ![0, 1] bcast_S1x128_S100000x128_0_1 : (⟨S1x128, .f32⟩ : BufTy).Contents (Elt F) → (⟨S100000x128, .f32⟩ : BufTy).Contents (Elt F)),
    StableHlo.binary main_v175 main_v177 main_v178 (addf : (⟨S100000x128, .f32⟩ : BufTy).Contents (Elt F) → (⟨S100000x128, .f32⟩ : BufTy).Contents (Elt F) → (⟨S100000x128, .f32⟩ : BufTy).Contents (Elt F)) ]

theorem opsAgg3_sub : (opsAgg3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

theorem opsAgg3_fresh : (opsAgg3 : List (HloOp τ sig (Elt F))).Forall fun op => op.fresh = ∅ := by
  simp only [List.Forall]; repeat' constructor

/-- Layer 3's batch statistics: the scale and shift rows sliced out, the column sums of the aggregated array over 100000 rows divided by 100000 (the mean), and the variance: the column sums of the squared deviations from the mean divided by 100000 - 0, selected against a NaN row on 100000 - 0 > 0. (32 operations, `main_v179` … `main_v186`.) -/
abbrev opsStats3 : List (HloOp τ sig (Elt F)) :=
  [ StableHlo.unary main_arg6 main_v179 ((extractStridedSlice S1x128 ![3, 0] · slices_S4x128_S1x128_3_0) : (⟨S4x128, .f32⟩ : BufTy).Contents (Elt F) → (⟨S1x128, .f32⟩ : BufTy).Contents (Elt F)),
    StableHlo.reshape main_v179 main_v180 rfl shapeCasts_S1x128_S128,
    StableHlo.unary main_arg7 main_v181 ((extractStridedSlice S1x128 ![3, 0] · slices_S4x128_S1x128_3_0) : (⟨S4x128, .f32⟩ : BufTy).Contents (Elt F) → (⟨S1x128, .f32⟩ : BufTy).Contents (Elt F)),
    StableHlo.reshape main_v181 main_v182 rfl shapeCasts_S1x128_S128,
    StableHlo.nullary main_cst_28 (constant S_ .f32 0x00000000#32),
    StableHlo.binary main_v178 main_cst_28 main_v183 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_29 (constant S_ .f32 0x47C35000#32),
    StableHlo.unary main_cst_29 main_v184 (broadcastInDim S128 ![] bcast_S_S128 : (⟨S_, .f32⟩ : BufTy).Contents (Elt F) → (⟨S128, .f32⟩ : BufTy).Contents (Elt F)),
    StableHlo.binary main_v183 main_v184 main_v185 (Host.divf : (⟨S128, .f32⟩ : BufTy).Contents (Elt F) → (⟨S128, .f32⟩ : BufTy).Contents (Elt F) → (⟨S128, .f32⟩ : BufTy).Contents (Elt F)),
    StableHlo.nullary main_c_30 (constantI S_ 32 0#32),
    StableHlo.TRef.nullary (.of main_call6_cst : StableHlo.TRef sig ⟨S_, .f32⟩) (constant S_ .f32 0x00000000#32),
    StableHlo.TRef.binary (.of main_v178 : StableHlo.TRef sig ⟨S100000x128, .f32⟩) (.of main_call6_cst : StableHlo.TRef sig ⟨S_, .f32⟩) (.of main_call6_v0 : StableHlo.TRef sig ⟨S128, .f32⟩) (fun x v => Host.reduceAdd x v reducesTo_S100000x128_S128_d0 h_S_),
    StableHlo.TRef.unary (.of main_call6_v0 : StableHlo.TRef sig ⟨S128, .f32⟩) (.of main_call6_v1 : StableHlo.TRef sig ⟨S1x128, .f32⟩) (broadcastInDim S1x128 ![1] bcast_S128_S1x128_1),
    StableHlo.TRef.nullary (.of main_call6_cst_0 : StableHlo.TRef sig ⟨S_, .f32⟩) (constant S_ .f32 0x47C35000#32),
    StableHlo.TRef.unary (.of main_call6_cst_0 : StableHlo.TRef sig ⟨S_, .f32⟩) (.of main_call6_v2 : StableHlo.TRef sig ⟨S1x128, .f32⟩) (broadcastInDim S1x128 ![] bcast_S_S1x128),
    StableHlo.TRef.binary (.of main_call6_v1 : StableHlo.TRef sig ⟨S1x128, .f32⟩) (.of main_call6_v2 : StableHlo.TRef sig ⟨S1x128, .f32⟩) (.of main_call6_v3 : StableHlo.TRef sig ⟨S1x128, .f32⟩) Host.divf,
    StableHlo.TRef.unary (.of main_call6_v3 : StableHlo.TRef sig ⟨S1x128, .f32⟩) (.of main_call6_v4 : StableHlo.TRef sig ⟨S100000x128, .f32⟩) (broadcastInDim S100000x128 ![0, 1] bcast_S1x128_S100000x128_0_1),
    StableHlo.TRef.binary (.of main_v178 : StableHlo.TRef sig ⟨S100000x128, .f32⟩) (.of main_call6_v4 : StableHlo.TRef sig ⟨S100000x128, .f32⟩) (.of main_call6_v5 : StableHlo.TRef sig ⟨S100000x128, .f32⟩) subf,
    StableHlo.TRef.binary (.of main_call6_v5 : StableHlo.TRef sig ⟨S100000x128, .f32⟩) (.of main_call6_v5 : StableHlo.TRef sig ⟨S100000x128, .f32⟩) (.of main_call6_v6 : StableHlo.TRef sig ⟨S100000x128, .f32⟩) mulf,
    StableHlo.TRef.unary (.of main_c_30 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47C35000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S100000x128, .f32⟩) (.of main_call6_cst_2 : StableHlo.TRef sig ⟨S_, .f32⟩) (.of main_call6_v9 : StableHlo.TRef sig ⟨S128, .f32⟩) (fun x v => Host.reduceAdd x v reducesTo_S100000x128_S128_d0 h_S_),
    StableHlo.TRef.unary (.of main_call6_v8 : StableHlo.TRef sig ⟨S_, .f32⟩) (.of main_call6_v10 : StableHlo.TRef sig ⟨S128, .f32⟩) (broadcastInDim S128 ![] bcast_S_S128),
    StableHlo.TRef.binary (.of main_call6_v9 : StableHlo.TRef sig ⟨S128, .f32⟩) (.of main_call6_v10 : StableHlo.TRef sig ⟨S128, .f32⟩) (.of main_call6_v11 : StableHlo.TRef sig ⟨S128, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S128, .f32⟩) (broadcastInDim S128 ![] bcast_S_S128),
    StableHlo.TRef.ternary (.of main_call6_v12 : StableHlo.TRef sig ⟨S_, .i1⟩) (.of main_call6_v11 : StableHlo.TRef sig ⟨S128, .f32⟩) (.of main_call6_call0_v1 : StableHlo.TRef sig ⟨S128, .f32⟩) (.of main_v186 : StableHlo.TRef sig ⟨S128, .f32⟩) (fun p a b => select (broadcastInDim S128 ![] bcast_S_S128 p) a b) ]

theorem opsStats3_sub : (opsStats3 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

theorem opsStats3_fresh : (opsStats3 : List (HloOp τ sig (Elt F))).Forall fun op => op.fresh = ∅ := by
  simp only [List.Forall]; repeat' constructor

/-- Layer 3's normalization: the aggregated array minus the mean row, times the reciprocal square root of variance + epsilon, times the scale row, plus the shift row, then the maximum with zero. (19 operations, `main_v187` … `main_v202`.) -/
abbrev opsBn3 : List (HloOp τ sig (Elt F)) :=
  [ StableHlo.unary main_v185 main_v187 (broadcastInDim S1x128 ![1] bcast_S128_S1x128_1 : (⟨S128, .f32⟩ : BufTy).Contents (Elt F) → (⟨S1x128, .f32⟩ : BufTy).Contents (Elt F)),
    StableHlo.unary main_v187 main_v188 (broadcastInDim S100000x128 ![0, 1] bcast_S1x128_S100000x128_0_1 : (⟨S1x128, .f32⟩ : BufTy).Contents (Elt F) → (⟨S100000x128, .f32⟩ : BufTy).Contents (Elt F)),
    StableHlo.binary main_v178 main_v188 main_v189 (subf : (⟨S100000x128, .f32⟩ : BufTy).Contents (Elt F) → (⟨S100000x128, .f32⟩ : BufTy).Contents (Elt F) → (⟨S100000x128, .f32⟩ : BufTy).Contents (Elt F)),
    StableHlo.nullary main_cst_31 (constant S_ .f32 0x3727C5AC#32),
    StableHlo.unary main_cst_31 main_v190 (broadcastInDim S128 ![] bcast_S_S128 : (⟨S_, .f32⟩ : BufTy).Contents (Elt F) → (⟨S128, .f32⟩ : BufTy).Contents (Elt F)),
    StableHlo.binary main_v186 main_v190 main_v191 (addf : (⟨S128, .f32⟩ : BufTy).Contents (Elt F) → (⟨S128, .f32⟩ : BufTy).Contents (Elt F) → (⟨S128, .f32⟩ : BufTy).Contents (Elt F)),
    StableHlo.unary main_v191 main_v192 (Host.rsqrt : (⟨S128, .f32⟩ : BufTy).Contents (Elt F) → (⟨S128, .f32⟩ : BufTy).Contents (Elt F)),
    StableHlo.unary main_v192 main_v193 (broadcastInDim S1x128 ![1] bcast_S128_S1x128_1 : (⟨S128, .f32⟩ : BufTy).Contents (Elt F) → (⟨S1x128, .f32⟩ : BufTy).Contents (Elt F)),
    StableHlo.unary main_v193 main_v194 (broadcastInDim S100000x128 ![0, 1] bcast_S1x128_S100000x128_0_1 : (⟨S1x128, .f32⟩ : BufTy).Contents (Elt F) → (⟨S100000x128, .f32⟩ : BufTy).Contents (Elt F)),
    StableHlo.binary main_v189 main_v194 main_v195 (mulf : (⟨S100000x128, .f32⟩ : BufTy).Contents (Elt F) → (⟨S100000x128, .f32⟩ : BufTy).Contents (Elt F) → (⟨S100000x128, .f32⟩ : BufTy).Contents (Elt F)),
    StableHlo.unary main_v180 main_v196 (broadcastInDim S1x128 ![1] bcast_S128_S1x128_1 : (⟨S128, .f32⟩ : BufTy).Contents (Elt F) → (⟨S1x128, .f32⟩ : BufTy).Contents (Elt F)),
    StableHlo.unary main_v196 main_v197 (broadcastInDim S100000x128 ![0, 1] bcast_S1x128_S100000x128_0_1 : (⟨S1x128, .f32⟩ : BufTy).Contents (Elt F) → (⟨S100000x128, .f32⟩ : BufTy).Contents (Elt F)),
    StableHlo.binary main_v195 main_v197 main_v198 (mulf : (⟨S100000x128, .f32⟩ : BufTy).Contents (Elt F) → (⟨S100000x128, .f32⟩ : BufTy).Contents (Elt F) → (⟨S100000x128, .f32⟩ : BufTy).Contents (Elt F)),
    StableHlo.unary main_v182 main_v199 (broadcastInDim S1x128 ![1] bcast_S128_S1x128_1 : (⟨S128, .f32⟩ : BufTy).Contents (Elt F) → (⟨S1x128, .f32⟩ : BufTy).Contents (Elt F)),
    StableHlo.unary main_v199 main_v200 (broadcastInDim S100000x128 ![0, 1] bcast_S1x128_S100000x128_0_1 : (⟨S1x128, .f32⟩ : BufTy).Contents (Elt F) → (⟨S100000x128, .f32⟩ : BufTy).Contents (Elt F)),
    StableHlo.binary main_v198 main_v200 main_v201 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S100000x128, .f32⟩) (broadcastInDim S100000x128 ![] bcast_S_S100000x128),
    StableHlo.TRef.binary (.of main_v201 : StableHlo.TRef sig ⟨S100000x128, .f32⟩) (.of main_call7_v0 : StableHlo.TRef sig ⟨S100000x128, .f32⟩) (.of main_v202 : StableHlo.TRef sig ⟨S100000x128, .f32⟩) maximumf ]

theorem opsBn3_sub : (opsBn3 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

theorem opsBn3_fresh : (opsBn3 : List (HloOp τ sig (Elt F))).Forall fun op => op.fresh = ∅ := by
  simp only [List.Forall]; repeat' constructor

/-- The four layers' outputs joined along the columns, times the output weight matrix, plus the output bias row broadcast down the columns. (5 operations, `main_v203` … `main_v207`.) -/
abbrev opsHead : List (HloOp τ sig (Elt F)) :=
  [ StableHlo.nary ![main_v67, main_v112, main_v157, main_v202] main_v203 (fun u => concatenate S100000x512 1 [⟨S100000x128, u 0⟩, ⟨S100000x128, u 1⟩, ⟨S100000x128, u 2⟩, ⟨S100000x128, u 3⟩] concatenates_S100000x128_S100000x128_S100000x128_S100000x128_S100000x512_d1),
    StableHlo.binary main_v203 main_arg8 main_v204 ((fun l r => Host.dotGeneral dot_S100000x512_S512x40_S100000x40_1_0_0_1_n_n none l r) : (⟨S100000x512, .f32⟩ : BufTy).Contents (Elt F) → (⟨S512x40, .f32⟩ : BufTy).Contents (Elt F) → (⟨S100000x40, .f32⟩ : BufTy).Contents (Elt F)),
    StableHlo.unary main_arg9 main_v205 (broadcastInDim S1x40 ![1] bcast_S40_S1x40_1 : (⟨S40, .f32⟩ : BufTy).Contents (Elt F) → (⟨S1x40, .f32⟩ : BufTy).Contents (Elt F)),
    StableHlo.unary main_v205 main_v206 (broadcastInDim S100000x40 ![0, 1] bcast_S1x40_S100000x40_0_1 : (⟨S1x40, .f32⟩ : BufTy).Contents (Elt F) → (⟨S100000x40, .f32⟩ : BufTy).Contents (Elt F)),
    StableHlo.binary main_v204 main_v206 main_v207 (addf : (⟨S100000x40, .f32⟩ : BufTy).Contents (Elt F) → (⟨S100000x40, .f32⟩ : BufTy).Contents (Elt F) → (⟨S100000x40, .f32⟩ : BufTy).Contents (Elt F)) ]

theorem opsHead_sub : (opsHead : List (HloOp τ sig (Elt F))).Forall fun op => op.bufs ⊆ StableHlo.tcRefs τ sig :=
  ⟨StableHlo.nary_bufs_sub .., StableHlo.binary_bufs_sub .., StableHlo.unary_bufs_sub .., StableHlo.unary_bufs_sub .., StableHlo.binary_bufs_sub ..⟩

theorem opsHead_fresh : (opsHead : List (HloOp τ sig (Elt F))).Forall fun op => op.fresh = ∅ := by
  simp only [List.Forall]; repeat' constructor

end Cert.ReferenceIdeal.Hand

end
-- ==== Proof.Ref.Ops.lean ====
/- All of @main's operations in program order, as the concatenation of the stages; the buffers after all of them are the stages' folds composed; every operation touches TensorCore references only and determines its results. -/
import proofs.«131845_j5600637354059_1_alg».proof.Proof.Ref.Basic
import proofs.«131845_j5600637354059_1_alg».proof.Proof.Ref.Ops0
import proofs.«131845_j5600637354059_1_alg».proof.Proof.Ref.Ops1
import proofs.«131845_j5600637354059_1_alg».proof.Proof.Ref.Ops2
import proofs.«131845_j5600637354059_1_alg».proof.Proof.Ref.Ops3

noncomputable section

namespace Cert.ReferenceIdeal.Hand

open Cert.ReferenceIdeal Cert.ReferenceIdeal.Gen Idealize.ShloMosaic Idealize.ShloMosaic.TcCoe Idealize.SL.Sem

variable {F : FTy → Type} [FloatOps F]
/-- @main's 334 operations, in order: the edge weights, then per layer the feature transform, the aggregation, the batch statistics and the normalization, then the output layer. -/
abbrev ops : List (HloOp τ sig (Elt F)) :=
  opsNorm ++ (opsMm0 ++ (opsAgg0 ++ (opsStats0 ++ (opsBn0 ++ (opsMm1 ++ (opsAgg1 ++ (opsStats1 ++ (opsBn1 ++ (opsMm2 ++ (opsAgg2 ++ (opsStats2 ++ (opsBn2 ++ (opsMm3 ++ (opsAgg3 ++ (opsStats3 ++ (opsBn3 ++ (opsHead)))))))))))))))))

/-- The buffers after all the operations: each stage's fold applied to what the stages before it leave. -/
theorem after_ops (V : Valuation τ sig (Elt F)) :
    StableHlo.after ops V
      = StableHlo.after opsHead (StableHlo.after opsBn3 (StableHlo.after opsStats3 (StableHlo.after opsAgg3 (StableHlo.after opsMm3 (StableHlo.after opsBn2 (StableHlo.after opsStats2 (StableHlo.after opsAgg2 (StableHlo.after opsMm2 (StableHlo.after opsBn1 (StableHlo.after opsStats1 (StableHlo.after opsAgg1 (StableHlo.after opsMm1 (StableHlo.after opsBn0 (StableHlo.after opsStats0 (StableHlo.after opsAgg0 (StableHlo.after opsMm0 (StableHlo.after opsNorm V))))))))))))))))) := by
  simp only [ops, StableHlo.after_append]

theorem ops_sub : (ops : List (HloOp τ sig (Elt F))).Forall fun op => op.bufs ⊆ StableHlo.tcRefs τ sig :=
  forall_append opsNorm_sub (forall_append opsMm0_sub (forall_append opsAgg0_sub (forall_append opsStats0_sub (forall_append opsBn0_sub (forall_append opsMm1_sub (forall_append opsAgg1_sub (forall_append opsStats1_sub (forall_append opsBn1_sub (forall_append opsMm2_sub (forall_append opsAgg2_sub (forall_append opsStats2_sub (forall_append opsBn2_sub (forall_append opsMm3_sub (forall_append opsAgg3_sub (forall_append opsStats3_sub (forall_append opsBn3_sub (opsHead_sub)))))))))))))))))

theorem ops_fresh : (ops : List (HloOp τ sig (Elt F))).Forall fun op => op.fresh = ∅ :=
  forall_append opsNorm_fresh (forall_append opsMm0_fresh (forall_append opsAgg0_fresh (forall_append opsStats0_fresh (forall_append opsBn0_fresh (forall_append opsMm1_fresh (forall_append opsAgg1_fresh (forall_append opsStats1_fresh (forall_append opsBn1_fresh (forall_append opsMm2_fresh (forall_append opsAgg2_fresh (forall_append opsStats2_fresh (forall_append opsBn2_fresh (forall_append opsMm3_fresh (forall_append opsAgg3_fresh (forall_append opsStats3_fresh (forall_append opsBn3_fresh (opsHead_fresh)))))))))))))))))

end Cert.ReferenceIdeal.Hand

end
-- ==== Proof.Ref.Main0.lean ====
/- Window 0 of @main (`main_part0`) as a chain of straight lines of operations: its own statements in stretches, and each called function's body, unfolded at the call over that call's buffers, a stretch of its own. The equation is definitional: both sides are the same sequence of steps once the functions are unfolded and the sequencing is re-associated. -/
import proofs.«131845_j5600637354059_1_alg».proof.Proof.Gen.ReferenceIdeal
import Idealize.ShloMosaic.Lib.StableHlo.Run
import Idealize.ShloMosaic.Lib.Pipeline.Regions

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]
/-- Window 0, stretch 0: statements of @main (60 operations, `main_v0` … `main_cst_8`). -/
abbrev part0_0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S1700000 ![] bcast_S_S1700000 : (⟨S_, .i32⟩ : BufTy).Contents (Elt F) → (⟨S1700000, .i32⟩ : BufTy).Contents (Elt F)),
    StableHlo.binary main_v3 main_v12 main_v13 (cmpi .slt : (⟨S1700000, .i32⟩ : BufTy).Contents (Elt F) → (⟨S1700000, .i32⟩ : BufTy).Contents (Elt F) → (⟨S1700000, .i1⟩ : BufTy).Contents (Elt F)),
    StableHlo.nullary main_c_1 (constantI S_ 32 100000#32),
    StableHlo.unary main_c_1 main_v14 (broadcastInDim S1700000 ![] bcast_S_S1700000 : (⟨S_, .i32⟩ : BufTy).Contents (Elt F) → (⟨S1700000, .i32⟩ : BufTy).Contents (Elt F)),
    StableHlo.binary main_v3 main_v14 main_v15 (addi : (⟨S1700000, .i32⟩ : BufTy).Contents (Elt F) → (⟨S1700000, .i32⟩ : BufTy).Contents (Elt F) → (⟨S1700000, .i32⟩ : BufTy).Contents (Elt F)),
    StableHlo.ternary main_v13 main_v15 main_v3 main_v16 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v16 main_v17 (broadcastInDim S1700000x1 ![0] bcast_S1700000_S1700000x1_0 : (⟨S1700000, .i32⟩ : BufTy).Contents (Elt F) → (⟨S1700000x1, .i32⟩ : BufTy).Contents (Elt F)),
    StableHlo.binary main_v11 main_v17 main_v18 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_2 (constantI S_ 32 0#32),
    StableHlo.unary main_c_2 main_v19 (broadcastInDim S1700000 ![] bcast_S_S1700000 : (⟨S_, .i32⟩ : BufTy).Contents (Elt F) → (⟨S1700000, .i32⟩ : BufTy).Contents (Elt F)),
    StableHlo.binary main_v6 main_v19 main_v20 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v21 (broadcastInDim S1700000 ![] bcast_S_S1700000 : (⟨S_, .i32⟩ : BufTy).Contents (Elt F) → (⟨S1700000, .i32⟩ : BufTy).Contents (Elt F)),
    StableHlo.binary main_v6 main_v21 main_v22 (addi : (⟨S1700000, .i32⟩ : BufTy).Contents (Elt F) → (⟨S1700000, .i32⟩ : BufTy).Contents (Elt F) → (⟨S1700000, .i32⟩ : BufTy).Contents (Elt F)),
    StableHlo.ternary main_v20 main_v22 main_v6 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v23 main_v24 (broadcastInDim S1700000x1 ![0] bcast_S1700000_S1700000x1_0 : (⟨S1700000, .i32⟩ : BufTy).Contents (Elt F) → (⟨S1700000x1, .i32⟩ : BufTy).Contents (Elt F)),
    StableHlo.binary main_v11 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v18 main_v25 main_v26 (mulf : (⟨S1700000, .f32⟩ : BufTy).Contents (Elt F) → (⟨S1700000, .f32⟩ : BufTy).Contents (Elt F) → (⟨S1700000, .f32⟩ : BufTy).Contents (Elt F)),
    StableHlo.binary main_arg0 main_arg2 main_v27 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.nullary main_c_4 (constantI S_ 32 0#32),
    StableHlo.unary main_c_4 main_v28 (broadcastInDim S1700000 ![] bcast_S_S1700000 : (⟨S_, .i32⟩ : BufTy).Contents (Elt F) → (⟨S1700000, .i32⟩ : BufTy).Contents (Elt F)),
    StableHlo.binary main_v3 main_v28 main_v29 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v30 (broadcastInDim S1700000 ![] bcast_S_S1700000 : (⟨S_, .i32⟩ : BufTy).Contents (Elt F) → (⟨S1700000, .i32⟩ : BufTy).Contents (Elt F)),
    StableHlo.binary main_v3 main_v30 main_v31 (addi : (⟨S1700000, .i32⟩ : BufTy).Contents (Elt F) → (⟨S1700000, .i32⟩ : BufTy).Contents (Elt F) → (⟨S1700000, .i32⟩ : BufTy).Contents (Elt F)),
    StableHlo.ternary main_v29 main_v31 main_v3 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v32 main_v33 (broadcastInDim S1700000x1 ![0] bcast_S1700000_S1700000x1_0 : (⟨S1700000, .i32⟩ : BufTy).Contents (Elt F) → (⟨S1700000x1, .i32⟩ : BufTy).Contents (Elt F)),
    StableHlo.binary main_v27 main_v33 main_v34 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v26 main_v35 (broadcastInDim S1700000x1 ![0] bcast_S1700000_S1700000x1_0 : (⟨S1700000, .f32⟩ : BufTy).Contents (Elt F) → (⟨S1700000x1, .f32⟩ : BufTy).Contents (Elt F)),
    StableHlo.unary main_v35 main_v36 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v34 main_v36 main_v37 (mulf : (⟨S1700000x128, .f32⟩ : BufTy).Contents (Elt F) → (⟨S1700000x128, .f32⟩ : BufTy).Contents (Elt F) → (⟨S1700000x128, .f32⟩ : BufTy).Contents (Elt F)),
    StableHlo.nullary main_cst_6 (constant S_ .f32 0x00000000#32),
    StableHlo.unary main_cst_6 main_v38 (broadcastInDim S100000x128 ![] bcast_S_S100000x128 : (⟨S_, .f32⟩ : BufTy).Contents (Elt F) → (⟨S100000x128, .f32⟩ : BufTy).Contents (Elt F)),
    StableHlo.unary main_v6 main_v39 (broadcastInDim S1700000x1 ![0] bcast_S1700000_S1700000x1_0 : (⟨S1700000, .i32⟩ : BufTy).Contents (Elt F) → (⟨S1700000x1, .i32⟩ : BufTy).Contents (Elt F)),
    StableHlo.ternary main_v38 main_v39 main_v37 main_v40 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg3 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)),
    StableHlo.unary main_arg6 main_v44 ((extractStridedSlice S1x128 ![0, 0] · slices_S4x128_S1x128_0_0) : (⟨S4x128, .f32⟩ : BufTy).Contents (Elt F) → (⟨S1x128, .f32⟩ : BufTy).Contents (Elt F)),
    StableHlo.reshape main_v44 main_v45 rfl shapeCasts_S1x128_S128,
    StableHlo.unary main_arg7 main_v46 ((extractStridedSlice S1x128 ![0, 0] · slices_S4x128_S1x128_0_0) : (⟨S4x128, .f32⟩ : BufTy).Contents (Elt F) → (⟨S1x128, .f32⟩ : BufTy).Contents (Elt F)),
    StableHlo.reshape main_v46 main_v47 rfl shapeCasts_S1x128_S128,
    StableHlo.nullary main_cst_7 (constant S_ .f32 0x00000000#32),
    StableHlo.binary main_v43 main_cst_7 main_v48 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_8 (constant S_ .f32 0x47C35000#32) ]

/-- Window 0 is the chain of its stretches, ending in the last (no closing return: its last statement is in tail position). -/
theorem main_part0_chain (c : Dev nD) : main_part0 (F := F) c = (Pipeline.chainK
  [  ]
  (StableHlo.seq part0_0) : Prog (TpuEff nD τ sig (Elt F) (Pipeline.Sig Λ₀ (Fin 0) fun p => (pcfgs (F := F) p).Adm) .tc) PUnit) := by
  chain_rfl

end Cert.ReferenceIdeal.Hand

end
-- ==== Proof.Ref.Main1.lean ====
/- Window 1 of @main (`main_part1`) as a chain of straight lines of operations: its own statements in stretches, and each called function's body, unfolded at the call over that call's buffers, a stretch of its own. The equation is definitional: both sides are the same sequence of steps once the functions are unfolded and the sequencing is re-associated. -/
import proofs.«131845_j5600637354059_1_alg».proof.Proof.Gen.ReferenceIdeal
import Idealize.ShloMosaic.Lib.StableHlo.Run
import Idealize.ShloMosaic.Lib.Pipeline.Regions

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]
/-- Window 1, stretch 0: statements of @main (3 operations, `main_v49` … `main_c_9`). -/
abbrev part1_0 : List (HloOp τ sig (Elt F)) :=
  [ StableHlo.unary main_cst_8 main_v49 (broadcastInDim S128 ![] bcast_S_S128 : (⟨S_, .f32⟩ : BufTy).Contents (Elt F) → (⟨S128, .f32⟩ : BufTy).Contents (Elt F)),
    StableHlo.binary main_v48 main_v49 main_v50 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32) ]

/-- Window 1, stretch 1: the body of the call of `fn_var` over the record `main_call0` (22 operations, `main_call0_cst` … `main_v51`). -/
abbrev part1_1 : List (HloOp τ sig (Elt F)) :=
  [ StableHlo.TRef.nullary (.of main_call0_cst : StableHlo.TRef sig ⟨S_, .f32⟩) (constant S_ .f32 0x00000000#32),
    StableHlo.TRef.binary (.of main_v43 : StableHlo.TRef sig ⟨S100000x128, .f32⟩) (.of main_call0_cst : StableHlo.TRef sig ⟨S_, .f32⟩) (.of main_call0_v0 : StableHlo.TRef sig ⟨S128, .f32⟩) (fun x v => Host.reduceAdd x v reducesTo_S100000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S100000x128, .f32⟩) (broadcastInDim S100000x128 ![0, 1] bcast_S1x128_S100000x128_0_1),
    StableHlo.TRef.binary (.of main_v43 : StableHlo.TRef sig ⟨S100000x128, .f32⟩) (.of main_call0_v4 : StableHlo.TRef sig ⟨S100000x128, .f32⟩) (.of main_call0_v5 : StableHlo.TRef sig ⟨S100000x128, .f32⟩) subf,
    StableHlo.TRef.binary (.of main_call0_v5 : StableHlo.TRef sig ⟨S100000x128, .f32⟩) (.of main_call0_v5 : StableHlo.TRef sig ⟨S100000x128, .f32⟩) (.of main_call0_v6 : StableHlo.TRef sig ⟨S100000x128, .f32⟩) mulf,
    StableHlo.TRef.unary (.of main_c_9 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x128, .f32⟩) (.of main_call0_cst_2 : StableHlo.TRef sig ⟨S_, .f32⟩) (.of main_call0_v9 : StableHlo.TRef sig ⟨S128, .f32⟩) (fun x v => Host.reduceAdd x v reducesTo_S100000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v51 : StableHlo.TRef sig ⟨S128, .f32⟩) (fun p a b => select (broadcastInDim S128 ![] bcast_S_S128 p) a b) ]

/-- Window 1, stretch 2: statements of @main (16 operations, `main_v52` … `main_v66`). -/
abbrev part1_2 : List (HloOp τ sig (Elt F)) :=
  [ StableHlo.unary main_v50 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v53 main_v54 (subf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3727C5AC#32),
    StableHlo.unary main_cst_10 main_v55 (broadcastInDim S128 ![] bcast_S_S128 : (⟨S_, .f32⟩ : BufTy).Contents (Elt F) → (⟨S128, .f32⟩ : BufTy).Contents (Elt F)),
    StableHlo.binary main_v51 main_v55 main_v56 (addf : (⟨S128, .f32⟩ : BufTy).Contents (Elt F) → (⟨S128, .f32⟩ : BufTy).Contents (Elt F) → (⟨S128, .f32⟩ : BufTy).Contents (Elt F)),
    StableHlo.unary main_v56 main_v57 (Host.rsqrt : (⟨S128, .f32⟩ : BufTy).Contents (Elt F) → (⟨S128, .f32⟩ : BufTy).Contents (Elt F)),
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v59 main_v60 (mulf : (⟨S100000x128, .f32⟩ : BufTy).Contents (Elt F) → (⟨S100000x128, .f32⟩ : BufTy).Contents (Elt F) → (⟨S100000x128, .f32⟩ : BufTy).Contents (Elt F)),
    StableHlo.unary main_v45 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (mulf : (⟨S100000x128, .f32⟩ : BufTy).Contents (Elt F) → (⟨S100000x128, .f32⟩ : BufTy).Contents (Elt F) → (⟨S100000x128, .f32⟩ : BufTy).Contents (Elt F)),
    StableHlo.unary main_v47 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v65 main_v66 (addf : (⟨S100000x128, .f32⟩ : BufTy).Contents (Elt F) → (⟨S100000x128, .f32⟩ : BufTy).Contents (Elt F) → (⟨S100000x128, .f32⟩ : BufTy).Contents (Elt F)) ]

/-- Window 1, stretch 3: the body of the call of `fn_relu` over the record `main_call1` (3 operations, `main_call1_cst` … `main_v67`). -/
abbrev part1_3 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x128, .f32⟩) (broadcastInDim S100000x128 ![] bcast_S_S100000x128),
    StableHlo.TRef.binary (.of main_v66 : StableHlo.TRef sig ⟨S100000x128, .f32⟩) (.of main_call1_v0 : StableHlo.TRef sig ⟨S100000x128, .f32⟩) (.of main_v67 : StableHlo.TRef sig ⟨S100000x128, .f32⟩) maximumf ]

/-- Window 1, stretch 4: statements of @main (34 operations, `main_v68` … `main_c_16`). -/
abbrev part1_4 : List (HloOp τ sig (Elt F)) :=
  [ StableHlo.unary main_arg4 main_v68 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v68 main_v69 rfl shapeCasts_S1x128x128_S128x128,
    StableHlo.unary main_arg5 main_v70 ((extractStridedSlice S1x128 ![0, 0] · slices_S3x128_S1x128_0_0) : (⟨S3x128, .f32⟩ : BufTy).Contents (Elt F) → (⟨S1x128, .f32⟩ : BufTy).Contents (Elt F)),
    StableHlo.reshape main_v70 main_v71 rfl shapeCasts_S1x128_S128,
    StableHlo.binary main_v67 main_v69 main_v72 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_11 (constantI S_ 32 0#32),
    StableHlo.unary main_c_11 main_v73 (broadcastInDim S1700000 ![] bcast_S_S1700000 : (⟨S_, .i32⟩ : BufTy).Contents (Elt F) → (⟨S1700000, .i32⟩ : BufTy).Contents (Elt F)),
    StableHlo.binary main_v3 main_v73 main_v74 (cmpi .slt : (⟨S1700000, .i32⟩ : BufTy).Contents (Elt F) → (⟨S1700000, .i32⟩ : BufTy).Contents (Elt F) → (⟨S1700000, .i1⟩ : BufTy).Contents (Elt F)),
    StableHlo.nullary main_c_12 (constantI S_ 32 100000#32),
    StableHlo.unary main_c_12 main_v75 (broadcastInDim S1700000 ![] bcast_S_S1700000 : (⟨S_, .i32⟩ : BufTy).Contents (Elt F) → (⟨S1700000, .i32⟩ : BufTy).Contents (Elt F)),
    StableHlo.binary main_v3 main_v75 main_v76 (addi : (⟨S1700000, .i32⟩ : BufTy).Contents (Elt F) → (⟨S1700000, .i32⟩ : BufTy).Contents (Elt F) → (⟨S1700000, .i32⟩ : BufTy).Contents (Elt F)),
    StableHlo.ternary main_v74 main_v76 main_v3 main_v77 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v77 main_v78 (broadcastInDim S1700000x1 ![0] bcast_S1700000_S1700000x1_0 : (⟨S1700000, .i32⟩ : BufTy).Contents (Elt F) → (⟨S1700000x1, .i32⟩ : BufTy).Contents (Elt F)),
    StableHlo.binary main_v72 main_v78 main_v79 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v26 main_v80 (broadcastInDim S1700000x1 ![0] bcast_S1700000_S1700000x1_0 : (⟨S1700000, .f32⟩ : BufTy).Contents (Elt F) → (⟨S1700000x1, .f32⟩ : BufTy).Contents (Elt F)),
    StableHlo.unary main_v80 main_v81 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v79 main_v81 main_v82 (mulf : (⟨S1700000x128, .f32⟩ : BufTy).Contents (Elt F) → (⟨S1700000x128, .f32⟩ : BufTy).Contents (Elt F) → (⟨S1700000x128, .f32⟩ : BufTy).Contents (Elt F)),
    StableHlo.nullary main_cst_13 (constant S_ .f32 0x00000000#32),
    StableHlo.unary main_cst_13 main_v83 (broadcastInDim S100000x128 ![] bcast_S_S100000x128 : (⟨S_, .f32⟩ : BufTy).Contents (Elt F) → (⟨S100000x128, .f32⟩ : BufTy).Contents (Elt F)),
    StableHlo.unary main_v6 main_v84 (broadcastInDim S1700000x1 ![0] bcast_S1700000_S1700000x1_0 : (⟨S1700000, .i32⟩ : BufTy).Contents (Elt F) → (⟨S1700000x1, .i32⟩ : BufTy).Contents (Elt F)),
    StableHlo.ternary main_v83 main_v84 main_v82 main_v85 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_v71 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S100000x128 ![0, 1] bcast_S1x128_S100000x128_0_1 : (⟨S1x128, .f32⟩ : BufTy).Contents (Elt F) → (⟨S100000x128, .f32⟩ : BufTy).Contents (Elt F)),
    StableHlo.binary main_v85 main_v87 main_v88 (addf : (⟨S100000x128, .f32⟩ : BufTy).Contents (Elt F) → (⟨S100000x128, .f32⟩ : BufTy).Contents (Elt F) → (⟨S100000x128, .f32⟩ : BufTy).Contents (Elt F)),
    StableHlo.unary main_arg6 main_v89 ((extractStridedSlice S1x128 ![1, 0] · slices_S4x128_S1x128_1_0) : (⟨S4x128, .f32⟩ : BufTy).Contents (Elt F) → (⟨S1x128, .f32⟩ : BufTy).Contents (Elt F)),
    StableHlo.reshape main_v89 main_v90 rfl shapeCasts_S1x128_S128,
    StableHlo.unary main_arg7 main_v91 ((extractStridedSlice S1x128 ![1, 0] · slices_S4x128_S1x128_1_0) : (⟨S4x128, .f32⟩ : BufTy).Contents (Elt F) → (⟨S1x128, .f32⟩ : BufTy).Contents (Elt F)),
    StableHlo.reshape main_v91 main_v92 rfl shapeCasts_S1x128_S128,
    StableHlo.nullary main_cst_14 (constant S_ .f32 0x00000000#32),
    StableHlo.binary main_v88 main_cst_14 main_v93 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_15 (constant S_ .f32 0x47C35000#32),
    StableHlo.unary main_cst_15 main_v94 (broadcastInDim S128 ![] bcast_S_S128 : (⟨S_, .f32⟩ : BufTy).Contents (Elt F) → (⟨S128, .f32⟩ : BufTy).Contents (Elt F)),
    StableHlo.binary main_v93 main_v94 main_v95 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32) ]

/-- Window 1, stretch 5: the body of the call of `fn_var` over the record `main_call2` (22 operations, `main_call2_cst` … `main_v96`). -/
abbrev part1_5 : List (HloOp τ sig (Elt F)) :=
  [ StableHlo.TRef.nullary (.of main_call2_cst : StableHlo.TRef sig ⟨S_, .f32⟩) (constant S_ .f32 0x00000000#32),
    StableHlo.TRef.binary (.of main_v88 : StableHlo.TRef sig ⟨S100000x128, .f32⟩) (.of main_call2_cst : StableHlo.TRef sig ⟨S_, .f32⟩) (.of main_call2_v0 : StableHlo.TRef sig ⟨S128, .f32⟩) (fun x v => Host.reduceAdd x v reducesTo_S100000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S100000x128, .f32⟩) (broadcastInDim S100000x128 ![0, 1] bcast_S1x128_S100000x128_0_1),
    StableHlo.TRef.binary (.of main_v88 : StableHlo.TRef sig ⟨S100000x128, .f32⟩) (.of main_call2_v4 : StableHlo.TRef sig ⟨S100000x128, .f32⟩) (.of main_call2_v5 : StableHlo.TRef sig ⟨S100000x128, .f32⟩) subf,
    StableHlo.TRef.binary (.of main_call2_v5 : StableHlo.TRef sig ⟨S100000x128, .f32⟩) (.of main_call2_v5 : StableHlo.TRef sig ⟨S100000x128, .f32⟩) (.of main_call2_v6 : StableHlo.TRef sig ⟨S100000x128, .f32⟩) mulf,
    StableHlo.TRef.unary (.of main_c_16 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x128, .f32⟩) (.of main_call2_cst_2 : StableHlo.TRef sig ⟨S_, .f32⟩) (.of main_call2_v9 : StableHlo.TRef sig ⟨S128, .f32⟩) (fun x v => Host.reduceAdd x v reducesTo_S100000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v96 : StableHlo.TRef sig ⟨S128, .f32⟩) (fun p a b => select (broadcastInDim S128 ![] bcast_S_S128 p) a b) ]

/-- Window 1, stretch 6: statements of @main (4 operations, `main_v97` … `main_cst_17`). -/
abbrev part1_6 : List (HloOp τ sig (Elt F)) :=
  [ StableHlo.unary main_v95 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S100000x128 ![0, 1] bcast_S1x128_S100000x128_0_1 : (⟨S1x128, .f32⟩ : BufTy).Contents (Elt F) → (⟨S100000x128, .f32⟩ : BufTy).Contents (Elt F)),
    StableHlo.binary main_v88 main_v98 main_v99 (subf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x3727C5AC#32) ]

/-- Window 1 is the chain of its stretches, ending in the last (no closing return: its last statement is in tail position). -/
theorem main_part1_chain (c : Dev nD) : main_part1 (F := F) c = (Pipeline.chainK
  [ StableHlo.seq part1_0,
    StableHlo.seq part1_1,
    StableHlo.seq part1_2,
    StableHlo.seq part1_3,
    StableHlo.seq part1_4,
    StableHlo.seq part1_5 ]
  (StableHlo.seq part1_6) : Prog (TpuEff nD τ sig (Elt F) (Pipeline.Sig Λ₀ (Fin 0) fun p => (pcfgs (F := F) p).Adm) .tc) PUnit) := by
  chain_rfl

end Cert.ReferenceIdeal.Hand

end
-- ==== Proof.Ref.Main2.lean ====
/- Window 2 of @main (`main_part2`) as a chain of straight lines of operations: its own statements in stretches, and each called function's body, unfolded at the call over that call's buffers, a stretch of its own. The equation is definitional: both sides are the same sequence of steps once the functions are unfolded and the sequencing is re-associated. -/
import proofs.«131845_j5600637354059_1_alg».proof.Proof.Gen.ReferenceIdeal
import Idealize.ShloMosaic.Lib.StableHlo.Run
import Idealize.ShloMosaic.Lib.Pipeline.Regions

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]
/-- Window 2, stretch 0: statements of @main (12 operations, `main_v100` … `main_v111`). -/
abbrev part2_0 : List (HloOp τ sig (Elt F)) :=
  [ StableHlo.unary main_cst_17 main_v100 (broadcastInDim S128 ![] bcast_S_S128 : (⟨S_, .f32⟩ : BufTy).Contents (Elt F) → (⟨S128, .f32⟩ : BufTy).Contents (Elt F)),
    StableHlo.binary main_v96 main_v100 main_v101 (addf : (⟨S128, .f32⟩ : BufTy).Contents (Elt F) → (⟨S128, .f32⟩ : BufTy).Contents (Elt F) → (⟨S128, .f32⟩ : BufTy).Contents (Elt F)),
    StableHlo.unary main_v101 main_v102 (Host.rsqrt : (⟨S128, .f32⟩ : BufTy).Contents (Elt F) → (⟨S128, .f32⟩ : BufTy).Contents (Elt F)),
    StableHlo.unary main_v102 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S100000x128 ![0, 1] bcast_S1x128_S100000x128_0_1 : (⟨S1x128, .f32⟩ : BufTy).Contents (Elt F) → (⟨S100000x128, .f32⟩ : BufTy).Contents (Elt F)),
    StableHlo.binary main_v99 main_v104 main_v105 (mulf : (⟨S100000x128, .f32⟩ : BufTy).Contents (Elt F) → (⟨S100000x128, .f32⟩ : BufTy).Contents (Elt F) → (⟨S100000x128, .f32⟩ : BufTy).Contents (Elt F)),
    StableHlo.unary main_v90 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S100000x128 ![0, 1] bcast_S1x128_S100000x128_0_1 : (⟨S1x128, .f32⟩ : BufTy).Contents (Elt F) → (⟨S100000x128, .f32⟩ : BufTy).Contents (Elt F)),
    StableHlo.binary main_v105 main_v107 main_v108 (mulf : (⟨S100000x128, .f32⟩ : BufTy).Contents (Elt F) → (⟨S100000x128, .f32⟩ : BufTy).Contents (Elt F) → (⟨S100000x128, .f32⟩ : BufTy).Contents (Elt F)),
    StableHlo.unary main_v92 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S100000x128 ![0, 1] bcast_S1x128_S100000x128_0_1 : (⟨S1x128, .f32⟩ : BufTy).Contents (Elt F) → (⟨S100000x128, .f32⟩ : BufTy).Contents (Elt F)),
    StableHlo.binary main_v108 main_v110 main_v111 (addf : (⟨S100000x128, .f32⟩ : BufTy).Contents (Elt F) → (⟨S100000x128, .f32⟩ : BufTy).Contents (Elt F) → (⟨S100000x128, .f32⟩ : BufTy).Contents (Elt F)) ]

/-- Window 2, stretch 1: the body of the call of `fn_relu` over the record `main_call3` (3 operations, `main_call3_cst` … `main_v112`). -/
abbrev part2_1 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x128, .f32⟩) (broadcastInDim S100000x128 ![] bcast_S_S100000x128),
    StableHlo.TRef.binary (.of main_v111 : StableHlo.TRef sig ⟨S100000x128, .f32⟩) (.of main_call3_v0 : StableHlo.TRef sig ⟨S100000x128, .f32⟩) (.of main_v112 : StableHlo.TRef sig ⟨S100000x128, .f32⟩) maximumf ]

/-- Window 2, stretch 2: statements of @main (34 operations, `main_v113` … `main_c_23`). -/
abbrev part2_2 : List (HloOp τ sig (Elt F)) :=
  [ StableHlo.unary main_arg4 main_v113 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v113 main_v114 rfl shapeCasts_S1x128x128_S128x128,
    StableHlo.unary main_arg5 main_v115 ((extractStridedSlice S1x128 ![1, 0] · slices_S3x128_S1x128_1_0) : (⟨S3x128, .f32⟩ : BufTy).Contents (Elt F) → (⟨S1x128, .f32⟩ : BufTy).Contents (Elt F)),
    StableHlo.reshape main_v115 main_v116 rfl shapeCasts_S1x128_S128,
    StableHlo.binary main_v112 main_v114 main_v117 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_18 (constantI S_ 32 0#32),
    StableHlo.unary main_c_18 main_v118 (broadcastInDim S1700000 ![] bcast_S_S1700000 : (⟨S_, .i32⟩ : BufTy).Contents (Elt F) → (⟨S1700000, .i32⟩ : BufTy).Contents (Elt F)),
    StableHlo.binary main_v3 main_v118 main_v119 (cmpi .slt : (⟨S1700000, .i32⟩ : BufTy).Contents (Elt F) → (⟨S1700000, .i32⟩ : BufTy).Contents (Elt F) → (⟨S1700000, .i1⟩ : BufTy).Contents (Elt F)),
    StableHlo.nullary main_c_19 (constantI S_ 32 100000#32),
    StableHlo.unary main_c_19 main_v120 (broadcastInDim S1700000 ![] bcast_S_S1700000 : (⟨S_, .i32⟩ : BufTy).Contents (Elt F) → (⟨S1700000, .i32⟩ : BufTy).Contents (Elt F)),
    StableHlo.binary main_v3 main_v120 main_v121 (addi : (⟨S1700000, .i32⟩ : BufTy).Contents (Elt F) → (⟨S1700000, .i32⟩ : BufTy).Contents (Elt F) → (⟨S1700000, .i32⟩ : BufTy).Contents (Elt F)),
    StableHlo.ternary main_v119 main_v121 main_v3 main_v122 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v122 main_v123 (broadcastInDim S1700000x1 ![0] bcast_S1700000_S1700000x1_0 : (⟨S1700000, .i32⟩ : BufTy).Contents (Elt F) → (⟨S1700000x1, .i32⟩ : BufTy).Contents (Elt F)),
    StableHlo.binary main_v117 main_v123 main_v124 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v26 main_v125 (broadcastInDim S1700000x1 ![0] bcast_S1700000_S1700000x1_0 : (⟨S1700000, .f32⟩ : BufTy).Contents (Elt F) → (⟨S1700000x1, .f32⟩ : BufTy).Contents (Elt F)),
    StableHlo.unary main_v125 main_v126 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v124 main_v126 main_v127 (mulf : (⟨S1700000x128, .f32⟩ : BufTy).Contents (Elt F) → (⟨S1700000x128, .f32⟩ : BufTy).Contents (Elt F) → (⟨S1700000x128, .f32⟩ : BufTy).Contents (Elt F)),
    StableHlo.nullary main_cst_20 (constant S_ .f32 0x00000000#32),
    StableHlo.unary main_cst_20 main_v128 (broadcastInDim S100000x128 ![] bcast_S_S100000x128 : (⟨S_, .f32⟩ : BufTy).Contents (Elt F) → (⟨S100000x128, .f32⟩ : BufTy).Contents (Elt F)),
    StableHlo.unary main_v6 main_v129 (broadcastInDim S1700000x1 ![0] bcast_S1700000_S1700000x1_0 : (⟨S1700000, .i32⟩ : BufTy).Contents (Elt F) → (⟨S1700000x1, .i32⟩ : BufTy).Contents (Elt F)),
    StableHlo.ternary main_v128 main_v129 main_v127 main_v130 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_v116 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S100000x128 ![0, 1] bcast_S1x128_S100000x128_0_1 : (⟨S1x128, .f32⟩ : BufTy).Contents (Elt F) → (⟨S100000x128, .f32⟩ : BufTy).Contents (Elt F)),
    StableHlo.binary main_v130 main_v132 main_v133 (addf : (⟨S100000x128, .f32⟩ : BufTy).Contents (Elt F) → (⟨S100000x128, .f32⟩ : BufTy).Contents (Elt F) → (⟨S100000x128, .f32⟩ : BufTy).Contents (Elt F)),
    StableHlo.unary main_arg6 main_v134 ((extractStridedSlice S1x128 ![2, 0] · slices_S4x128_S1x128_2_0) : (⟨S4x128, .f32⟩ : BufTy).Contents (Elt F) → (⟨S1x128, .f32⟩ : BufTy).Contents (Elt F)),
    StableHlo.reshape main_v134 main_v135 rfl shapeCasts_S1x128_S128,
    StableHlo.unary main_arg7 main_v136 ((extractStridedSlice S1x128 ![2, 0] · slices_S4x128_S1x128_2_0) : (⟨S4x128, .f32⟩ : BufTy).Contents (Elt F) → (⟨S1x128, .f32⟩ : BufTy).Contents (Elt F)),
    StableHlo.reshape main_v136 main_v137 rfl shapeCasts_S1x128_S128,
    StableHlo.nullary main_cst_21 (constant S_ .f32 0x00000000#32),
    StableHlo.binary main_v133 main_cst_21 main_v138 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_22 (constant S_ .f32 0x47C35000#32),
    StableHlo.unary main_cst_22 main_v139 (broadcastInDim S128 ![] bcast_S_S128 : (⟨S_, .f32⟩ : BufTy).Contents (Elt F) → (⟨S128, .f32⟩ : BufTy).Contents (Elt F)),
    StableHlo.binary main_v138 main_v139 main_v140 (Host.divf : (⟨S128, .f32⟩ : BufTy).Contents (Elt F) → (⟨S128, .f32⟩ : BufTy).Contents (Elt F) → (⟨S128, .f32⟩ : BufTy).Contents (Elt F)),
    StableHlo.nullary main_c_23 (constantI S_ 32 0#32) ]

/-- Window 2, stretch 3: the body of the call of `fn_var` over the record `main_call4` (22 operations, `main_call4_cst` … `main_v141`). -/
abbrev part2_3 : List (HloOp τ sig (Elt F)) :=
  [ StableHlo.TRef.nullary (.of main_call4_cst : StableHlo.TRef sig ⟨S_, .f32⟩) (constant S_ .f32 0x00000000#32),
    StableHlo.TRef.binary (.of main_v133 : StableHlo.TRef sig ⟨S100000x128, .f32⟩) (.of main_call4_cst : StableHlo.TRef sig ⟨S_, .f32⟩) (.of main_call4_v0 : StableHlo.TRef sig ⟨S128, .f32⟩) (fun x v => Host.reduceAdd x v reducesTo_S100000x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x47C35000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S100000x128, .f32⟩) (broadcastInDim S100000x128 ![0, 1] bcast_S1x128_S100000x128_0_1),
    StableHlo.TRef.binary (.of main_v133 : StableHlo.TRef sig ⟨S100000x128, .f32⟩) (.of main_call4_v4 : StableHlo.TRef sig ⟨S100000x128, .f32⟩) (.of main_call4_v5 : StableHlo.TRef sig ⟨S100000x128, .f32⟩) subf,
    StableHlo.TRef.binary (.of main_call4_v5 : StableHlo.TRef sig ⟨S100000x128, .f32⟩) (.of main_call4_v5 : StableHlo.TRef sig ⟨S100000x128, .f32⟩) (.of main_call4_v6 : StableHlo.TRef sig ⟨S100000x128, .f32⟩) mulf,
    StableHlo.TRef.unary (.of main_c_23 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47C35000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S100000x128, .f32⟩) (.of main_call4_cst_2 : StableHlo.TRef sig ⟨S_, .f32⟩) (.of main_call4_v9 : StableHlo.TRef sig ⟨S128, .f32⟩) (fun x v => Host.reduceAdd x v reducesTo_S100000x128_S128_d0 h_S_),
    StableHlo.TRef.unary (.of main_call4_v8 : StableHlo.TRef sig ⟨S_, .f32⟩) (.of main_call4_v10 : StableHlo.TRef sig ⟨S128, .f32⟩) (broadcastInDim S128 ![] bcast_S_S128),
    StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128, .f32⟩) (broadcastInDim S128 ![] bcast_S_S128),
    StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v141 : StableHlo.TRef sig ⟨S128, .f32⟩) (fun p a b => select (broadcastInDim S128 ![] bcast_S_S128 p) a b) ]

/-- Window 2, stretch 4: statements of @main (12 operations, `main_v142` … `main_v152`). -/
abbrev part2_4 : List (HloOp τ sig (Elt F)) :=
  [ StableHlo.unary main_v140 main_v142 (broadcastInDim S1x128 ![1] bcast_S128_S1x128_1 : (⟨S128, .f32⟩ : BufTy).Contents (Elt F) → (⟨S1x128, .f32⟩ : BufTy).Contents (Elt F)),
    StableHlo.unary main_v142 main_v143 (broadcastInDim S100000x128 ![0, 1] bcast_S1x128_S100000x128_0_1 : (⟨S1x128, .f32⟩ : BufTy).Contents (Elt F) → (⟨S100000x128, .f32⟩ : BufTy).Contents (Elt F)),
    StableHlo.binary main_v133 main_v143 main_v144 (subf : (⟨S100000x128, .f32⟩ : BufTy).Contents (Elt F) → (⟨S100000x128, .f32⟩ : BufTy).Contents (Elt F) → (⟨S100000x128, .f32⟩ : BufTy).Contents (Elt F)),
    StableHlo.nullary main_cst_24 (constant S_ .f32 0x3727C5AC#32),
    StableHlo.unary main_cst_24 main_v145 (broadcastInDim S128 ![] bcast_S_S128 : (⟨S_, .f32⟩ : BufTy).Contents (Elt F) → (⟨S128, .f32⟩ : BufTy).Contents (Elt F)),
    StableHlo.binary main_v141 main_v145 main_v146 (addf : (⟨S128, .f32⟩ : BufTy).Contents (Elt F) → (⟨S128, .f32⟩ : BufTy).Contents (Elt F) → (⟨S128, .f32⟩ : BufTy).Contents (Elt F)),
    StableHlo.unary main_v146 main_v147 (Host.rsqrt : (⟨S128, .f32⟩ : BufTy).Contents (Elt F) → (⟨S128, .f32⟩ : BufTy).Contents (Elt F)),
    StableHlo.unary main_v147 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S100000x128 ![0, 1] bcast_S1x128_S100000x128_0_1 : (⟨S1x128, .f32⟩ : BufTy).Contents (Elt F) → (⟨S100000x128, .f32⟩ : BufTy).Contents (Elt F)),
    StableHlo.binary main_v144 main_v149 main_v150 (mulf : (⟨S100000x128, .f32⟩ : BufTy).Contents (Elt F) → (⟨S100000x128, .f32⟩ : BufTy).Contents (Elt F) → (⟨S100000x128, .f32⟩ : BufTy).Contents (Elt F)),
    StableHlo.unary main_v135 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S100000x128 ![0, 1] bcast_S1x128_S100000x128_0_1 : (⟨S1x128, .f32⟩ : BufTy).Contents (Elt F) → (⟨S100000x128, .f32⟩ : BufTy).Contents (Elt F)) ]

/-- Window 2 is the chain of its stretches, ending in the last (no closing return: its last statement is in tail position). -/
theorem main_part2_chain (c : Dev nD) : main_part2 (F := F) c = (Pipeline.chainK
  [ StableHlo.seq part2_0,
    StableHlo.seq part2_1,
    StableHlo.seq part2_2,
    StableHlo.seq part2_3 ]
  (StableHlo.seq part2_4) : Prog (TpuEff nD τ sig (Elt F) (Pipeline.Sig Λ₀ (Fin 0) fun p => (pcfgs (F := F) p).Adm) .tc) PUnit) := by
  chain_rfl

end Cert.ReferenceIdeal.Hand

end
-- ==== Proof.Ref.Main3.lean ====
/- Window 3 of @main (`main_part3`) as a chain of straight lines of operations: its own statements in stretches, and each called function's body, unfolded at the call over that call's buffers, a stretch of its own. The equation is definitional: both sides are the same sequence of steps once the functions are unfolded and the sequencing is re-associated. -/
import proofs.«131845_j5600637354059_1_alg».proof.Proof.Gen.ReferenceIdeal
import Idealize.ShloMosaic.Lib.StableHlo.Run
import Idealize.ShloMosaic.Lib.Pipeline.Regions

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]
/-- Window 3, stretch 0: statements of @main (4 operations, `main_v153` … `main_v156`). -/
abbrev part3_0 : List (HloOp τ sig (Elt F)) :=
  [ StableHlo.binary main_v150 main_v152 main_v153 (mulf : (⟨S100000x128, .f32⟩ : BufTy).Contents (Elt F) → (⟨S100000x128, .f32⟩ : BufTy).Contents (Elt F) → (⟨S100000x128, .f32⟩ : BufTy).Contents (Elt F)),
    StableHlo.unary main_v137 main_v154 (broadcastInDim S1x128 ![1] bcast_S128_S1x128_1 : (⟨S128, .f32⟩ : BufTy).Contents (Elt F) → (⟨S1x128, .f32⟩ : BufTy).Contents (Elt F)),
    StableHlo.unary main_v154 main_v155 (broadcastInDim S100000x128 ![0, 1] bcast_S1x128_S100000x128_0_1 : (⟨S1x128, .f32⟩ : BufTy).Contents (Elt F) → (⟨S100000x128, .f32⟩ : BufTy).Contents (Elt F)),
    StableHlo.binary main_v153 main_v155 main_v156 (addf : (⟨S100000x128, .f32⟩ : BufTy).Contents (Elt F) → (⟨S100000x128, .f32⟩ : BufTy).Contents (Elt F) → (⟨S100000x128, .f32⟩ : BufTy).Contents (Elt F)) ]

/-- Window 3, stretch 1: the body of the call of `fn_relu` over the record `main_call5` (3 operations, `main_call5_cst` … `main_v157`). -/
abbrev part3_1 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S100000x128, .f32⟩) (broadcastInDim S100000x128 ![] bcast_S_S100000x128),
    StableHlo.TRef.binary (.of main_v156 : StableHlo.TRef sig ⟨S100000x128, .f32⟩) (.of main_call5_v0 : StableHlo.TRef sig ⟨S100000x128, .f32⟩) (.of main_v157 : StableHlo.TRef sig ⟨S100000x128, .f32⟩) maximumf ]

/-- Window 3, stretch 2: statements of @main (34 operations, `main_v158` … `main_c_30`). -/
abbrev part3_2 : List (HloOp τ sig (Elt F)) :=
  [ StableHlo.unary main_arg4 main_v158 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v158 main_v159 rfl shapeCasts_S1x128x128_S128x128,
    StableHlo.unary main_arg5 main_v160 ((extractStridedSlice S1x128 ![2, 0] · slices_S3x128_S1x128_2_0) : (⟨S3x128, .f32⟩ : BufTy).Contents (Elt F) → (⟨S1x128, .f32⟩ : BufTy).Contents (Elt F)),
    StableHlo.reshape main_v160 main_v161 rfl shapeCasts_S1x128_S128,
    StableHlo.binary main_v157 main_v159 main_v162 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_25 (constantI S_ 32 0#32),
    StableHlo.unary main_c_25 main_v163 (broadcastInDim S1700000 ![] bcast_S_S1700000 : (⟨S_, .i32⟩ : BufTy).Contents (Elt F) → (⟨S1700000, .i32⟩ : BufTy).Contents (Elt F)),
    StableHlo.binary main_v3 main_v163 main_v164 (cmpi .slt : (⟨S1700000, .i32⟩ : BufTy).Contents (Elt F) → (⟨S1700000, .i32⟩ : BufTy).Contents (Elt F) → (⟨S1700000, .i1⟩ : BufTy).Contents (Elt F)),
    StableHlo.nullary main_c_26 (constantI S_ 32 100000#32),
    StableHlo.unary main_c_26 main_v165 (broadcastInDim S1700000 ![] bcast_S_S1700000 : (⟨S_, .i32⟩ : BufTy).Contents (Elt F) → (⟨S1700000, .i32⟩ : BufTy).Contents (Elt F)),
    StableHlo.binary main_v3 main_v165 main_v166 (addi : (⟨S1700000, .i32⟩ : BufTy).Contents (Elt F) → (⟨S1700000, .i32⟩ : BufTy).Contents (Elt F) → (⟨S1700000, .i32⟩ : BufTy).Contents (Elt F)),
    StableHlo.ternary main_v164 main_v166 main_v3 main_v167 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v167 main_v168 (broadcastInDim S1700000x1 ![0] bcast_S1700000_S1700000x1_0 : (⟨S1700000, .i32⟩ : BufTy).Contents (Elt F) → (⟨S1700000x1, .i32⟩ : BufTy).Contents (Elt F)),
    StableHlo.binary main_v162 main_v168 main_v169 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v26 main_v170 (broadcastInDim S1700000x1 ![0] bcast_S1700000_S1700000x1_0 : (⟨S1700000, .f32⟩ : BufTy).Contents (Elt F) → (⟨S1700000x1, .f32⟩ : BufTy).Contents (Elt F)),
    StableHlo.unary main_v170 main_v171 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v169 main_v171 main_v172 (mulf : (⟨S1700000x128, .f32⟩ : BufTy).Contents (Elt F) → (⟨S1700000x128, .f32⟩ : BufTy).Contents (Elt F) → (⟨S1700000x128, .f32⟩ : BufTy).Contents (Elt F)),
    StableHlo.nullary main_cst_27 (constant S_ .f32 0x00000000#32),
    StableHlo.unary main_cst_27 main_v173 (broadcastInDim S100000x128 ![] bcast_S_S100000x128 : (⟨S_, .f32⟩ : BufTy).Contents (Elt F) → (⟨S100000x128, .f32⟩ : BufTy).Contents (Elt F)),
    StableHlo.unary main_v6 main_v174 (broadcastInDim S1700000x1 ![0] bcast_S1700000_S1700000x1_0 : (⟨S1700000, .i32⟩ : BufTy).Contents (Elt F) → (⟨S1700000x1, .i32⟩ : BufTy).Contents (Elt F)),
    StableHlo.ternary main_v173 main_v174 main_v172 main_v175 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_v161 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S100000x128 ![0, 1] bcast_S1x128_S100000x128_0_1 : (⟨S1x128, .f32⟩ : BufTy).Contents (Elt F) → (⟨S100000x128, .f32⟩ : BufTy).Contents (Elt F)),
    StableHlo.binary main_v175 main_v177 main_v178 (addf : (⟨S100000x128, .f32⟩ : BufTy).Contents (Elt F) → (⟨S100000x128, .f32⟩ : BufTy).Contents (Elt F) → (⟨S100000x128, .f32⟩ : BufTy).Contents (Elt F)),
    StableHlo.unary main_arg6 main_v179 ((extractStridedSlice S1x128 ![3, 0] · slices_S4x128_S1x128_3_0) : (⟨S4x128, .f32⟩ : BufTy).Contents (Elt F) → (⟨S1x128, .f32⟩ : BufTy).Contents (Elt F)),
    StableHlo.reshape main_v179 main_v180 rfl shapeCasts_S1x128_S128,
    StableHlo.unary main_arg7 main_v181 ((extractStridedSlice S1x128 ![3, 0] · slices_S4x128_S1x128_3_0) : (⟨S4x128, .f32⟩ : BufTy).Contents (Elt F) → (⟨S1x128, .f32⟩ : BufTy).Contents (Elt F)),
    StableHlo.reshape main_v181 main_v182 rfl shapeCasts_S1x128_S128,
    StableHlo.nullary main_cst_28 (constant S_ .f32 0x00000000#32),
    StableHlo.binary main_v178 main_cst_28 main_v183 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_29 (constant S_ .f32 0x47C35000#32),
    StableHlo.unary main_cst_29 main_v184 (broadcastInDim S128 ![] bcast_S_S128 : (⟨S_, .f32⟩ : BufTy).Contents (Elt F) → (⟨S128, .f32⟩ : BufTy).Contents (Elt F)),
    StableHlo.binary main_v183 main_v184 main_v185 (Host.divf : (⟨S128, .f32⟩ : BufTy).Contents (Elt F) → (⟨S128, .f32⟩ : BufTy).Contents (Elt F) → (⟨S128, .f32⟩ : BufTy).Contents (Elt F)),
    StableHlo.nullary main_c_30 (constantI S_ 32 0#32) ]

/-- Window 3, stretch 3: the body of the call of `fn_var` over the record `main_call6` (22 operations, `main_call6_cst` … `main_v186`). -/
abbrev part3_3 : List (HloOp τ sig (Elt F)) :=
  [ StableHlo.TRef.nullary (.of main_call6_cst : StableHlo.TRef sig ⟨S_, .f32⟩) (constant S_ .f32 0x00000000#32),
    StableHlo.TRef.binary (.of main_v178 : StableHlo.TRef sig ⟨S100000x128, .f32⟩) (.of main_call6_cst : StableHlo.TRef sig ⟨S_, .f32⟩) (.of main_call6_v0 : StableHlo.TRef sig ⟨S128, .f32⟩) (fun x v => Host.reduceAdd x v reducesTo_S100000x128_S128_d0 h_S_),
    StableHlo.TRef.unary (.of main_call6_v0 : StableHlo.TRef sig ⟨S128, .f32⟩) (.of main_call6_v1 : StableHlo.TRef sig ⟨S1x128, .f32⟩) (broadcastInDim S1x128 ![1] bcast_S128_S1x128_1),
    StableHlo.TRef.nullary (.of main_call6_cst_0 : StableHlo.TRef sig ⟨S_, .f32⟩) (constant S_ .f32 0x47C35000#32),
    StableHlo.TRef.unary (.of main_call6_cst_0 : StableHlo.TRef sig ⟨S_, .f32⟩) (.of main_call6_v2 : StableHlo.TRef sig ⟨S1x128, .f32⟩) (broadcastInDim S1x128 ![] bcast_S_S1x128),
    StableHlo.TRef.binary (.of main_call6_v1 : StableHlo.TRef sig ⟨S1x128, .f32⟩) (.of main_call6_v2 : StableHlo.TRef sig ⟨S1x128, .f32⟩) (.of main_call6_v3 : StableHlo.TRef sig ⟨S1x128, .f32⟩) Host.divf,
    StableHlo.TRef.unary (.of main_call6_v3 : StableHlo.TRef sig ⟨S1x128, .f32⟩) (.of main_call6_v4 : StableHlo.TRef sig ⟨S100000x128, .f32⟩) (broadcastInDim S100000x128 ![0, 1] bcast_S1x128_S100000x128_0_1),
    StableHlo.TRef.binary (.of main_v178 : StableHlo.TRef sig ⟨S100000x128, .f32⟩) (.of main_call6_v4 : StableHlo.TRef sig ⟨S100000x128, .f32⟩) (.of main_call6_v5 : StableHlo.TRef sig ⟨S100000x128, .f32⟩) subf,
    StableHlo.TRef.binary (.of main_call6_v5 : StableHlo.TRef sig ⟨S100000x128, .f32⟩) (.of main_call6_v5 : StableHlo.TRef sig ⟨S100000x128, .f32⟩) (.of main_call6_v6 : StableHlo.TRef sig ⟨S100000x128, .f32⟩) mulf,
    StableHlo.TRef.unary (.of main_c_30 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47C35000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S100000x128, .f32⟩) (.of main_call6_cst_2 : StableHlo.TRef sig ⟨S_, .f32⟩) (.of main_call6_v9 : StableHlo.TRef sig ⟨S128, .f32⟩) (fun x v => Host.reduceAdd x v reducesTo_S100000x128_S128_d0 h_S_),
    StableHlo.TRef.unary (.of main_call6_v8 : StableHlo.TRef sig ⟨S_, .f32⟩) (.of main_call6_v10 : StableHlo.TRef sig ⟨S128, .f32⟩) (broadcastInDim S128 ![] bcast_S_S128),
    StableHlo.TRef.binary (.of main_call6_v9 : StableHlo.TRef sig ⟨S128, .f32⟩) (.of main_call6_v10 : StableHlo.TRef sig ⟨S128, .f32⟩) (.of main_call6_v11 : StableHlo.TRef sig ⟨S128, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S128, .f32⟩) (broadcastInDim S128 ![] bcast_S_S128),
    StableHlo.TRef.ternary (.of main_call6_v12 : StableHlo.TRef sig ⟨S_, .i1⟩) (.of main_call6_v11 : StableHlo.TRef sig ⟨S128, .f32⟩) (.of main_call6_call0_v1 : StableHlo.TRef sig ⟨S128, .f32⟩) (.of main_v186 : StableHlo.TRef sig ⟨S128, .f32⟩) (fun p a b => select (broadcastInDim S128 ![] bcast_S_S128 p) a b) ]

/-- Window 3, stretch 4: statements of @main (16 operations, `main_v187` … `main_v201`). -/
abbrev part3_4 : List (HloOp τ sig (Elt F)) :=
  [ StableHlo.unary main_v185 main_v187 (broadcastInDim S1x128 ![1] bcast_S128_S1x128_1 : (⟨S128, .f32⟩ : BufTy).Contents (Elt F) → (⟨S1x128, .f32⟩ : BufTy).Contents (Elt F)),
    StableHlo.unary main_v187 main_v188 (broadcastInDim S100000x128 ![0, 1] bcast_S1x128_S100000x128_0_1 : (⟨S1x128, .f32⟩ : BufTy).Contents (Elt F) → (⟨S100000x128, .f32⟩ : BufTy).Contents (Elt F)),
    StableHlo.binary main_v178 main_v188 main_v189 (subf : (⟨S100000x128, .f32⟩ : BufTy).Contents (Elt F) → (⟨S100000x128, .f32⟩ : BufTy).Contents (Elt F) → (⟨S100000x128, .f32⟩ : BufTy).Contents (Elt F)),
    StableHlo.nullary main_cst_31 (constant S_ .f32 0x3727C5AC#32),
    StableHlo.unary main_cst_31 main_v190 (broadcastInDim S128 ![] bcast_S_S128 : (⟨S_, .f32⟩ : BufTy).Contents (Elt F) → (⟨S128, .f32⟩ : BufTy).Contents (Elt F)),
    StableHlo.binary main_v186 main_v190 main_v191 (addf : (⟨S128, .f32⟩ : BufTy).Contents (Elt F) → (⟨S128, .f32⟩ : BufTy).Contents (Elt F) → (⟨S128, .f32⟩ : BufTy).Contents (Elt F)),
    StableHlo.unary main_v191 main_v192 (Host.rsqrt : (⟨S128, .f32⟩ : BufTy).Contents (Elt F) → (⟨S128, .f32⟩ : BufTy).Contents (Elt F)),
    StableHlo.unary main_v192 main_v193 (broadcastInDim S1x128 ![1] bcast_S128_S1x128_1 : (⟨S128, .f32⟩ : BufTy).Contents (Elt F) → (⟨S1x128, .f32⟩ : BufTy).Contents (Elt F)),
    StableHlo.unary main_v193 main_v194 (broadcastInDim S100000x128 ![0, 1] bcast_S1x128_S100000x128_0_1 : (⟨S1x128, .f32⟩ : BufTy).Contents (Elt F) → (⟨S100000x128, .f32⟩ : BufTy).Contents (Elt F)),
    StableHlo.binary main_v189 main_v194 main_v195 (mulf : (⟨S100000x128, .f32⟩ : BufTy).Contents (Elt F) → (⟨S100000x128, .f32⟩ : BufTy).Contents (Elt F) → (⟨S100000x128, .f32⟩ : BufTy).Contents (Elt F)),
    StableHlo.unary main_v180 main_v196 (broadcastInDim S1x128 ![1] bcast_S128_S1x128_1 : (⟨S128, .f32⟩ : BufTy).Contents (Elt F) → (⟨S1x128, .f32⟩ : BufTy).Contents (Elt F)),
    StableHlo.unary main_v196 main_v197 (broadcastInDim S100000x128 ![0, 1] bcast_S1x128_S100000x128_0_1 : (⟨S1x128, .f32⟩ : BufTy).Contents (Elt F) → (⟨S100000x128, .f32⟩ : BufTy).Contents (Elt F)),
    StableHlo.binary main_v195 main_v197 main_v198 (mulf : (⟨S100000x128, .f32⟩ : BufTy).Contents (Elt F) → (⟨S100000x128, .f32⟩ : BufTy).Contents (Elt F) → (⟨S100000x128, .f32⟩ : BufTy).Contents (Elt F)),
    StableHlo.unary main_v182 main_v199 (broadcastInDim S1x128 ![1] bcast_S128_S1x128_1 : (⟨S128, .f32⟩ : BufTy).Contents (Elt F) → (⟨S1x128, .f32⟩ : BufTy).Contents (Elt F)),
    StableHlo.unary main_v199 main_v200 (broadcastInDim S100000x128 ![0, 1] bcast_S1x128_S100000x128_0_1 : (⟨S1x128, .f32⟩ : BufTy).Contents (Elt F) → (⟨S100000x128, .f32⟩ : BufTy).Contents (Elt F)),
    StableHlo.binary main_v198 main_v200 main_v201 (addf : (⟨S100000x128, .f32⟩ : BufTy).Contents (Elt F) → (⟨S100000x128, .f32⟩ : BufTy).Contents (Elt F) → (⟨S100000x128, .f32⟩ : BufTy).Contents (Elt F)) ]

/-- Window 3, stretch 5: the body of the call of `fn_relu` over the record `main_call7` (3 operations, `main_call7_cst` … `main_v202`). -/
abbrev part3_5 : List (HloOp τ sig (Elt F)) :=
  [ StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S100000x128, .f32⟩) (broadcastInDim S100000x128 ![] bcast_S_S100000x128),
    StableHlo.TRef.binary (.of main_v201 : StableHlo.TRef sig ⟨S100000x128, .f32⟩) (.of main_call7_v0 : StableHlo.TRef sig ⟨S100000x128, .f32⟩) (.of main_v202 : StableHlo.TRef sig ⟨S100000x128, .f32⟩) maximumf ]

/-- Window 3, stretch 6: statements of @main (3 operations, `main_v203` … `main_v205`). -/
abbrev part3_6 : List (HloOp τ sig (Elt F)) :=
  [ StableHlo.nary ![main_v67, main_v112, main_v157, main_v202] main_v203 (fun u => concatenate S100000x512 1 [⟨S100000x128, u 0⟩, ⟨S100000x128, u 1⟩, ⟨S100000x128, u 2⟩, ⟨S100000x128, u 3⟩] concatenates_S100000x128_S100000x128_S100000x128_S100000x128_S100000x512_d1),
    StableHlo.binary main_v203 main_arg8 main_v204 ((fun l r => Host.dotGeneral dot_S100000x512_S512x40_S100000x40_1_0_0_1_n_n none l r) : (⟨S100000x512, .f32⟩ : BufTy).Contents (Elt F) → (⟨S512x40, .f32⟩ : BufTy).Contents (Elt F) → (⟨S100000x40, .f32⟩ : BufTy).Contents (Elt F)),
    StableHlo.unary main_arg9 main_v205 (broadcastInDim S1x40 ![1] bcast_S40_S1x40_1 : (⟨S40, .f32⟩ : BufTy).Contents (Elt F) → (⟨S1x40, .f32⟩ : BufTy).Contents (Elt F)) ]

/-- Window 3 is the chain of its stretches, ending in the last (no closing return: its last statement is in tail position). -/
theorem main_part3_chain (c : Dev nD) : main_part3 (F := F) c = (Pipeline.chainK
  [ StableHlo.seq part3_0,
    StableHlo.seq part3_1,
    StableHlo.seq part3_2,
    StableHlo.seq part3_3,
    StableHlo.seq part3_4,
    StableHlo.seq part3_5 ]
  (StableHlo.seq part3_6) : Prog (TpuEff nD τ sig (Elt F) (Pipeline.Sig Λ₀ (Fin 0) fun p => (pcfgs (F := F) p).Adm) .tc) PUnit) := by
  chain_rfl

end Cert.ReferenceIdeal.Hand

end
-- ==== Proof.Ref.Main4.lean ====
/- Window 4 of @main (`main_part4`) as a chain of straight lines of operations: its own statements in stretches, and each called function's body, unfolded at the call over that call's buffers, a stretch of its own. The equation is definitional: both sides are the same sequence of steps once the functions are unfolded and the sequencing is re-associated. -/
import proofs.«131845_j5600637354059_1_alg».proof.Proof.Gen.ReferenceIdeal
import Idealize.ShloMosaic.Lib.StableHlo.Run
import Idealize.ShloMosaic.Lib.Pipeline.Regions

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]
/-- Window 4, stretch 0: statements of @main (2 operations, `main_v206` … `main_v207`). -/
abbrev part4_0 : List (HloOp τ sig (Elt F)) :=
  [ StableHlo.unary main_v205 main_v206 (broadcastInDim S100000x40 ![0, 1] bcast_S1x40_S100000x40_0_1 : (⟨S1x40, .f32⟩ : BufTy).Contents (Elt F) → (⟨S100000x40, .f32⟩ : BufTy).Contents (Elt F)),
    StableHlo.binary main_v204 main_v206 main_v207 (addf : (⟨S100000x40, .f32⟩ : BufTy).Contents (Elt F) → (⟨S100000x40, .f32⟩ : BufTy).Contents (Elt F) → (⟨S100000x40, .f32⟩ : BufTy).Contents (Elt F)) ]

/-- Window 4 is the chain of its stretches. -/
theorem main_part4_chain (c : Dev nD) : main_part4 (F := F) c = (Pipeline.chain
  [ StableHlo.seq part4_0 ] : Prog (TpuEff nD τ sig (Elt F) (Pipeline.Sig Λ₀ (Fin 0) fun p => (pcfgs (F := F) p).Adm) .tc) PUnit) := by
  chain_rfl

end Cert.ReferenceIdeal.Hand

end
-- ==== Proof.Ref.MainEq.lean ====
/- @main as one chain of straight lines — its five windows' stretches in order — and the agreement of that listing with the stages': the two concatenations are the same list of operations. -/
import proofs.«131845_j5600637354059_1_alg».proof.Proof.Ref.Basic
import proofs.«131845_j5600637354059_1_alg».proof.Proof.Ref.Ops
import proofs.«131845_j5600637354059_1_alg».proof.Proof.Ref.Main0
import proofs.«131845_j5600637354059_1_alg».proof.Proof.Ref.Main1
import proofs.«131845_j5600637354059_1_alg».proof.Proof.Ref.Main2
import proofs.«131845_j5600637354059_1_alg».proof.Proof.Ref.Main3
import proofs.«131845_j5600637354059_1_alg».proof.Proof.Ref.Main4

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]
/-- The stretches of the five windows, in order. -/
abbrev pieces : List (List (HloOp τ sig (Elt F))) :=
  [part0_0, part1_0, part1_1, part1_2, part1_3, part1_4, part1_5, part1_6, part2_0, part2_1, part2_2, part2_3, part2_4, part3_0, part3_1, part3_2, part3_3, part3_4, part3_5, part3_6, part4_0]

/-- @main is the chain of its windows' stretches: each window is the chain of its own, and a window followed by the
    chain of the rest is the chain of all. -/
theorem main_chain (c : Dev nD) : main (F := F) c = (Pipeline.chain
  [ StableHlo.seq part0_0,
    StableHlo.seq part1_0,
    StableHlo.seq part1_1,
    StableHlo.seq part1_2,
    StableHlo.seq part1_3,
    StableHlo.seq part1_4,
    StableHlo.seq part1_5,
    StableHlo.seq part1_6,
    StableHlo.seq part2_0,
    StableHlo.seq part2_1,
    StableHlo.seq part2_2,
    StableHlo.seq part2_3,
    StableHlo.seq part2_4,
    StableHlo.seq part3_0,
    StableHlo.seq part3_1,
    StableHlo.seq part3_2,
    StableHlo.seq part3_3,
    StableHlo.seq part3_4,
    StableHlo.seq part3_5,
    StableHlo.seq part3_6,
    StableHlo.seq part4_0 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c) = _
  rewrite [main_part4_chain, main_part3_chain, Pipeline.chainK_bind_chain, main_part2_chain, Pipeline.chainK_bind_chain, main_part1_chain, Pipeline.chainK_bind_chain, main_part0_chain, Pipeline.chainK_bind_chain]
  rfl

/-- The stages' concatenation and the windows' stretches' concatenation list the same operations in the same order
    (both are literal lists: the equation is checked by computing the two concatenations). -/
theorem ops_eq_flatten : (ops : List (HloOp τ sig (Elt F))) = pieces.flatten := by
  chain_rfl

end Cert.ReferenceIdeal.Hand

end
-- ==== Proof.Ref.Writes0.lean ====
/- Which buffers each stage (part 0) writes: the list of its operations' result buffers, in order, and the consequence that a reference outside the list holds the same contents after the stage as before it. -/
import proofs.«131845_j5600637354059_1_alg».proof.Proof.Ref.Basic
import proofs.«131845_j5600637354059_1_alg».proof.Proof.Ref.Ops0

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]
/-- The references `opsNorm`'s operations write. -/
abbrev opsNorm_W : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26]

theorem opsNorm_writes : (opsNorm : List (HloOp τ sig (Elt F))).Forall fun op => op.writes ⊆ (opsNorm_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_one

/-- A buffer `opsNorm` does not write keeps its contents through it. -/
theorem opsNorm_keep (V : Valuation τ sig (Elt F)) (r : Ref sig .tc) (h : r ∉ opsNorm_W) :
    StableHlo.after opsNorm V (Proc.devRef .tc r) = V (Proc.devRef .tc r) :=
  StableHlo.after_of_writes_sub opsNorm V opsNorm_writes h

/-- The references `opsMm0`'s operations write. -/
abbrev opsMm0_W : List (Ref sig .tc) := [main_v27]

theorem opsMm0_writes : (opsMm0 : List (HloOp τ sig (Elt F))).Forall fun op => op.writes ⊆ (opsMm0_W.map (Proc.devRef (τ := τ) .tc)).toFinset := by
  simp only [List.Forall]; writes_one

/-- A buffer `opsMm0` does not write keeps its contents through it. -/
theorem opsMm0_keep (V : Valuation τ sig (Elt F)) (r : Ref sig .tc) (h : r ∉ opsMm0_W) :
    StableHlo.after opsMm0 V (Proc.devRef .tc r) = V (Proc.devRef .tc r) :=
  StableHlo.after_of_writes_sub opsMm0 V opsMm0_writes h

/-- The references `opsAgg0`'s operations write. -/
abbrev opsAgg0_W : List (Ref sig .tc) := [main_c_4, main_v28, main_v29, main_c_5, main_v30, main_v31, main_v32, main_v33, main_v34, main_v35, main_v36, main_v37, main_cst_6, main_v38, main_v39, main_v40, main_v41, main_v42, main_v43]

theorem opsAgg0_writes : (opsAgg0 : List (HloOp τ sig (Elt F))).Forall fun op => op.writes ⊆ (opsAgg0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;> writes_one

/-- A buffer `opsAgg0` does not write keeps its contents through it. -/
theorem opsAgg0_keep (V : Valuation τ sig (Elt F)) (r : Ref sig .tc) (h : r ∉ opsAgg0_W) :
    StableHlo.after opsAgg0 V (Proc.devRef .tc r) = V (Proc.devRef .tc r) :=
  StableHlo.after_of_writes_sub opsAgg0 V opsAgg0_writes h

/-- The references `opsStats0`'s operations write. -/
abbrev opsStats0_W : List (Ref sig .tc) := [main_v44, main_v45, main_v46, main_v47, main_cst_7, main_v48, main_cst_8, main_v49, main_v50, main_c_9, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v51]

theorem opsStats0_writes : (opsStats0 : List (HloOp τ sig (Elt F))).Forall fun op => op.writes ⊆ (opsStats0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_one

/-- A buffer `opsStats0` does not write keeps its contents through it. -/
theorem opsStats0_keep (V : Valuation τ sig (Elt F)) (r : Ref sig .tc) (h : r ∉ opsStats0_W) :
    StableHlo.after opsStats0 V (Proc.devRef .tc r) = V (Proc.devRef .tc r) :=
  StableHlo.after_of_writes_sub opsStats0 V opsStats0_writes h

/-- The references `opsBn0`'s operations write. -/
abbrev opsBn0_W : List (Ref sig .tc) := [main_v52, main_v53, main_v54, main_cst_10, main_v55, main_v56, main_v57, main_v58, main_v59, main_v60, main_v61, main_v62, main_v63, main_v64, main_v65, main_v66, main_call1_cst, main_call1_v0, main_v67]

theorem opsBn0_writes : (opsBn0 : List (HloOp τ sig (Elt F))).Forall fun op => op.writes ⊆ (opsBn0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;> writes_one

/-- A buffer `opsBn0` does not write keeps its contents through it. -/
theorem opsBn0_keep (V : Valuation τ sig (Elt F)) (r : Ref sig .tc) (h : r ∉ opsBn0_W) :
    StableHlo.after opsBn0 V (Proc.devRef .tc r) = V (Proc.devRef .tc r) :=
  StableHlo.after_of_writes_sub opsBn0 V opsBn0_writes h

end Cert.ReferenceIdeal.Hand

end
-- ==== Proof.Ref.Writes1.lean ====
/- Which buffers each stage (part 1) writes: the list of its operations' result buffers, in order, and the consequence that a reference outside the list holds the same contents after the stage as before it. -/
import proofs.«131845_j5600637354059_1_alg».proof.Proof.Ref.Basic
import proofs.«131845_j5600637354059_1_alg».proof.Proof.Ref.Ops1

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]
/-- The references `opsMm1`'s operations write. -/
abbrev opsMm1_W : List (Ref sig .tc) := [main_v68, main_v69, main_v70, main_v71, main_v72]

theorem opsMm1_writes : (opsMm1 : List (HloOp τ sig (Elt F))).Forall fun op => op.writes ⊆ (opsMm1_W.map (Proc.devRef (τ := τ) .tc)).toFinset := by
  simp only [List.Forall]
  refine ⟨?_, ?_, ?_, ?_, ?_⟩ <;> writes_one

/-- A buffer `opsMm1` does not write keeps its contents through it. -/
theorem opsMm1_keep (V : Valuation τ sig (Elt F)) (r : Ref sig .tc) (h : r ∉ opsMm1_W) :
    StableHlo.after opsMm1 V (Proc.devRef .tc r) = V (Proc.devRef .tc r) :=
  StableHlo.after_of_writes_sub opsMm1 V opsMm1_writes h

/-- The references `opsAgg1`'s operations write. -/
abbrev opsAgg1_W : List (Ref sig .tc) := [main_c_11, main_v73, main_v74, main_c_12, main_v75, main_v76, main_v77, main_v78, main_v79, main_v80, main_v81, main_v82, main_cst_13, main_v83, main_v84, main_v85, main_v86, main_v87, main_v88]

theorem opsAgg1_writes : (opsAgg1 : List (HloOp τ sig (Elt F))).Forall fun op => op.writes ⊆ (opsAgg1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;> writes_one

/-- A buffer `opsAgg1` does not write keeps its contents through it. -/
theorem opsAgg1_keep (V : Valuation τ sig (Elt F)) (r : Ref sig .tc) (h : r ∉ opsAgg1_W) :
    StableHlo.after opsAgg1 V (Proc.devRef .tc r) = V (Proc.devRef .tc r) :=
  StableHlo.after_of_writes_sub opsAgg1 V opsAgg1_writes h

/-- The references `opsStats1`'s operations write. -/
abbrev opsStats1_W : List (Ref sig .tc) := [main_v89, main_v90, main_v91, main_v92, main_cst_14, main_v93, main_cst_15, main_v94, main_v95, main_c_16, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v96]

theorem opsStats1_writes : (opsStats1 : List (HloOp τ sig (Elt F))).Forall fun op => op.writes ⊆ (opsStats1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_one

/-- A buffer `opsStats1` does not write keeps its contents through it. -/
theorem opsStats1_keep (V : Valuation τ sig (Elt F)) (r : Ref sig .tc) (h : r ∉ opsStats1_W) :
    StableHlo.after opsStats1 V (Proc.devRef .tc r) = V (Proc.devRef .tc r) :=
  StableHlo.after_of_writes_sub opsStats1 V opsStats1_writes h

/-- The references `opsBn1`'s operations write. -/
abbrev opsBn1_W : List (Ref sig .tc) := [main_v97, main_v98, main_v99, main_cst_17, main_v100, main_v101, main_v102, main_v103, main_v104, main_v105, main_v106, main_v107, main_v108, main_v109, main_v110, main_v111, main_call3_cst, main_call3_v0, main_v112]

theorem opsBn1_writes : (opsBn1 : List (HloOp τ sig (Elt F))).Forall fun op => op.writes ⊆ (opsBn1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;> writes_one

/-- A buffer `opsBn1` does not write keeps its contents through it. -/
theorem opsBn1_keep (V : Valuation τ sig (Elt F)) (r : Ref sig .tc) (h : r ∉ opsBn1_W) :
    StableHlo.after opsBn1 V (Proc.devRef .tc r) = V (Proc.devRef .tc r) :=
  StableHlo.after_of_writes_sub opsBn1 V opsBn1_writes h

end Cert.ReferenceIdeal.Hand

end
-- ==== Proof.Ref.Writes2.lean ====
/- Which buffers each stage (part 2) writes: the list of its operations' result buffers, in order, and the consequence that a reference outside the list holds the same contents after the stage as before it. -/
import proofs.«131845_j5600637354059_1_alg».proof.Proof.Ref.Basic
import proofs.«131845_j5600637354059_1_alg».proof.Proof.Ref.Ops2

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]
/-- The references `opsMm2`'s operations write. -/
abbrev opsMm2_W : List (Ref sig .tc) := [main_v113, main_v114, main_v115, main_v116, main_v117]

theorem opsMm2_writes : (opsMm2 : List (HloOp τ sig (Elt F))).Forall fun op => op.writes ⊆ (opsMm2_W.map (Proc.devRef (τ := τ) .tc)).toFinset := by
  simp only [List.Forall]
  refine ⟨?_, ?_, ?_, ?_, ?_⟩ <;> writes_one

/-- A buffer `opsMm2` does not write keeps its contents through it. -/
theorem opsMm2_keep (V : Valuation τ sig (Elt F)) (r : Ref sig .tc) (h : r ∉ opsMm2_W) :
    StableHlo.after opsMm2 V (Proc.devRef .tc r) = V (Proc.devRef .tc r) :=
  StableHlo.after_of_writes_sub opsMm2 V opsMm2_writes h

/-- The references `opsAgg2`'s operations write. -/
abbrev opsAgg2_W : List (Ref sig .tc) := [main_c_18, main_v118, main_v119, main_c_19, main_v120, main_v121, main_v122, main_v123, main_v124, main_v125, main_v126, main_v127, main_cst_20, main_v128, main_v129, main_v130, main_v131, main_v132, main_v133]

theorem opsAgg2_writes : (opsAgg2 : List (HloOp τ sig (Elt F))).Forall fun op => op.writes ⊆ (opsAgg2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;> writes_one

/-- A buffer `opsAgg2` does not write keeps its contents through it. -/
theorem opsAgg2_keep (V : Valuation τ sig (Elt F)) (r : Ref sig .tc) (h : r ∉ opsAgg2_W) :
    StableHlo.after opsAgg2 V (Proc.devRef .tc r) = V (Proc.devRef .tc r) :=
  StableHlo.after_of_writes_sub opsAgg2 V opsAgg2_writes h

/-- The references `opsStats2`'s operations write. -/
abbrev opsStats2_W : List (Ref sig .tc) := [main_v134, main_v135, main_v136, main_v137, main_cst_21, main_v138, main_cst_22, main_v139, main_v140, main_c_23, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v141]

theorem opsStats2_writes : (opsStats2 : List (HloOp τ sig (Elt F))).Forall fun op => op.writes ⊆ (opsStats2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_one

/-- A buffer `opsStats2` does not write keeps its contents through it. -/
theorem opsStats2_keep (V : Valuation τ sig (Elt F)) (r : Ref sig .tc) (h : r ∉ opsStats2_W) :
    StableHlo.after opsStats2 V (Proc.devRef .tc r) = V (Proc.devRef .tc r) :=
  StableHlo.after_of_writes_sub opsStats2 V opsStats2_writes h

/-- The references `opsBn2`'s operations write. -/
abbrev opsBn2_W : List (Ref sig .tc) := [main_v142, main_v143, main_v144, main_cst_24, main_v145, main_v146, main_v147, main_v148, main_v149, main_v150, main_v151, main_v152, main_v153, main_v154, main_v155, main_v156, main_call5_cst, main_call5_v0, main_v157]

theorem opsBn2_writes : (opsBn2 : List (HloOp τ sig (Elt F))).Forall fun op => op.writes ⊆ (opsBn2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;> writes_one

/-- A buffer `opsBn2` does not write keeps its contents through it. -/
theorem opsBn2_keep (V : Valuation τ sig (Elt F)) (r : Ref sig .tc) (h : r ∉ opsBn2_W) :
    StableHlo.after opsBn2 V (Proc.devRef .tc r) = V (Proc.devRef .tc r) :=
  StableHlo.after_of_writes_sub opsBn2 V opsBn2_writes h

end Cert.ReferenceIdeal.Hand

end
-- ==== Proof.Ref.Writes3.lean ====
/- Which buffers each stage (part 3) writes: the list of its operations' result buffers, in order, and the consequence that a reference outside the list holds the same contents after the stage as before it. -/
import proofs.«131845_j5600637354059_1_alg».proof.Proof.Ref.Basic
import proofs.«131845_j5600637354059_1_alg».proof.Proof.Ref.Ops3

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]
/-- The references `opsMm3`'s operations write. -/
abbrev opsMm3_W : List (Ref sig .tc) := [main_v158, main_v159, main_v160, main_v161, main_v162]

theorem opsMm3_writes : (opsMm3 : List (HloOp τ sig (Elt F))).Forall fun op => op.writes ⊆ (opsMm3_W.map (Proc.devRef (τ := τ) .tc)).toFinset := by
  simp only [List.Forall]
  refine ⟨?_, ?_, ?_, ?_, ?_⟩ <;> writes_one

/-- A buffer `opsMm3` does not write keeps its contents through it. -/
theorem opsMm3_keep (V : Valuation τ sig (Elt F)) (r : Ref sig .tc) (h : r ∉ opsMm3_W) :
    StableHlo.after opsMm3 V (Proc.devRef .tc r) = V (Proc.devRef .tc r) :=
  StableHlo.after_of_writes_sub opsMm3 V opsMm3_writes h

/-- The references `opsAgg3`'s operations write. -/
abbrev opsAgg3_W : List (Ref sig .tc) := [main_c_25, main_v163, main_v164, main_c_26, main_v165, main_v166, main_v167, main_v168, main_v169, main_v170, main_v171, main_v172, main_cst_27, main_v173, main_v174, main_v175, main_v176, main_v177, main_v178]

theorem opsAgg3_writes : (opsAgg3 : List (HloOp τ sig (Elt F))).Forall fun op => op.writes ⊆ (opsAgg3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;> writes_one

/-- A buffer `opsAgg3` does not write keeps its contents through it. -/
theorem opsAgg3_keep (V : Valuation τ sig (Elt F)) (r : Ref sig .tc) (h : r ∉ opsAgg3_W) :
    StableHlo.after opsAgg3 V (Proc.devRef .tc r) = V (Proc.devRef .tc r) :=
  StableHlo.after_of_writes_sub opsAgg3 V opsAgg3_writes h

/-- The references `opsStats3`'s operations write. -/
abbrev opsStats3_W : List (Ref sig .tc) := [main_v179, main_v180, main_v181, main_v182, main_cst_28, main_v183, main_cst_29, main_v184, main_v185, main_c_30, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v186]

theorem opsStats3_writes : (opsStats3 : List (HloOp τ sig (Elt F))).Forall fun op => op.writes ⊆ (opsStats3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_one

/-- A buffer `opsStats3` does not write keeps its contents through it. -/
theorem opsStats3_keep (V : Valuation τ sig (Elt F)) (r : Ref sig .tc) (h : r ∉ opsStats3_W) :
    StableHlo.after opsStats3 V (Proc.devRef .tc r) = V (Proc.devRef .tc r) :=
  StableHlo.after_of_writes_sub opsStats3 V opsStats3_writes h

/-- The references `opsBn3`'s operations write. -/
abbrev opsBn3_W : List (Ref sig .tc) := [main_v187, main_v188, main_v189, main_cst_31, main_v190, main_v191, main_v192, main_v193, main_v194, main_v195, main_v196, main_v197, main_v198, main_v199, main_v200, main_v201, main_call7_cst, main_call7_v0, main_v202]

theorem opsBn3_writes : (opsBn3 : List (HloOp τ sig (Elt F))).Forall fun op => op.writes ⊆ (opsBn3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;> writes_one

/-- A buffer `opsBn3` does not write keeps its contents through it. -/
theorem opsBn3_keep (V : Valuation τ sig (Elt F)) (r : Ref sig .tc) (h : r ∉ opsBn3_W) :
    StableHlo.after opsBn3 V (Proc.devRef .tc r) = V (Proc.devRef .tc r) :=
  StableHlo.after_of_writes_sub opsBn3 V opsBn3_writes h

/-- The references `opsHead`'s operations write. -/
abbrev opsHead_W : List (Ref sig .tc) := [main_v203, main_v204, main_v205, main_v206, main_v207]

theorem opsHead_writes : (opsHead : List (HloOp τ sig (Elt F))).Forall fun op => op.writes ⊆ (opsHead_W.map (Proc.devRef (τ := τ) .tc)).toFinset := by
  simp only [List.Forall]
  refine ⟨?_, ?_, ?_, ?_, ?_⟩ <;> writes_one

/-- A buffer `opsHead` does not write keeps its contents through it. -/
theorem opsHead_keep (V : Valuation τ sig (Elt F)) (r : Ref sig .tc) (h : r ∉ opsHead_W) :
    StableHlo.after opsHead V (Proc.devRef .tc r) = V (Proc.devRef .tc r) :=
  StableHlo.after_of_writes_sub opsHead V opsHead_writes h

end Cert.ReferenceIdeal.Hand

end
-- ==== Proof.Ref.Run.lean ====
/- The run of the reference program: @main is the straight line of its operations; every weakly fair execution terminates with each TensorCore buffer at the fold of the operations over its launch contents; and the ten argument buffers, which no operation writes, end at their launch contents. -/
import proofs.«131845_j5600637354059_1_alg».proof.Proof.Ref.MainEq
import proofs.«131845_j5600637354059_1_alg».proof.Proof.Ref.Writes0
import proofs.«131845_j5600637354059_1_alg».proof.Proof.Ref.Writes1
import proofs.«131845_j5600637354059_1_alg».proof.Proof.Ref.Writes2
import proofs.«131845_j5600637354059_1_alg».proof.Proof.Ref.Writes3

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]
/-- @main is the straight line of its operations: the chain of its stretches is the straight line of their
    concatenation, which is the stages' concatenation. -/
theorem main_eq (c : Dev nD) : main (F := F) c = StableHlo.seq ops := by
  rw [main_chain c, ops_eq_flatten]
  exact chain_map_seq pieces

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates, and every final state has each TensorCore buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ
    (fun _ => List.forall_iff_forall_mem.mp ops_fresh)

/-- Every reference some operation writes, stage by stage. -/
abbrev W : List (Ref sig .tc) :=
  opsNorm_W ++ (opsMm0_W ++ (opsAgg0_W ++ (opsStats0_W ++ (opsBn0_W ++ (opsMm1_W ++ (opsAgg1_W ++ (opsStats1_W ++ (opsBn1_W ++ (opsMm2_W ++ (opsAgg2_W ++ (opsStats2_W ++ (opsBn2_W ++ (opsMm3_W ++ (opsAgg3_W ++ (opsStats3_W ++ (opsBn3_W ++ (opsHead_W)))))))))))))))))

/-- A buffer no operation writes keeps its contents through the whole program: through each stage in turn. -/
theorem ops_keep (V : Valuation τ sig (Elt F)) (r : Ref sig .tc) (h : r ∉ W) :
    StableHlo.after ops V (Proc.devRef .tc r) = V (Proc.devRef .tc r) := by
  simp only [W, List.mem_append, not_or] at h
  obtain ⟨h0, h1, h2, h3, h4, h5, h6, h7, h8, h9, h10, h11, h12, h13, h14, h15, h16, h17⟩ := h
  rw [after_ops, opsHead_keep _ _ h17, opsBn3_keep _ _ h16, opsStats3_keep _ _ h15, opsAgg3_keep _ _ h14, opsMm3_keep _ _ h13, opsBn2_keep _ _ h12, opsStats2_keep _ _ h11, opsAgg2_keep _ _ h10, opsMm2_keep _ _ h9, opsBn1_keep _ _ h8, opsStats1_keep _ _ h7, opsAgg1_keep _ _ h6, opsMm1_keep _ _ h5, opsBn0_keep _ _ h4, opsStats0_keep _ _ h3, opsAgg0_keep _ _ h2, opsMm0_keep _ _ h1, opsNorm_keep _ _ h0]

/-- The arguments are unchanged: none of the ten is written by any operation. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide))⟩)
    (run_all m ρ)

end Cert.ReferenceIdeal.Hand

end
-- ==== Proof.KIRead.Stage0.lean ====
/-
  The host computations of the network as pure functions of arrays, stage by stage, spelt with the printed
  operations. An edge list e : [2, E] gives the source and destination lists with one self-loop per node
  appended (E + N entries); the degree of a node counts the entries of the destination list that name it;
  an edge's weight is the product of the inverse square roots of the degrees of its two ends (a negative
  index counts from the end, as in the printed text).
-/
import proofs.«131845_j5600637354059_1_alg».proof.Proof.Gen.KernelIdeal

noncomputable section

namespace Cert.KernelIdeal.Stage

open Cert.KernelIdeal Cert.KernelIdeal.Facts₀ Idealize.ShloMosaic

variable {F : FTy → Type} [FloatOps F]

/-- Row `k` of the edge list (k = 0 the sources, k = 1 the destinations) followed by the nodes 0 … N-1. -/
def src (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩,
    ⟨S100000, iotaInDim S100000 32 0⟩] concatenates_S1600000_S100000_S1700000_d0

def dst (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩,
    ⟨S100000, iotaInDim S100000 32 0⟩] concatenates_S1600000_S100000_S1700000_d0

/-- A node index, a negative one counted from the end, as a column of gather indices. -/
def wrapCol (ix : (⟨S1700000, .i32⟩ : BufTy).Contents (Elt F)) : (⟨S1700000x1, .i32⟩ : BufTy).Contents (Elt F) :=
  broadcastInDim S1700000x1 ![0] bcast_S1700000_S1700000x1_0
    (select (cmpi .slt ix (broadcastInDim S1700000 ![] bcast_S_S1700000 (constantI S_ 32 0#32)))
      (addi ix (broadcastInDim S1700000 ![] bcast_S_S1700000 (constantI S_ 32 100000#32))) ix)

/-- The degree of every node: the number of entries of the destination list naming it. -/
def deg (e : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dst e))
    (broadcastInDim S1700000 ![] bcast_S_S1700000 (constant S_ .f32 0x3F800000#32))

/-- The weight of every entry of the lists: the inverse square roots of the degrees of its two ends, multiplied. -/
def norm (e : (⟨S2x1600000, .i32⟩ : BufTy).Contents (Elt F)) : (⟨S1700000, .f32⟩ : BufTy).Contents (Elt F) :=
  mulf (Host.gather gather_S100000_S1700000x1_S1700000_n_0_n_n_0_1_1 (Host.rsqrt (deg e)) (wrapCol (src e)))
    (Host.gather gather_S100000_S1700000x1_S1700000_n_0_n_n_0_1_1 (Host.rsqrt (deg e)) (wrapCol (dst e)))

end Cert.KernelIdeal.Stage

end
-- ==== Proof.KIRead.Stage1.lean ====
/-
  One layer's host computations as pure functions, spelt with the printed operations: the aggregation
  (each list entry takes its source node's row, scaled by the entry's weight, and adds it into its destination
  node's row; then the bias row is added to every row), the column mean, the column variance (the mean of the
  squared deviations from the mean, through the guard on a positive divisor), the normalization's scale and shift
  rows, and the slices that pick a layer's weights out of the stacked inputs.
-/
import proofs.«131845_j5600637354059_1_alg».proof.Proof.KIRead.Stage0

noncomputable section

namespace Cert.KernelIdeal.Stage

open Cert.KernelIdeal Cert.KernelIdeal.Facts₀ Idealize.ShloMosaic

variable {F : FTy → Type} [FloatOps F]

/-- The aggregation of the rows `h` along the lists `s` (sources) and `d` (destinations) with weights `w`, plus the bias `b`. -/
def agg (h : (⟨S100000x128, .f32⟩ : BufTy).Contents (Elt F)) (s d : (⟨S1700000, .i32⟩ : BufTy).Contents (Elt F))
    (w : (⟨S1700000, .f32⟩ : BufTy).Contents (Elt F)) (b : (⟨S128, .f32⟩ : BufTy).Contents (Elt F)) :
    (⟨S100000x128, .f32⟩ : BufTy).Contents (Elt F) :=
  addf
    (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 d)
      (mulf (Host.gather gather_S100000x128_S1700000x1_S1700000x128_1_0_n_n_0_1_1128 h (wrapCol s))
        (broadcastInDim S1700000x128 ![0, 1] bcast_S1700000x1_S1700000x128_0_1
          (broadcastInDim S1700000x1 ![0] bcast_S1700000_S1700000x1_0 w))))
    (broadcastInDim S100000x128 ![0, 1] bcast_S1x128_S100000x128_0_1 (broadcastInDim S1x128 ![1] bcast_S128_S1x128_1 b))

/-- The column means of `p`. -/
def mean (p : (⟨S100000x128, .f32⟩ : BufTy).Contents (Elt F)) : (⟨S128, .f32⟩ : BufTy).Contents (Elt F) :=
  Host.divf (Host.reduceAdd p (constant S_ .f32 0x00000000#32) reducesTo_S100000x128_S128_d0 h_S_)
    (broadcastInDim S128 ![] bcast_S_S128 (constant S_ .f32 0x47C35000#32))

/-- The divisor of the variance: the row count less the correction `c`. -/
def varDen (c : (⟨S_, .i32⟩ : BufTy).Contents (Elt F)) : (⟨S_, .f32⟩ : BufTy).Contents (Elt F) :=
  subf (constant S_ .f32 0x47C35000#32) (sitofp .f32 c)

/-- The squared deviations of `p` from its column means. -/
def sqDev (p : (⟨S100000x128, .f32⟩ : BufTy).Contents (Elt F)) : (⟨S100000x128, .f32⟩ : BufTy).Contents (Elt F) :=
  mulf
    (subf p (broadcastInDim S100000x128 ![0, 1] bcast_S1x128_S100000x128_0_1
      (Host.divf (broadcastInDim S1x128 ![1] bcast_S128_S1x128_1 (Host.reduceAdd p (constant S_ .f32 0x00000000#32) reducesTo_S100000x128_S128_d0 h_S_))
        (broadcastInDim S1x128 ![] bcast_S_S1x128 (constant S_ .f32 0x47C35000#32)))))
    (subf p (broadcastInDim S100000x128 ![0, 1] bcast_S1x128_S100000x128_0_1
      (Host.divf (broadcastInDim S1x128 ![1] bcast_S128_S1x128_1 (Host.reduceAdd p (constant S_ .f32 0x00000000#32) reducesTo_S100000x128_S128_d0 h_S_))
        (broadcastInDim S1x128 ![] bcast_S_S1x128 (constant S_ .f32 0x47C35000#32)))))

/-- The column variances of `p` with correction `c`: the summed squared deviations over the divisor where the divisor
    is positive, the printed stand-in elsewhere. -/
def var (p : (⟨S100000x128, .f32⟩ : BufTy).Contents (Elt F)) (c : (⟨S_, .i32⟩ : BufTy).Contents (Elt F)) :
    (⟨S128, .f32⟩ : BufTy).Contents (Elt F) :=
  select (broadcastInDim S128 ![] bcast_S_S128 (cmpf .ogt (varDen c) (constant S_ .f32 0x00000000#32)))
    (Host.divf (Host.reduceAdd (sqDev p) (constant S_ .f32 0x00000000#32) reducesTo_S100000x128_S128_d0 h_S_)
      (broadcastInDim S128 ![] bcast_S_S128 (varDen c)))
    (broadcastInDim S128 ![] bcast_S_S128 (id (constant S_ .f32 0x7FC00000#32)))

/-- The scale row: the layer's gain times the inverse square root of the variance plus the printed epsilon. -/
def scale (g v : (⟨S128, .f32⟩ : BufTy).Contents (Elt F)) : (⟨S128, .f32⟩ : BufTy).Contents (Elt F) :=
  mulf g (Host.rsqrt (addf v (broadcastInDim S128 ![] bcast_S_S128 (constant S_ .f32 0x3727C5AC#32))))

/-- The shift row: the layer's offset less the mean times the scale. -/
def shift (b mu sc : (⟨S128, .f32⟩ : BufTy).Contents (Elt F)) : (⟨S128, .f32⟩ : BufTy).Contents (Elt F) :=
  subf b (mulf mu sc)

/-- A row as a one-row matrix. -/
def asRow (r : (⟨S128, .f32⟩ : BufTy).Contents (Elt F)) : (⟨S1x128, .f32⟩ : BufTy).Contents (Elt F) :=
  shapeCast S1x128 r shapeCasts_S128_S1x128

/-- Row `k` of a four-row input (the gains, the offsets). -/
def row4 (k : ℕ) (hk : S4x128.Slices ![k, 0] S1x128) (x : (⟨S4x128, .f32⟩ : BufTy).Contents (Elt F)) :
    (⟨S128, .f32⟩ : BufTy).Contents (Elt F) :=
  shapeCast S128 (extractStridedSlice S1x128 ![k, 0] x hk) shapeCasts_S1x128_S128

/-- Row `k` of the three later layers' biases. -/
def row3 (k : ℕ) (hk : S3x128.Slices ![k, 0] S1x128) (x : (⟨S3x128, .f32⟩ : BufTy).Contents (Elt F)) :
    (⟨S128, .f32⟩ : BufTy).Contents (Elt F) :=
  shapeCast S128 (extractStridedSlice S1x128 ![k, 0] x hk) shapeCasts_S1x128_S128

/-- Matrix `k` of the three later layers' weights. -/
def mat3 (k : ℕ) (hk : S3x128x128.Slices ![k, 0, 0] S1x128x128) (x : (⟨S3x128x128, .f32⟩ : BufTy).Contents (Elt F)) :
    (⟨S128x128, .f32⟩ : BufTy).Contents (Elt F) :=
  shapeCast S128x128 (extractStridedSlice S1x128x128 ![k, 0, 0] x hk) shapeCasts_S1x128x128_S128x128

/-- The four layers' outputs side by side. -/
def concat4 (a b c d : (⟨S100000x128, .f32⟩ : BufTy).Contents (Elt F)) : (⟨S100000x512, .f32⟩ : BufTy).Contents (Elt F) :=
  concatenate S100000x512 1 [⟨S100000x128, a⟩, ⟨S100000x128, b⟩, ⟨S100000x128, c⟩, ⟨S100000x128, d⟩]
    concatenates_S100000x128_S100000x128_S100000x128_S100000x128_S100000x512_d1

/-- The head's bias as a one-row matrix. -/
def headBias (b : (⟨S40, .f32⟩ : BufTy).Contents (Elt F)) : (⟨S1x40, .f32⟩ : BufTy).Contents (Elt F) :=
  shapeCast S1x40 b shapeCasts_S40_S1x40

end Cert.KernelIdeal.Stage

end
-- ==== Proof.KIRead.Stage2.lean ====
/-
  The reference's spelling of a layer's normalization, and the matrix products, as pure functions: every entry
  less its column mean, times the inverse square root of the column variance plus the printed epsilon, times the
  gain, plus the offset, and the positive part of that.
-/
import proofs.«131845_j5600637354059_1_alg».proof.Proof.KIRead.Stage1

noncomputable section

namespace Cert.KernelIdeal.Stage

open Cert.KernelIdeal Cert.KernelIdeal.Facts₀ Idealize.ShloMosaic

variable {F : FTy → Type} [FloatOps F]

/-- A row repeated down the node axis. -/
def down (r : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 r)

/-- The positive part. -/
def relu (x : (⟨S100000x128, .f32⟩ : BufTy).Contents (Elt F)) : (⟨S100000x128, .f32⟩ : BufTy).Contents (Elt F) :=
  maximumf x (broadcastInDim S100000x128 ![] bcast_S_S100000x128 (constant S_ .f32 0x00000000#32))

/-- The normalized, rescaled, rectified rows. -/
def bnRef (p : (⟨S100000x128, .f32⟩ : BufTy).Contents (Elt F)) (mu v g b : (⟨S128, .f32⟩ : BufTy).Contents (Elt F)) :
    (⟨S100000x128, .f32⟩ : BufTy).Contents (Elt F) :=
  relu (addf (mulf (mulf (subf p (down mu))
      (down (Host.rsqrt (addf v (broadcastInDim S128 ![] bcast_S_S128 (constant S_ .f32 0x3727C5AC#32)))))) (down g)) (down b))

end Cert.KernelIdeal.Stage

end
-- ==== Proof.KIValue.Spec.lean ====
/- The three whole-array functions the nine kernel regions compute, index by index over the extended reals:
   rows times a weight matrix, an affine map followed by a cut at zero, and rows times a weight matrix plus a
   bias row. No program is imported: the shapes are literal. -/
import Idealize.ShloMosaic.PureOps.Ideal
import Idealize.ShloMosaic.Lib.ValueIdx

noncomputable section

namespace Cert.KernelIdeal.Closed

open Idealize.ShloMosaic Idealize.ShloMosaic.ValueIdx
open scoped BigOperators

/-- Rows times a weight matrix: entry `(r, q)` is the sum over `k` of `x (r, k) · w (k, q)`. -/
def mm (Kdim Q : ℕ) (x : (⟨2, ![100000, Kdim]⟩ : Shape).Idx → EReal) (w : (⟨2, ![Kdim, Q]⟩ : Shape).Idx → EReal) :
    (⟨2, ![100000, Q]⟩ : Shape).Idx → EReal :=
  fun i => ∑ k : Fin Kdim, x (ix2 (n0 := 100000) (n1 := Kdim) (i 0) k) * w (ix2 (n0 := Kdim) (n1 := Q) k (i 1))

/-- The same at explicit coordinates. -/
theorem mm_apply (Kdim Q : ℕ) (x : (⟨2, ![100000, Kdim]⟩ : Shape).Idx → EReal) (w : (⟨2, ![Kdim, Q]⟩ : Shape).Idx → EReal)
    (r : Fin 100000) (q : Fin Q) : mm Kdim Q x w (ix2 r q) = ∑ k : Fin Kdim, x (ix2 r k) * w (ix2 k q) := rfl

/-- Column `q` of every row scaled by `s q`, shifted by `t q`, and cut at zero from below. -/
def affRelu (x : (⟨2, ![100000, 128]⟩ : Shape).Idx → EReal) (s t : (⟨2, ![1, 128]⟩ : Shape).Idx → EReal) :
    (⟨2, ![100000, 128]⟩ : Shape).Idx → EReal :=
  fun i => max (x i * s (ix2 (n0 := 1) (n1 := 128) 0 (i 1)) + t (ix2 (n0 := 1) (n1 := 128) 0 (i 1))) 0

/-- The same at explicit coordinates. -/
theorem affRelu_apply (x : (⟨2, ![100000, 128]⟩ : Shape).Idx → EReal) (s t : (⟨2, ![1, 128]⟩ : Shape).Idx → EReal)
    (r : Fin 100000) (q : Fin 128) :
    affRelu x s t (ix2 r q) = max (x (ix2 r q) * s (ix2 (0 : Fin 1) q) + t (ix2 (0 : Fin 1) q)) 0 := rfl

/-- Rows times a weight matrix, plus the bias row: entry `(r, q)` is `∑ k, x (r, k) · w (k, q)` plus `b q`. -/
def mmBias (x : (⟨2, ![100000, 512]⟩ : Shape).Idx → EReal) (w : (⟨2, ![512, 40]⟩ : Shape).Idx → EReal)
    (b : (⟨2, ![1, 40]⟩ : Shape).Idx → EReal) : (⟨2, ![100000, 40]⟩ : Shape).Idx → EReal :=
  fun i => (∑ k : Fin 512, x (ix2 (n0 := 100000) (n1 := 512) (i 0) k) * w (ix2 (n0 := 512) (n1 := 40) k (i 1)))
    + b (ix2 (n0 := 1) (n1 := 40) 0 (i 1))

/-- The same at explicit coordinates. -/
theorem mmBias_apply (x : (⟨2, ![100000, 512]⟩ : Shape).Idx → EReal) (w : (⟨2, ![512, 40]⟩ : Shape).Idx → EReal)
    (b : (⟨2, ![1, 40]⟩ : Shape).Idx → EReal) (r : Fin 100000) (q : Fin 40) :
    mmBias x w b (ix2 r q) = (∑ k : Fin 512, x (ix2 r k) * w (ix2 k q)) + b (ix2 (0 : Fin 1) q) := rfl

end Cert.KernelIdeal.Closed

end
-- ==== Proof.KIRead.Net.lean ====
/-
  The two programs' results as pure functions of the ten input arrays, at the exact instance. Both build the index
  lists and the edge weights from the edge list, then four times: a matrix product of the current rows with the
  layer's weights, the aggregation plus bias, the column statistics, and the normalization with the positive part;
  at the end the four layers' outputs side by side times the head's weights plus the head's bias. They differ in
  how the matrix products are spelt (a sum over the contracted axis, or the host's general product) and in how the
  normalization is associated (scale and shift rows formed first, or the centred value rescaled step by step).
-/
import proofs.«131845_j5600637354059_1_alg».proof.Proof.KIRead.Stage2
import proofs.«131845_j5600637354059_1_alg».proof.Proof.KIValue.Spec
import proofs.«131845_j5600637354059_1_alg».proof.Proof.Gen.ReferenceIdeal

noncomputable section

namespace Cert.KernelIdeal.Net

open Cert.KernelIdeal Idealize.ShloMosaic
open Cert.KernelIdeal.Stage Cert.KernelIdeal.Closed

abbrev A (S : Shape) := (⟨S, .f32⟩ : BufTy).Contents (Elt Ideal)

/-- The integer zero the variance is corrected by. -/
abbrev zeroI : (⟨S_, .i32⟩ : BufTy).Contents (Elt Ideal) := constantI S_ 32 0#32

section
variable (x : A S100000x256) (e : (⟨S2x1600000, .i32⟩ : BufTy).Contents (Elt Ideal)) (W0 : A S256x128) (b0 : A S128)
  (Ws : A S3x128x128) (bs : A S3x128) (gs betas : A S4x128) (Wlin : A S512x40) (blin : A S40)

/-- A layer's rows before the normalization, from the product rows `h` and the bias `b`. -/
def pre (h : A S100000x128) (b : A S128) : A S100000x128 := agg h (src e) (dst e) (norm e) b

/-! ### The kernel program's spelling -/

/-- The kernel's normalization of the rows `p` in layer `k`: the scale and shift rows first, then one affine map and the positive part. -/
def kAct (k : ℕ) (hk : S4x128.Slices ![k, 0] S1x128) (p : A S100000x128) : A S100000x128 :=
  affRelu p (asRow (scale (row4 k hk gs) (var p zeroI)))
    (asRow (shift (row4 k hk betas) (mean p) (scale (row4 k hk gs) (var p zeroI))))

def kP0 : A S100000x128 := pre e (mm 256 128 x W0) b0
def kA0 : A S100000x128 := kAct gs betas 0 Facts₀.slices_S4x128_S1x128_0_0 (kP0 x e W0 b0)
def kP1 : A S100000x128 := pre e (mm 128 128 (kA0 x e W0 b0 gs betas) (mat3 0 Facts₀.slices_S3x128x128_S1x128x128_0_0_0 Ws)) (row3 0 Facts₀.slices_S3x128_S1x128_0_0 bs)
def kA1 : A S100000x128 := kAct gs betas 1 Facts₀.slices_S4x128_S1x128_1_0 (kP1 x e W0 b0 Ws bs gs betas)
def kP2 : A S100000x128 := pre e (mm 128 128 (kA1 x e W0 b0 Ws bs gs betas) (mat3 1 Facts₀.slices_S3x128x128_S1x128x128_1_0_0 Ws)) (row3 1 Facts₀.slices_S3x128_S1x128_1_0 bs)
def kA2 : A S100000x128 := kAct gs betas 2 Facts₀.slices_S4x128_S1x128_2_0 (kP2 x e W0 b0 Ws bs gs betas)
def kP3 : A S100000x128 := pre e (mm 128 128 (kA2 x e W0 b0 Ws bs gs betas) (mat3 2 Facts₀.slices_S3x128x128_S1x128x128_2_0_0 Ws)) (row3 2 Facts₀.slices_S3x128_S1x128_2_0 bs)
def kA3 : A S100000x128 := kAct gs betas 3 Facts₀.slices_S4x128_S1x128_3_0 (kP3 x e W0 b0 Ws bs gs betas)

/-- The kernel program's result. -/
def kOut : A S100000x40 :=
  mmBias (concat4 (kA0 x e W0 b0 gs betas) (kA1 x e W0 b0 Ws bs gs betas) (kA2 x e W0 b0 Ws bs gs betas) (kA3 x e W0 b0 Ws bs gs betas))
    Wlin (headBias blin)

/-! ### The reference's spelling -/

/-- The reference's normalization of the rows `p` in layer `k`. -/
def rAct (k : ℕ) (hk : S4x128.Slices ![k, 0] S1x128) (p : A S100000x128) : A S100000x128 :=
  bnRef p (mean p) (var p zeroI) (row4 k hk gs) (row4 k hk betas)

def rP0 : A S100000x128 := pre e (Host.dotGeneral (F := Ideal) (φ₁ := .f32) (φ₂ := .f32) Cert.ReferenceIdeal.dot_S100000x256_S256x128_S100000x128_1_0_0_1_n_n none x W0) b0
def rA0 : A S100000x128 := rAct gs betas 0 Facts₀.slices_S4x128_S1x128_0_0 (rP0 x e W0 b0)
def rP1 : A S100000x128 := pre e (Host.dotGeneral (F := Ideal) (φ₁ := .f32) (φ₂ := .f32) Cert.ReferenceIdeal.dot_S100000x128_S128x128_S100000x128_1_0_0_1_n_n none (rA0 x e W0 b0 gs betas) (mat3 0 Facts₀.slices_S3x128x128_S1x128x128_0_0_0 Ws)) (row3 0 Facts₀.slices_S3x128_S1x128_0_0 bs)
def rA1 : A S100000x128 := rAct gs betas 1 Facts₀.slices_S4x128_S1x128_1_0 (rP1 x e W0 b0 Ws bs gs betas)
def rP2 : A S100000x128 := pre e (Host.dotGeneral (F := Ideal) (φ₁ := .f32) (φ₂ := .f32) Cert.ReferenceIdeal.dot_S100000x128_S128x128_S100000x128_1_0_0_1_n_n none (rA1 x e W0 b0 Ws bs gs betas) (mat3 1 Facts₀.slices_S3x128x128_S1x128x128_1_0_0 Ws)) (row3 1 Facts₀.slices_S3x128_S1x128_1_0 bs)
def rA2 : A S100000x128 := rAct gs betas 2 Facts₀.slices_S4x128_S1x128_2_0 (rP2 x e W0 b0 Ws bs gs betas)
def rP3 : A S100000x128 := pre e (Host.dotGeneral (F := Ideal) (φ₁ := .f32) (φ₂ := .f32) Cert.ReferenceIdeal.dot_S100000x128_S128x128_S100000x128_1_0_0_1_n_n none (rA2 x e W0 b0 Ws bs gs betas) (mat3 2 Facts₀.slices_S3x128x128_S1x128x128_2_0_0 Ws)) (row3 2 Facts₀.slices_S3x128_S1x128_2_0 bs)
def rA3 : A S100000x128 := rAct gs betas 3 Facts₀.slices_S4x128_S1x128_3_0 (rP3 x e W0 b0 Ws bs gs betas)

/-- The reference's result. -/
def rOut : A S100000x40 :=
  addf (Host.dotGeneral (F := Ideal) (φ₁ := .f32) (φ₂ := .f32) Cert.ReferenceIdeal.dot_S100000x512_S512x40_S100000x40_1_0_0_1_n_n none
      (concat4 (rA0 x e W0 b0 gs betas) (rA1 x e W0 b0 Ws bs gs betas) (rA2 x e W0 b0 Ws bs gs betas) (rA3 x e W0 b0 Ws bs gs betas)) Wlin)
    (broadcastInDim S100000x40 ![0, 1] Cert.ReferenceIdeal.Facts₀.bcast_S1x40_S100000x40_0_1
      (broadcastInDim S1x40 ![1] Cert.ReferenceIdeal.Facts₀.bcast_S40_S1x40_1 blin))

end

end Cert.KernelIdeal.Net

end
-- ==== Proof.Ref.Read0.lean ====
/- What layer 0's stages and the edge-weight stage leave in the buffers later stages read, as the stage functions of what they find: each stage's operations composed are the stage function, by unfolding both. -/
import proofs.«131845_j5600637354059_1_alg».proof.Proof.KIRead.Stage2
import proofs.«131845_j5600637354059_1_alg».proof.Proof.Ref.Ops0
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]
/-- The source list with the self loops appended. -/
theorem read_src (V : Valuation τ sig (Elt F)) :
    StableHlo.after opsNorm V main_v3
      = Cert.KernelIdeal.Stage.src (V main_arg1) := by
  dsimp only [opsNorm]; after_results_simp; rfl

/-- The destination list with the self loops appended. -/
theorem read_dst (V : Valuation τ sig (Elt F)) :
    StableHlo.after opsNorm V main_v6
      = Cert.KernelIdeal.Stage.dst (V main_arg1) := by
  dsimp only [opsNorm]; after_results_simp; rfl

/-- The edge weights. -/
theorem read_norm (V : Valuation τ sig (Elt F)) :
    StableHlo.after opsNorm V main_v26
      = Cert.KernelIdeal.Stage.norm (V main_arg1) := by
  dsimp only [opsNorm]; after_results_simp; rfl

/-- Layer 0's feature transform. -/
theorem read_mm0 (V : Valuation τ sig (Elt F)) :
    StableHlo.after opsMm0 V main_v27
      = Host.dotGeneral dot_S100000x256_S256x128_S100000x128_1_0_0_1_n_n none (V main_arg0) (V main_arg2) := by
  dsimp only [opsMm0]; after_results_simp

/-- Layer 0's aggregation plus bias. -/
theorem read_agg0 (V : Valuation τ sig (Elt F)) :
    StableHlo.after opsAgg0 V main_v43
      = Cert.KernelIdeal.Stage.agg (V main_v27) (V main_v3) (V main_v6) (V main_v26) (V main_arg3) := by
  dsimp only [opsAgg0]; after_results_simp; rfl

/-- Layer 0's column means. -/
theorem read_mean0 (V : Valuation τ sig (Elt F)) :
    StableHlo.after opsStats0 V main_v50
      = Cert.KernelIdeal.Stage.mean (V main_v43) := by
  dsimp only [opsStats0]; after_results_simp; rfl

/-- Layer 0's column variances (the correction is the integer zero, produced inside the stage). -/
theorem read_var0 (V : Valuation τ sig (Elt F)) :
    StableHlo.after opsStats0 V main_v51
      = Cert.KernelIdeal.Stage.var (V main_v43) (constantI S_ 32 0#32) := by
  dsimp only [opsStats0]; after_results_simp; rfl

/-- Layer 0's gain row. -/
theorem read_gamma0 (V : Valuation τ sig (Elt F)) :
    StableHlo.after opsStats0 V main_v45
      = Cert.KernelIdeal.Stage.row4 0 Cert.KernelIdeal.Facts₀.slices_S4x128_S1x128_0_0 (V main_arg6) := by
  dsimp only [opsStats0]; after_results_simp; rfl

/-- Layer 0's offset row. -/
theorem read_beta0 (V : Valuation τ sig (Elt F)) :
    StableHlo.after opsStats0 V main_v47
      = Cert.KernelIdeal.Stage.row4 0 Cert.KernelIdeal.Facts₀.slices_S4x128_S1x128_0_0 (V main_arg7) := by
  dsimp only [opsStats0]; after_results_simp; rfl

/-- Layer 0's normalized, rescaled, rectified rows. -/
theorem read_bn0 (V : Valuation τ sig (Elt F)) :
    StableHlo.after opsBn0 V main_v67
      = Cert.KernelIdeal.Stage.bnRef (V main_v43) (V main_v50) (V main_v51) (V main_v45) (V main_v47) := by
  dsimp only [opsBn0]; after_results_simp; rfl

end Cert.ReferenceIdeal.Hand

end
-- ==== Proof.Ref.Read1.lean ====
/- What layer 1's stages leave in the buffers later stages read, as the stage functions of what they find: each stage's operations composed are the stage function, by unfolding both. -/
import proofs.«131845_j5600637354059_1_alg».proof.Proof.KIRead.Stage2
import proofs.«131845_j5600637354059_1_alg».proof.Proof.Ref.Ops1
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]
/-- Layer 1's feature transform: the previous layer's output times weight matrix 0 of the stack. -/
theorem read_mm1 (V : Valuation τ sig (Elt F)) :
    StableHlo.after opsMm1 V main_v72
      = Host.dotGeneral dot_S100000x128_S128x128_S100000x128_1_0_0_1_n_n none (V main_v67) (Cert.KernelIdeal.Stage.mat3 0 Cert.KernelIdeal.Facts₀.slices_S3x128x128_S1x128x128_0_0_0 (V main_arg4)) := by
  dsimp only [opsMm1]; after_results_simp; rfl

/-- Layer 1's bias: row 0 of the stack. -/
theorem read_bias1 (V : Valuation τ sig (Elt F)) :
    StableHlo.after opsMm1 V main_v71
      = Cert.KernelIdeal.Stage.row3 0 Cert.KernelIdeal.Facts₀.slices_S3x128_S1x128_0_0 (V main_arg5) := by
  dsimp only [opsMm1]; after_results_simp; rfl

/-- Layer 1's aggregation plus bias. -/
theorem read_agg1 (V : Valuation τ sig (Elt F)) :
    StableHlo.after opsAgg1 V main_v88
      = Cert.KernelIdeal.Stage.agg (V main_v72) (V main_v3) (V main_v6) (V main_v26) (V main_v71) := by
  dsimp only [opsAgg1]; after_results_simp; rfl

/-- Layer 1's column means. -/
theorem read_mean1 (V : Valuation τ sig (Elt F)) :
    StableHlo.after opsStats1 V main_v95
      = Cert.KernelIdeal.Stage.mean (V main_v88) := by
  dsimp only [opsStats1]; after_results_simp; rfl

/-- Layer 1's column variances (the correction is the integer zero, produced inside the stage). -/
theorem read_var1 (V : Valuation τ sig (Elt F)) :
    StableHlo.after opsStats1 V main_v96
      = Cert.KernelIdeal.Stage.var (V main_v88) (constantI S_ 32 0#32) := by
  dsimp only [opsStats1]; after_results_simp; rfl

/-- Layer 1's gain row. -/
theorem read_gamma1 (V : Valuation τ sig (Elt F)) :
    StableHlo.after opsStats1 V main_v90
      = Cert.KernelIdeal.Stage.row4 1 Cert.KernelIdeal.Facts₀.slices_S4x128_S1x128_1_0 (V main_arg6) := by
  dsimp only [opsStats1]; after_results_simp; rfl

/-- Layer 1's offset row. -/
theorem read_beta1 (V : Valuation τ sig (Elt F)) :
    StableHlo.after opsStats1 V main_v92
      = Cert.KernelIdeal.Stage.row4 1 Cert.KernelIdeal.Facts₀.slices_S4x128_S1x128_1_0 (V main_arg7) := by
  dsimp only [opsStats1]; after_results_simp; rfl

/-- Layer 1's normalized, rescaled, rectified rows. -/
theorem read_bn1 (V : Valuation τ sig (Elt F)) :
    StableHlo.after opsBn1 V main_v112
      = Cert.KernelIdeal.Stage.bnRef (V main_v88) (V main_v95) (V main_v96) (V main_v90) (V main_v92) := by
  dsimp only [opsBn1]; after_results_simp; rfl

end Cert.ReferenceIdeal.Hand

end
-- ==== Proof.Ref.Read2.lean ====
/- What layer 2's stages leave in the buffers later stages read, as the stage functions of what they find: each stage's operations composed are the stage function, by unfolding both. -/
import proofs.«131845_j5600637354059_1_alg».proof.Proof.KIRead.Stage2
import proofs.«131845_j5600637354059_1_alg».proof.Proof.Ref.Ops2
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]
/-- Layer 2's feature transform: the previous layer's output times weight matrix 1 of the stack. -/
theorem read_mm2 (V : Valuation τ sig (Elt F)) :
    StableHlo.after opsMm2 V main_v117
      = Host.dotGeneral dot_S100000x128_S128x128_S100000x128_1_0_0_1_n_n none (V main_v112) (Cert.KernelIdeal.Stage.mat3 1 Cert.KernelIdeal.Facts₀.slices_S3x128x128_S1x128x128_1_0_0 (V main_arg4)) := by
  dsimp only [opsMm2]; after_results_simp; rfl

/-- Layer 2's bias: row 1 of the stack. -/
theorem read_bias2 (V : Valuation τ sig (Elt F)) :
    StableHlo.after opsMm2 V main_v116
      = Cert.KernelIdeal.Stage.row3 1 Cert.KernelIdeal.Facts₀.slices_S3x128_S1x128_1_0 (V main_arg5) := by
  dsimp only [opsMm2]; after_results_simp; rfl

/-- Layer 2's aggregation plus bias. -/
theorem read_agg2 (V : Valuation τ sig (Elt F)) :
    StableHlo.after opsAgg2 V main_v133
      = Cert.KernelIdeal.Stage.agg (V main_v117) (V main_v3) (V main_v6) (V main_v26) (V main_v116) := by
  dsimp only [opsAgg2]; after_results_simp; rfl

/-- Layer 2's column means. -/
theorem read_mean2 (V : Valuation τ sig (Elt F)) :
    StableHlo.after opsStats2 V main_v140
      = Cert.KernelIdeal.Stage.mean (V main_v133) := by
  dsimp only [opsStats2]; after_results_simp; rfl

/-- Layer 2's column variances (the correction is the integer zero, produced inside the stage). -/
theorem read_var2 (V : Valuation τ sig (Elt F)) :
    StableHlo.after opsStats2 V main_v141
      = Cert.KernelIdeal.Stage.var (V main_v133) (constantI S_ 32 0#32) := by
  dsimp only [opsStats2]; after_results_simp; rfl

/-- Layer 2's gain row. -/
theorem read_gamma2 (V : Valuation τ sig (Elt F)) :
    StableHlo.after opsStats2 V main_v135
      = Cert.KernelIdeal.Stage.row4 2 Cert.KernelIdeal.Facts₀.slices_S4x128_S1x128_2_0 (V main_arg6) := by
  dsimp only [opsStats2]; after_results_simp; rfl

/-- Layer 2's offset row. -/
theorem read_beta2 (V : Valuation τ sig (Elt F)) :
    StableHlo.after opsStats2 V main_v137
      = Cert.KernelIdeal.Stage.row4 2 Cert.KernelIdeal.Facts₀.slices_S4x128_S1x128_2_0 (V main_arg7) := by
  dsimp only [opsStats2]; after_results_simp; rfl

/-- Layer 2's normalized, rescaled, rectified rows. -/
theorem read_bn2 (V : Valuation τ sig (Elt F)) :
    StableHlo.after opsBn2 V main_v157
      = Cert.KernelIdeal.Stage.bnRef (V main_v133) (V main_v140) (V main_v141) (V main_v135) (V main_v137) := by
  dsimp only [opsBn2]; after_results_simp; rfl

end Cert.ReferenceIdeal.Hand

end
-- ==== Proof.Ref.Read3.lean ====
/- What layer 3's stages and the output stage leave in the buffers later stages read, as the stage functions of what they find: each stage's operations composed are the stage function, by unfolding both. -/
import proofs.«131845_j5600637354059_1_alg».proof.Proof.KIRead.Stage2
import proofs.«131845_j5600637354059_1_alg».proof.Proof.Ref.Ops3
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]
/-- Layer 3's feature transform: the previous layer's output times weight matrix 2 of the stack. -/
theorem read_mm3 (V : Valuation τ sig (Elt F)) :
    StableHlo.after opsMm3 V main_v162
      = Host.dotGeneral dot_S100000x128_S128x128_S100000x128_1_0_0_1_n_n none (V main_v157) (Cert.KernelIdeal.Stage.mat3 2 Cert.KernelIdeal.Facts₀.slices_S3x128x128_S1x128x128_2_0_0 (V main_arg4)) := by
  dsimp only [opsMm3]; after_results_simp; rfl

/-- Layer 3's bias: row 2 of the stack. -/
theorem read_bias3 (V : Valuation τ sig (Elt F)) :
    StableHlo.after opsMm3 V main_v161
      = Cert.KernelIdeal.Stage.row3 2 Cert.KernelIdeal.Facts₀.slices_S3x128_S1x128_2_0 (V main_arg5) := by
  dsimp only [opsMm3]; after_results_simp; rfl

/-- Layer 3's aggregation plus bias. -/
theorem read_agg3 (V : Valuation τ sig (Elt F)) :
    StableHlo.after opsAgg3 V main_v178
      = Cert.KernelIdeal.Stage.agg (V main_v162) (V main_v3) (V main_v6) (V main_v26) (V main_v161) := by
  dsimp only [opsAgg3]; after_results_simp; rfl

/-- Layer 3's column means. -/
theorem read_mean3 (V : Valuation τ sig (Elt F)) :
    StableHlo.after opsStats3 V main_v185
      = Cert.KernelIdeal.Stage.mean (V main_v178) := by
  dsimp only [opsStats3]; after_results_simp; rfl

/-- Layer 3's column variances (the correction is the integer zero, produced inside the stage). -/
theorem read_var3 (V : Valuation τ sig (Elt F)) :
    StableHlo.after opsStats3 V main_v186
      = Cert.KernelIdeal.Stage.var (V main_v178) (constantI S_ 32 0#32) := by
  dsimp only [opsStats3]; after_results_simp; rfl

/-- Layer 3's gain row. -/
theorem read_gamma3 (V : Valuation τ sig (Elt F)) :
    StableHlo.after opsStats3 V main_v180
      = Cert.KernelIdeal.Stage.row4 3 Cert.KernelIdeal.Facts₀.slices_S4x128_S1x128_3_0 (V main_arg6) := by
  dsimp only [opsStats3]; after_results_simp; rfl

/-- Layer 3's offset row. -/
theorem read_beta3 (V : Valuation τ sig (Elt F)) :
    StableHlo.after opsStats3 V main_v182
      = Cert.KernelIdeal.Stage.row4 3 Cert.KernelIdeal.Facts₀.slices_S4x128_S1x128_3_0 (V main_arg7) := by
  dsimp only [opsStats3]; after_results_simp; rfl

/-- Layer 3's normalized, rescaled, rectified rows. -/
theorem read_bn3 (V : Valuation τ sig (Elt F)) :
    StableHlo.after opsBn3 V main_v202
      = Cert.KernelIdeal.Stage.bnRef (V main_v178) (V main_v185) (V main_v186) (V main_v180) (V main_v182) := by
  dsimp only [opsBn3]; after_results_simp; rfl

/-- The output layer. -/
theorem read_head (V : Valuation τ sig (Elt F)) :
    StableHlo.after opsHead V main_v207
      = addf (Host.dotGeneral dot_S100000x512_S512x40_S100000x40_1_0_0_1_n_n none (Cert.KernelIdeal.Stage.concat4 (V main_v67) (V main_v112) (V main_v157) (V main_v202)) (V main_arg8)) (broadcastInDim S100000x40 ![0, 1] bcast_S1x40_S100000x40_0_1 (broadcastInDim S1x40 ![1] bcast_S40_S1x40_1 (V main_arg9))) := by
  dsimp only [opsHead]; after_results_simp; rfl

end Cert.ReferenceIdeal.Hand

end
-- ==== Proof.Ref.Value.lean ====
/- The reference's result as a function of the ten argument arrays, at the exact instance: the buffers after each stage in turn, read with the stages' read lemmas, each value carried unchanged through the stages that do not write its buffer, and folded stage by stage into the network's functions. -/
import proofs.«131845_j5600637354059_1_alg».proof.Proof.KIRead.Net
import proofs.«131845_j5600637354059_1_alg».proof.Proof.Ref.Ops
import proofs.«131845_j5600637354059_1_alg».proof.Proof.Ref.Read0
import proofs.«131845_j5600637354059_1_alg».proof.Proof.Ref.Writes0
import proofs.«131845_j5600637354059_1_alg».proof.Proof.Ref.Read1
import proofs.«131845_j5600637354059_1_alg».proof.Proof.Ref.Writes1
import proofs.«131845_j5600637354059_1_alg».proof.Proof.Ref.Read2
import proofs.«131845_j5600637354059_1_alg».proof.Proof.Ref.Writes2
import proofs.«131845_j5600637354059_1_alg».proof.Proof.Ref.Read3
import proofs.«131845_j5600637354059_1_alg».proof.Proof.Ref.Writes3
import proofs.«131845_j5600637354059_1_alg».proof.Proof.Ref.Run

set_option maxRecDepth 8192

noncomputable section

namespace Cert.ReferenceIdeal.Hand

open Cert.ReferenceIdeal Cert.ReferenceIdeal.Gen Idealize.ShloMosaic Idealize.ShloMosaic.TcCoe Idealize.SL.Sem

/-- The ten argument arrays in a valuation, at the network functions' types. -/
abbrev a0 (V : Valuation τ sig (Elt Ideal)) : Cert.KernelIdeal.Net.A Cert.KernelIdeal.S100000x256 := V main_arg0
abbrev a1 (V : Valuation τ sig (Elt Ideal)) : (⟨Cert.KernelIdeal.S2x1600000, .i32⟩ : BufTy).Contents (Elt Ideal) := V main_arg1
abbrev a2 (V : Valuation τ sig (Elt Ideal)) : Cert.KernelIdeal.Net.A Cert.KernelIdeal.S256x128 := V main_arg2
abbrev a3 (V : Valuation τ sig (Elt Ideal)) : Cert.KernelIdeal.Net.A Cert.KernelIdeal.S128 := V main_arg3
abbrev a4 (V : Valuation τ sig (Elt Ideal)) : Cert.KernelIdeal.Net.A Cert.KernelIdeal.S3x128x128 := V main_arg4
abbrev a5 (V : Valuation τ sig (Elt Ideal)) : Cert.KernelIdeal.Net.A Cert.KernelIdeal.S3x128 := V main_arg5
abbrev a6 (V : Valuation τ sig (Elt Ideal)) : Cert.KernelIdeal.Net.A Cert.KernelIdeal.S4x128 := V main_arg6
abbrev a7 (V : Valuation τ sig (Elt Ideal)) : Cert.KernelIdeal.Net.A Cert.KernelIdeal.S4x128 := V main_arg7
abbrev a8 (V : Valuation τ sig (Elt Ideal)) : Cert.KernelIdeal.Net.A Cert.KernelIdeal.S512x40 := V main_arg8
abbrev a9 (V : Valuation τ sig (Elt Ideal)) : Cert.KernelIdeal.Net.A Cert.KernelIdeal.S40 := V main_arg9

/-- The buffers after the first stages: `St k` after stages 0 … k. -/
abbrev St0 (V : Valuation τ sig (Elt Ideal)) : Valuation τ sig (Elt Ideal) := StableHlo.after opsNorm V
abbrev St1 (V : Valuation τ sig (Elt Ideal)) : Valuation τ sig (Elt Ideal) := StableHlo.after opsMm0 (St0 V)
abbrev St2 (V : Valuation τ sig (Elt Ideal)) : Valuation τ sig (Elt Ideal) := StableHlo.after opsAgg0 (St1 V)
abbrev St3 (V : Valuation τ sig (Elt Ideal)) : Valuation τ sig (Elt Ideal) := StableHlo.after opsStats0 (St2 V)
abbrev St4 (V : Valuation τ sig (Elt Ideal)) : Valuation τ sig (Elt Ideal) := StableHlo.after opsBn0 (St3 V)
abbrev St5 (V : Valuation τ sig (Elt Ideal)) : Valuation τ sig (Elt Ideal) := StableHlo.after opsMm1 (St4 V)
abbrev St6 (V : Valuation τ sig (Elt Ideal)) : Valuation τ sig (Elt Ideal) := StableHlo.after opsAgg1 (St5 V)
abbrev St7 (V : Valuation τ sig (Elt Ideal)) : Valuation τ sig (Elt Ideal) := StableHlo.after opsStats1 (St6 V)
abbrev St8 (V : Valuation τ sig (Elt Ideal)) : Valuation τ sig (Elt Ideal) := StableHlo.after opsBn1 (St7 V)
abbrev St9 (V : Valuation τ sig (Elt Ideal)) : Valuation τ sig (Elt Ideal) := StableHlo.after opsMm2 (St8 V)
abbrev St10 (V : Valuation τ sig (Elt Ideal)) : Valuation τ sig (Elt Ideal) := StableHlo.after opsAgg2 (St9 V)
abbrev St11 (V : Valuation τ sig (Elt Ideal)) : Valuation τ sig (Elt Ideal) := StableHlo.after opsStats2 (St10 V)
abbrev St12 (V : Valuation τ sig (Elt Ideal)) : Valuation τ sig (Elt Ideal) := StableHlo.after opsBn2 (St11 V)
abbrev St13 (V : Valuation τ sig (Elt Ideal)) : Valuation τ sig (Elt Ideal) := StableHlo.after opsMm3 (St12 V)
abbrev St14 (V : Valuation τ sig (Elt Ideal)) : Valuation τ sig (Elt Ideal) := StableHlo.after opsAgg3 (St13 V)
abbrev St15 (V : Valuation τ sig (Elt Ideal)) : Valuation τ sig (Elt Ideal) := StableHlo.after opsStats3 (St14 V)
abbrev St16 (V : Valuation τ sig (Elt Ideal)) : Valuation τ sig (Elt Ideal) := StableHlo.after opsBn3 (St15 V)
abbrev St17 (V : Valuation τ sig (Elt Ideal)) : Valuation τ sig (Elt Ideal) := StableHlo.after opsHead (St16 V)

theorem after_ops_St (V : Valuation τ sig (Elt Ideal)) : StableHlo.after ops V = St17 V := after_ops V

theorem st0_keep (V : Valuation τ sig (Elt Ideal)) (r : Ref sig .tc) (h : r ∉ W) : St0 V (Proc.devRef .tc r) = V (Proc.devRef .tc r) := by
  have h' := h
  simp only [W, List.mem_append, not_or] at h'
  obtain ⟨h0, h1, h2, h3, h4, h5, h6, h7, h8, h9, h10, h11, h12, h13, h14, h15, h16, h17⟩ := h'
  show StableHlo.after opsNorm V _ = _
  rw [opsNorm_keep _ _ h0]

theorem st1_keep (V : Valuation τ sig (Elt Ideal)) (r : Ref sig .tc) (h : r ∉ W) : St1 V (Proc.devRef .tc r) = V (Proc.devRef .tc r) := by
  have h' := h
  simp only [W, List.mem_append, not_or] at h'
  obtain ⟨h0, h1, h2, h3, h4, h5, h6, h7, h8, h9, h10, h11, h12, h13, h14, h15, h16, h17⟩ := h'
  show StableHlo.after opsMm0 (St0 V) _ = _
  rw [opsMm0_keep _ _ h1, st0_keep V r h]

theorem st2_keep (V : Valuation τ sig (Elt Ideal)) (r : Ref sig .tc) (h : r ∉ W) : St2 V (Proc.devRef .tc r) = V (Proc.devRef .tc r) := by
  have h' := h
  simp only [W, List.mem_append, not_or] at h'
  obtain ⟨h0, h1, h2, h3, h4, h5, h6, h7, h8, h9, h10, h11, h12, h13, h14, h15, h16, h17⟩ := h'
  show StableHlo.after opsAgg0 (St1 V) _ = _
  rw [opsAgg0_keep _ _ h2, st1_keep V r h]

theorem st3_keep (V : Valuation τ sig (Elt Ideal)) (r : Ref sig .tc) (h : r ∉ W) : St3 V (Proc.devRef .tc r) = V (Proc.devRef .tc r) := by
  have h' := h
  simp only [W, List.mem_append, not_or] at h'
  obtain ⟨h0, h1, h2, h3, h4, h5, h6, h7, h8, h9, h10, h11, h12, h13, h14, h15, h16, h17⟩ := h'
  show StableHlo.after opsStats0 (St2 V) _ = _
  rw [opsStats0_keep _ _ h3, st2_keep V r h]

theorem st4_keep (V : Valuation τ sig (Elt Ideal)) (r : Ref sig .tc) (h : r ∉ W) : St4 V (Proc.devRef .tc r) = V (Proc.devRef .tc r) := by
  have h' := h
  simp only [W, List.mem_append, not_or] at h'
  obtain ⟨h0, h1, h2, h3, h4, h5, h6, h7, h8, h9, h10, h11, h12, h13, h14, h15, h16, h17⟩ := h'
  show StableHlo.after opsBn0 (St3 V) _ = _
  rw [opsBn0_keep _ _ h4, st3_keep V r h]

theorem st5_keep (V : Valuation τ sig (Elt Ideal)) (r : Ref sig .tc) (h : r ∉ W) : St5 V (Proc.devRef .tc r) = V (Proc.devRef .tc r) := by
  have h' := h
  simp only [W, List.mem_append, not_or] at h'
  obtain ⟨h0, h1, h2, h3, h4, h5, h6, h7, h8, h9, h10, h11, h12, h13, h14, h15, h16, h17⟩ := h'
  show StableHlo.after opsMm1 (St4 V) _ = _
  rw [opsMm1_keep _ _ h5, st4_keep V r h]

theorem st6_keep (V : Valuation τ sig (Elt Ideal)) (r : Ref sig .tc) (h : r ∉ W) : St6 V (Proc.devRef .tc r) = V (Proc.devRef .tc r) := by
  have h' := h
  simp only [W, List.mem_append, not_or] at h'
  obtain ⟨h0, h1, h2, h3, h4, h5, h6, h7, h8, h9, h10, h11, h12, h13, h14, h15, h16, h17⟩ := h'
  show StableHlo.after opsAgg1 (St5 V) _ = _
  rw [opsAgg1_keep _ _ h6, st5_keep V r h]

theorem st7_keep (V : Valuation τ sig (Elt Ideal)) (r : Ref sig .tc) (h : r ∉ W) : St7 V (Proc.devRef .tc r) = V (Proc.devRef .tc r) := by
  have h' := h
  simp only [W, List.mem_append, not_or] at h'
  obtain ⟨h0, h1, h2, h3, h4, h5, h6, h7, h8, h9, h10, h11, h12, h13, h14, h15, h16, h17⟩ := h'
  show StableHlo.after opsStats1 (St6 V) _ = _
  rw [opsStats1_keep _ _ h7, st6_keep V r h]

theorem st8_keep (V : Valuation τ sig (Elt Ideal)) (r : Ref sig .tc) (h : r ∉ W) : St8 V (Proc.devRef .tc r) = V (Proc.devRef .tc r) := by
  have h' := h
  simp only [W, List.mem_append, not_or] at h'
  obtain ⟨h0, h1, h2, h3, h4, h5, h6, h7, h8, h9, h10, h11, h12, h13, h14, h15, h16, h17⟩ := h'
  show StableHlo.after opsBn1 (St7 V) _ = _
  rw [opsBn1_keep _ _ h8, st7_keep V r h]

theorem st9_keep (V : Valuation τ sig (Elt Ideal)) (r : Ref sig .tc) (h : r ∉ W) : St9 V (Proc.devRef .tc r) = V (Proc.devRef .tc r) := by
  have h' := h
  simp only [W, List.mem_append, not_or] at h'
  obtain ⟨h0, h1, h2, h3, h4, h5, h6, h7, h8, h9, h10, h11, h12, h13, h14, h15, h16, h17⟩ := h'
  show StableHlo.after opsMm2 (St8 V) _ = _
  rw [opsMm2_keep _ _ h9, st8_keep V r h]

theorem st10_keep (V : Valuation τ sig (Elt Ideal)) (r : Ref sig .tc) (h : r ∉ W) : St10 V (Proc.devRef .tc r) = V (Proc.devRef .tc r) := by
  have h' := h
  simp only [W, List.mem_append, not_or] at h'
  obtain ⟨h0, h1, h2, h3, h4, h5, h6, h7, h8, h9, h10, h11, h12, h13, h14, h15, h16, h17⟩ := h'
  show StableHlo.after opsAgg2 (St9 V) _ = _
  rw [opsAgg2_keep _ _ h10, st9_keep V r h]

theorem st11_keep (V : Valuation τ sig (Elt Ideal)) (r : Ref sig .tc) (h : r ∉ W) : St11 V (Proc.devRef .tc r) = V (Proc.devRef .tc r) := by
  have h' := h
  simp only [W, List.mem_append, not_or] at h'
  obtain ⟨h0, h1, h2, h3, h4, h5, h6, h7, h8, h9, h10, h11, h12, h13, h14, h15, h16, h17⟩ := h'
  show StableHlo.after opsStats2 (St10 V) _ = _
  rw [opsStats2_keep _ _ h11, st10_keep V r h]

theorem st12_keep (V : Valuation τ sig (Elt Ideal)) (r : Ref sig .tc) (h : r ∉ W) : St12 V (Proc.devRef .tc r) = V (Proc.devRef .tc r) := by
  have h' := h
  simp only [W, List.mem_append, not_or] at h'
  obtain ⟨h0, h1, h2, h3, h4, h5, h6, h7, h8, h9, h10, h11, h12, h13, h14, h15, h16, h17⟩ := h'
  show StableHlo.after opsBn2 (St11 V) _ = _
  rw [opsBn2_keep _ _ h12, st11_keep V r h]

theorem st13_keep (V : Valuation τ sig (Elt Ideal)) (r : Ref sig .tc) (h : r ∉ W) : St13 V (Proc.devRef .tc r) = V (Proc.devRef .tc r) := by
  have h' := h
  simp only [W, List.mem_append, not_or] at h'
  obtain ⟨h0, h1, h2, h3, h4, h5, h6, h7, h8, h9, h10, h11, h12, h13, h14, h15, h16, h17⟩ := h'
  show StableHlo.after opsMm3 (St12 V) _ = _
  rw [opsMm3_keep _ _ h13, st12_keep V r h]

theorem st14_keep (V : Valuation τ sig (Elt Ideal)) (r : Ref sig .tc) (h : r ∉ W) : St14 V (Proc.devRef .tc r) = V (Proc.devRef .tc r) := by
  have h' := h
  simp only [W, List.mem_append, not_or] at h'
  obtain ⟨h0, h1, h2, h3, h4, h5, h6, h7, h8, h9, h10, h11, h12, h13, h14, h15, h16, h17⟩ := h'
  show StableHlo.after opsAgg3 (St13 V) _ = _
  rw [opsAgg3_keep _ _ h14, st13_keep V r h]

theorem st15_keep (V : Valuation τ sig (Elt Ideal)) (r : Ref sig .tc) (h : r ∉ W) : St15 V (Proc.devRef .tc r) = V (Proc.devRef .tc r) := by
  have h' := h
  simp only [W, List.mem_append, not_or] at h'
  obtain ⟨h0, h1, h2, h3, h4, h5, h6, h7, h8, h9, h10, h11, h12, h13, h14, h15, h16, h17⟩ := h'
  show StableHlo.after opsStats3 (St14 V) _ = _
  rw [opsStats3_keep _ _ h15, st14_keep V r h]

theorem st16_keep (V : Valuation τ sig (Elt Ideal)) (r : Ref sig .tc) (h : r ∉ W) : St16 V (Proc.devRef .tc r) = V (Proc.devRef .tc r) := by
  have h' := h
  simp only [W, List.mem_append, not_or] at h'
  obtain ⟨h0, h1, h2, h3, h4, h5, h6, h7, h8, h9, h10, h11, h12, h13, h14, h15, h16, h17⟩ := h'
  show StableHlo.after opsBn3 (St15 V) _ = _
  rw [opsBn3_keep _ _ h16, st15_keep V r h]

theorem st17_keep (V : Valuation τ sig (Elt Ideal)) (r : Ref sig .tc) (h : r ∉ W) : St17 V (Proc.devRef .tc r) = V (Proc.devRef .tc r) := by
  have h' := h
  simp only [W, List.mem_append, not_or] at h'
  obtain ⟨h0, h1, h2, h3, h4, h5, h6, h7, h8, h9, h10, h11, h12, h13, h14, h15, h16, h17⟩ := h'
  show StableHlo.after opsHead (St16 V) _ = _
  rw [opsHead_keep _ _ h17, st16_keep V r h]

theorem st0_v3 (V : Valuation τ sig (Elt Ideal)) : St0 V main_v3 = Cert.KernelIdeal.Stage.src (a1 V) := by
  show StableHlo.after opsNorm V _ = _
  rw [read_src]
  all_goals rfl

theorem st0_v6 (V : Valuation τ sig (Elt Ideal)) : St0 V main_v6 = Cert.KernelIdeal.Stage.dst (a1 V) := by
  show StableHlo.after opsNorm V _ = _
  rw [read_dst]
  all_goals rfl

theorem st0_v26 (V : Valuation τ sig (Elt Ideal)) : St0 V main_v26 = Cert.KernelIdeal.Stage.norm (a1 V) := by
  show StableHlo.after opsNorm V _ = _
  rw [read_norm]
  all_goals rfl

theorem st1_v3 (V : Valuation τ sig (Elt Ideal)) : St1 V main_v3 = Cert.KernelIdeal.Stage.src (a1 V) := by
  show StableHlo.after opsMm0 (St0 V) _ = _
  rw [opsMm0_keep _ main_v3 (by decide), st0_v3]

theorem st1_v6 (V : Valuation τ sig (Elt Ideal)) : St1 V main_v6 = Cert.KernelIdeal.Stage.dst (a1 V) := by
  show StableHlo.after opsMm0 (St0 V) _ = _
  rw [opsMm0_keep _ main_v6 (by decide), st0_v6]

theorem st1_v26 (V : Valuation τ sig (Elt Ideal)) : St1 V main_v26 = Cert.KernelIdeal.Stage.norm (a1 V) := by
  show StableHlo.after opsMm0 (St0 V) _ = _
  rw [opsMm0_keep _ main_v26 (by decide), st0_v26]

theorem st1_v27 (V : Valuation τ sig (Elt Ideal)) : St1 V main_v27 = Host.dotGeneral (F := Ideal) (φ₁ := .f32) (φ₂ := .f32) dot_S100000x256_S256x128_S100000x128_1_0_0_1_n_n none (a0 V) (a2 V) := by
  show StableHlo.after opsMm0 (St0 V) _ = _
  rw [read_mm0, st0_keep V main_arg0 (by decide), st0_keep V main_arg2 (by decide)]
  all_goals rfl

theorem st2_v3 (V : Valuation τ sig (Elt Ideal)) : St2 V main_v3 = Cert.KernelIdeal.Stage.src (a1 V) := by
  show StableHlo.after opsAgg0 (St1 V) _ = _
  rw [opsAgg0_keep _ main_v3 (by decide), st1_v3]

theorem st2_v6 (V : Valuation τ sig (Elt Ideal)) : St2 V main_v6 = Cert.KernelIdeal.Stage.dst (a1 V) := by
  show StableHlo.after opsAgg0 (St1 V) _ = _
  rw [opsAgg0_keep _ main_v6 (by decide), st1_v6]

theorem st2_v26 (V : Valuation τ sig (Elt Ideal)) : St2 V main_v26 = Cert.KernelIdeal.Stage.norm (a1 V) := by
  show StableHlo.after opsAgg0 (St1 V) _ = _
  rw [opsAgg0_keep _ main_v26 (by decide), st1_v26]

theorem st2_v43 (V : Valuation τ sig (Elt Ideal)) : St2 V main_v43 = Cert.KernelIdeal.Net.rP0 (a0 V) (a1 V) (a2 V) (a3 V) := by
  show StableHlo.after opsAgg0 (St1 V) _ = _
  rw [read_agg0, st1_v27, st1_v3, st1_v6, st1_v26, st1_keep V main_arg3 (by decide)]
  all_goals rfl

theorem st3_v3 (V : Valuation τ sig (Elt Ideal)) : St3 V main_v3 = Cert.KernelIdeal.Stage.src (a1 V) := by
  show StableHlo.after opsStats0 (St2 V) _ = _
  rw [opsStats0_keep _ main_v3 (by decide), st2_v3]

theorem st3_v6 (V : Valuation τ sig (Elt Ideal)) : St3 V main_v6 = Cert.KernelIdeal.Stage.dst (a1 V) := by
  show StableHlo.after opsStats0 (St2 V) _ = _
  rw [opsStats0_keep _ main_v6 (by decide), st2_v6]

theorem st3_v26 (V : Valuation τ sig (Elt Ideal)) : St3 V main_v26 = Cert.KernelIdeal.Stage.norm (a1 V) := by
  show StableHlo.after opsStats0 (St2 V) _ = _
  rw [opsStats0_keep _ main_v26 (by decide), st2_v26]

theorem st3_v43 (V : Valuation τ sig (Elt Ideal)) : St3 V main_v43 = Cert.KernelIdeal.Net.rP0 (a0 V) (a1 V) (a2 V) (a3 V) := by
  show StableHlo.after opsStats0 (St2 V) _ = _
  rw [opsStats0_keep _ main_v43 (by decide), st2_v43]

theorem st3_v50 (V : Valuation τ sig (Elt Ideal)) : St3 V main_v50 = Cert.KernelIdeal.Stage.mean (Cert.KernelIdeal.Net.rP0 (a0 V) (a1 V) (a2 V) (a3 V)) := by
  show StableHlo.after opsStats0 (St2 V) _ = _
  rw [read_mean0, st2_v43]
  all_goals rfl

theorem st3_v51 (V : Valuation τ sig (Elt Ideal)) : St3 V main_v51 = Cert.KernelIdeal.Stage.var (Cert.KernelIdeal.Net.rP0 (a0 V) (a1 V) (a2 V) (a3 V)) Cert.KernelIdeal.Net.zeroI := by
  show StableHlo.after opsStats0 (St2 V) _ = _
  rw [read_var0, st2_v43]
  all_goals rfl

theorem st3_v45 (V : Valuation τ sig (Elt Ideal)) : St3 V main_v45 = Cert.KernelIdeal.Stage.row4 0 Cert.KernelIdeal.Facts₀.slices_S4x128_S1x128_0_0 (a6 V) := by
  show StableHlo.after opsStats0 (St2 V) _ = _
  rw [read_gamma0, st2_keep V main_arg6 (by decide)]
  all_goals rfl

theorem st3_v47 (V : Valuation τ sig (Elt Ideal)) : St3 V main_v47 = Cert.KernelIdeal.Stage.row4 0 Cert.KernelIdeal.Facts₀.slices_S4x128_S1x128_0_0 (a7 V) := by
  show StableHlo.after opsStats0 (St2 V) _ = _
  rw [read_beta0, st2_keep V main_arg7 (by decide)]
  all_goals rfl

theorem st4_v3 (V : Valuation τ sig (Elt Ideal)) : St4 V main_v3 = Cert.KernelIdeal.Stage.src (a1 V) := by
  show StableHlo.after opsBn0 (St3 V) _ = _
  rw [opsBn0_keep _ main_v3 (by decide), st3_v3]

theorem st4_v6 (V : Valuation τ sig (Elt Ideal)) : St4 V main_v6 = Cert.KernelIdeal.Stage.dst (a1 V) := by
  show StableHlo.after opsBn0 (St3 V) _ = _
  rw [opsBn0_keep _ main_v6 (by decide), st3_v6]

theorem st4_v26 (V : Valuation τ sig (Elt Ideal)) : St4 V main_v26 = Cert.KernelIdeal.Stage.norm (a1 V) := by
  show StableHlo.after opsBn0 (St3 V) _ = _
  rw [opsBn0_keep _ main_v26 (by decide), st3_v26]

theorem st4_v67 (V : Valuation τ sig (Elt Ideal)) : St4 V main_v67 = Cert.KernelIdeal.Net.rA0 (a0 V) (a1 V) (a2 V) (a3 V) (a6 V) (a7 V) := by
  show StableHlo.after opsBn0 (St3 V) _ = _
  rw [read_bn0, st3_v43, st3_v50, st3_v51, st3_v45, st3_v47]
  all_goals rfl

theorem st5_v3 (V : Valuation τ sig (Elt Ideal)) : St5 V main_v3 = Cert.KernelIdeal.Stage.src (a1 V) := by
  show StableHlo.after opsMm1 (St4 V) _ = _
  rw [opsMm1_keep _ main_v3 (by decide), st4_v3]

theorem st5_v6 (V : Valuation τ sig (Elt Ideal)) : St5 V main_v6 = Cert.KernelIdeal.Stage.dst (a1 V) := by
  show StableHlo.after opsMm1 (St4 V) _ = _
  rw [opsMm1_keep _ main_v6 (by decide), st4_v6]

theorem st5_v26 (V : Valuation τ sig (Elt Ideal)) : St5 V main_v26 = Cert.KernelIdeal.Stage.norm (a1 V) := by
  show StableHlo.after opsMm1 (St4 V) _ = _
  rw [opsMm1_keep _ main_v26 (by decide), st4_v26]

theorem st5_v67 (V : Valuation τ sig (Elt Ideal)) : St5 V main_v67 = Cert.KernelIdeal.Net.rA0 (a0 V) (a1 V) (a2 V) (a3 V) (a6 V) (a7 V) := by
  show StableHlo.after opsMm1 (St4 V) _ = _
  rw [opsMm1_keep _ main_v67 (by decide), st4_v67]

theorem st5_v72 (V : Valuation τ sig (Elt Ideal)) : St5 V main_v72 = Host.dotGeneral (F := Ideal) (φ₁ := .f32) (φ₂ := .f32) dot_S100000x128_S128x128_S100000x128_1_0_0_1_n_n none (Cert.KernelIdeal.Net.rA0 (a0 V) (a1 V) (a2 V) (a3 V) (a6 V) (a7 V)) (Cert.KernelIdeal.Stage.mat3 0 Cert.KernelIdeal.Facts₀.slices_S3x128x128_S1x128x128_0_0_0 (a4 V)) := by
  show StableHlo.after opsMm1 (St4 V) _ = _
  rw [read_mm1, st4_v67, st4_keep V main_arg4 (by decide)]
  all_goals rfl

theorem st5_v71 (V : Valuation τ sig (Elt Ideal)) : St5 V main_v71 = Cert.KernelIdeal.Stage.row3 0 Cert.KernelIdeal.Facts₀.slices_S3x128_S1x128_0_0 (a5 V) := by
  show StableHlo.after opsMm1 (St4 V) _ = _
  rw [read_bias1, st4_keep V main_arg5 (by decide)]
  all_goals rfl

theorem st6_v3 (V : Valuation τ sig (Elt Ideal)) : St6 V main_v3 = Cert.KernelIdeal.Stage.src (a1 V) := by
  show StableHlo.after opsAgg1 (St5 V) _ = _
  rw [opsAgg1_keep _ main_v3 (by decide), st5_v3]

theorem st6_v6 (V : Valuation τ sig (Elt Ideal)) : St6 V main_v6 = Cert.KernelIdeal.Stage.dst (a1 V) := by
  show StableHlo.after opsAgg1 (St5 V) _ = _
  rw [opsAgg1_keep _ main_v6 (by decide), st5_v6]

theorem st6_v26 (V : Valuation τ sig (Elt Ideal)) : St6 V main_v26 = Cert.KernelIdeal.Stage.norm (a1 V) := by
  show StableHlo.after opsAgg1 (St5 V) _ = _
  rw [opsAgg1_keep _ main_v26 (by decide), st5_v26]

theorem st6_v67 (V : Valuation τ sig (Elt Ideal)) : St6 V main_v67 = Cert.KernelIdeal.Net.rA0 (a0 V) (a1 V) (a2 V) (a3 V) (a6 V) (a7 V) := by
  show StableHlo.after opsAgg1 (St5 V) _ = _
  rw [opsAgg1_keep _ main_v67 (by decide), st5_v67]

theorem st6_v88 (V : Valuation τ sig (Elt Ideal)) : St6 V main_v88 = Cert.KernelIdeal.Net.rP1 (a0 V) (a1 V) (a2 V) (a3 V) (a4 V) (a5 V) (a6 V) (a7 V) := by
  show StableHlo.after opsAgg1 (St5 V) _ = _
  rw [read_agg1, st5_v72, st5_v3, st5_v6, st5_v26, st5_v71]
  all_goals rfl

theorem st7_v3 (V : Valuation τ sig (Elt Ideal)) : St7 V main_v3 = Cert.KernelIdeal.Stage.src (a1 V) := by
  show StableHlo.after opsStats1 (St6 V) _ = _
  rw [opsStats1_keep _ main_v3 (by decide), st6_v3]

theorem st7_v6 (V : Valuation τ sig (Elt Ideal)) : St7 V main_v6 = Cert.KernelIdeal.Stage.dst (a1 V) := by
  show StableHlo.after opsStats1 (St6 V) _ = _
  rw [opsStats1_keep _ main_v6 (by decide), st6_v6]

theorem st7_v26 (V : Valuation τ sig (Elt Ideal)) : St7 V main_v26 = Cert.KernelIdeal.Stage.norm (a1 V) := by
  show StableHlo.after opsStats1 (St6 V) _ = _
  rw [opsStats1_keep _ main_v26 (by decide), st6_v26]

theorem st7_v67 (V : Valuation τ sig (Elt Ideal)) : St7 V main_v67 = Cert.KernelIdeal.Net.rA0 (a0 V) (a1 V) (a2 V) (a3 V) (a6 V) (a7 V) := by
  show StableHlo.after opsStats1 (St6 V) _ = _
  rw [opsStats1_keep _ main_v67 (by decide), st6_v67]

theorem st7_v88 (V : Valuation τ sig (Elt Ideal)) : St7 V main_v88 = Cert.KernelIdeal.Net.rP1 (a0 V) (a1 V) (a2 V) (a3 V) (a4 V) (a5 V) (a6 V) (a7 V) := by
  show StableHlo.after opsStats1 (St6 V) _ = _
  rw [opsStats1_keep _ main_v88 (by decide), st6_v88]

theorem st7_v95 (V : Valuation τ sig (Elt Ideal)) : St7 V main_v95 = Cert.KernelIdeal.Stage.mean (Cert.KernelIdeal.Net.rP1 (a0 V) (a1 V) (a2 V) (a3 V) (a4 V) (a5 V) (a6 V) (a7 V)) := by
  show StableHlo.after opsStats1 (St6 V) _ = _
  rw [read_mean1, st6_v88]
  all_goals rfl

theorem st7_v96 (V : Valuation τ sig (Elt Ideal)) : St7 V main_v96 = Cert.KernelIdeal.Stage.var (Cert.KernelIdeal.Net.rP1 (a0 V) (a1 V) (a2 V) (a3 V) (a4 V) (a5 V) (a6 V) (a7 V)) Cert.KernelIdeal.Net.zeroI := by
  show StableHlo.after opsStats1 (St6 V) _ = _
  rw [read_var1, st6_v88]
  all_goals rfl

theorem st7_v90 (V : Valuation τ sig (Elt Ideal)) : St7 V main_v90 = Cert.KernelIdeal.Stage.row4 1 Cert.KernelIdeal.Facts₀.slices_S4x128_S1x128_1_0 (a6 V) := by
  show StableHlo.after opsStats1 (St6 V) _ = _
  rw [read_gamma1, st6_keep V main_arg6 (by decide)]
  all_goals rfl

theorem st7_v92 (V : Valuation τ sig (Elt Ideal)) : St7 V main_v92 = Cert.KernelIdeal.Stage.row4 1 Cert.KernelIdeal.Facts₀.slices_S4x128_S1x128_1_0 (a7 V) := by
  show StableHlo.after opsStats1 (St6 V) _ = _
  rw [read_beta1, st6_keep V main_arg7 (by decide)]
  all_goals rfl

theorem st8_v3 (V : Valuation τ sig (Elt Ideal)) : St8 V main_v3 = Cert.KernelIdeal.Stage.src (a1 V) := by
  show StableHlo.after opsBn1 (St7 V) _ = _
  rw [opsBn1_keep _ main_v3 (by decide), st7_v3]

theorem st8_v6 (V : Valuation τ sig (Elt Ideal)) : St8 V main_v6 = Cert.KernelIdeal.Stage.dst (a1 V) := by
  show StableHlo.after opsBn1 (St7 V) _ = _
  rw [opsBn1_keep _ main_v6 (by decide), st7_v6]

theorem st8_v26 (V : Valuation τ sig (Elt Ideal)) : St8 V main_v26 = Cert.KernelIdeal.Stage.norm (a1 V) := by
  show StableHlo.after opsBn1 (St7 V) _ = _
  rw [opsBn1_keep _ main_v26 (by decide), st7_v26]

theorem st8_v67 (V : Valuation τ sig (Elt Ideal)) : St8 V main_v67 = Cert.KernelIdeal.Net.rA0 (a0 V) (a1 V) (a2 V) (a3 V) (a6 V) (a7 V) := by
  show StableHlo.after opsBn1 (St7 V) _ = _
  rw [opsBn1_keep _ main_v67 (by decide), st7_v67]

theorem st8_v112 (V : Valuation τ sig (Elt Ideal)) : St8 V main_v112 = Cert.KernelIdeal.Net.rA1 (a0 V) (a1 V) (a2 V) (a3 V) (a4 V) (a5 V) (a6 V) (a7 V) := by
  show StableHlo.after opsBn1 (St7 V) _ = _
  rw [read_bn1, st7_v88, st7_v95, st7_v96, st7_v90, st7_v92]
  all_goals rfl

theorem st9_v3 (V : Valuation τ sig (Elt Ideal)) : St9 V main_v3 = Cert.KernelIdeal.Stage.src (a1 V) := by
  show StableHlo.after opsMm2 (St8 V) _ = _
  rw [opsMm2_keep _ main_v3 (by decide), st8_v3]

theorem st9_v6 (V : Valuation τ sig (Elt Ideal)) : St9 V main_v6 = Cert.KernelIdeal.Stage.dst (a1 V) := by
  show StableHlo.after opsMm2 (St8 V) _ = _
  rw [opsMm2_keep _ main_v6 (by decide), st8_v6]

theorem st9_v26 (V : Valuation τ sig (Elt Ideal)) : St9 V main_v26 = Cert.KernelIdeal.Stage.norm (a1 V) := by
  show StableHlo.after opsMm2 (St8 V) _ = _
  rw [opsMm2_keep _ main_v26 (by decide), st8_v26]

theorem st9_v67 (V : Valuation τ sig (Elt Ideal)) : St9 V main_v67 = Cert.KernelIdeal.Net.rA0 (a0 V) (a1 V) (a2 V) (a3 V) (a6 V) (a7 V) := by
  show StableHlo.after opsMm2 (St8 V) _ = _
  rw [opsMm2_keep _ main_v67 (by decide), st8_v67]

theorem st9_v112 (V : Valuation τ sig (Elt Ideal)) : St9 V main_v112 = Cert.KernelIdeal.Net.rA1 (a0 V) (a1 V) (a2 V) (a3 V) (a4 V) (a5 V) (a6 V) (a7 V) := by
  show StableHlo.after opsMm2 (St8 V) _ = _
  rw [opsMm2_keep _ main_v112 (by decide), st8_v112]

theorem st9_v117 (V : Valuation τ sig (Elt Ideal)) : St9 V main_v117 = Host.dotGeneral (F := Ideal) (φ₁ := .f32) (φ₂ := .f32) dot_S100000x128_S128x128_S100000x128_1_0_0_1_n_n none (Cert.KernelIdeal.Net.rA1 (a0 V) (a1 V) (a2 V) (a3 V) (a4 V) (a5 V) (a6 V) (a7 V)) (Cert.KernelIdeal.Stage.mat3 1 Cert.KernelIdeal.Facts₀.slices_S3x128x128_S1x128x128_1_0_0 (a4 V)) := by
  show StableHlo.after opsMm2 (St8 V) _ = _
  rw [read_mm2, st8_v112, st8_keep V main_arg4 (by decide)]
  all_goals rfl

theorem st9_v116 (V : Valuation τ sig (Elt Ideal)) : St9 V main_v116 = Cert.KernelIdeal.Stage.row3 1 Cert.KernelIdeal.Facts₀.slices_S3x128_S1x128_1_0 (a5 V) := by
  show StableHlo.after opsMm2 (St8 V) _ = _
  rw [read_bias2, st8_keep V main_arg5 (by decide)]
  all_goals rfl

theorem st10_v3 (V : Valuation τ sig (Elt Ideal)) : St10 V main_v3 = Cert.KernelIdeal.Stage.src (a1 V) := by
  show StableHlo.after opsAgg2 (St9 V) _ = _
  rw [opsAgg2_keep _ main_v3 (by decide), st9_v3]

theorem st10_v6 (V : Valuation τ sig (Elt Ideal)) : St10 V main_v6 = Cert.KernelIdeal.Stage.dst (a1 V) := by
  show StableHlo.after opsAgg2 (St9 V) _ = _
  rw [opsAgg2_keep _ main_v6 (by decide), st9_v6]

theorem st10_v26 (V : Valuation τ sig (Elt Ideal)) : St10 V main_v26 = Cert.KernelIdeal.Stage.norm (a1 V) := by
  show StableHlo.after opsAgg2 (St9 V) _ = _
  rw [opsAgg2_keep _ main_v26 (by decide), st9_v26]

theorem st10_v67 (V : Valuation τ sig (Elt Ideal)) : St10 V main_v67 = Cert.KernelIdeal.Net.rA0 (a0 V) (a1 V) (a2 V) (a3 V) (a6 V) (a7 V) := by
  show StableHlo.after opsAgg2 (St9 V) _ = _
  rw [opsAgg2_keep _ main_v67 (by decide), st9_v67]

theorem st10_v112 (V : Valuation τ sig (Elt Ideal)) : St10 V main_v112 = Cert.KernelIdeal.Net.rA1 (a0 V) (a1 V) (a2 V) (a3 V) (a4 V) (a5 V) (a6 V) (a7 V) := by
  show StableHlo.after opsAgg2 (St9 V) _ = _
  rw [opsAgg2_keep _ main_v112 (by decide), st9_v112]

theorem st10_v133 (V : Valuation τ sig (Elt Ideal)) : St10 V main_v133 = Cert.KernelIdeal.Net.rP2 (a0 V) (a1 V) (a2 V) (a3 V) (a4 V) (a5 V) (a6 V) (a7 V) := by
  show StableHlo.after opsAgg2 (St9 V) _ = _
  rw [read_agg2, st9_v117, st9_v3, st9_v6, st9_v26, st9_v116]
  all_goals rfl

theorem st11_v3 (V : Valuation τ sig (Elt Ideal)) : St11 V main_v3 = Cert.KernelIdeal.Stage.src (a1 V) := by
  show StableHlo.after opsStats2 (St10 V) _ = _
  rw [opsStats2_keep _ main_v3 (by decide), st10_v3]

theorem st11_v6 (V : Valuation τ sig (Elt Ideal)) : St11 V main_v6 = Cert.KernelIdeal.Stage.dst (a1 V) := by
  show StableHlo.after opsStats2 (St10 V) _ = _
  rw [opsStats2_keep _ main_v6 (by decide), st10_v6]

theorem st11_v26 (V : Valuation τ sig (Elt Ideal)) : St11 V main_v26 = Cert.KernelIdeal.Stage.norm (a1 V) := by
  show StableHlo.after opsStats2 (St10 V) _ = _
  rw [opsStats2_keep _ main_v26 (by decide), st10_v26]

theorem st11_v67 (V : Valuation τ sig (Elt Ideal)) : St11 V main_v67 = Cert.KernelIdeal.Net.rA0 (a0 V) (a1 V) (a2 V) (a3 V) (a6 V) (a7 V) := by
  show StableHlo.after opsStats2 (St10 V) _ = _
  rw [opsStats2_keep _ main_v67 (by decide), st10_v67]

theorem st11_v112 (V : Valuation τ sig (Elt Ideal)) : St11 V main_v112 = Cert.KernelIdeal.Net.rA1 (a0 V) (a1 V) (a2 V) (a3 V) (a4 V) (a5 V) (a6 V) (a7 V) := by
  show StableHlo.after opsStats2 (St10 V) _ = _
  rw [opsStats2_keep _ main_v112 (by decide), st10_v112]

theorem st11_v133 (V : Valuation τ sig (Elt Ideal)) : St11 V main_v133 = Cert.KernelIdeal.Net.rP2 (a0 V) (a1 V) (a2 V) (a3 V) (a4 V) (a5 V) (a6 V) (a7 V) := by
  show StableHlo.after opsStats2 (St10 V) _ = _
  rw [opsStats2_keep _ main_v133 (by decide), st10_v133]

theorem st11_v140 (V : Valuation τ sig (Elt Ideal)) : St11 V main_v140 = Cert.KernelIdeal.Stage.mean (Cert.KernelIdeal.Net.rP2 (a0 V) (a1 V) (a2 V) (a3 V) (a4 V) (a5 V) (a6 V) (a7 V)) := by
  show StableHlo.after opsStats2 (St10 V) _ = _
  rw [read_mean2, st10_v133]
  all_goals rfl

theorem st11_v141 (V : Valuation τ sig (Elt Ideal)) : St11 V main_v141 = Cert.KernelIdeal.Stage.var (Cert.KernelIdeal.Net.rP2 (a0 V) (a1 V) (a2 V) (a3 V) (a4 V) (a5 V) (a6 V) (a7 V)) Cert.KernelIdeal.Net.zeroI := by
  show StableHlo.after opsStats2 (St10 V) _ = _
  rw [read_var2, st10_v133]
  all_goals rfl

theorem st11_v135 (V : Valuation τ sig (Elt Ideal)) : St11 V main_v135 = Cert.KernelIdeal.Stage.row4 2 Cert.KernelIdeal.Facts₀.slices_S4x128_S1x128_2_0 (a6 V) := by
  show StableHlo.after opsStats2 (St10 V) _ = _
  rw [read_gamma2, st10_keep V main_arg6 (by decide)]
  all_goals rfl

theorem st11_v137 (V : Valuation τ sig (Elt Ideal)) : St11 V main_v137 = Cert.KernelIdeal.Stage.row4 2 Cert.KernelIdeal.Facts₀.slices_S4x128_S1x128_2_0 (a7 V) := by
  show StableHlo.after opsStats2 (St10 V) _ = _
  rw [read_beta2, st10_keep V main_arg7 (by decide)]
  all_goals rfl

theorem st12_v3 (V : Valuation τ sig (Elt Ideal)) : St12 V main_v3 = Cert.KernelIdeal.Stage.src (a1 V) := by
  show StableHlo.after opsBn2 (St11 V) _ = _
  rw [opsBn2_keep _ main_v3 (by decide), st11_v3]

theorem st12_v6 (V : Valuation τ sig (Elt Ideal)) : St12 V main_v6 = Cert.KernelIdeal.Stage.dst (a1 V) := by
  show StableHlo.after opsBn2 (St11 V) _ = _
  rw [opsBn2_keep _ main_v6 (by decide), st11_v6]

theorem st12_v26 (V : Valuation τ sig (Elt Ideal)) : St12 V main_v26 = Cert.KernelIdeal.Stage.norm (a1 V) := by
  show StableHlo.after opsBn2 (St11 V) _ = _
  rw [opsBn2_keep _ main_v26 (by decide), st11_v26]

theorem st12_v67 (V : Valuation τ sig (Elt Ideal)) : St12 V main_v67 = Cert.KernelIdeal.Net.rA0 (a0 V) (a1 V) (a2 V) (a3 V) (a6 V) (a7 V) := by
  show StableHlo.after opsBn2 (St11 V) _ = _
  rw [opsBn2_keep _ main_v67 (by decide), st11_v67]

theorem st12_v112 (V : Valuation τ sig (Elt Ideal)) : St12 V main_v112 = Cert.KernelIdeal.Net.rA1 (a0 V) (a1 V) (a2 V) (a3 V) (a4 V) (a5 V) (a6 V) (a7 V) := by
  show StableHlo.after opsBn2 (St11 V) _ = _
  rw [opsBn2_keep _ main_v112 (by decide), st11_v112]

theorem st12_v157 (V : Valuation τ sig (Elt Ideal)) : St12 V main_v157 = Cert.KernelIdeal.Net.rA2 (a0 V) (a1 V) (a2 V) (a3 V) (a4 V) (a5 V) (a6 V) (a7 V) := by
  show StableHlo.after opsBn2 (St11 V) _ = _
  rw [read_bn2, st11_v133, st11_v140, st11_v141, st11_v135, st11_v137]
  all_goals rfl

theorem st13_v3 (V : Valuation τ sig (Elt Ideal)) : St13 V main_v3 = Cert.KernelIdeal.Stage.src (a1 V) := by
  show StableHlo.after opsMm3 (St12 V) _ = _
  rw [opsMm3_keep _ main_v3 (by decide), st12_v3]

theorem st13_v6 (V : Valuation τ sig (Elt Ideal)) : St13 V main_v6 = Cert.KernelIdeal.Stage.dst (a1 V) := by
  show StableHlo.after opsMm3 (St12 V) _ = _
  rw [opsMm3_keep _ main_v6 (by decide), st12_v6]

theorem st13_v26 (V : Valuation τ sig (Elt Ideal)) : St13 V main_v26 = Cert.KernelIdeal.Stage.norm (a1 V) := by
  show StableHlo.after opsMm3 (St12 V) _ = _
  rw [opsMm3_keep _ main_v26 (by decide), st12_v26]

theorem st13_v67 (V : Valuation τ sig (Elt Ideal)) : St13 V main_v67 = Cert.KernelIdeal.Net.rA0 (a0 V) (a1 V) (a2 V) (a3 V) (a6 V) (a7 V) := by
  show StableHlo.after opsMm3 (St12 V) _ = _
  rw [opsMm3_keep _ main_v67 (by decide), st12_v67]

theorem st13_v112 (V : Valuation τ sig (Elt Ideal)) : St13 V main_v112 = Cert.KernelIdeal.Net.rA1 (a0 V) (a1 V) (a2 V) (a3 V) (a4 V) (a5 V) (a6 V) (a7 V) := by
  show StableHlo.after opsMm3 (St12 V) _ = _
  rw [opsMm3_keep _ main_v112 (by decide), st12_v112]

theorem st13_v157 (V : Valuation τ sig (Elt Ideal)) : St13 V main_v157 = Cert.KernelIdeal.Net.rA2 (a0 V) (a1 V) (a2 V) (a3 V) (a4 V) (a5 V) (a6 V) (a7 V) := by
  show StableHlo.after opsMm3 (St12 V) _ = _
  rw [opsMm3_keep _ main_v157 (by decide), st12_v157]

theorem st13_v162 (V : Valuation τ sig (Elt Ideal)) : St13 V main_v162 = Host.dotGeneral (F := Ideal) (φ₁ := .f32) (φ₂ := .f32) dot_S100000x128_S128x128_S100000x128_1_0_0_1_n_n none (Cert.KernelIdeal.Net.rA2 (a0 V) (a1 V) (a2 V) (a3 V) (a4 V) (a5 V) (a6 V) (a7 V)) (Cert.KernelIdeal.Stage.mat3 2 Cert.KernelIdeal.Facts₀.slices_S3x128x128_S1x128x128_2_0_0 (a4 V)) := by
  show StableHlo.after opsMm3 (St12 V) _ = _
  rw [read_mm3, st12_v157, st12_keep V main_arg4 (by decide)]
  all_goals rfl

theorem st13_v161 (V : Valuation τ sig (Elt Ideal)) : St13 V main_v161 = Cert.KernelIdeal.Stage.row3 2 Cert.KernelIdeal.Facts₀.slices_S3x128_S1x128_2_0 (a5 V) := by
  show StableHlo.after opsMm3 (St12 V) _ = _
  rw [read_bias3, st12_keep V main_arg5 (by decide)]
  all_goals rfl

theorem st14_v67 (V : Valuation τ sig (Elt Ideal)) : St14 V main_v67 = Cert.KernelIdeal.Net.rA0 (a0 V) (a1 V) (a2 V) (a3 V) (a6 V) (a7 V) := by
  show StableHlo.after opsAgg3 (St13 V) _ = _
  rw [opsAgg3_keep _ main_v67 (by decide), st13_v67]

theorem st14_v112 (V : Valuation τ sig (Elt Ideal)) : St14 V main_v112 = Cert.KernelIdeal.Net.rA1 (a0 V) (a1 V) (a2 V) (a3 V) (a4 V) (a5 V) (a6 V) (a7 V) := by
  show StableHlo.after opsAgg3 (St13 V) _ = _
  rw [opsAgg3_keep _ main_v112 (by decide), st13_v112]

theorem st14_v157 (V : Valuation τ sig (Elt Ideal)) : St14 V main_v157 = Cert.KernelIdeal.Net.rA2 (a0 V) (a1 V) (a2 V) (a3 V) (a4 V) (a5 V) (a6 V) (a7 V) := by
  show StableHlo.after opsAgg3 (St13 V) _ = _
  rw [opsAgg3_keep _ main_v157 (by decide), st13_v157]

theorem st14_v178 (V : Valuation τ sig (Elt Ideal)) : St14 V main_v178 = Cert.KernelIdeal.Net.rP3 (a0 V) (a1 V) (a2 V) (a3 V) (a4 V) (a5 V) (a6 V) (a7 V) := by
  show StableHlo.after opsAgg3 (St13 V) _ = _
  rw [read_agg3, st13_v162, st13_v3, st13_v6, st13_v26, st13_v161]
  all_goals rfl

theorem st15_v67 (V : Valuation τ sig (Elt Ideal)) : St15 V main_v67 = Cert.KernelIdeal.Net.rA0 (a0 V) (a1 V) (a2 V) (a3 V) (a6 V) (a7 V) := by
  show StableHlo.after opsStats3 (St14 V) _ = _
  rw [opsStats3_keep _ main_v67 (by decide), st14_v67]

theorem st15_v112 (V : Valuation τ sig (Elt Ideal)) : St15 V main_v112 = Cert.KernelIdeal.Net.rA1 (a0 V) (a1 V) (a2 V) (a3 V) (a4 V) (a5 V) (a6 V) (a7 V) := by
  show StableHlo.after opsStats3 (St14 V) _ = _
  rw [opsStats3_keep _ main_v112 (by decide), st14_v112]

theorem st15_v157 (V : Valuation τ sig (Elt Ideal)) : St15 V main_v157 = Cert.KernelIdeal.Net.rA2 (a0 V) (a1 V) (a2 V) (a3 V) (a4 V) (a5 V) (a6 V) (a7 V) := by
  show StableHlo.after opsStats3 (St14 V) _ = _
  rw [opsStats3_keep _ main_v157 (by decide), st14_v157]

theorem st15_v178 (V : Valuation τ sig (Elt Ideal)) : St15 V main_v178 = Cert.KernelIdeal.Net.rP3 (a0 V) (a1 V) (a2 V) (a3 V) (a4 V) (a5 V) (a6 V) (a7 V) := by
  show StableHlo.after opsStats3 (St14 V) _ = _
  rw [opsStats3_keep _ main_v178 (by decide), st14_v178]

theorem st15_v185 (V : Valuation τ sig (Elt Ideal)) : St15 V main_v185 = Cert.KernelIdeal.Stage.mean (Cert.KernelIdeal.Net.rP3 (a0 V) (a1 V) (a2 V) (a3 V) (a4 V) (a5 V) (a6 V) (a7 V)) := by
  show StableHlo.after opsStats3 (St14 V) _ = _
  rw [read_mean3, st14_v178]
  all_goals rfl

theorem st15_v186 (V : Valuation τ sig (Elt Ideal)) : St15 V main_v186 = Cert.KernelIdeal.Stage.var (Cert.KernelIdeal.Net.rP3 (a0 V) (a1 V) (a2 V) (a3 V) (a4 V) (a5 V) (a6 V) (a7 V)) Cert.KernelIdeal.Net.zeroI := by
  show StableHlo.after opsStats3 (St14 V) _ = _
  rw [read_var3, st14_v178]
  all_goals rfl

theorem st15_v180 (V : Valuation τ sig (Elt Ideal)) : St15 V main_v180 = Cert.KernelIdeal.Stage.row4 3 Cert.KernelIdeal.Facts₀.slices_S4x128_S1x128_3_0 (a6 V) := by
  show StableHlo.after opsStats3 (St14 V) _ = _
  rw [read_gamma3, st14_keep V main_arg6 (by decide)]
  all_goals rfl

theorem st15_v182 (V : Valuation τ sig (Elt Ideal)) : St15 V main_v182 = Cert.KernelIdeal.Stage.row4 3 Cert.KernelIdeal.Facts₀.slices_S4x128_S1x128_3_0 (a7 V) := by
  show StableHlo.after opsStats3 (St14 V) _ = _
  rw [read_beta3, st14_keep V main_arg7 (by decide)]
  all_goals rfl

theorem st16_v67 (V : Valuation τ sig (Elt Ideal)) : St16 V main_v67 = Cert.KernelIdeal.Net.rA0 (a0 V) (a1 V) (a2 V) (a3 V) (a6 V) (a7 V) := by
  show StableHlo.after opsBn3 (St15 V) _ = _
  rw [opsBn3_keep _ main_v67 (by decide), st15_v67]

theorem st16_v112 (V : Valuation τ sig (Elt Ideal)) : St16 V main_v112 = Cert.KernelIdeal.Net.rA1 (a0 V) (a1 V) (a2 V) (a3 V) (a4 V) (a5 V) (a6 V) (a7 V) := by
  show StableHlo.after opsBn3 (St15 V) _ = _
  rw [opsBn3_keep _ main_v112 (by decide), st15_v112]

theorem st16_v157 (V : Valuation τ sig (Elt Ideal)) : St16 V main_v157 = Cert.KernelIdeal.Net.rA2 (a0 V) (a1 V) (a2 V) (a3 V) (a4 V) (a5 V) (a6 V) (a7 V) := by
  show StableHlo.after opsBn3 (St15 V) _ = _
  rw [opsBn3_keep _ main_v157 (by decide), st15_v157]

theorem st16_v202 (V : Valuation τ sig (Elt Ideal)) : St16 V main_v202 = Cert.KernelIdeal.Net.rA3 (a0 V) (a1 V) (a2 V) (a3 V) (a4 V) (a5 V) (a6 V) (a7 V) := by
  show StableHlo.after opsBn3 (St15 V) _ = _
  rw [read_bn3, st15_v178, st15_v185, st15_v186, st15_v180, st15_v182]
  all_goals rfl

theorem st17_v207 (V : Valuation τ sig (Elt Ideal)) : St17 V main_v207 = Cert.KernelIdeal.Net.rOut (a0 V) (a1 V) (a2 V) (a3 V) (a4 V) (a5 V) (a6 V) (a7 V) (a8 V) (a9 V) := by
  show StableHlo.after opsHead (St16 V) _ = _
  rw [read_head, st16_v67, st16_v112, st16_v157, st16_v202, st16_keep V main_arg8 (by decide), st16_keep V main_arg9 (by decide)]
  all_goals rfl

/-- The reference's result buffer after all the operations, from a device's launch contents: the network function of the ten argument arrays. -/
theorem ref_value (m : (ℓ : Loc nD τ sig) → Buf (Elt Ideal) ℓ) (c : Dev nD) :
    StableHlo.after ops (StableHlo.launchContents m c) (Proc.devRef .tc main_v207)
      = Cert.KernelIdeal.Net.rOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [after_ops_St]
  exact st17_v207 (StableHlo.launchContents m c)

end Cert.ReferenceIdeal.Hand

end
-- ==== Proof.Ref.RunValue.lean ====
/- The reference's run with its result named: every weakly fair execution terminates with the result buffer at the network function of the ten argument arrays' launch contents, and the arguments unchanged. -/
import proofs.«131845_j5600637354059_1_alg».proof.Proof.Ref.Value

set_option maxRecDepth 8192

noncomputable section

namespace Cert.ReferenceIdeal.Hand

open Cert.ReferenceIdeal Cert.ReferenceIdeal.Gen Idealize.ShloMosaic Idealize.ShloMosaic.TcCoe Idealize.SL.Sem

/-- On every device, from any memory with zero counters, at the exact instance: @main terminates with its result the
    network function of the arguments' launch contents, and every argument at its launch contents. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v207)
        = Cert.KernelIdeal.Net.rOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v207).trans (ref_value m c),
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide))⟩)
    (run_all m ρ)

end Cert.ReferenceIdeal.Hand

end
-- ==== Proof.KIRead.Read0.lean ====
/-
  What the first host stretch leaves: the two index lists and the edge weights, as the stage functions of the edge list.
-/
import proofs.«131845_j5600637354059_1_alg».proof.Proof.KIRead.Stage0
import proofs.«131845_j5600637354059_1_alg».proof.Proof.Gen.KernelIdeal.Launch
import Idealize.ShloMosaic.Lib.StableHlo.Run

noncomputable section

namespace Cert.KernelIdeal.Read

open Cert.KernelIdeal Cert.KernelIdeal.Gen Idealize.ShloMosaic Idealize.ShloMosaic.TcCoe Idealize.SL.Sem Idealize.ShloMosaic.StableHlo

variable {F : FTy → Type} [FloatOps F]

theorem host0_src (V : Valuation τ sig (Elt F)) : StableHlo.after hostOps0 V main_v3 = Stage.src (V main_arg1) := by
  dsimp only [hostOps0]; after_results_simp; rfl

theorem host0_dst (V : Valuation τ sig (Elt F)) : StableHlo.after hostOps0 V main_v6 = Stage.dst (V main_arg1) := by
  dsimp only [hostOps0]; after_results_simp; rfl

theorem host0_norm (V : Valuation τ sig (Elt F)) : StableHlo.after hostOps0 V main_v26 = Stage.norm (V main_arg1) := by
  dsimp only [hostOps0]; after_results_simp; rfl

end Cert.KernelIdeal.Read

end
-- ==== Proof.KIRead.ReadL0.lean ====
/-
  What the host stretches of layer 0 leave, as the stage functions of what they find.
-/
import proofs.«131845_j5600637354059_1_alg».proof.Proof.KIRead.Stage1
import proofs.«131845_j5600637354059_1_alg».proof.Proof.Gen.KernelIdeal.Launch
import Idealize.ShloMosaic.Lib.StableHlo.Run

noncomputable section

namespace Cert.KernelIdeal.Read

open Cert.KernelIdeal Cert.KernelIdeal.Gen Idealize.ShloMosaic Idealize.ShloMosaic.TcCoe Idealize.SL.Sem Idealize.ShloMosaic.StableHlo

variable {F : FTy → Type} [FloatOps F]

/-- The aggregated rows plus the bias. -/
theorem layer0_pre (V : Valuation τ sig (Elt F)) :
    StableHlo.after hostOps1 V main_v43 = Stage.agg (V main_v27) (V main_v3) (V main_v6) (V main_v26) (V main_arg3) := by
  dsimp only [hostOps1]; after_results_simp; rfl

/-- Their column means. -/
theorem layer0_mean (V : Valuation τ sig (Elt F)) :
    StableHlo.after hostOps1 V main_v46 = Stage.mean (Stage.agg (V main_v27) (V main_v3) (V main_v6) (V main_v26) (V main_arg3)) := by
  dsimp only [hostOps1]; after_results_simp; rfl

/-- The variance's correction: the integer zero. -/
theorem layer0_corr (V : Valuation τ sig (Elt F)) :
    StableHlo.after hostOps1 V main_c_9 = constantI S_ 32 0#32 := by
  dsimp only [hostOps1]; after_results_simp

/-- The column variances. -/
theorem layer0_var (V : Valuation τ sig (Elt F)) :
    StableHlo.after hostOps1_1 V main_v47 = Stage.var (V main_v43) (V main_c_9) := by
  dsimp only [hostOps1_1]; after_results_simp; rfl

/-- The scale row, as a one-row matrix. -/
theorem layer0_scale (V : Valuation τ sig (Elt F)) :
    StableHlo.after hostOps1_2 V main_v58 = Stage.asRow (Stage.scale (Stage.row4 0 Facts₀.slices_S4x128_S1x128_0_0 (V main_arg6)) (V main_v47)) := by
  dsimp only [hostOps1_2]; after_results_simp; rfl

/-- The shift row, as a one-row matrix. -/
theorem layer0_shift (V : Valuation τ sig (Elt F)) :
    StableHlo.after hostOps1_2 V main_v59 = Stage.asRow (Stage.shift (Stage.row4 0 Facts₀.slices_S4x128_S1x128_0_0 (V main_arg7)) (V main_v46)
      (Stage.scale (Stage.row4 0 Facts₀.slices_S4x128_S1x128_0_0 (V main_arg6)) (V main_v47))) := by
  dsimp only [hostOps1_2]; after_results_simp; rfl

/-- The next layer's weights and bias, picked out of the stacked inputs. -/
theorem layer0_nextW (V : Valuation τ sig (Elt F)) :
    StableHlo.after hostOps2 V main_v62 = Stage.mat3 0 Facts₀.slices_S3x128x128_S1x128x128_0_0_0 (V main_arg4) := by
  dsimp only [hostOps2]; after_results_simp; rfl

theorem layer0_nextB (V : Valuation τ sig (Elt F)) :
    StableHlo.after hostOps2 V main_v64 = Stage.row3 0 Facts₀.slices_S3x128_S1x128_0_0 (V main_arg5) := by
  dsimp only [hostOps2]; after_results_simp; rfl

end Cert.KernelIdeal.Read

end
-- ==== Proof.KIRead.ReadL1.lean ====
/-
  What the host stretches of layer 1 leave, as the stage functions of what they find.
-/
import proofs.«131845_j5600637354059_1_alg».proof.Proof.KIRead.Stage1
import proofs.«131845_j5600637354059_1_alg».proof.Proof.Gen.KernelIdeal.Launch
import Idealize.ShloMosaic.Lib.StableHlo.Run

noncomputable section

namespace Cert.KernelIdeal.Read

open Cert.KernelIdeal Cert.KernelIdeal.Gen Idealize.ShloMosaic Idealize.ShloMosaic.TcCoe Idealize.SL.Sem Idealize.ShloMosaic.StableHlo

variable {F : FTy → Type} [FloatOps F]

/-- The aggregated rows plus the bias. -/
theorem layer1_pre (V : Valuation τ sig (Elt F)) :
    StableHlo.after hostOps3 V main_v81 = Stage.agg (V main_v65) (V main_v3) (V main_v6) (V main_v26) (V main_v64) := by
  dsimp only [hostOps3]; after_results_simp; rfl

/-- Their column means. -/
theorem layer1_mean (V : Valuation τ sig (Elt F)) :
    StableHlo.after hostOps3 V main_v84 = Stage.mean (Stage.agg (V main_v65) (V main_v3) (V main_v6) (V main_v26) (V main_v64)) := by
  dsimp only [hostOps3]; after_results_simp; rfl

/-- The variance's correction: the integer zero. -/
theorem layer1_corr (V : Valuation τ sig (Elt F)) :
    StableHlo.after hostOps3 V main_c_16 = constantI S_ 32 0#32 := by
  dsimp only [hostOps3]; after_results_simp

/-- The column variances. -/
theorem layer1_var (V : Valuation τ sig (Elt F)) :
    StableHlo.after hostOps3_1 V main_v85 = Stage.var (V main_v81) (V main_c_16) := by
  dsimp only [hostOps3_1]; after_results_simp; rfl

/-- The scale row, as a one-row matrix. -/
theorem layer1_scale (V : Valuation τ sig (Elt F)) :
    StableHlo.after hostOps3_2 V main_v96 = Stage.asRow (Stage.scale (Stage.row4 1 Facts₀.slices_S4x128_S1x128_1_0 (V main_arg6)) (V main_v85)) := by
  dsimp only [hostOps3_2]; after_results_simp; rfl

/-- The shift row, as a one-row matrix. -/
theorem layer1_shift (V : Valuation τ sig (Elt F)) :
    StableHlo.after hostOps3_2 V main_v97 = Stage.asRow (Stage.shift (Stage.row4 1 Facts₀.slices_S4x128_S1x128_1_0 (V main_arg7)) (V main_v84)
      (Stage.scale (Stage.row4 1 Facts₀.slices_S4x128_S1x128_1_0 (V main_arg6)) (V main_v85))) := by
  dsimp only [hostOps3_2]; after_results_simp; rfl

/-- The next layer's weights and bias, picked out of the stacked inputs. -/
theorem layer1_nextW (V : Valuation τ sig (Elt F)) :
    StableHlo.after hostOps4 V main_v100 = Stage.mat3 1 Facts₀.slices_S3x128x128_S1x128x128_1_0_0 (V main_arg4) := by
  dsimp only [hostOps4]; after_results_simp; rfl

theorem layer1_nextB (V : Valuation τ sig (Elt F)) :
    StableHlo.after hostOps4 V main_v102 = Stage.row3 1 Facts₀.slices_S3x128_S1x128_1_0 (V main_arg5) := by
  dsimp only [hostOps4]; after_results_simp; rfl

end Cert.KernelIdeal.Read

end
-- ==== Proof.KIRead.ReadL2.lean ====
/-
  What the host stretches of layer 2 leave, as the stage functions of what they find.
-/
import proofs.«131845_j5600637354059_1_alg».proof.Proof.KIRead.Stage1
import proofs.«131845_j5600637354059_1_alg».proof.Proof.Gen.KernelIdeal.Launch
import Idealize.ShloMosaic.Lib.StableHlo.Run

noncomputable section

namespace Cert.KernelIdeal.Read

open Cert.KernelIdeal Cert.KernelIdeal.Gen Idealize.ShloMosaic Idealize.ShloMosaic.TcCoe Idealize.SL.Sem Idealize.ShloMosaic.StableHlo

variable {F : FTy → Type} [FloatOps F]

/-- The aggregated rows plus the bias. -/
theorem layer2_pre (V : Valuation τ sig (Elt F)) :
    StableHlo.after hostOps5 V main_v119 = Stage.agg (V main_v103) (V main_v3) (V main_v6) (V main_v26) (V main_v102) := by
  dsimp only [hostOps5]; after_results_simp; rfl

/-- Their column means. -/
theorem layer2_mean (V : Valuation τ sig (Elt F)) :
    StableHlo.after hostOps5 V main_v122 = Stage.mean (Stage.agg (V main_v103) (V main_v3) (V main_v6) (V main_v26) (V main_v102)) := by
  dsimp only [hostOps5]; after_results_simp; rfl

/-- The variance's correction: the integer zero. -/
theorem layer2_corr (V : Valuation τ sig (Elt F)) :
    StableHlo.after hostOps5 V main_c_23 = constantI S_ 32 0#32 := by
  dsimp only [hostOps5]; after_results_simp

/-- The column variances. -/
theorem layer2_var (V : Valuation τ sig (Elt F)) :
    StableHlo.after hostOps5_1 V main_v123 = Stage.var (V main_v119) (V main_c_23) := by
  dsimp only [hostOps5_1]; after_results_simp; rfl

/-- The scale row, as a one-row matrix. -/
theorem layer2_scale (V : Valuation τ sig (Elt F)) :
    StableHlo.after hostOps5_2 V main_v134 = Stage.asRow (Stage.scale (Stage.row4 2 Facts₀.slices_S4x128_S1x128_2_0 (V main_arg6)) (V main_v123)) := by
  dsimp only [hostOps5_2]; after_results_simp; rfl

/-- The shift row, as a one-row matrix. -/
theorem layer2_shift (V : Valuation τ sig (Elt F)) :
    StableHlo.after hostOps5_2 V main_v135 = Stage.asRow (Stage.shift (Stage.row4 2 Facts₀.slices_S4x128_S1x128_2_0 (V main_arg7)) (V main_v122)
      (Stage.scale (Stage.row4 2 Facts₀.slices_S4x128_S1x128_2_0 (V main_arg6)) (V main_v123))) := by
  dsimp only [hostOps5_2]; after_results_simp; rfl

/-- The next layer's weights and bias, picked out of the stacked inputs. -/
theorem layer2_nextW (V : Valuation τ sig (Elt F)) :
    StableHlo.after hostOps6 V main_v138 = Stage.mat3 2 Facts₀.slices_S3x128x128_S1x128x128_2_0_0 (V main_arg4) := by
  dsimp only [hostOps6]; after_results_simp; rfl

theorem layer2_nextB (V : Valuation τ sig (Elt F)) :
    StableHlo.after hostOps6 V main_v140 = Stage.row3 2 Facts₀.slices_S3x128_S1x128_2_0 (V main_arg5) := by
  dsimp only [hostOps6]; after_results_simp; rfl

end Cert.KernelIdeal.Read

end
-- ==== Proof.KIRead.ReadL3.lean ====
/-
  What the host stretches of layer 3 leave, as the stage functions of what they find.
-/
import proofs.«131845_j5600637354059_1_alg».proof.Proof.KIRead.Stage1
import proofs.«131845_j5600637354059_1_alg».proof.Proof.Gen.KernelIdeal.Launch
import Idealize.ShloMosaic.Lib.StableHlo.Run

noncomputable section

namespace Cert.KernelIdeal.Read

open Cert.KernelIdeal Cert.KernelIdeal.Gen Idealize.ShloMosaic Idealize.ShloMosaic.TcCoe Idealize.SL.Sem Idealize.ShloMosaic.StableHlo

variable {F : FTy → Type} [FloatOps F]

/-- The aggregated rows plus the bias. -/
theorem layer3_pre (V : Valuation τ sig (Elt F)) :
    StableHlo.after hostOps7 V main_v157 = Stage.agg (V main_v141) (V main_v3) (V main_v6) (V main_v26) (V main_v140) := by
  dsimp only [hostOps7]; after_results_simp; rfl

/-- Their column means. -/
theorem layer3_mean (V : Valuation τ sig (Elt F)) :
    StableHlo.after hostOps7 V main_v160 = Stage.mean (Stage.agg (V main_v141) (V main_v3) (V main_v6) (V main_v26) (V main_v140)) := by
  dsimp only [hostOps7]; after_results_simp; rfl

/-- The variance's correction: the integer zero. -/
theorem layer3_corr (V : Valuation τ sig (Elt F)) :
    StableHlo.after hostOps7 V main_c_30 = constantI S_ 32 0#32 := by
  dsimp only [hostOps7]; after_results_simp

/-- The column variances. -/
theorem layer3_var (V : Valuation τ sig (Elt F)) :
    StableHlo.after hostOps7_1 V main_v161 = Stage.var (V main_v157) (V main_c_30) := by
  dsimp only [hostOps7_1]; after_results_simp; rfl

/-- The scale row, as a one-row matrix. -/
theorem layer3_scale (V : Valuation τ sig (Elt F)) :
    StableHlo.after hostOps7_2 V main_v172 = Stage.asRow (Stage.scale (Stage.row4 3 Facts₀.slices_S4x128_S1x128_3_0 (V main_arg6)) (V main_v161)) := by
  dsimp only [hostOps7_2]; after_results_simp; rfl

/-- The shift row, as a one-row matrix. -/
theorem layer3_shift (V : Valuation τ sig (Elt F)) :
    StableHlo.after hostOps7_2 V main_v173 = Stage.asRow (Stage.shift (Stage.row4 3 Facts₀.slices_S4x128_S1x128_3_0 (V main_arg7)) (V main_v160)
      (Stage.scale (Stage.row4 3 Facts₀.slices_S4x128_S1x128_3_0 (V main_arg6)) (V main_v161))) := by
  dsimp only [hostOps7_2]; after_results_simp; rfl

end Cert.KernelIdeal.Read

end
-- ==== Proof.KIRead.Read8.lean ====
/-
  What the last host stretch leaves: the four layers' outputs side by side, and the head's bias as a one-row matrix.
-/
import proofs.«131845_j5600637354059_1_alg».proof.Proof.KIRead.Stage1
import proofs.«131845_j5600637354059_1_alg».proof.Proof.Gen.KernelIdeal.Launch
import Idealize.ShloMosaic.Lib.StableHlo.Run

noncomputable section

namespace Cert.KernelIdeal.Read

open Cert.KernelIdeal Cert.KernelIdeal.Gen Idealize.ShloMosaic Idealize.ShloMosaic.TcCoe Idealize.SL.Sem Idealize.ShloMosaic.StableHlo

variable {F : FTy → Type} [FloatOps F]

theorem head_cat (V : Valuation τ sig (Elt F)) :
    StableHlo.after hostOps8 V main_v175 = Stage.concat4 (V main_v60) (V main_v98) (V main_v136) (V main_v174) := by
  dsimp only [hostOps8]; after_results_simp; rfl

theorem head_bias (V : Valuation τ sig (Elt F)) :
    StableHlo.after hostOps8 V main_v176 = Stage.headBias (V main_arg9) := by
  dsimp only [hostOps8]; after_results_simp; rfl

end Cert.KernelIdeal.Read

end
-- ==== Proof.KIValue.PayDot.lean ====
/- The three matrix products of the kernel bodies read at an entry of the block: a sum over the inner axis of
   the left operand's row times the right operand's column, the accumulator being zero. -/
import proofs.«131845_j5600637354059_1_alg».proof.Proof.Gen.KernelIdeal.Skeleton
import Idealize.ShloMosaic.Lib.ValueIdx
import Idealize.ShloMosaic.PureOps.Ideal.Laws

noncomputable section

namespace Cert.KernelIdeal.Closed

open Cert.KernelIdeal Cert.KernelIdeal.Gen Idealize.ShloMosaic Idealize.ShloMosaic.ValueIdx Idealize.SL.Sem
open scoped BigOperators

/-! ### The contraction `[5000, 256] · [256, 128]` -/

theorem lhs256_0 (i : S5000x128.Idx) (q : dot_S5000x256_S256x128_S5000x128_1_0_0_1_n_n.contr.Idx) : (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl

theorem lhs256_1 (i : S5000x128.Idx) (q : dot_S5000x256_S256x128_S5000x128_1_0_0_1_n_n.contr.Idx) : (dot_S5000x256_S256x128_S5000x128_1_0_0_1_n_n.lhsIdx i q 1).val = (q ⟨0, by decide⟩).val :=
  dot_S5000x256_S256x128_S5000x128_1_0_0_1_n_n.lhsIdx_val_of_single rfl i q

theorem rhs256_0 (i : S5000x128.Idx) (q : dot_S5000x256_S256x128_S5000x128_1_0_0_1_n_n.contr.Idx) : (dot_S5000x256_S256x128_S5000x128_1_0_0_1_n_n.rhsIdx i q 0).val = (q ⟨0, by decide⟩).val :=
  dot_S5000x256_S256x128_S5000x128_1_0_0_1_n_n.rhsIdx_val_of_single rfl i q

theorem rhs256_1 (i : S5000x128.Idx) (q : dot_S5000x256_S256x128_S5000x128_1_0_0_1_n_n.contr.Idx) : (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The matrix product into a zero accumulator, at entry `(p, q)`: the sum over the 256 inner positions of the
    left operand's row `p` times the right operand's column `q`. -/
theorem matmul256_apply {φ₁ φ₂ : FTy} (lhs : FVec Ideal S5000x256 φ₁) (rhs : FVec Ideal S256x128 φ₂) (p : Fin 5000) (q : Fin 128) :
    FloatOps.matmul dot_S5000x256_S256x128_S5000x128_1_0_0_1_n_n none lhs rhs (constant S5000x128 .f32 0x00000000#32) (ix2 p q)
      = ∑ k : Fin 256, lhs (ix2 p k) * rhs (ix2 k q) := by
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs256_0 _ _
    | ⟨1, _⟩ => exact (lhs256_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs256_0 _ _).trans hk
    | ⟨1, _⟩ => exact rhs256_1 _ _)
  rw [el, er]

/-! ### The contraction `[5000, 128] · [128, 128]` -/

theorem lhs128_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs128_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q

theorem rhs128_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q

theorem rhs128_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, at entry `(p, q)`: the sum over the 128 inner positions of the
    left operand's row `p` times the right operand's column `q`. -/
theorem matmul128_apply {φ₁ φ₂ : FTy} (lhs : FVec Ideal S5000x128 φ₁) (rhs : FVec Ideal S128x128 φ₂) (p : Fin 5000) (q : Fin 128) :
    FloatOps.matmul dot_S5000x128_S128x128_S5000x128_1_0_0_1_n_n none lhs rhs (constant S5000x128 .f32 0x00000000#32) (ix2 p q)
      = ∑ k : Fin 128, lhs (ix2 p k) * rhs (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-! ### The contraction `[5000, 512] · [512, 40]` -/

theorem lhs512_0 (i : S5000x40.Idx) (q : dot_S5000x512_S512x40_S5000x40_1_0_0_1_n_n.contr.Idx) : (dot_S5000x512_S512x40_S5000x40_1_0_0_1_n_n.lhsIdx i q 0).val = (i 0).val := by
  unfold DotDims.lhsIdx
  rw [dif_neg (show ¬(0 : Fin S5000x512.rank) ∈ dot_S5000x512_S512x40_S5000x40_1_0_0_1_n_n.lhsBatch by decide), dif_pos (show (0 : Fin S5000x512.rank) ∈ dot_S5000x512_S512x40_S5000x40_1_0_0_1_n_n.lhsNonContracting by decide)]
  rfl

theorem lhs512_1 (i : S5000x40.Idx) (q : dot_S5000x512_S512x40_S5000x40_1_0_0_1_n_n.contr.Idx) : (dot_S5000x512_S512x40_S5000x40_1_0_0_1_n_n.lhsIdx i q 1).val = (q ⟨0, by decide⟩).val :=
  dot_S5000x512_S512x40_S5000x40_1_0_0_1_n_n.lhsIdx_val_of_single rfl i q

theorem rhs512_0 (i : S5000x40.Idx) (q : dot_S5000x512_S512x40_S5000x40_1_0_0_1_n_n.contr.Idx) : (dot_S5000x512_S512x40_S5000x40_1_0_0_1_n_n.rhsIdx i q 0).val = (q ⟨0, by decide⟩).val :=
  dot_S5000x512_S512x40_S5000x40_1_0_0_1_n_n.rhsIdx_val_of_single rfl i q

theorem rhs512_1 (i : S5000x40.Idx) (q : dot_S5000x512_S512x40_S5000x40_1_0_0_1_n_n.contr.Idx) : (dot_S5000x512_S512x40_S5000x40_1_0_0_1_n_n.rhsIdx i q 1).val = (i 1).val := by
  unfold DotDims.rhsIdx
  rw [dif_neg (show ¬(1 : Fin S512x40.rank) ∈ dot_S5000x512_S512x40_S5000x40_1_0_0_1_n_n.rhsBatch by decide), dif_pos (show (1 : Fin S512x40.rank) ∈ dot_S5000x512_S512x40_S5000x40_1_0_0_1_n_n.rhsNonContracting by decide)]
  rfl

/-- The matrix product into a zero accumulator, at entry `(p, q)`: the sum over the 512 inner positions of the
    left operand's row `p` times the right operand's column `q`. -/
theorem matmul512_apply {φ₁ φ₂ : FTy} (lhs : FVec Ideal S5000x512 φ₁) (rhs : FVec Ideal S512x40 φ₂) (p : Fin 5000) (q : Fin 40) :
    FloatOps.matmul dot_S5000x512_S512x40_S5000x40_1_0_0_1_n_n none lhs rhs (constant S5000x40 .f32 0x00000000#32) (ix2 p q)
      = ∑ k : Fin 512, lhs (ix2 p k) * rhs (ix2 k q) := by
  rw [Ideal.matmul_constant_zero_apply, ← Equiv.sum_comp (contrEquiv1 dot_S5000x512_S512x40_S5000x40_1_0_0_1_n_n 512 rfl rfl).symm]
  refine Finset.sum_congr rfl fun k _ => ?_
  have hk := contrEquiv1_symm_val dot_S5000x512_S512x40_S5000x40_1_0_0_1_n_n 512 rfl rfl k
  have el : dot_S5000x512_S512x40_S5000x40_1_0_0_1_n_n.lhsIdx (ix2 p q) ((contrEquiv1 dot_S5000x512_S512x40_S5000x40_1_0_0_1_n_n 512 rfl rfl).symm k) = ix2 p k := funext fun a => Fin.ext (by
    match a with
    | ⟨0, _⟩ => exact lhs512_0 _ _
    | ⟨1, _⟩ => exact (lhs512_1 _ _).trans hk)
  have er : dot_S5000x512_S512x40_S5000x40_1_0_0_1_n_n.rhsIdx (ix2 p q) ((contrEquiv1 dot_S5000x512_S512x40_S5000x40_1_0_0_1_n_n 512 rfl rfl).symm k) = ix2 k q := funext fun a => Fin.ext (by
    match a with
    | ⟨0, _⟩ => exact (rhs512_0 _ _).trans hk
    | ⟨1, _⟩ => exact rhs512_1 _ _)
  rw [el, er]

end Cert.KernelIdeal.Closed

end
-- ==== Proof.KIValue.PayMm.lean ====
/- The matrix-product bodies (regions 0, 2, 4, 6) read at an entry of the output block: the narrowing of the operands
   and the shape casts to the same shape are the identity on the ideal values, so entry `(p, q)` is the sum over the
   inner axis of row `p` of the activations' block times column `q` of the weights. -/
import proofs.«131845_j5600637354059_1_alg».proof.Proof.KIValue.PayDot
import Idealize.ShloMosaic.Lib.Pipeline.Value

noncomputable section

namespace Cert.KernelIdeal.Closed

open Cert.KernelIdeal Cert.KernelIdeal.Gen Idealize.ShloMosaic Idealize.ShloMosaic.ValueIdx Idealize.SL.Sem
open scoped BigOperators

theorem k0_pay1_apply (v0 : Vec Ideal S5000x256 .f32) (v2 : Vec Ideal S256x128 .f32) (p : Fin 5000) (q : Fin 128) :
    k0_pay1 (F := Ideal) v0 v2 (ix2 p q) = ∑ k : Fin 256, v0 (ix2 p k) * v2 (ix2 k q) := by
  unfold k0_pay1
  exact matmul256_apply _ _ p q

theorem k2_pay1_apply (v0 : Vec Ideal S5000x128 .f32) (v3 : Vec Ideal S128x128 .f32) (p : Fin 5000) (q : Fin 128) :
    k2_pay1 (F := Ideal) v0 v3 (ix2 p q) = ∑ k : Fin 128, v0 (ix2 p k) * v3 (ix2 k q) := by
  unfold k2_pay1
  simp only [shapeCast_self]
  exact matmul128_apply _ _ p q

theorem k4_pay1_apply (v0 : Vec Ideal S5000x128 .f32) (v3 : Vec Ideal S128x128 .f32) (p : Fin 5000) (q : Fin 128) :
    k4_pay1 (F := Ideal) v0 v3 (ix2 p q) = ∑ k : Fin 128, v0 (ix2 p k) * v3 (ix2 k q) := by
  unfold k4_pay1
  simp only [shapeCast_self]
  exact matmul128_apply _ _ p q

theorem k6_pay1_apply (v0 : Vec Ideal S5000x128 .f32) (v3 : Vec Ideal S128x128 .f32) (p : Fin 5000) (q : Fin 128) :
    k6_pay1 (F := Ideal) v0 v3 (ix2 p q) = ∑ k : Fin 128, v0 (ix2 p k) * v3 (ix2 k q) := by
  unfold k6_pay1
  simp only [shapeCast_self]
  exact matmul128_apply _ _ p q

end Cert.KernelIdeal.Closed

end
-- ==== Proof.KIValue.Region0.lean ====
/- Region 0: the array the matrix-product region leaves. The grid has twenty points; point `t` reads rows
   `5000 t … 5000 t + 4999` of the activations and the whole weight matrix, and writes the same rows of the output. So the
   output array ends holding, at `(r, q)`, the sum over `k` of activations `(r, k)` times weights `(k, q)`. -/
import proofs.«131845_j5600637354059_1_alg».proof.Proof.KIFrame.Data0
import proofs.«131845_j5600637354059_1_alg».proof.Proof.Gen.KernelIdeal.Points
import proofs.«131845_j5600637354059_1_alg».proof.Proof.KIValue.Spec
import proofs.«131845_j5600637354059_1_alg».proof.Proof.KIValue.PayMm
import Idealize.ShloMosaic.Lib.Pipeline.Value

noncomputable section

namespace Cert.KernelIdeal.Closed

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeros0 : (![0, 0] : Fin 2 → Nat) = fun _ => 0 := funext fun a => by fin_cases a <;> rfl

/-- The printed index maps over the twenty points: the activations' and the output's row blocks are the point's number,
    the weights' block is the one block. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A body over a block of 5000 rows starting at row `5000 n` and the whole weight matrix computes those rows of the
    product. -/
theorem rows_mm0 (A0 : S100000x256.Idx → EReal) (A1 : S256x128.Idx → EReal) (n : ℕ) (hn : n < 20)
    (x0 : Vec Ideal S5000x256 .f32) (x1 : Vec Ideal S256x128 .f32) (G : S5000x128.Idx → EReal)
    (h0 : ∀ (p : Fin 5000) (k : Fin 256), x0 (ix2 p k) = A0 (ix2 (⟨n * 5000 + p.val, by omega⟩ : Fin 100000) k))
    (h1 : ∀ (k : Fin 256) (q : Fin 128), x1 (ix2 k q) = A1 (ix2 k q))
    (hG : ∀ (p : Fin 5000) (q : Fin 128), G (ix2 p q) = mm 256 128 A0 A1 (ix2 (⟨n * 5000 + p.val, by omega⟩ : Fin 100000) q)) :
    k0_pay1 (F := Ideal) x0 x1 = G := by
  funext j
  obtain ⟨p, q, rfl⟩ : ∃ (p : Fin 5000) (q : Fin 128), j = ix2 p q := ⟨j 0, j 1, eq_ix2 j⟩
  rw [hG, k0_pay1_apply, mm_apply]
  refine Finset.sum_congr rfl fun k _ => ?_
  rw [h0, h1]

/-- WHAT POINT `t` WRITES BACK is block `t` of the product of the arrays as the region finds them. -/
theorem flushed0_eq (c : Dev nD) (t : Fin cfg0.N) :
    (dat0 V c).flushed 2 t = ((cfg0.win 2).blk t).view.read (Elt Ideal)
      (mm 256 128 (V c (Pipeline.arrRef spec0 0)) (V c (Pipeline.arrRef spec0 1))) := by
  show (cfg0.win 2).cut (grid0.coords t) ((dat0 V c).after 2 t) = _
  rw [after0_2]
  unfold out0_2
  rw [View.canon_unit_zero zeros0]
  simp only [View.ld_unit_zero (S := S5000x256) zeros0, View.ld_unit_zero (S := S256x128) zeros0]
  obtain ⟨e0, e1, e2, e3, e4, e5⟩ := blockIdx0 t
  have hN : cfg0.N = 20 := N_0
  have ht : t.val < 20 := hN ▸ t.isLt
  refine rows_mm0 (V c (Pipeline.arrRef spec0 0)) (V c (Pipeline.arrRef spec0 1)) t.val ht
    (iblk0 V c 0 t) (iblk0 V c 1 t) _ (fun p k => ?_) (fun k q => ?_) (fun p q => ?_)
  · show V c (Pipeline.arrRef spec0 0) (((cfg0.win 0).blk t).view.emb (ix2 p k)) = _
    refine congrArg _ (funext fun a => Fin.ext ?_)
    match a with
    | ⟨0, _⟩ => show win0_0.index t (0 : Fin 2) * 5000 + 1 * p.val = t.val * 5000 + p.val; rw [e0]; omega
    | ⟨1, _⟩ => show win0_0.index t (1 : Fin 2) * 256 + 1 * k.val = k.val; rw [e1]; omega
  · show V c (Pipeline.arrRef spec0 1) (((cfg0.win 1).blk t).view.emb (ix2 k q)) = _
    refine congrArg _ (funext fun a => Fin.ext ?_)
    match a with
    | ⟨0, _⟩ => show win0_1.index t (0 : Fin 2) * 256 + 1 * k.val = k.val; rw [e2]; omega
    | ⟨1, _⟩ => show win0_1.index t (1 : Fin 2) * 128 + 1 * q.val = q.val; rw [e3]; omega
  · show mm 256 128 _ _ (((cfg0.win 2).blk t).view.emb (ix2 p q)) = _
    refine congrArg _ (funext fun a => Fin.ext ?_)
    match a with
    | ⟨0, _⟩ => show win0_2.index t (0 : Fin 2) * 5000 + 1 * p.val = t.val * 5000 + p.val; rw [e4]; omega
    | ⟨1, _⟩ => show win0_2.index t (1 : Fin 2) * 128 + 1 * q.val = q.val; rw [e5]; omega

/-- An index of the output array is in point `t`'s block iff each coordinate is in the block's range on its axis. -/
theorem mem_rows0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole (Pipeline.arrRef spec0 2)).slice (win0_2.rect t)).set ↔ _
  rw [View.set_slice_whole, Rect.mem_set_unit]
  exact Iff.rfl

/-- Every row of the output is in the block of the point numbered by the row's quotient by 5000. -/
theorem rows_cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨e0, e1, e2, e3, e4, e5⟩ := blockIdx0 t
  refine ⟨t, flush0_2 t, ?_⟩
  rw [mem_rows0]
  intro a
  match a with
  | ⟨0, _⟩ => show win0_2.index t (0 : Fin 2) * 5000 ≤ (i 0).val ∧ (i 0).val < win0_2.index t (0 : Fin 2) * 5000 + 5000; rw [e4]; omega
  | ⟨1, _⟩ => show win0_2.index t (1 : Fin 2) * 128 ≤ (i 1).val ∧ (i 1).val < win0_2.index t (1 : Fin 2) * 128 + 128; rw [e5]; omega

/-- THE OUTPUT ARRAY after the region: the product of the activations and the weights as the region finds them. -/
theorem arrAt0 (c : Dev nD) :
    ((dat0 V c).arrAt 2 cfg0.N : S100000x128.Idx → EReal)
      = mm 256 128 (V c (Pipeline.arrRef spec0 0)) (V c (Pipeline.arrRef spec0 1)) :=
  (dat0 V c).arrAt_eq_of_cover 2 _ (fun t _ => flushed0_eq V c t) (rows_cover0)

end Cert.KernelIdeal.Closed

end
-- ==== Proof.KIValue.PayAff.lean ====
/- The affine-and-cut bodies (regions 1, 3, 5, 7) read at an entry of the output block: the one-row scale and shift are
   broadcast down the rows, so entry `(p, q)` is `max (x (p, q) · scale q + shift q) 0`. -/
import proofs.«131845_j5600637354059_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Closed

open Cert.KernelIdeal Cert.KernelIdeal.Gen Idealize.ShloMosaic Idealize.ShloMosaic.ValueIdx Idealize.SL.Sem
open scoped BigOperators

theorem k1_pay1_apply (v0 : Vec Ideal S5000x128 .f32) (v2 : Vec Ideal S1x128 .f32) (v6 : Vec Ideal S1x128 .f32) (p : Fin 5000) (q : Fin 128) :
    k1_pay1 (F := Ideal) v0 v2 v6 (ix2 p q) = max (v0 (ix2 p q) * v2 (ix2 (0 : Fin 1) q) + v6 (ix2 (0 : Fin 1) q)) 0 := by
  unfold k1_pay1
  simp only [shapeCast_self]
  show max ((v0 (ix2 p q) : EReal) * broadcastTo S5000x128 v2 broadcasts_S1x128_S5000x128 (ix2 p q)
      + broadcastTo S5000x128 v6 broadcasts_S1x128_S5000x128 (ix2 p q)) (Ideal.ofBits .f32 0x00000000#32) = _
  rw [broadcastTo_1b_ab_apply, broadcastTo_1b_ab_apply, Ideal.ofBits_zero_f32]

theorem k3_pay1_apply (v0 : Vec Ideal S5000x128 .f32) (v2 : Vec Ideal S1x128 .f32) (v6 : Vec Ideal S1x128 .f32) (p : Fin 5000) (q : Fin 128) :
    k3_pay1 (F := Ideal) v0 v2 v6 (ix2 p q) = max (v0 (ix2 p q) * v2 (ix2 (0 : Fin 1) q) + v6 (ix2 (0 : Fin 1) q)) 0 := by
  unfold k3_pay1
  simp only [shapeCast_self]
  show max ((v0 (ix2 p q) : EReal) * broadcastTo S5000x128 v2 broadcasts_S1x128_S5000x128 (ix2 p q)
      + broadcastTo S5000x128 v6 broadcasts_S1x128_S5000x128 (ix2 p q)) (Ideal.ofBits .f32 0x00000000#32) = _
  rw [broadcastTo_1b_ab_apply, broadcastTo_1b_ab_apply, Ideal.ofBits_zero_f32]

theorem k5_pay1_apply (v0 : Vec Ideal S5000x128 .f32) (v2 : Vec Ideal S1x128 .f32) (v6 : Vec Ideal S1x128 .f32) (p : Fin 5000) (q : Fin 128) :
    k5_pay1 (F := Ideal) v0 v2 v6 (ix2 p q) = max (v0 (ix2 p q) * v2 (ix2 (0 : Fin 1) q) + v6 (ix2 (0 : Fin 1) q)) 0 := by
  unfold k5_pay1
  simp only [shapeCast_self]
  show max ((v0 (ix2 p q) : EReal) * broadcastTo S5000x128 v2 broadcasts_S1x128_S5000x128 (ix2 p q)
      + broadcastTo S5000x128 v6 broadcasts_S1x128_S5000x128 (ix2 p q)) (Ideal.ofBits .f32 0x00000000#32) = _
  rw [broadcastTo_1b_ab_apply, broadcastTo_1b_ab_apply, Ideal.ofBits_zero_f32]

theorem k7_pay1_apply (v0 : Vec Ideal S5000x128 .f32) (v2 : Vec Ideal S1x128 .f32) (v6 : Vec Ideal S1x128 .f32) (p : Fin 5000) (q : Fin 128) :
    k7_pay1 (F := Ideal) v0 v2 v6 (ix2 p q) = max (v0 (ix2 p q) * v2 (ix2 (0 : Fin 1) q) + v6 (ix2 (0 : Fin 1) q)) 0 := by
  unfold k7_pay1
  simp only [shapeCast_self]
  show max ((v0 (ix2 p q) : EReal) * broadcastTo S5000x128 v2 broadcasts_S1x128_S5000x128 (ix2 p q)
      + broadcastTo S5000x128 v6 broadcasts_S1x128_S5000x128 (ix2 p q)) (Ideal.ofBits .f32 0x00000000#32) = _
  rw [broadcastTo_1b_ab_apply, broadcastTo_1b_ab_apply, Ideal.ofBits_zero_f32]

end Cert.KernelIdeal.Closed

end
-- ==== Proof.KIValue.Region1.lean ====
/- Region 1: the array the affine-and-cut region leaves. The grid has twenty points; point `t` reads rows
   `5000 t … 5000 t + 4999` of the input and the one-row scale and shift, and writes the same rows of the output. So the
   output array ends holding, at `(r, q)`, `max (x (r, q) · scale q + shift q) 0`. -/
import proofs.«131845_j5600637354059_1_alg».proof.Proof.KIFrame.Data1
import proofs.«131845_j5600637354059_1_alg».proof.Proof.Gen.KernelIdeal.Points
import proofs.«131845_j5600637354059_1_alg».proof.Proof.KIValue.Spec
import proofs.«131845_j5600637354059_1_alg».proof.Proof.KIValue.PayAff
import Idealize.ShloMosaic.Lib.Pipeline.Value

noncomputable section

namespace Cert.KernelIdeal.Closed

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeros1 : (![0, 0] : Fin 2 → Nat) = fun _ => 0 := funext fun a => by fin_cases a <;> rfl

/-- The printed index maps over the twenty points: the input's and the output's row blocks are the point's number, the
    scale's and the shift's block is the one block. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A body over a block of 5000 rows starting at row `5000 n` and the whole scale and shift rows computes those rows
    of the affine map cut at zero. -/
theorem rows_aff1 (A0 : S100000x128.Idx → EReal) (A1 A2 : S1x128.Idx → EReal) (n : ℕ) (hn : n < 20)
    (x0 : Vec Ideal S5000x128 .f32) (x1 x2 : Vec Ideal S1x128 .f32) (G : S5000x128.Idx → EReal)
    (h0 : ∀ (p : Fin 5000) (q : Fin 128), x0 (ix2 p q) = A0 (ix2 (⟨n * 5000 + p.val, by omega⟩ : Fin 100000) q))
    (h1 : ∀ q : Fin 128, x1 (ix2 (0 : Fin 1) q) = A1 (ix2 (0 : Fin 1) q))
    (h2 : ∀ q : Fin 128, x2 (ix2 (0 : Fin 1) q) = A2 (ix2 (0 : Fin 1) q))
    (hG : ∀ (p : Fin 5000) (q : Fin 128), G (ix2 p q) = affRelu A0 A1 A2 (ix2 (⟨n * 5000 + p.val, by omega⟩ : Fin 100000) q)) :
    k1_pay1 (F := Ideal) x0 x1 x2 = G := by
  funext j
  obtain ⟨p, q, rfl⟩ : ∃ (p : Fin 5000) (q : Fin 128), j = ix2 p q := ⟨j 0, j 1, eq_ix2 j⟩
  rw [hG, k1_pay1_apply, affRelu_apply, h0, h1, h2]

/-- WHAT POINT `t` WRITES BACK is block `t` of the affine map cut at zero of the arrays as the region finds them. -/
theorem flushed1_eq (c : Dev nD) (t : Fin cfg1.N) :
    (dat1 V c).flushed 3 t = ((cfg1.win 3).blk t).view.read (Elt Ideal)
      (affRelu (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zeros1]
  simp only [View.ld_unit_zero (S := S5000x128) zeros1, View.ld_unit_zero (S := S1x128) zeros1]
  obtain ⟨e0, e1, e2, e3, e4, e5, e6, e7⟩ := blockIdx1 t
  have hN : cfg1.N = 20 := N_1
  have ht : t.val < 20 := hN ▸ t.isLt
  refine rows_aff1 (V c (Pipeline.arrRef spec1 0)) (V c (Pipeline.arrRef spec1 1)) (V c (Pipeline.arrRef spec1 2)) t.val ht
    (iblk1 V c 0 t) (iblk1 V c 1 t) (iblk1 V c 2 t) _ (fun p q => ?_) (fun q => ?_) (fun q => ?_) (fun p q => ?_)
  · show V c (Pipeline.arrRef spec1 0) (((cfg1.win 0).blk t).view.emb (ix2 p q)) = _
    refine congrArg _ (funext fun a => Fin.ext ?_)
    match a with
    | ⟨0, _⟩ => show win1_0.index t (0 : Fin 2) * 5000 + 1 * p.val = t.val * 5000 + p.val; rw [e0]; omega
    | ⟨1, _⟩ => show win1_0.index t (1 : Fin 2) * 128 + 1 * q.val = q.val; rw [e1]; omega
  · show V c (Pipeline.arrRef spec1 1) (((cfg1.win 1).blk t).view.emb (ix2 (0 : Fin 1) q)) = _
    refine congrArg _ (funext fun a => Fin.ext ?_)
    match a with
    | ⟨0, _⟩ => show win1_1.index t (0 : Fin 2) * 1 + 1 * (0 : Fin 1).val = (0 : Fin 1).val; rw [e2]; rfl
    | ⟨1, _⟩ => show win1_1.index t (1 : Fin 2) * 128 + 1 * q.val = q.val; rw [e3]; omega
  · show V c (Pipeline.arrRef spec1 2) (((cfg1.win 2).blk t).view.emb (ix2 (0 : Fin 1) q)) = _
    refine congrArg _ (funext fun a => Fin.ext ?_)
    match a with
    | ⟨0, _⟩ => show win1_2.index t (0 : Fin 2) * 1 + 1 * (0 : Fin 1).val = (0 : Fin 1).val; rw [e4]; rfl
    | ⟨1, _⟩ => show win1_2.index t (1 : Fin 2) * 128 + 1 * q.val = q.val; rw [e5]; omega
  · show affRelu _ _ _ (((cfg1.win 3).blk t).view.emb (ix2 p q)) = _
    refine congrArg _ (funext fun a => Fin.ext ?_)
    match a with
    | ⟨0, _⟩ => show win1_3.index t (0 : Fin 2) * 5000 + 1 * p.val = t.val * 5000 + p.val; rw [e6]; omega
    | ⟨1, _⟩ => show win1_3.index t (1 : Fin 2) * 128 + 1 * q.val = q.val; rw [e7]; omega

/-- An index of the output array is in point `t`'s block iff each coordinate is in the block's range on its axis. -/
theorem mem_rows1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole (Pipeline.arrRef spec1 3)).slice (win1_3.rect t)).set ↔ _
  rw [View.set_slice_whole, Rect.mem_set_unit]
  exact Iff.rfl

/-- Every row of the output is in the block of the point numbered by the row's quotient by 5000. -/
theorem rows_cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by omega⟩, rfl⟩
  obtain ⟨e0, e1, e2, e3, e4, e5, e6, e7⟩ := blockIdx1 t
  refine ⟨t, flush1_3 t, ?_⟩
  rw [mem_rows1]
  intro a
  match a with
  | ⟨0, _⟩ => show win1_3.index t (0 : Fin 2) * 5000 ≤ (i 0).val ∧ (i 0).val < win1_3.index t (0 : Fin 2) * 5000 + 5000; rw [e6]; omega
  | ⟨1, _⟩ => show win1_3.index t (1 : Fin 2) * 128 ≤ (i 1).val ∧ (i 1).val < win1_3.index t (1 : Fin 2) * 128 + 128; rw [e7]; omega

/-- THE OUTPUT ARRAY after the region: the affine map cut at zero of the input, scale and shift as the region finds them. -/
theorem arrAt1 (c : Dev nD) :
    ((dat1 V c).arrAt 3 cfg1.N : S100000x128.Idx → EReal)
      = affRelu (V c (Pipeline.arrRef spec1 0)) (V c (Pipeline.arrRef spec1 1)) (V c (Pipeline.arrRef spec1 2)) :=
  (dat1 V c).arrAt_eq_of_cover 3 _ (fun t _ => flushed1_eq V c t) (rows_cover1)

end Cert.KernelIdeal.Closed

end
-- ==== Proof.KIValue.Region2.lean ====
/- Region 2: the array the matrix-product region leaves. The grid has twenty points; point `t` reads rows
   `5000 t … 5000 t + 4999` of the activations and the whole weight matrix, and writes the same rows of the output. So the
   output array ends holding, at `(r, q)`, the sum over `k` of activations `(r, k)` times weights `(k, q)`. -/
import proofs.«131845_j5600637354059_1_alg».proof.Proof.KIFrame.Data2
import proofs.«131845_j5600637354059_1_alg».proof.Proof.Gen.KernelIdeal.Points
import proofs.«131845_j5600637354059_1_alg».proof.Proof.KIValue.Spec
import proofs.«131845_j5600637354059_1_alg».proof.Proof.KIValue.PayMm
import Idealize.ShloMosaic.Lib.Pipeline.Value

noncomputable section

namespace Cert.KernelIdeal.Closed

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the twenty points: the activations' and the output's row blocks are the point's number,
    the weights' block is the one block. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A body over a block of 5000 rows starting at row `5000 n` and the whole weight matrix computes those rows of the
    product. -/
theorem rows_mm2 (A0 : S100000x128.Idx → EReal) (A1 : S128x128.Idx → EReal) (n : ℕ) (hn : n < 20)
    (x0 : Vec Ideal S5000x128 .f32) (x1 : Vec Ideal S128x128 .f32) (G : S5000x128.Idx → EReal)
    (h0 : ∀ (p : Fin 5000) (k : Fin 128), x0 (ix2 p k) = A0 (ix2 (⟨n * 5000 + p.val, by omega⟩ : Fin 100000) k))
    (h1 : ∀ (k : Fin 128) (q : Fin 128), x1 (ix2 k q) = A1 (ix2 k q))
    (hG : ∀ (p : Fin 5000) (q : Fin 128), G (ix2 p q) = mm 128 128 A0 A1 (ix2 (⟨n * 5000 + p.val, by omega⟩ : Fin 100000) q)) :
    k2_pay1 (F := Ideal) x0 x1 = G := by
  funext j
  obtain ⟨p, q, rfl⟩ : ∃ (p : Fin 5000) (q : Fin 128), j = ix2 p q := ⟨j 0, j 1, eq_ix2 j⟩
  rw [hG, k2_pay1_apply, mm_apply]
  refine Finset.sum_congr rfl fun k _ => ?_
  rw [h0, h1]

/-- WHAT POINT `t` WRITES BACK is block `t` of the product of the arrays as the region finds them. -/
theorem flushed2_eq (c : Dev nD) (t : Fin cfg2.N) :
    (dat2 V c).flushed 2 t = ((cfg2.win 2).blk t).view.read (Elt Ideal)
      (mm 128 128 (V c (Pipeline.arrRef spec2 0)) (V c (Pipeline.arrRef spec2 1))) := by
  show (cfg2.win 2).cut (grid2.coords t) ((dat2 V c).after 2 t) = _
  rw [after2_2]
  unfold out2_2
  rw [View.canon_unit_zero zeros2]
  simp only [View.ld_unit_zero (S := S5000x128) zeros2, View.ld_unit_zero (S := S128x128) zeros2]
  obtain ⟨e0, e1, e2, e3, e4, e5⟩ := blockIdx2 t
  have hN : cfg2.N = 20 := N_2
  have ht : t.val < 20 := hN ▸ t.isLt
  refine rows_mm2 (V c (Pipeline.arrRef spec2 0)) (V c (Pipeline.arrRef spec2 1)) t.val ht
    (iblk2 V c 0 t) (iblk2 V c 1 t) _ (fun p k => ?_) (fun k q => ?_) (fun p q => ?_)
  · show V c (Pipeline.arrRef spec2 0) (((cfg2.win 0).blk t).view.emb (ix2 p k)) = _
    refine congrArg _ (funext fun a => Fin.ext ?_)
    match a with
    | ⟨0, _⟩ => show win2_0.index t (0 : Fin 2) * 5000 + 1 * p.val = t.val * 5000 + p.val; rw [e0]; omega
    | ⟨1, _⟩ => show win2_0.index t (1 : Fin 2) * 128 + 1 * k.val = k.val; rw [e1]; omega
  · show V c (Pipeline.arrRef spec2 1) (((cfg2.win 1).blk t).view.emb (ix2 k q)) = _
    refine congrArg _ (funext fun a => Fin.ext ?_)
    match a with
    | ⟨0, _⟩ => show win2_1.index t (0 : Fin 2) * 128 + 1 * k.val = k.val; rw [e2]; omega
    | ⟨1, _⟩ => show win2_1.index t (1 : Fin 2) * 128 + 1 * q.val = q.val; rw [e3]; omega
  · show mm 128 128 _ _ (((cfg2.win 2).blk t).view.emb (ix2 p q)) = _
    refine congrArg _ (funext fun a => Fin.ext ?_)
    match a with
    | ⟨0, _⟩ => show win2_2.index t (0 : Fin 2) * 5000 + 1 * p.val = t.val * 5000 + p.val; rw [e4]; omega
    | ⟨1, _⟩ => show win2_2.index t (1 : Fin 2) * 128 + 1 * q.val = q.val; rw [e5]; omega

/-- An index of the output array is in point `t`'s block iff each coordinate is in the block's range on its axis. -/
theorem mem_rows2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole (Pipeline.arrRef spec2 2)).slice (win2_2.rect t)).set ↔ _
  rw [View.set_slice_whole, Rect.mem_set_unit]
  exact Iff.rfl

/-- Every row of the output is in the block of the point numbered by the row's quotient by 5000. -/
theorem rows_cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by omega⟩, rfl⟩
  obtain ⟨e0, e1, e2, e3, e4, e5⟩ := blockIdx2 t
  refine ⟨t, flush2_2 t, ?_⟩
  rw [mem_rows2]
  intro a
  match a with
  | ⟨0, _⟩ => show win2_2.index t (0 : Fin 2) * 5000 ≤ (i 0).val ∧ (i 0).val < win2_2.index t (0 : Fin 2) * 5000 + 5000; rw [e4]; omega
  | ⟨1, _⟩ => show win2_2.index t (1 : Fin 2) * 128 ≤ (i 1).val ∧ (i 1).val < win2_2.index t (1 : Fin 2) * 128 + 128; rw [e5]; omega

/-- THE OUTPUT ARRAY after the region: the product of the activations and the weights as the region finds them. -/
theorem arrAt2 (c : Dev nD) :
    ((dat2 V c).arrAt 2 cfg2.N : S100000x128.Idx → EReal)
      = mm 128 128 (V c (Pipeline.arrRef spec2 0)) (V c (Pipeline.arrRef spec2 1)) :=
  (dat2 V c).arrAt_eq_of_cover 2 _ (fun t _ => flushed2_eq V c t) (rows_cover2)

end Cert.KernelIdeal.Closed

end
-- ==== Proof.KIValue.Region3.lean ====
/- Region 3: the array the affine-and-cut region leaves. The grid has twenty points; point `t` reads rows
   `5000 t … 5000 t + 4999` of the input and the one-row scale and shift, and writes the same rows of the output. So the
   output array ends holding, at `(r, q)`, `max (x (r, q) · scale q + shift q) 0`. -/
import proofs.«131845_j5600637354059_1_alg».proof.Proof.KIFrame.Data3
import proofs.«131845_j5600637354059_1_alg».proof.Proof.Gen.KernelIdeal.Points
import proofs.«131845_j5600637354059_1_alg».proof.Proof.KIValue.Spec
import proofs.«131845_j5600637354059_1_alg».proof.Proof.KIValue.PayAff
import Idealize.ShloMosaic.Lib.Pipeline.Value

noncomputable section

namespace Cert.KernelIdeal.Closed

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeros3 : (![0, 0] : Fin 2 → Nat) = fun _ => 0 := funext fun a => by fin_cases a <;> rfl

/-- The printed index maps over the twenty points: the input's and the output's row blocks are the point's number, the
    scale's and the shift's block is the one block. -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- A body over a block of 5000 rows starting at row `5000 n` and the whole scale and shift rows computes those rows
    of the affine map cut at zero. -/
theorem rows_aff3 (A0 : S100000x128.Idx → EReal) (A1 A2 : S1x128.Idx → EReal) (n : ℕ) (hn : n < 20)
    (x0 : Vec Ideal S5000x128 .f32) (x1 x2 : Vec Ideal S1x128 .f32) (G : S5000x128.Idx → EReal)
    (h0 : ∀ (p : Fin 5000) (q : Fin 128), x0 (ix2 p q) = A0 (ix2 (⟨n * 5000 + p.val, by omega⟩ : Fin 100000) q))
    (h1 : ∀ q : Fin 128, x1 (ix2 (0 : Fin 1) q) = A1 (ix2 (0 : Fin 1) q))
    (h2 : ∀ q : Fin 128, x2 (ix2 (0 : Fin 1) q) = A2 (ix2 (0 : Fin 1) q))
    (hG : ∀ (p : Fin 5000) (q : Fin 128), G (ix2 p q) = affRelu A0 A1 A2 (ix2 (⟨n * 5000 + p.val, by omega⟩ : Fin 100000) q)) :
    k3_pay1 (F := Ideal) x0 x1 x2 = G := by
  funext j
  obtain ⟨p, q, rfl⟩ : ∃ (p : Fin 5000) (q : Fin 128), j = ix2 p q := ⟨j 0, j 1, eq_ix2 j⟩
  rw [hG, k3_pay1_apply, affRelu_apply, h0, h1, h2]

/-- WHAT POINT `t` WRITES BACK is block `t` of the affine map cut at zero of the arrays as the region finds them. -/
theorem flushed3_eq (c : Dev nD) (t : Fin cfg3.N) :
    (dat3 V c).flushed 3 t = ((cfg3.win 3).blk t).view.read (Elt Ideal)
      (affRelu (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero zeros3]
  simp only [View.ld_unit_zero (S := S5000x128) zeros3, View.ld_unit_zero (S := S1x128) zeros3]
  obtain ⟨e0, e1, e2, e3, e4, e5, e6, e7⟩ := blockIdx3 t
  have hN : cfg3.N = 20 := N_3
  have ht : t.val < 20 := hN ▸ t.isLt
  refine rows_aff3 (V c (Pipeline.arrRef spec3 0)) (V c (Pipeline.arrRef spec3 1)) (V c (Pipeline.arrRef spec3 2)) t.val ht
    (iblk3 V c 0 t) (iblk3 V c 1 t) (iblk3 V c 2 t) _ (fun p q => ?_) (fun q => ?_) (fun q => ?_) (fun p q => ?_)
  · show V c (Pipeline.arrRef spec3 0) (((cfg3.win 0).blk t).view.emb (ix2 p q)) = _
    refine congrArg _ (funext fun a => Fin.ext ?_)
    match a with
    | ⟨0, _⟩ => show win3_0.index t (0 : Fin 2) * 5000 + 1 * p.val = t.val * 5000 + p.val; rw [e0]; omega
    | ⟨1, _⟩ => show win3_0.index t (1 : Fin 2) * 128 + 1 * q.val = q.val; rw [e1]; omega
  · show V c (Pipeline.arrRef spec3 1) (((cfg3.win 1).blk t).view.emb (ix2 (0 : Fin 1) q)) = _
    refine congrArg _ (funext fun a => Fin.ext ?_)
    match a with
    | ⟨0, _⟩ => show win3_1.index t (0 : Fin 2) * 1 + 1 * (0 : Fin 1).val = (0 : Fin 1).val; rw [e2]; rfl
    | ⟨1, _⟩ => show win3_1.index t (1 : Fin 2) * 128 + 1 * q.val = q.val; rw [e3]; omega
  · show V c (Pipeline.arrRef spec3 2) (((cfg3.win 2).blk t).view.emb (ix2 (0 : Fin 1) q)) = _
    refine congrArg _ (funext fun a => Fin.ext ?_)
    match a with
    | ⟨0, _⟩ => show win3_2.index t (0 : Fin 2) * 1 + 1 * (0 : Fin 1).val = (0 : Fin 1).val; rw [e4]; rfl
    | ⟨1, _⟩ => show win3_2.index t (1 : Fin 2) * 128 + 1 * q.val = q.val; rw [e5]; omega
  · show affRelu _ _ _ (((cfg3.win 3).blk t).view.emb (ix2 p q)) = _
    refine congrArg _ (funext fun a => Fin.ext ?_)
    match a with
    | ⟨0, _⟩ => show win3_3.index t (0 : Fin 2) * 5000 + 1 * p.val = t.val * 5000 + p.val; rw [e6]; omega
    | ⟨1, _⟩ => show win3_3.index t (1 : Fin 2) * 128 + 1 * q.val = q.val; rw [e7]; omega

/-- An index of the output array is in point `t`'s block iff each coordinate is in the block's range on its axis. -/
theorem mem_rows3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole (Pipeline.arrRef spec3 3)).slice (win3_3.rect t)).set ↔ _
  rw [View.set_slice_whole, Rect.mem_set_unit]
  exact Iff.rfl

/-- Every row of the output is in the block of the point numbered by the row's quotient by 5000. -/
theorem rows_cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by omega⟩, rfl⟩
  obtain ⟨e0, e1, e2, e3, e4, e5, e6, e7⟩ := blockIdx3 t
  refine ⟨t, flush3_3 t, ?_⟩
  rw [mem_rows3]
  intro a
  match a with
  | ⟨0, _⟩ => show win3_3.index t (0 : Fin 2) * 5000 ≤ (i 0).val ∧ (i 0).val < win3_3.index t (0 : Fin 2) * 5000 + 5000; rw [e6]; omega
  | ⟨1, _⟩ => show win3_3.index t (1 : Fin 2) * 128 ≤ (i 1).val ∧ (i 1).val < win3_3.index t (1 : Fin 2) * 128 + 128; rw [e7]; omega

/-- THE OUTPUT ARRAY after the region: the affine map cut at zero of the input, scale and shift as the region finds them. -/
theorem arrAt3 (c : Dev nD) :
    ((dat3 V c).arrAt 3 cfg3.N : S100000x128.Idx → EReal)
      = affRelu (V c (Pipeline.arrRef spec3 0)) (V c (Pipeline.arrRef spec3 1)) (V c (Pipeline.arrRef spec3 2)) :=
  (dat3 V c).arrAt_eq_of_cover 3 _ (fun t _ => flushed3_eq V c t) (rows_cover3)

end Cert.KernelIdeal.Closed

end
-- ==== Proof.KIValue.Region4.lean ====
/- Region 4: the array the matrix-product region leaves. The grid has twenty points; point `t` reads rows
   `5000 t … 5000 t + 4999` of the activations and the whole weight matrix, and writes the same rows of the output. So the
   output array ends holding, at `(r, q)`, the sum over `k` of activations `(r, k)` times weights `(k, q)`. -/
import proofs.«131845_j5600637354059_1_alg».proof.Proof.KIFrame.Data4
import proofs.«131845_j5600637354059_1_alg».proof.Proof.Gen.KernelIdeal.Points
import proofs.«131845_j5600637354059_1_alg».proof.Proof.KIValue.Spec
import proofs.«131845_j5600637354059_1_alg».proof.Proof.KIValue.PayMm
import Idealize.ShloMosaic.Lib.Pipeline.Value

noncomputable section

namespace Cert.KernelIdeal.Closed

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeros4 : (![0, 0] : Fin 2 → Nat) = fun _ => 0 := funext fun a => by fin_cases a <;> rfl

/-- The printed index maps over the twenty points: the activations' and the output's row blocks are the point's number,
    the weights' block is the one block. -/
theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- A body over a block of 5000 rows starting at row `5000 n` and the whole weight matrix computes those rows of the
    product. -/
theorem rows_mm4 (A0 : S100000x128.Idx → EReal) (A1 : S128x128.Idx → EReal) (n : ℕ) (hn : n < 20)
    (x0 : Vec Ideal S5000x128 .f32) (x1 : Vec Ideal S128x128 .f32) (G : S5000x128.Idx → EReal)
    (h0 : ∀ (p : Fin 5000) (k : Fin 128), x0 (ix2 p k) = A0 (ix2 (⟨n * 5000 + p.val, by omega⟩ : Fin 100000) k))
    (h1 : ∀ (k : Fin 128) (q : Fin 128), x1 (ix2 k q) = A1 (ix2 k q))
    (hG : ∀ (p : Fin 5000) (q : Fin 128), G (ix2 p q) = mm 128 128 A0 A1 (ix2 (⟨n * 5000 + p.val, by omega⟩ : Fin 100000) q)) :
    k4_pay1 (F := Ideal) x0 x1 = G := by
  funext j
  obtain ⟨p, q, rfl⟩ : ∃ (p : Fin 5000) (q : Fin 128), j = ix2 p q := ⟨j 0, j 1, eq_ix2 j⟩
  rw [hG, k4_pay1_apply, mm_apply]
  refine Finset.sum_congr rfl fun k _ => ?_
  rw [h0, h1]

/-- WHAT POINT `t` WRITES BACK is block `t` of the product of the arrays as the region finds them. -/
theorem flushed4_eq (c : Dev nD) (t : Fin cfg4.N) :
    (dat4 V c).flushed 2 t = ((cfg4.win 2).blk t).view.read (Elt Ideal)
      (mm 128 128 (V c (Pipeline.arrRef spec4 0)) (V c (Pipeline.arrRef spec4 1))) := by
  show (cfg4.win 2).cut (grid4.coords t) ((dat4 V c).after 2 t) = _
  rw [after4_2]
  unfold out4_2
  rw [View.canon_unit_zero zeros4]
  simp only [View.ld_unit_zero (S := S5000x128) zeros4, View.ld_unit_zero (S := S128x128) zeros4]
  obtain ⟨e0, e1, e2, e3, e4, e5⟩ := blockIdx4 t
  have hN : cfg4.N = 20 := N_4
  have ht : t.val < 20 := hN ▸ t.isLt
  refine rows_mm4 (V c (Pipeline.arrRef spec4 0)) (V c (Pipeline.arrRef spec4 1)) t.val ht
    (iblk4 V c 0 t) (iblk4 V c 1 t) _ (fun p k => ?_) (fun k q => ?_) (fun p q => ?_)
  · show V c (Pipeline.arrRef spec4 0) (((cfg4.win 0).blk t).view.emb (ix2 p k)) = _
    refine congrArg _ (funext fun a => Fin.ext ?_)
    match a with
    | ⟨0, _⟩ => show win4_0.index t (0 : Fin 2) * 5000 + 1 * p.val = t.val * 5000 + p.val; rw [e0]; omega
    | ⟨1, _⟩ => show win4_0.index t (1 : Fin 2) * 128 + 1 * k.val = k.val; rw [e1]; omega
  · show V c (Pipeline.arrRef spec4 1) (((cfg4.win 1).blk t).view.emb (ix2 k q)) = _
    refine congrArg _ (funext fun a => Fin.ext ?_)
    match a with
    | ⟨0, _⟩ => show win4_1.index t (0 : Fin 2) * 128 + 1 * k.val = k.val; rw [e2]; omega
    | ⟨1, _⟩ => show win4_1.index t (1 : Fin 2) * 128 + 1 * q.val = q.val; rw [e3]; omega
  · show mm 128 128 _ _ (((cfg4.win 2).blk t).view.emb (ix2 p q)) = _
    refine congrArg _ (funext fun a => Fin.ext ?_)
    match a with
    | ⟨0, _⟩ => show win4_2.index t (0 : Fin 2) * 5000 + 1 * p.val = t.val * 5000 + p.val; rw [e4]; omega
    | ⟨1, _⟩ => show win4_2.index t (1 : Fin 2) * 128 + 1 * q.val = q.val; rw [e5]; omega

/-- An index of the output array is in point `t`'s block iff each coordinate is in the block's range on its axis. -/
theorem mem_rows4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole (Pipeline.arrRef spec4 2)).slice (win4_2.rect t)).set ↔ _
  rw [View.set_slice_whole, Rect.mem_set_unit]
  exact Iff.rfl

/-- Every row of the output is in the block of the point numbered by the row's quotient by 5000. -/
theorem rows_cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  obtain ⟨t, ht⟩ : ∃ t : Fin cfg4.N, t.val = (i 0).val / 5000 := ⟨⟨(i 0).val / 5000, by omega⟩, rfl⟩
  obtain ⟨e0, e1, e2, e3, e4, e5⟩ := blockIdx4 t
  refine ⟨t, flush4_2 t, ?_⟩
  rw [mem_rows4]
  intro a
  match a with
  | ⟨0, _⟩ => show win4_2.index t (0 : Fin 2) * 5000 ≤ (i 0).val ∧ (i 0).val < win4_2.index t (0 : Fin 2) * 5000 + 5000; rw [e4]; omega
  | ⟨1, _⟩ => show win4_2.index t (1 : Fin 2) * 128 ≤ (i 1).val ∧ (i 1).val < win4_2.index t (1 : Fin 2) * 128 + 128; rw [e5]; omega

/-- THE OUTPUT ARRAY after the region: the product of the activations and the weights as the region finds them. -/
theorem arrAt4 (c : Dev nD) :
    ((dat4 V c).arrAt 2 cfg4.N : S100000x128.Idx → EReal)
      = mm 128 128 (V c (Pipeline.arrRef spec4 0)) (V c (Pipeline.arrRef spec4 1)) :=
  (dat4 V c).arrAt_eq_of_cover 2 _ (fun t _ => flushed4_eq V c t) (rows_cover4)

end Cert.KernelIdeal.Closed

end
-- ==== Proof.KIValue.Region5.lean ====
/- Region 5: the array the affine-and-cut region leaves. The grid has twenty points; point `t` reads rows
   `5000 t … 5000 t + 4999` of the input and the one-row scale and shift, and writes the same rows of the output. So the
   output array ends holding, at `(r, q)`, `max (x (r, q) · scale q + shift q) 0`. -/
import proofs.«131845_j5600637354059_1_alg».proof.Proof.KIFrame.Data5
import proofs.«131845_j5600637354059_1_alg».proof.Proof.Gen.KernelIdeal.Points
import proofs.«131845_j5600637354059_1_alg».proof.Proof.KIValue.Spec
import proofs.«131845_j5600637354059_1_alg».proof.Proof.KIValue.PayAff
import Idealize.ShloMosaic.Lib.Pipeline.Value

noncomputable section

namespace Cert.KernelIdeal.Closed

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeros5 : (![0, 0] : Fin 2 → Nat) = fun _ => 0 := funext fun a => by fin_cases a <;> rfl

/-- The printed index maps over the twenty points: the input's and the output's row blocks are the point's number, the
    scale's and the shift's block is the one block. -/
theorem blockIdx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- A body over a block of 5000 rows starting at row `5000 n` and the whole scale and shift rows computes those rows
    of the affine map cut at zero. -/
theorem rows_aff5 (A0 : S100000x128.Idx → EReal) (A1 A2 : S1x128.Idx → EReal) (n : ℕ) (hn : n < 20)
    (x0 : Vec Ideal S5000x128 .f32) (x1 x2 : Vec Ideal S1x128 .f32) (G : S5000x128.Idx → EReal)
    (h0 : ∀ (p : Fin 5000) (q : Fin 128), x0 (ix2 p q) = A0 (ix2 (⟨n * 5000 + p.val, by omega⟩ : Fin 100000) q))
    (h1 : ∀ q : Fin 128, x1 (ix2 (0 : Fin 1) q) = A1 (ix2 (0 : Fin 1) q))
    (h2 : ∀ q : Fin 128, x2 (ix2 (0 : Fin 1) q) = A2 (ix2 (0 : Fin 1) q))
    (hG : ∀ (p : Fin 5000) (q : Fin 128), G (ix2 p q) = affRelu A0 A1 A2 (ix2 (⟨n * 5000 + p.val, by omega⟩ : Fin 100000) q)) :
    k5_pay1 (F := Ideal) x0 x1 x2 = G := by
  funext j
  obtain ⟨p, q, rfl⟩ : ∃ (p : Fin 5000) (q : Fin 128), j = ix2 p q := ⟨j 0, j 1, eq_ix2 j⟩
  rw [hG, k5_pay1_apply, affRelu_apply, h0, h1, h2]

set_option maxHeartbeats 400000 in
/-- WHAT POINT `t` WRITES BACK is block `t` of the affine map cut at zero of the arrays as the region finds them. -/
theorem flushed5_eq (c : Dev nD) (t : Fin cfg5.N) :
    (dat5 V c).flushed 3 t = ((cfg5.win 3).blk t).view.read (Elt Ideal)
      (affRelu (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero zeros5]
  simp only [View.ld_unit_zero (S := S5000x128) zeros5, View.ld_unit_zero (S := S1x128) zeros5]
  obtain ⟨e0, e1, e2, e3, e4, e5, e6, e7⟩ := blockIdx5 t
  have hN : cfg5.N = 20 := N_5
  have ht : t.val < 20 := hN ▸ t.isLt
  refine rows_aff5 (V c (Pipeline.arrRef spec5 0)) (V c (Pipeline.arrRef spec5 1)) (V c (Pipeline.arrRef spec5 2)) t.val ht
    (iblk5 V c 0 t) (iblk5 V c 1 t) (iblk5 V c 2 t) _ (fun p q => ?_) (fun q => ?_) (fun q => ?_) (fun p q => ?_)
  · show V c (Pipeline.arrRef spec5 0) (((cfg5.win 0).blk t).view.emb (ix2 p q)) = _
    refine congrArg _ (funext fun a => Fin.ext ?_)
    match a with
    | ⟨0, _⟩ => show win5_0.index t (0 : Fin 2) * 5000 + 1 * p.val = t.val * 5000 + p.val; rw [e0]; omega
    | ⟨1, _⟩ => show win5_0.index t (1 : Fin 2) * 128 + 1 * q.val = q.val; rw [e1]; omega
  · show V c (Pipeline.arrRef spec5 1) (((cfg5.win 1).blk t).view.emb (ix2 (0 : Fin 1) q)) = _
    refine congrArg _ (funext fun a => Fin.ext ?_)
    match a with
    | ⟨0, _⟩ => show win5_1.index t (0 : Fin 2) * 1 + 1 * (0 : Fin 1).val = (0 : Fin 1).val; rw [e2]; rfl
    | ⟨1, _⟩ => show win5_1.index t (1 : Fin 2) * 128 + 1 * q.val = q.val; rw [e3]; omega
  · show V c (Pipeline.arrRef spec5 2) (((cfg5.win 2).blk t).view.emb (ix2 (0 : Fin 1) q)) = _
    refine congrArg _ (funext fun a => Fin.ext ?_)
    match a with
    | ⟨0, _⟩ => show win5_2.index t (0 : Fin 2) * 1 + 1 * (0 : Fin 1).val = (0 : Fin 1).val; rw [e4]; rfl
    | ⟨1, _⟩ => show win5_2.index t (1 : Fin 2) * 128 + 1 * q.val = q.val; rw [e5]; omega
  · show affRelu _ _ _ (((cfg5.win 3).blk t).view.emb (ix2 p q)) = _
    refine congrArg _ (funext fun a => Fin.ext ?_)
    match a with
    | ⟨0, _⟩ => show win5_3.index t (0 : Fin 2) * 5000 + 1 * p.val = t.val * 5000 + p.val; rw [e6]; omega
    | ⟨1, _⟩ => show win5_3.index t (1 : Fin 2) * 128 + 1 * q.val = q.val; rw [e7]; omega

/-- An index of the output array is in point `t`'s block iff each coordinate is in the block's range on its axis. -/
theorem mem_rows5 (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole (Pipeline.arrRef spec5 3)).slice (win5_3.rect t)).set ↔ _
  rw [View.set_slice_whole, Rect.mem_set_unit]
  exact Iff.rfl

/-- Every row of the output is in the block of the point numbered by the row's quotient by 5000. -/
theorem rows_cover5 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 20 := N_5
  obtain ⟨t, ht⟩ : ∃ t : Fin cfg5.N, t.val = (i 0).val / 5000 := ⟨⟨(i 0).val / 5000, by omega⟩, rfl⟩
  obtain ⟨e0, e1, e2, e3, e4, e5, e6, e7⟩ := blockIdx5 t
  refine ⟨t, flush5_3 t, ?_⟩
  rw [mem_rows5]
  intro a
  match a with
  | ⟨0, _⟩ => show win5_3.index t (0 : Fin 2) * 5000 ≤ (i 0).val ∧ (i 0).val < win5_3.index t (0 : Fin 2) * 5000 + 5000; rw [e6]; omega
  | ⟨1, _⟩ => show win5_3.index t (1 : Fin 2) * 128 ≤ (i 1).val ∧ (i 1).val < win5_3.index t (1 : Fin 2) * 128 + 128; rw [e7]; omega

/-- THE OUTPUT ARRAY after the region: the affine map cut at zero of the input, scale and shift as the region finds them. -/
theorem arrAt5 (c : Dev nD) :
    ((dat5 V c).arrAt 3 cfg5.N : S100000x128.Idx → EReal)
      = affRelu (V c (Pipeline.arrRef spec5 0)) (V c (Pipeline.arrRef spec5 1)) (V c (Pipeline.arrRef spec5 2)) :=
  (dat5 V c).arrAt_eq_of_cover 3 _ (fun t _ => flushed5_eq V c t) (rows_cover5)

end Cert.KernelIdeal.Closed

end
-- ==== Proof.KIValue.Region6.lean ====
/- Region 6: the array the matrix-product region leaves. The grid has twenty points; point `t` reads rows
   `5000 t … 5000 t + 4999` of the activations and the whole weight matrix, and writes the same rows of the output. So the
   output array ends holding, at `(r, q)`, the sum over `k` of activations `(r, k)` times weights `(k, q)`. -/
import proofs.«131845_j5600637354059_1_alg».proof.Proof.KIFrame.Data6
import proofs.«131845_j5600637354059_1_alg».proof.Proof.Gen.KernelIdeal.Points
import proofs.«131845_j5600637354059_1_alg».proof.Proof.KIValue.Spec
import proofs.«131845_j5600637354059_1_alg».proof.Proof.KIValue.PayMm
import Idealize.ShloMosaic.Lib.Pipeline.Value

noncomputable section

namespace Cert.KernelIdeal.Closed

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeros6 : (![0, 0] : Fin 2 → Nat) = fun _ => 0 := funext fun a => by fin_cases a <;> rfl

/-- The printed index maps over the twenty points: the activations' and the output's row blocks are the point's number,
    the weights' block is the one block. -/
theorem blockIdx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- A body over a block of 5000 rows starting at row `5000 n` and the whole weight matrix computes those rows of the
    product. -/
theorem rows_mm6 (A0 : S100000x128.Idx → EReal) (A1 : S128x128.Idx → EReal) (n : ℕ) (hn : n < 20)
    (x0 : Vec Ideal S5000x128 .f32) (x1 : Vec Ideal S128x128 .f32) (G : S5000x128.Idx → EReal)
    (h0 : ∀ (p : Fin 5000) (k : Fin 128), x0 (ix2 p k) = A0 (ix2 (⟨n * 5000 + p.val, by omega⟩ : Fin 100000) k))
    (h1 : ∀ (k : Fin 128) (q : Fin 128), x1 (ix2 k q) = A1 (ix2 k q))
    (hG : ∀ (p : Fin 5000) (q : Fin 128), G (ix2 p q) = mm 128 128 A0 A1 (ix2 (⟨n * 5000 + p.val, by omega⟩ : Fin 100000) q)) :
    k6_pay1 (F := Ideal) x0 x1 = G := by
  funext j
  obtain ⟨p, q, rfl⟩ : ∃ (p : Fin 5000) (q : Fin 128), j = ix2 p q := ⟨j 0, j 1, eq_ix2 j⟩
  rw [hG, k6_pay1_apply, mm_apply]
  refine Finset.sum_congr rfl fun k _ => ?_
  rw [h0, h1]

/-- WHAT POINT `t` WRITES BACK is block `t` of the product of the arrays as the region finds them. -/
theorem flushed6_eq (c : Dev nD) (t : Fin cfg6.N) :
    (dat6 V c).flushed 2 t = ((cfg6.win 2).blk t).view.read (Elt Ideal)
      (mm 128 128 (V c (Pipeline.arrRef spec6 0)) (V c (Pipeline.arrRef spec6 1))) := by
  show (cfg6.win 2).cut (grid6.coords t) ((dat6 V c).after 2 t) = _
  rw [after6_2]
  unfold out6_2
  rw [View.canon_unit_zero zeros6]
  simp only [View.ld_unit_zero (S := S5000x128) zeros6, View.ld_unit_zero (S := S128x128) zeros6]
  obtain ⟨e0, e1, e2, e3, e4, e5⟩ := blockIdx6 t
  have hN : cfg6.N = 20 := N_6
  have ht : t.val < 20 := hN ▸ t.isLt
  refine rows_mm6 (V c (Pipeline.arrRef spec6 0)) (V c (Pipeline.arrRef spec6 1)) t.val ht
    (iblk6 V c 0 t) (iblk6 V c 1 t) _ (fun p k => ?_) (fun k q => ?_) (fun p q => ?_)
  · show V c (Pipeline.arrRef spec6 0) (((cfg6.win 0).blk t).view.emb (ix2 p k)) = _
    refine congrArg _ (funext fun a => Fin.ext ?_)
    match a with
    | ⟨0, _⟩ => show win6_0.index t (0 : Fin 2) * 5000 + 1 * p.val = t.val * 5000 + p.val; rw [e0]; omega
    | ⟨1, _⟩ => show win6_0.index t (1 : Fin 2) * 128 + 1 * k.val = k.val; rw [e1]; omega
  · show V c (Pipeline.arrRef spec6 1) (((cfg6.win 1).blk t).view.emb (ix2 k q)) = _
    refine congrArg _ (funext fun a => Fin.ext ?_)
    match a with
    | ⟨0, _⟩ => show win6_1.index t (0 : Fin 2) * 128 + 1 * k.val = k.val; rw [e2]; omega
    | ⟨1, _⟩ => show win6_1.index t (1 : Fin 2) * 128 + 1 * q.val = q.val; rw [e3]; omega
  · show mm 128 128 _ _ (((cfg6.win 2).blk t).view.emb (ix2 p q)) = _
    refine congrArg _ (funext fun a => Fin.ext ?_)
    match a with
    | ⟨0, _⟩ => show win6_2.index t (0 : Fin 2) * 5000 + 1 * p.val = t.val * 5000 + p.val; rw [e4]; omega
    | ⟨1, _⟩ => show win6_2.index t (1 : Fin 2) * 128 + 1 * q.val = q.val; rw [e5]; omega

/-- An index of the output array is in point `t`'s block iff each coordinate is in the block's range on its axis. -/
theorem mem_rows6 (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole (Pipeline.arrRef spec6 2)).slice (win6_2.rect t)).set ↔ _
  rw [View.set_slice_whole, Rect.mem_set_unit]
  exact Iff.rfl

/-- Every row of the output is in the block of the point numbered by the row's quotient by 5000. -/
theorem rows_cover6 (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 20 := N_6
  obtain ⟨t, ht⟩ : ∃ t : Fin cfg6.N, t.val = (i 0).val / 5000 := ⟨⟨(i 0).val / 5000, by omega⟩, rfl⟩
  obtain ⟨e0, e1, e2, e3, e4, e5⟩ := blockIdx6 t
  refine ⟨t, flush6_2 t, ?_⟩
  rw [mem_rows6]
  intro a
  match a with
  | ⟨0, _⟩ => show win6_2.index t (0 : Fin 2) * 5000 ≤ (i 0).val ∧ (i 0).val < win6_2.index t (0 : Fin 2) * 5000 + 5000; rw [e4]; omega
  | ⟨1, _⟩ => show win6_2.index t (1 : Fin 2) * 128 ≤ (i 1).val ∧ (i 1).val < win6_2.index t (1 : Fin 2) * 128 + 128; rw [e5]; omega

/-- THE OUTPUT ARRAY after the region: the product of the activations and the weights as the region finds them. -/
theorem arrAt6 (c : Dev nD) :
    ((dat6 V c).arrAt 2 cfg6.N : S100000x128.Idx → EReal)
      = mm 128 128 (V c (Pipeline.arrRef spec6 0)) (V c (Pipeline.arrRef spec6 1)) :=
  (dat6 V c).arrAt_eq_of_cover 2 _ (fun t _ => flushed6_eq V c t) (rows_cover6)

end Cert.KernelIdeal.Closed

end
-- ==== Proof.KIValue.Region7.lean ====
/- Region 7: the array the affine-and-cut region leaves. The grid has twenty points; point `t` reads rows
   `5000 t … 5000 t + 4999` of the input and the one-row scale and shift, and writes the same rows of the output. So the
   output array ends holding, at `(r, q)`, `max (x (r, q) · scale q + shift q) 0`. -/
import proofs.«131845_j5600637354059_1_alg».proof.Proof.KIFrame.Data7
import proofs.«131845_j5600637354059_1_alg».proof.Proof.Gen.KernelIdeal.Points
import proofs.«131845_j5600637354059_1_alg».proof.Proof.KIValue.Spec
import proofs.«131845_j5600637354059_1_alg».proof.Proof.KIValue.PayAff
import Idealize.ShloMosaic.Lib.Pipeline.Value

noncomputable section

namespace Cert.KernelIdeal.Closed

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeros7 : (![0, 0] : Fin 2 → Nat) = fun _ => 0 := funext fun a => by fin_cases a <;> rfl

/-- The printed index maps over the twenty points: the input's and the output's row blocks are the point's number, the
    scale's and the shift's block is the one block. -/
theorem blockIdx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- A body over a block of 5000 rows starting at row `5000 n` and the whole scale and shift rows computes those rows
    of the affine map cut at zero. -/
theorem rows_aff7 (A0 : S100000x128.Idx → EReal) (A1 A2 : S1x128.Idx → EReal) (n : ℕ) (hn : n < 20)
    (x0 : Vec Ideal S5000x128 .f32) (x1 x2 : Vec Ideal S1x128 .f32) (G : S5000x128.Idx → EReal)
    (h0 : ∀ (p : Fin 5000) (q : Fin 128), x0 (ix2 p q) = A0 (ix2 (⟨n * 5000 + p.val, by omega⟩ : Fin 100000) q))
    (h1 : ∀ q : Fin 128, x1 (ix2 (0 : Fin 1) q) = A1 (ix2 (0 : Fin 1) q))
    (h2 : ∀ q : Fin 128, x2 (ix2 (0 : Fin 1) q) = A2 (ix2 (0 : Fin 1) q))
    (hG : ∀ (p : Fin 5000) (q : Fin 128), G (ix2 p q) = affRelu A0 A1 A2 (ix2 (⟨n * 5000 + p.val, by omega⟩ : Fin 100000) q)) :
    k7_pay1 (F := Ideal) x0 x1 x2 = G := by
  funext j
  obtain ⟨p, q, rfl⟩ : ∃ (p : Fin 5000) (q : Fin 128), j = ix2 p q := ⟨j 0, j 1, eq_ix2 j⟩
  rw [hG, k7_pay1_apply, affRelu_apply, h0, h1, h2]

/-- WHAT POINT `t` WRITES BACK is block `t` of the affine map cut at zero of the arrays as the region finds them. -/
theorem flushed7_eq (c : Dev nD) (t : Fin cfg7.N) :
    (dat7 V c).flushed 3 t = ((cfg7.win 3).blk t).view.read (Elt Ideal)
      (affRelu (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero zeros7]
  simp only [View.ld_unit_zero (S := S5000x128) zeros7, View.ld_unit_zero (S := S1x128) zeros7]
  obtain ⟨e0, e1, e2, e3, e4, e5, e6, e7⟩ := blockIdx7 t
  have hN : cfg7.N = 20 := N_7
  have ht : t.val < 20 := hN ▸ t.isLt
  refine rows_aff7 (V c (Pipeline.arrRef spec7 0)) (V c (Pipeline.arrRef spec7 1)) (V c (Pipeline.arrRef spec7 2)) t.val ht
    (iblk7 V c 0 t) (iblk7 V c 1 t) (iblk7 V c 2 t) _ (fun p q => ?_) (fun q => ?_) (fun q => ?_) (fun p q => ?_)
  · show V c (Pipeline.arrRef spec7 0) (((cfg7.win 0).blk t).view.emb (ix2 p q)) = _
    refine congrArg _ (funext fun a => Fin.ext ?_)
    match a with
    | ⟨0, _⟩ => show win7_0.index t (0 : Fin 2) * 5000 + 1 * p.val = t.val * 5000 + p.val; rw [e0]; omega
    | ⟨1, _⟩ => show win7_0.index t (1 : Fin 2) * 128 + 1 * q.val = q.val; rw [e1]; omega
  · show V c (Pipeline.arrRef spec7 1) (((cfg7.win 1).blk t).view.emb (ix2 (0 : Fin 1) q)) = _
    refine congrArg _ (funext fun a => Fin.ext ?_)
    match a with
    | ⟨0, _⟩ => show win7_1.index t (0 : Fin 2) * 1 + 1 * (0 : Fin 1).val = (0 : Fin 1).val; rw [e2]; rfl
    | ⟨1, _⟩ => show win7_1.index t (1 : Fin 2) * 128 + 1 * q.val = q.val; rw [e3]; omega
  · show V c (Pipeline.arrRef spec7 2) (((cfg7.win 2).blk t).view.emb (ix2 (0 : Fin 1) q)) = _
    refine congrArg _ (funext fun a => Fin.ext ?_)
    match a with
    | ⟨0, _⟩ => show win7_2.index t (0 : Fin 2) * 1 + 1 * (0 : Fin 1).val = (0 : Fin 1).val; rw [e4]; rfl
    | ⟨1, _⟩ => show win7_2.index t (1 : Fin 2) * 128 + 1 * q.val = q.val; rw [e5]; omega
  · show affRelu _ _ _ (((cfg7.win 3).blk t).view.emb (ix2 p q)) = _
    refine congrArg _ (funext fun a => Fin.ext ?_)
    match a with
    | ⟨0, _⟩ => show win7_3.index t (0 : Fin 2) * 5000 + 1 * p.val = t.val * 5000 + p.val; rw [e6]; omega
    | ⟨1, _⟩ => show win7_3.index t (1 : Fin 2) * 128 + 1 * q.val = q.val; rw [e7]; omega

/-- An index of the output array is in point `t`'s block iff each coordinate is in the block's range on its axis. -/
theorem mem_rows7 (t : Fin cfg7.N) (i : S100000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole (Pipeline.arrRef spec7 3)).slice (win7_3.rect t)).set ↔ _
  rw [View.set_slice_whole, Rect.mem_set_unit]
  exact Iff.rfl

/-- Every row of the output is in the block of the point numbered by the row's quotient by 5000. -/
theorem rows_cover7 (i : S100000x128.Idx) :
    ∃ t : Fin cfg7.N, (cfg7.win 3).flush t = true ∧ i ∈ ((cfg7.win 3).blk t).view.set := by
  have hi0 : (i 0).val < 100000 := (i 0).isLt
  have hi1 : (i 1).val < 128 := (i 1).isLt
  have hN : cfg7.N = 20 := N_7
  obtain ⟨t, ht⟩ : ∃ t : Fin cfg7.N, t.val = (i 0).val / 5000 := ⟨⟨(i 0).val / 5000, by omega⟩, rfl⟩
  obtain ⟨e0, e1, e2, e3, e4, e5, e6, e7⟩ := blockIdx7 t
  refine ⟨t, flush7_3 t, ?_⟩
  rw [mem_rows7]
  intro a
  match a with
  | ⟨0, _⟩ => show win7_3.index t (0 : Fin 2) * 5000 ≤ (i 0).val ∧ (i 0).val < win7_3.index t (0 : Fin 2) * 5000 + 5000; rw [e6]; omega
  | ⟨1, _⟩ => show win7_3.index t (1 : Fin 2) * 128 ≤ (i 1).val ∧ (i 1).val < win7_3.index t (1 : Fin 2) * 128 + 128; rw [e7]; omega

/-- THE OUTPUT ARRAY after the region: the affine map cut at zero of the input, scale and shift as the region finds them. -/
theorem arrAt7 (c : Dev nD) :
    ((dat7 V c).arrAt 3 cfg7.N : S100000x128.Idx → EReal)
      = affRelu (V c (Pipeline.arrRef spec7 0)) (V c (Pipeline.arrRef spec7 1)) (V c (Pipeline.arrRef spec7 2)) :=
  (dat7 V c).arrAt_eq_of_cover 3 _ (fun t _ => flushed7_eq V c t) (rows_cover7)

end Cert.KernelIdeal.Closed

end
-- ==== Proof.KIValue.PayBias.lean ====
/- The last body (region 8) read at an entry of the output block: the matrix product of the activations' block and the
   weights, plus the one-row bias broadcast down the rows. -/
import proofs.«131845_j5600637354059_1_alg».proof.Proof.KIValue.PayDot
import Idealize.ShloMosaic.Lib.ValueLayout
import Idealize.ShloMosaic.Lib.Pipeline.Value

noncomputable section

namespace Cert.KernelIdeal.Closed

open Cert.KernelIdeal Cert.KernelIdeal.Gen Idealize.ShloMosaic Idealize.ShloMosaic.ValueIdx Idealize.SL.Sem
open scoped BigOperators

theorem k8_pay1_apply (v0 : Vec Ideal S5000x512 .f32) (v3 : Vec Ideal S512x40 .f32) (v6 : Vec Ideal S1x40 .f32) (p : Fin 5000) (q : Fin 40) :
    k8_pay1 (F := Ideal) v0 v3 v6 (ix2 p q) = (∑ k : Fin 512, v0 (ix2 p k) * v3 (ix2 k q)) + v6 (ix2 (0 : Fin 1) q) := by
  unfold k8_pay1
  simp only [shapeCast_self]
  exact congrArg₂ (fun a b : EReal => a + b) (matmul512_apply _ _ p q) (broadcastTo_1b_ab_apply _ _ p q)

end Cert.KernelIdeal.Closed

end
-- ==== Proof.KIValue.Region8.lean ====
/- Region 8: the array the last region leaves. The grid has twenty points; point `t` reads rows
   `5000 t … 5000 t + 4999` of the concatenated activations, the whole weight matrix and the one-row bias, and writes the
   same rows of the output. So the output array ends holding, at `(r, q)`, the sum over `k` of activations `(r, k)` times
   weights `(k, q)`, plus bias `q`. -/
import proofs.«131845_j5600637354059_1_alg».proof.Proof.KIFrame.Data8
import proofs.«131845_j5600637354059_1_alg».proof.Proof.Gen.KernelIdeal.Points
import proofs.«131845_j5600637354059_1_alg».proof.Proof.KIValue.Spec
import proofs.«131845_j5600637354059_1_alg».proof.Proof.KIValue.PayBias
import Idealize.ShloMosaic.Lib.Pipeline.Value

noncomputable section

namespace Cert.KernelIdeal.Closed

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeros8 : (![0, 0] : Fin 2 → Nat) = fun _ => 0 := funext fun a => by fin_cases a <;> rfl

/-- The printed index maps over the twenty points: the activations' and the output's row blocks are the point's number,
    the weights' and the bias's block is the one block. -/
theorem blockIdx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- A body over a block of 5000 rows starting at row `5000 n`, the whole weight matrix and the bias row computes those
    rows of the product plus the bias. -/
theorem rows_mmBias8 (A0 : S100000x512.Idx → EReal) (A1 : S512x40.Idx → EReal) (A2 : S1x40.Idx → EReal) (n : ℕ) (hn : n < 20)
    (x0 : Vec Ideal S5000x512 .f32) (x1 : Vec Ideal S512x40 .f32) (x2 : Vec Ideal S1x40 .f32) (G : S5000x40.Idx → EReal)
    (h0 : ∀ (p : Fin 5000) (k : Fin 512), x0 (ix2 p k) = A0 (ix2 (⟨n * 5000 + p.val, by omega⟩ : Fin 100000) k))
    (h1 : ∀ (k : Fin 512) (q : Fin 40), x1 (ix2 k q) = A1 (ix2 k q))
    (h2 : ∀ q : Fin 40, x2 (ix2 (0 : Fin 1) q) = A2 (ix2 (0 : Fin 1) q))
    (hG : ∀ (p : Fin 5000) (q : Fin 40), G (ix2 p q) = mmBias A0 A1 A2 (ix2 (⟨n * 5000 + p.val, by omega⟩ : Fin 100000) q)) :
    k8_pay1 (F := Ideal) x0 x1 x2 = G := by
  funext j
  obtain ⟨p, q, rfl⟩ : ∃ (p : Fin 5000) (q : Fin 40), j = ix2 p q := ⟨j 0, j 1, eq_ix2 j⟩
  rw [hG, k8_pay1_apply, mmBias_apply, h2]
  refine congrArg (· + A2 (ix2 (0 : Fin 1) q)) (Finset.sum_congr rfl fun k _ => ?_)
  rw [h0, h1]

/-- WHAT POINT `t` WRITES BACK is block `t` of the product plus the bias of the arrays as the region finds them. -/
theorem flushed8_eq (c : Dev nD) (t : Fin cfg8.N) :
    (dat8 V c).flushed 3 t = ((cfg8.win 3).blk t).view.read (Elt Ideal)
      (mmBias (V c (Pipeline.arrRef spec8 0)) (V c (Pipeline.arrRef spec8 1)) (V c (Pipeline.arrRef spec8 2))) := by
  show (cfg8.win 3).cut (grid8.coords t) ((dat8 V c).after 3 t) = _
  rw [after8_3]
  unfold out8_3
  rw [View.canon_unit_zero zeros8]
  simp only [View.ld_unit_zero (S := S5000x512) zeros8, View.ld_unit_zero (S := S512x40) zeros8, View.ld_unit_zero (S := S1x40) zeros8]
  obtain ⟨e0, e1, e2, e3, e4, e5, e6, e7⟩ := blockIdx8 t
  have hN : cfg8.N = 20 := N_8
  have ht : t.val < 20 := hN ▸ t.isLt
  refine rows_mmBias8 (V c (Pipeline.arrRef spec8 0)) (V c (Pipeline.arrRef spec8 1)) (V c (Pipeline.arrRef spec8 2)) t.val ht
    (iblk8 V c 0 t) (iblk8 V c 1 t) (iblk8 V c 2 t) _ (fun p k => ?_) (fun k q => ?_) (fun q => ?_) (fun p q => ?_)
  · show V c (Pipeline.arrRef spec8 0) (((cfg8.win 0).blk t).view.emb (ix2 p k)) = _
    refine congrArg _ (funext fun a => Fin.ext ?_)
    match a with
    | ⟨0, _⟩ => show win8_0.index t (0 : Fin 2) * 5000 + 1 * p.val = t.val * 5000 + p.val; rw [e0]; omega
    | ⟨1, _⟩ => show win8_0.index t (1 : Fin 2) * 512 + 1 * k.val = k.val; rw [e1]; omega
  · show V c (Pipeline.arrRef spec8 1) (((cfg8.win 1).blk t).view.emb (ix2 k q)) = _
    refine congrArg _ (funext fun a => Fin.ext ?_)
    match a with
    | ⟨0, _⟩ => show win8_1.index t (0 : Fin 2) * 512 + 1 * k.val = k.val; rw [e2]; omega
    | ⟨1, _⟩ => show win8_1.index t (1 : Fin 2) * 40 + 1 * q.val = q.val; rw [e3]; omega
  · show V c (Pipeline.arrRef spec8 2) (((cfg8.win 2).blk t).view.emb (ix2 (0 : Fin 1) q)) = _
    refine congrArg _ (funext fun a => Fin.ext ?_)
    match a with
    | ⟨0, _⟩ => show win8_2.index t (0 : Fin 2) * 1 + 1 * (0 : Fin 1).val = (0 : Fin 1).val; rw [e4]; rfl
    | ⟨1, _⟩ => show win8_2.index t (1 : Fin 2) * 40 + 1 * q.val = q.val; rw [e5]; omega
  · show mmBias _ _ _ (((cfg8.win 3).blk t).view.emb (ix2 p q)) = _
    refine congrArg _ (funext fun a => Fin.ext ?_)
    match a with
    | ⟨0, _⟩ => show win8_3.index t (0 : Fin 2) * 5000 + 1 * p.val = t.val * 5000 + p.val; rw [e6]; omega
    | ⟨1, _⟩ => show win8_3.index t (1 : Fin 2) * 40 + 1 * q.val = q.val; rw [e7]; omega

/-- An index of the output array is in point `t`'s block iff each coordinate is in the block's range on its axis. -/
theorem mem_rows8 (t : Fin cfg8.N) (i : S100000x40.Idx) :
    i ∈ ((cfg8.win 3).blk t).view.set ↔ ∀ a : Fin 2, win8_3.index t a * S5000x40.size a ≤ (i a).val ∧ (i a).val < win8_3.index t a * S5000x40.size a + S5000x40.size a := by
  show i ∈ ((View.whole (Pipeline.arrRef spec8 3)).slice (win8_3.rect t)).set ↔ _
  rw [View.set_slice_whole, Rect.mem_set_unit]
  exact Iff.rfl

/-- Every row of the output is in the block of the point numbered by the row's quotient by 5000. -/
theorem rows_cover8 (i : S100000x40.Idx) :
    ∃ t : Fin cfg8.N, (cfg8.win 3).flush t = true ∧ i ∈ ((cfg8.win 3).blk t).view.set := by
  have hi0 : (i 0).val < 100000 := (i 0).isLt
  have hi1 : (i 1).val < 40 := (i 1).isLt
  have hN : cfg8.N = 20 := N_8
  obtain ⟨t, ht⟩ : ∃ t : Fin cfg8.N, t.val = (i 0).val / 5000 := ⟨⟨(i 0).val / 5000, by omega⟩, rfl⟩
  obtain ⟨e0, e1, e2, e3, e4, e5, e6, e7⟩ := blockIdx8 t
  refine ⟨t, flush8_3 t, ?_⟩
  rw [mem_rows8]
  intro a
  match a with
  | ⟨0, _⟩ => show win8_3.index t (0 : Fin 2) * 5000 ≤ (i 0).val ∧ (i 0).val < win8_3.index t (0 : Fin 2) * 5000 + 5000; rw [e6]; omega
  | ⟨1, _⟩ => show win8_3.index t (1 : Fin 2) * 40 ≤ (i 1).val ∧ (i 1).val < win8_3.index t (1 : Fin 2) * 40 + 40; rw [e7]; omega

/-- THE OUTPUT ARRAY after the region: the product plus the bias of the activations, weights and bias as the region finds
    them. -/
theorem arrAt8 (c : Dev nD) :
    ((dat8 V c).arrAt 3 cfg8.N : S100000x40.Idx → EReal)
      = mmBias (V c (Pipeline.arrRef spec8 0)) (V c (Pipeline.arrRef spec8 1)) (V c (Pipeline.arrRef spec8 2)) :=
  (dat8 V c).arrAt_eq_of_cover 3 _ (fun t _ => flushed8_eq V c t) (rows_cover8)

end Cert.KernelIdeal.Closed

end
-- ==== Proof.KIValue.Flow.lean ====
/-
  The kernel program's result as a function of its ten input arrays. Every buffer of @main is written by exactly
  one item (a stretch of host operations or a kernel region), so its contents at any later boundary are what that
  item left; reading each item's result off what it found, item by item, gives the result array as the
  composition of the stage functions and the regions' whole-array functions.
-/
import proofs.«131845_j5600637354059_1_alg».proof.Proof.KIFrame.Chain
import proofs.«131845_j5600637354059_1_alg».proof.Proof.KIRead.Read0
import proofs.«131845_j5600637354059_1_alg».proof.Proof.KIRead.ReadL0
import proofs.«131845_j5600637354059_1_alg».proof.Proof.KIRead.ReadL1
import proofs.«131845_j5600637354059_1_alg».proof.Proof.KIRead.ReadL2
import proofs.«131845_j5600637354059_1_alg».proof.Proof.KIRead.ReadL3
import proofs.«131845_j5600637354059_1_alg».proof.Proof.KIRead.Read8
import proofs.«131845_j5600637354059_1_alg».proof.Proof.KIRead.Net
import proofs.«131845_j5600637354059_1_alg».proof.Proof.KIValue.Region0
import proofs.«131845_j5600637354059_1_alg».proof.Proof.KIValue.Region1
import proofs.«131845_j5600637354059_1_alg».proof.Proof.KIValue.Region2
import proofs.«131845_j5600637354059_1_alg».proof.Proof.KIValue.Region3
import proofs.«131845_j5600637354059_1_alg».proof.Proof.KIValue.Region4
import proofs.«131845_j5600637354059_1_alg».proof.Proof.KIValue.Region5
import proofs.«131845_j5600637354059_1_alg».proof.Proof.KIValue.Region6
import proofs.«131845_j5600637354059_1_alg».proof.Proof.KIValue.Region7
import proofs.«131845_j5600637354059_1_alg».proof.Proof.KIValue.Region8

set_option maxRecDepth 16384

noncomputable section

namespace Cert.KernelIdeal.Flow

open Cert.KernelIdeal Cert.KernelIdeal.Gen Cert.KernelIdeal.Hand Cert.KernelIdeal.Net
open Idealize.ShloMosaic Idealize.ShloMosaic.TcCoe Idealize.SL.Sem

variable (m : (ℓ : Loc nD τ sig) → Buf (Elt Ideal) ℓ) (ρ : Dev nD → PrngReg) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)

/-! ## The index lists and the edge weights -/

theorem src1 : W1 m ρ c (Proc.devRef .tc main_v3) = Stage.src a1 := Read.host0_src (W0 m ρ c)
theorem dst1 : W1 m ρ c (Proc.devRef .tc main_v6) = Stage.dst a1 := Read.host0_dst (W0 m ρ c)
theorem norm1 : W1 m ρ c (Proc.devRef .tc main_v26) = Stage.norm a1 := Read.host0_norm (W0 m ρ c)

theorem src2 : W2 m ρ c (Proc.devRef .tc main_v3) = Stage.src a1 := ((W2_of_ne m ρ c main_v3 (by decide))).trans (src1 m ρ c)
theorem dst2 : W2 m ρ c (Proc.devRef .tc main_v6) = Stage.dst a1 := ((W2_of_ne m ρ c main_v6 (by decide))).trans (dst1 m ρ c)
theorem norm2 : W2 m ρ c (Proc.devRef .tc main_v26) = Stage.norm a1 := ((W2_of_ne m ρ c main_v26 (by decide))).trans (norm1 m ρ c)

theorem src8 : W8 m ρ c (Proc.devRef .tc main_v3) = Stage.src a1 := ((W8_of_ne m ρ c main_v3 (by decide)).trans <| (W7_of m ρ c main_v3 (by decide)).trans <| (W6_of_ne m ρ c main_v3 (by decide)).trans <| (W5_of m ρ c main_v3 (by decide)).trans <| (W4_of m ρ c main_v3 (by decide)).trans <| (W3_of m ρ c main_v3 (by decide)).trans <| (W2_of_ne m ρ c main_v3 (by decide))).trans (src1 m ρ c)
theorem dst8 : W8 m ρ c (Proc.devRef .tc main_v6) = Stage.dst a1 := ((W8_of_ne m ρ c main_v6 (by decide)).trans <| (W7_of m ρ c main_v6 (by decide)).trans <| (W6_of_ne m ρ c main_v6 (by decide)).trans <| (W5_of m ρ c main_v6 (by decide)).trans <| (W4_of m ρ c main_v6 (by decide)).trans <| (W3_of m ρ c main_v6 (by decide)).trans <| (W2_of_ne m ρ c main_v6 (by decide))).trans (dst1 m ρ c)
theorem norm8 : W8 m ρ c (Proc.devRef .tc main_v26) = Stage.norm a1 := ((W8_of_ne m ρ c main_v26 (by decide)).trans <| (W7_of m ρ c main_v26 (by decide)).trans <| (W6_of_ne m ρ c main_v26 (by decide)).trans <| (W5_of m ρ c main_v26 (by decide)).trans <| (W4_of m ρ c main_v26 (by decide)).trans <| (W3_of m ρ c main_v26 (by decide)).trans <| (W2_of_ne m ρ c main_v26 (by decide))).trans (norm1 m ρ c)

theorem src14 : W14 m ρ c (Proc.devRef .tc main_v3) = Stage.src a1 := ((W14_of_ne m ρ c main_v3 (by decide)).trans <| (W13_of m ρ c main_v3 (by decide)).trans <| (W12_of_ne m ρ c main_v3 (by decide)).trans <| (W11_of m ρ c main_v3 (by decide)).trans <| (W10_of m ρ c main_v3 (by decide)).trans <| (W9_of m ρ c main_v3 (by decide)).trans <| (W8_of_ne m ρ c main_v3 (by decide)).trans <| (W7_of m ρ c main_v3 (by decide)).trans <| (W6_of_ne m ρ c main_v3 (by decide)).trans <| (W5_of m ρ c main_v3 (by decide)).trans <| (W4_of m ρ c main_v3 (by decide)).trans <| (W3_of m ρ c main_v3 (by decide)).trans <| (W2_of_ne m ρ c main_v3 (by decide))).trans (src1 m ρ c)
theorem dst14 : W14 m ρ c (Proc.devRef .tc main_v6) = Stage.dst a1 := ((W14_of_ne m ρ c main_v6 (by decide)).trans <| (W13_of m ρ c main_v6 (by decide)).trans <| (W12_of_ne m ρ c main_v6 (by decide)).trans <| (W11_of m ρ c main_v6 (by decide)).trans <| (W10_of m ρ c main_v6 (by decide)).trans <| (W9_of m ρ c main_v6 (by decide)).trans <| (W8_of_ne m ρ c main_v6 (by decide)).trans <| (W7_of m ρ c main_v6 (by decide)).trans <| (W6_of_ne m ρ c main_v6 (by decide)).trans <| (W5_of m ρ c main_v6 (by decide)).trans <| (W4_of m ρ c main_v6 (by decide)).trans <| (W3_of m ρ c main_v6 (by decide)).trans <| (W2_of_ne m ρ c main_v6 (by decide))).trans (dst1 m ρ c)
theorem norm14 : W14 m ρ c (Proc.devRef .tc main_v26) = Stage.norm a1 := ((W14_of_ne m ρ c main_v26 (by decide)).trans <| (W13_of m ρ c main_v26 (by decide)).trans <| (W12_of_ne m ρ c main_v26 (by decide)).trans <| (W11_of m ρ c main_v26 (by decide)).trans <| (W10_of m ρ c main_v26 (by decide)).trans <| (W9_of m ρ c main_v26 (by decide)).trans <| (W8_of_ne m ρ c main_v26 (by decide)).trans <| (W7_of m ρ c main_v26 (by decide)).trans <| (W6_of_ne m ρ c main_v26 (by decide)).trans <| (W5_of m ρ c main_v26 (by decide)).trans <| (W4_of m ρ c main_v26 (by decide)).trans <| (W3_of m ρ c main_v26 (by decide)).trans <| (W2_of_ne m ρ c main_v26 (by decide))).trans (norm1 m ρ c)

theorem src20 : W20 m ρ c (Proc.devRef .tc main_v3) = Stage.src a1 := ((W20_of_ne m ρ c main_v3 (by decide)).trans <| (W19_of m ρ c main_v3 (by decide)).trans <| (W18_of_ne m ρ c main_v3 (by decide)).trans <| (W17_of m ρ c main_v3 (by decide)).trans <| (W16_of m ρ c main_v3 (by decide)).trans <| (W15_of m ρ c main_v3 (by decide)).trans <| (W14_of_ne m ρ c main_v3 (by decide)).trans <| (W13_of m ρ c main_v3 (by decide)).trans <| (W12_of_ne m ρ c main_v3 (by decide)).trans <| (W11_of m ρ c main_v3 (by decide)).trans <| (W10_of m ρ c main_v3 (by decide)).trans <| (W9_of m ρ c main_v3 (by decide)).trans <| (W8_of_ne m ρ c main_v3 (by decide)).trans <| (W7_of m ρ c main_v3 (by decide)).trans <| (W6_of_ne m ρ c main_v3 (by decide)).trans <| (W5_of m ρ c main_v3 (by decide)).trans <| (W4_of m ρ c main_v3 (by decide)).trans <| (W3_of m ρ c main_v3 (by decide)).trans <| (W2_of_ne m ρ c main_v3 (by decide))).trans (src1 m ρ c)
theorem dst20 : W20 m ρ c (Proc.devRef .tc main_v6) = Stage.dst a1 := ((W20_of_ne m ρ c main_v6 (by decide)).trans <| (W19_of m ρ c main_v6 (by decide)).trans <| (W18_of_ne m ρ c main_v6 (by decide)).trans <| (W17_of m ρ c main_v6 (by decide)).trans <| (W16_of m ρ c main_v6 (by decide)).trans <| (W15_of m ρ c main_v6 (by decide)).trans <| (W14_of_ne m ρ c main_v6 (by decide)).trans <| (W13_of m ρ c main_v6 (by decide)).trans <| (W12_of_ne m ρ c main_v6 (by decide)).trans <| (W11_of m ρ c main_v6 (by decide)).trans <| (W10_of m ρ c main_v6 (by decide)).trans <| (W9_of m ρ c main_v6 (by decide)).trans <| (W8_of_ne m ρ c main_v6 (by decide)).trans <| (W7_of m ρ c main_v6 (by decide)).trans <| (W6_of_ne m ρ c main_v6 (by decide)).trans <| (W5_of m ρ c main_v6 (by decide)).trans <| (W4_of m ρ c main_v6 (by decide)).trans <| (W3_of m ρ c main_v6 (by decide)).trans <| (W2_of_ne m ρ c main_v6 (by decide))).trans (dst1 m ρ c)
theorem norm20 : W20 m ρ c (Proc.devRef .tc main_v26) = Stage.norm a1 := ((W20_of_ne m ρ c main_v26 (by decide)).trans <| (W19_of m ρ c main_v26 (by decide)).trans <| (W18_of_ne m ρ c main_v26 (by decide)).trans <| (W17_of m ρ c main_v26 (by decide)).trans <| (W16_of m ρ c main_v26 (by decide)).trans <| (W15_of m ρ c main_v26 (by decide)).trans <| (W14_of_ne m ρ c main_v26 (by decide)).trans <| (W13_of m ρ c main_v26 (by decide)).trans <| (W12_of_ne m ρ c main_v26 (by decide)).trans <| (W11_of m ρ c main_v26 (by decide)).trans <| (W10_of m ρ c main_v26 (by decide)).trans <| (W9_of m ρ c main_v26 (by decide)).trans <| (W8_of_ne m ρ c main_v26 (by decide)).trans <| (W7_of m ρ c main_v26 (by decide)).trans <| (W6_of_ne m ρ c main_v26 (by decide)).trans <| (W5_of m ρ c main_v26 (by decide)).trans <| (W4_of m ρ c main_v26 (by decide)).trans <| (W3_of m ρ c main_v26 (by decide)).trans <| (W2_of_ne m ρ c main_v26 (by decide))).trans (norm1 m ρ c)

/-! ## Layer 0 -/

theorem h1_0 : W2 m ρ c (Proc.devRef .tc main_v27) = Closed.mm 256 128 a0 a2 := by
  refine (W2_arr m ρ c 2).trans ((Closed.arrAt0 (V1 m ρ) c).trans ?_)
  have e0 : V1 m ρ c (Pipeline.arrRef spec0 0) = a0 := ((W1_of m ρ c main_arg0 (by decide)).trans rfl)
  have e1 : V1 m ρ c (Pipeline.arrRef spec0 1) = a2 := ((W1_of m ρ c main_arg2 (by decide)).trans rfl)
  rw [e0, e1]

theorem pre_0 : W3 m ρ c (Proc.devRef .tc main_v43) = kP0 a0 a1 a2 a3 := by
  refine (Read.layer0_pre (W2 m ρ c)).trans ?_
  rw [h1_0 m ρ c, src2 m ρ c, dst2 m ρ c, norm2 m ρ c, ((W2_of_ne m ρ c main_arg3 (by decide)).trans <| (W1_of m ρ c main_arg3 (by decide)).trans rfl : W2 m ρ c (Proc.devRef .tc main_arg3) = a3)]
  rfl

theorem mu_0 : W3 m ρ c (Proc.devRef .tc main_v46) = Stage.mean (kP0 a0 a1 a2 a3) := by
  refine (Read.layer0_mean (W2 m ρ c)).trans ?_
  rw [h1_0 m ρ c, src2 m ρ c, dst2 m ρ c, norm2 m ρ c, ((W2_of_ne m ρ c main_arg3 (by decide)).trans <| (W1_of m ρ c main_arg3 (by decide)).trans rfl : W2 m ρ c (Proc.devRef .tc main_arg3) = a3)]
  rfl

theorem cz_0 : W3 m ρ c (Proc.devRef .tc main_c_9) = zeroI := Read.layer0_corr (W2 m ρ c)

theorem var_0 : W4 m ρ c (Proc.devRef .tc main_v47) = Stage.var (kP0 a0 a1 a2 a3) zeroI := by
  refine (Read.layer0_var (W3 m ρ c)).trans ?_
  rw [pre_0 m ρ c, cz_0 m ρ c]

theorem sc_0 : W5 m ρ c (Proc.devRef .tc main_v58) = Stage.asRow (Stage.scale (Stage.row4 0 Cert.KernelIdeal.Facts₀.slices_S4x128_S1x128_0_0 a6) (Stage.var (kP0 a0 a1 a2 a3) zeroI)) := by
  refine (Read.layer0_scale (W4 m ρ c)).trans ?_
  rw [((W4_of m ρ c main_arg6 (by decide)).trans <| (W3_of m ρ c main_arg6 (by decide)).trans <| (W2_of_ne m ρ c main_arg6 (by decide)).trans <| (W1_of m ρ c main_arg6 (by decide)).trans rfl : W4 m ρ c (Proc.devRef .tc main_arg6) = a6), var_0 m ρ c]

theorem sh_0 : W5 m ρ c (Proc.devRef .tc main_v59) = Stage.asRow (Stage.shift (Stage.row4 0 Cert.KernelIdeal.Facts₀.slices_S4x128_S1x128_0_0 a7) (Stage.mean (kP0 a0 a1 a2 a3)) (Stage.scale (Stage.row4 0 Cert.KernelIdeal.Facts₀.slices_S4x128_S1x128_0_0 a6) (Stage.var (kP0 a0 a1 a2 a3) zeroI))) := by
  refine (Read.layer0_shift (W4 m ρ c)).trans ?_
  rw [((W4_of m ρ c main_arg7 (by decide)).trans <| (W3_of m ρ c main_arg7 (by decide)).trans <| (W2_of_ne m ρ c main_arg7 (by decide)).trans <| (W1_of m ρ c main_arg7 (by decide)).trans rfl : W4 m ρ c (Proc.devRef .tc main_arg7) = a7), ((W4_of m ρ c main_arg6 (by decide)).trans <| (W3_of m ρ c main_arg6 (by decide)).trans <| (W2_of_ne m ρ c main_arg6 (by decide)).trans <| (W1_of m ρ c main_arg6 (by decide)).trans rfl : W4 m ρ c (Proc.devRef .tc main_arg6) = a6), var_0 m ρ c, (((W4_of m ρ c main_v46 (by decide))).trans (mu_0 m ρ c))]

theorem act_0 : W6 m ρ c (Proc.devRef .tc main_v60) = kA0 a0 a1 a2 a3 a6 a7 := by
  refine (W6_arr m ρ c 3).trans ((Closed.arrAt1 (V5 m ρ) c).trans ?_)
  have e0 : V5 m ρ c (Pipeline.arrRef spec1 0) = kP0 a0 a1 a2 a3 := ((W5_of m ρ c main_v43 (by decide)).trans <| (W4_of m ρ c main_v43 (by decide))).trans (pre_0 m ρ c)
  have e1 : V5 m ρ c (Pipeline.arrRef spec1 1) = Stage.asRow (Stage.scale (Stage.row4 0 Cert.KernelIdeal.Facts₀.slices_S4x128_S1x128_0_0 a6) (Stage.var (kP0 a0 a1 a2 a3) zeroI)) := sc_0 m ρ c
  have e2 : V5 m ρ c (Pipeline.arrRef spec1 2) = Stage.asRow (Stage.shift (Stage.row4 0 Cert.KernelIdeal.Facts₀.slices_S4x128_S1x128_0_0 a7) (Stage.mean (kP0 a0 a1 a2 a3)) (Stage.scale (Stage.row4 0 Cert.KernelIdeal.Facts₀.slices_S4x128_S1x128_0_0 a6) (Stage.var (kP0 a0 a1 a2 a3) zeroI))) := sh_0 m ρ c
  rw [e0, e1, e2]
  rfl

theorem wn_0 : W7 m ρ c (Proc.devRef .tc main_v62) = Stage.mat3 0 Cert.KernelIdeal.Facts₀.slices_S3x128x128_S1x128x128_0_0_0 a4 := by
  refine (Read.layer0_nextW (W6 m ρ c)).trans ?_
  rw [((W6_of_ne m ρ c main_arg4 (by decide)).trans <| (W5_of m ρ c main_arg4 (by decide)).trans <| (W4_of m ρ c main_arg4 (by decide)).trans <| (W3_of m ρ c main_arg4 (by decide)).trans <| (W2_of_ne m ρ c main_arg4 (by decide)).trans <| (W1_of m ρ c main_arg4 (by decide)).trans rfl : W6 m ρ c (Proc.devRef .tc main_arg4) = a4)]

theorem bn_0 : W7 m ρ c (Proc.devRef .tc main_v64) = Stage.row3 0 Cert.KernelIdeal.Facts₀.slices_S3x128_S1x128_0_0 a5 := by
  refine (Read.layer0_nextB (W6 m ρ c)).trans ?_
  rw [((W6_of_ne m ρ c main_arg5 (by decide)).trans <| (W5_of m ρ c main_arg5 (by decide)).trans <| (W4_of m ρ c main_arg5 (by decide)).trans <| (W3_of m ρ c main_arg5 (by decide)).trans <| (W2_of_ne m ρ c main_arg5 (by decide)).trans <| (W1_of m ρ c main_arg5 (by decide)).trans rfl : W6 m ρ c (Proc.devRef .tc main_arg5) = a5)]

/-! ## Layer 1 -/

theorem h1_1 : W8 m ρ c (Proc.devRef .tc main_v65) = Closed.mm 128 128 (kA0 a0 a1 a2 a3 a6 a7) (Stage.mat3 0 Cert.KernelIdeal.Facts₀.slices_S3x128x128_S1x128x128_0_0_0 a4) := by
  refine (W8_arr m ρ c 2).trans ((Closed.arrAt2 (V7 m ρ) c).trans ?_)
  have e0 : V7 m ρ c (Pipeline.arrRef spec2 0) = kA0 a0 a1 a2 a3 a6 a7 := ((W7_of m ρ c main_v60 (by decide))).trans (act_0 m ρ c)
  have e1 : V7 m ρ c (Pipeline.arrRef spec2 1) = Stage.mat3 0 Cert.KernelIdeal.Facts₀.slices_S3x128x128_S1x128x128_0_0_0 a4 := wn_0 m ρ c
  rw [e0, e1]

theorem pre_1 : W9 m ρ c (Proc.devRef .tc main_v81) = kP1 a0 a1 a2 a3 a4 a5 a6 a7 := by
  refine (Read.layer1_pre (W8 m ρ c)).trans ?_
  rw [h1_1 m ρ c, src8 m ρ c, dst8 m ρ c, norm8 m ρ c, (((W8_of_ne m ρ c main_v64 (by decide))).trans (bn_0 m ρ c))]
  rfl

theorem mu_1 : W9 m ρ c (Proc.devRef .tc main_v84) = Stage.mean (kP1 a0 a1 a2 a3 a4 a5 a6 a7) := by
  refine (Read.layer1_mean (W8 m ρ c)).trans ?_
  rw [h1_1 m ρ c, src8 m ρ c, dst8 m ρ c, norm8 m ρ c, (((W8_of_ne m ρ c main_v64 (by decide))).trans (bn_0 m ρ c))]
  rfl

theorem cz_1 : W9 m ρ c (Proc.devRef .tc main_c_16) = zeroI := Read.layer1_corr (W8 m ρ c)

theorem var_1 : W10 m ρ c (Proc.devRef .tc main_v85) = Stage.var (kP1 a0 a1 a2 a3 a4 a5 a6 a7) zeroI := by
  refine (Read.layer1_var (W9 m ρ c)).trans ?_
  rw [pre_1 m ρ c, cz_1 m ρ c]

theorem sc_1 : W11 m ρ c (Proc.devRef .tc main_v96) = Stage.asRow (Stage.scale (Stage.row4 1 Cert.KernelIdeal.Facts₀.slices_S4x128_S1x128_1_0 a6) (Stage.var (kP1 a0 a1 a2 a3 a4 a5 a6 a7) zeroI)) := by
  refine (Read.layer1_scale (W10 m ρ c)).trans ?_
  rw [((W10_of m ρ c main_arg6 (by decide)).trans <| (W9_of m ρ c main_arg6 (by decide)).trans <| (W8_of_ne m ρ c main_arg6 (by decide)).trans <| (W7_of m ρ c main_arg6 (by decide)).trans <| (W6_of_ne m ρ c main_arg6 (by decide)).trans <| (W5_of m ρ c main_arg6 (by decide)).trans <| (W4_of m ρ c main_arg6 (by decide)).trans <| (W3_of m ρ c main_arg6 (by decide)).trans <| (W2_of_ne m ρ c main_arg6 (by decide)).trans <| (W1_of m ρ c main_arg6 (by decide)).trans rfl : W10 m ρ c (Proc.devRef .tc main_arg6) = a6), var_1 m ρ c]

theorem sh_1 : W11 m ρ c (Proc.devRef .tc main_v97) = Stage.asRow (Stage.shift (Stage.row4 1 Cert.KernelIdeal.Facts₀.slices_S4x128_S1x128_1_0 a7) (Stage.mean (kP1 a0 a1 a2 a3 a4 a5 a6 a7)) (Stage.scale (Stage.row4 1 Cert.KernelIdeal.Facts₀.slices_S4x128_S1x128_1_0 a6) (Stage.var (kP1 a0 a1 a2 a3 a4 a5 a6 a7) zeroI))) := by
  refine (Read.layer1_shift (W10 m ρ c)).trans ?_
  rw [((W10_of m ρ c main_arg7 (by decide)).trans <| (W9_of m ρ c main_arg7 (by decide)).trans <| (W8_of_ne m ρ c main_arg7 (by decide)).trans <| (W7_of m ρ c main_arg7 (by decide)).trans <| (W6_of_ne m ρ c main_arg7 (by decide)).trans <| (W5_of m ρ c main_arg7 (by decide)).trans <| (W4_of m ρ c main_arg7 (by decide)).trans <| (W3_of m ρ c main_arg7 (by decide)).trans <| (W2_of_ne m ρ c main_arg7 (by decide)).trans <| (W1_of m ρ c main_arg7 (by decide)).trans rfl : W10 m ρ c (Proc.devRef .tc main_arg7) = a7), ((W10_of m ρ c main_arg6 (by decide)).trans <| (W9_of m ρ c main_arg6 (by decide)).trans <| (W8_of_ne m ρ c main_arg6 (by decide)).trans <| (W7_of m ρ c main_arg6 (by decide)).trans <| (W6_of_ne m ρ c main_arg6 (by decide)).trans <| (W5_of m ρ c main_arg6 (by decide)).trans <| (W4_of m ρ c main_arg6 (by decide)).trans <| (W3_of m ρ c main_arg6 (by decide)).trans <| (W2_of_ne m ρ c main_arg6 (by decide)).trans <| (W1_of m ρ c main_arg6 (by decide)).trans rfl : W10 m ρ c (Proc.devRef .tc main_arg6) = a6), var_1 m ρ c, (((W10_of m ρ c main_v84 (by decide))).trans (mu_1 m ρ c))]

theorem act_1 : W12 m ρ c (Proc.devRef .tc main_v98) = kA1 a0 a1 a2 a3 a4 a5 a6 a7 := by
  refine (W12_arr m ρ c 3).trans ((Closed.arrAt3 (V11 m ρ) c).trans ?_)
  have e0 : V11 m ρ c (Pipeline.arrRef spec3 0) = kP1 a0 a1 a2 a3 a4 a5 a6 a7 := ((W11_of m ρ c main_v81 (by decide)).trans <| (W10_of m ρ c main_v81 (by decide))).trans (pre_1 m ρ c)
  have e1 : V11 m ρ c (Pipeline.arrRef spec3 1) = Stage.asRow (Stage.scale (Stage.row4 1 Cert.KernelIdeal.Facts₀.slices_S4x128_S1x128_1_0 a6) (Stage.var (kP1 a0 a1 a2 a3 a4 a5 a6 a7) zeroI)) := sc_1 m ρ c
  have e2 : V11 m ρ c (Pipeline.arrRef spec3 2) = Stage.asRow (Stage.shift (Stage.row4 1 Cert.KernelIdeal.Facts₀.slices_S4x128_S1x128_1_0 a7) (Stage.mean (kP1 a0 a1 a2 a3 a4 a5 a6 a7)) (Stage.scale (Stage.row4 1 Cert.KernelIdeal.Facts₀.slices_S4x128_S1x128_1_0 a6) (Stage.var (kP1 a0 a1 a2 a3 a4 a5 a6 a7) zeroI))) := sh_1 m ρ c
  rw [e0, e1, e2]
  rfl

theorem wn_1 : W13 m ρ c (Proc.devRef .tc main_v100) = Stage.mat3 1 Cert.KernelIdeal.Facts₀.slices_S3x128x128_S1x128x128_1_0_0 a4 := by
  refine (Read.layer1_nextW (W12 m ρ c)).trans ?_
  rw [((W12_of_ne m ρ c main_arg4 (by decide)).trans <| (W11_of m ρ c main_arg4 (by decide)).trans <| (W10_of m ρ c main_arg4 (by decide)).trans <| (W9_of m ρ c main_arg4 (by decide)).trans <| (W8_of_ne m ρ c main_arg4 (by decide)).trans <| (W7_of m ρ c main_arg4 (by decide)).trans <| (W6_of_ne m ρ c main_arg4 (by decide)).trans <| (W5_of m ρ c main_arg4 (by decide)).trans <| (W4_of m ρ c main_arg4 (by decide)).trans <| (W3_of m ρ c main_arg4 (by decide)).trans <| (W2_of_ne m ρ c main_arg4 (by decide)).trans <| (W1_of m ρ c main_arg4 (by decide)).trans rfl : W12 m ρ c (Proc.devRef .tc main_arg4) = a4)]

theorem bn_1 : W13 m ρ c (Proc.devRef .tc main_v102) = Stage.row3 1 Cert.KernelIdeal.Facts₀.slices_S3x128_S1x128_1_0 a5 := by
  refine (Read.layer1_nextB (W12 m ρ c)).trans ?_
  rw [((W12_of_ne m ρ c main_arg5 (by decide)).trans <| (W11_of m ρ c main_arg5 (by decide)).trans <| (W10_of m ρ c main_arg5 (by decide)).trans <| (W9_of m ρ c main_arg5 (by decide)).trans <| (W8_of_ne m ρ c main_arg5 (by decide)).trans <| (W7_of m ρ c main_arg5 (by decide)).trans <| (W6_of_ne m ρ c main_arg5 (by decide)).trans <| (W5_of m ρ c main_arg5 (by decide)).trans <| (W4_of m ρ c main_arg5 (by decide)).trans <| (W3_of m ρ c main_arg5 (by decide)).trans <| (W2_of_ne m ρ c main_arg5 (by decide)).trans <| (W1_of m ρ c main_arg5 (by decide)).trans rfl : W12 m ρ c (Proc.devRef .tc main_arg5) = a5)]

/-! ## Layer 2 -/

theorem h1_2 : W14 m ρ c (Proc.devRef .tc main_v103) = Closed.mm 128 128 (kA1 a0 a1 a2 a3 a4 a5 a6 a7) (Stage.mat3 1 Cert.KernelIdeal.Facts₀.slices_S3x128x128_S1x128x128_1_0_0 a4) := by
  refine (W14_arr m ρ c 2).trans ((Closed.arrAt4 (V13 m ρ) c).trans ?_)
  have e0 : V13 m ρ c (Pipeline.arrRef spec4 0) = kA1 a0 a1 a2 a3 a4 a5 a6 a7 := ((W13_of m ρ c main_v98 (by decide))).trans (act_1 m ρ c)
  have e1 : V13 m ρ c (Pipeline.arrRef spec4 1) = Stage.mat3 1 Cert.KernelIdeal.Facts₀.slices_S3x128x128_S1x128x128_1_0_0 a4 := wn_1 m ρ c
  rw [e0, e1]

theorem pre_2 : W15 m ρ c (Proc.devRef .tc main_v119) = kP2 a0 a1 a2 a3 a4 a5 a6 a7 := by
  refine (Read.layer2_pre (W14 m ρ c)).trans ?_
  rw [h1_2 m ρ c, src14 m ρ c, dst14 m ρ c, norm14 m ρ c, (((W14_of_ne m ρ c main_v102 (by decide))).trans (bn_1 m ρ c))]
  rfl

theorem mu_2 : W15 m ρ c (Proc.devRef .tc main_v122) = Stage.mean (kP2 a0 a1 a2 a3 a4 a5 a6 a7) := by
  refine (Read.layer2_mean (W14 m ρ c)).trans ?_
  rw [h1_2 m ρ c, src14 m ρ c, dst14 m ρ c, norm14 m ρ c, (((W14_of_ne m ρ c main_v102 (by decide))).trans (bn_1 m ρ c))]
  rfl

theorem cz_2 : W15 m ρ c (Proc.devRef .tc main_c_23) = zeroI := Read.layer2_corr (W14 m ρ c)

theorem var_2 : W16 m ρ c (Proc.devRef .tc main_v123) = Stage.var (kP2 a0 a1 a2 a3 a4 a5 a6 a7) zeroI := by
  refine (Read.layer2_var (W15 m ρ c)).trans ?_
  rw [pre_2 m ρ c, cz_2 m ρ c]

theorem sc_2 : W17 m ρ c (Proc.devRef .tc main_v134) = Stage.asRow (Stage.scale (Stage.row4 2 Cert.KernelIdeal.Facts₀.slices_S4x128_S1x128_2_0 a6) (Stage.var (kP2 a0 a1 a2 a3 a4 a5 a6 a7) zeroI)) := by
  refine (Read.layer2_scale (W16 m ρ c)).trans ?_
  rw [((W16_of m ρ c main_arg6 (by decide)).trans <| (W15_of m ρ c main_arg6 (by decide)).trans <| (W14_of_ne m ρ c main_arg6 (by decide)).trans <| (W13_of m ρ c main_arg6 (by decide)).trans <| (W12_of_ne m ρ c main_arg6 (by decide)).trans <| (W11_of m ρ c main_arg6 (by decide)).trans <| (W10_of m ρ c main_arg6 (by decide)).trans <| (W9_of m ρ c main_arg6 (by decide)).trans <| (W8_of_ne m ρ c main_arg6 (by decide)).trans <| (W7_of m ρ c main_arg6 (by decide)).trans <| (W6_of_ne m ρ c main_arg6 (by decide)).trans <| (W5_of m ρ c main_arg6 (by decide)).trans <| (W4_of m ρ c main_arg6 (by decide)).trans <| (W3_of m ρ c main_arg6 (by decide)).trans <| (W2_of_ne m ρ c main_arg6 (by decide)).trans <| (W1_of m ρ c main_arg6 (by decide)).trans rfl : W16 m ρ c (Proc.devRef .tc main_arg6) = a6), var_2 m ρ c]

theorem sh_2 : W17 m ρ c (Proc.devRef .tc main_v135) = Stage.asRow (Stage.shift (Stage.row4 2 Cert.KernelIdeal.Facts₀.slices_S4x128_S1x128_2_0 a7) (Stage.mean (kP2 a0 a1 a2 a3 a4 a5 a6 a7)) (Stage.scale (Stage.row4 2 Cert.KernelIdeal.Facts₀.slices_S4x128_S1x128_2_0 a6) (Stage.var (kP2 a0 a1 a2 a3 a4 a5 a6 a7) zeroI))) := by
  refine (Read.layer2_shift (W16 m ρ c)).trans ?_
  rw [((W16_of m ρ c main_arg7 (by decide)).trans <| (W15_of m ρ c main_arg7 (by decide)).trans <| (W14_of_ne m ρ c main_arg7 (by decide)).trans <| (W13_of m ρ c main_arg7 (by decide)).trans <| (W12_of_ne m ρ c main_arg7 (by decide)).trans <| (W11_of m ρ c main_arg7 (by decide)).trans <| (W10_of m ρ c main_arg7 (by decide)).trans <| (W9_of m ρ c main_arg7 (by decide)).trans <| (W8_of_ne m ρ c main_arg7 (by decide)).trans <| (W7_of m ρ c main_arg7 (by decide)).trans <| (W6_of_ne m ρ c main_arg7 (by decide)).trans <| (W5_of m ρ c main_arg7 (by decide)).trans <| (W4_of m ρ c main_arg7 (by decide)).trans <| (W3_of m ρ c main_arg7 (by decide)).trans <| (W2_of_ne m ρ c main_arg7 (by decide)).trans <| (W1_of m ρ c main_arg7 (by decide)).trans rfl : W16 m ρ c (Proc.devRef .tc main_arg7) = a7), ((W16_of m ρ c main_arg6 (by decide)).trans <| (W15_of m ρ c main_arg6 (by decide)).trans <| (W14_of_ne m ρ c main_arg6 (by decide)).trans <| (W13_of m ρ c main_arg6 (by decide)).trans <| (W12_of_ne m ρ c main_arg6 (by decide)).trans <| (W11_of m ρ c main_arg6 (by decide)).trans <| (W10_of m ρ c main_arg6 (by decide)).trans <| (W9_of m ρ c main_arg6 (by decide)).trans <| (W8_of_ne m ρ c main_arg6 (by decide)).trans <| (W7_of m ρ c main_arg6 (by decide)).trans <| (W6_of_ne m ρ c main_arg6 (by decide)).trans <| (W5_of m ρ c main_arg6 (by decide)).trans <| (W4_of m ρ c main_arg6 (by decide)).trans <| (W3_of m ρ c main_arg6 (by decide)).trans <| (W2_of_ne m ρ c main_arg6 (by decide)).trans <| (W1_of m ρ c main_arg6 (by decide)).trans rfl : W16 m ρ c (Proc.devRef .tc main_arg6) = a6), var_2 m ρ c, (((W16_of m ρ c main_v122 (by decide))).trans (mu_2 m ρ c))]

theorem act_2 : W18 m ρ c (Proc.devRef .tc main_v136) = kA2 a0 a1 a2 a3 a4 a5 a6 a7 := by
  refine (W18_arr m ρ c 3).trans ((Closed.arrAt5 (V17 m ρ) c).trans ?_)
  have e0 : V17 m ρ c (Pipeline.arrRef spec5 0) = kP2 a0 a1 a2 a3 a4 a5 a6 a7 := ((W17_of m ρ c main_v119 (by decide)).trans <| (W16_of m ρ c main_v119 (by decide))).trans (pre_2 m ρ c)
  have e1 : V17 m ρ c (Pipeline.arrRef spec5 1) = Stage.asRow (Stage.scale (Stage.row4 2 Cert.KernelIdeal.Facts₀.slices_S4x128_S1x128_2_0 a6) (Stage.var (kP2 a0 a1 a2 a3 a4 a5 a6 a7) zeroI)) := sc_2 m ρ c
  have e2 : V17 m ρ c (Pipeline.arrRef spec5 2) = Stage.asRow (Stage.shift (Stage.row4 2 Cert.KernelIdeal.Facts₀.slices_S4x128_S1x128_2_0 a7) (Stage.mean (kP2 a0 a1 a2 a3 a4 a5 a6 a7)) (Stage.scale (Stage.row4 2 Cert.KernelIdeal.Facts₀.slices_S4x128_S1x128_2_0 a6) (Stage.var (kP2 a0 a1 a2 a3 a4 a5 a6 a7) zeroI))) := sh_2 m ρ c
  rw [e0, e1, e2]
  rfl

theorem wn_2 : W19 m ρ c (Proc.devRef .tc main_v138) = Stage.mat3 2 Cert.KernelIdeal.Facts₀.slices_S3x128x128_S1x128x128_2_0_0 a4 := by
  refine (Read.layer2_nextW (W18 m ρ c)).trans ?_
  rw [((W18_of_ne m ρ c main_arg4 (by decide)).trans <| (W17_of m ρ c main_arg4 (by decide)).trans <| (W16_of m ρ c main_arg4 (by decide)).trans <| (W15_of m ρ c main_arg4 (by decide)).trans <| (W14_of_ne m ρ c main_arg4 (by decide)).trans <| (W13_of m ρ c main_arg4 (by decide)).trans <| (W12_of_ne m ρ c main_arg4 (by decide)).trans <| (W11_of m ρ c main_arg4 (by decide)).trans <| (W10_of m ρ c main_arg4 (by decide)).trans <| (W9_of m ρ c main_arg4 (by decide)).trans <| (W8_of_ne m ρ c main_arg4 (by decide)).trans <| (W7_of m ρ c main_arg4 (by decide)).trans <| (W6_of_ne m ρ c main_arg4 (by decide)).trans <| (W5_of m ρ c main_arg4 (by decide)).trans <| (W4_of m ρ c main_arg4 (by decide)).trans <| (W3_of m ρ c main_arg4 (by decide)).trans <| (W2_of_ne m ρ c main_arg4 (by decide)).trans <| (W1_of m ρ c main_arg4 (by decide)).trans rfl : W18 m ρ c (Proc.devRef .tc main_arg4) = a4)]

theorem bn_2 : W19 m ρ c (Proc.devRef .tc main_v140) = Stage.row3 2 Cert.KernelIdeal.Facts₀.slices_S3x128_S1x128_2_0 a5 := by
  refine (Read.layer2_nextB (W18 m ρ c)).trans ?_
  rw [((W18_of_ne m ρ c main_arg5 (by decide)).trans <| (W17_of m ρ c main_arg5 (by decide)).trans <| (W16_of m ρ c main_arg5 (by decide)).trans <| (W15_of m ρ c main_arg5 (by decide)).trans <| (W14_of_ne m ρ c main_arg5 (by decide)).trans <| (W13_of m ρ c main_arg5 (by decide)).trans <| (W12_of_ne m ρ c main_arg5 (by decide)).trans <| (W11_of m ρ c main_arg5 (by decide)).trans <| (W10_of m ρ c main_arg5 (by decide)).trans <| (W9_of m ρ c main_arg5 (by decide)).trans <| (W8_of_ne m ρ c main_arg5 (by decide)).trans <| (W7_of m ρ c main_arg5 (by decide)).trans <| (W6_of_ne m ρ c main_arg5 (by decide)).trans <| (W5_of m ρ c main_arg5 (by decide)).trans <| (W4_of m ρ c main_arg5 (by decide)).trans <| (W3_of m ρ c main_arg5 (by decide)).trans <| (W2_of_ne m ρ c main_arg5 (by decide)).trans <| (W1_of m ρ c main_arg5 (by decide)).trans rfl : W18 m ρ c (Proc.devRef .tc main_arg5) = a5)]

/-! ## Layer 3 -/

theorem h1_3 : W20 m ρ c (Proc.devRef .tc main_v141) = Closed.mm 128 128 (kA2 a0 a1 a2 a3 a4 a5 a6 a7) (Stage.mat3 2 Cert.KernelIdeal.Facts₀.slices_S3x128x128_S1x128x128_2_0_0 a4) := by
  refine (W20_arr m ρ c 2).trans ((Closed.arrAt6 (V19 m ρ) c).trans ?_)
  have e0 : V19 m ρ c (Pipeline.arrRef spec6 0) = kA2 a0 a1 a2 a3 a4 a5 a6 a7 := ((W19_of m ρ c main_v136 (by decide))).trans (act_2 m ρ c)
  have e1 : V19 m ρ c (Pipeline.arrRef spec6 1) = Stage.mat3 2 Cert.KernelIdeal.Facts₀.slices_S3x128x128_S1x128x128_2_0_0 a4 := wn_2 m ρ c
  rw [e0, e1]

theorem pre_3 : W21 m ρ c (Proc.devRef .tc main_v157) = kP3 a0 a1 a2 a3 a4 a5 a6 a7 := by
  refine (Read.layer3_pre (W20 m ρ c)).trans ?_
  rw [h1_3 m ρ c, src20 m ρ c, dst20 m ρ c, norm20 m ρ c, (((W20_of_ne m ρ c main_v140 (by decide))).trans (bn_2 m ρ c))]
  rfl

theorem mu_3 : W21 m ρ c (Proc.devRef .tc main_v160) = Stage.mean (kP3 a0 a1 a2 a3 a4 a5 a6 a7) := by
  refine (Read.layer3_mean (W20 m ρ c)).trans ?_
  rw [h1_3 m ρ c, src20 m ρ c, dst20 m ρ c, norm20 m ρ c, (((W20_of_ne m ρ c main_v140 (by decide))).trans (bn_2 m ρ c))]
  rfl

theorem cz_3 : W21 m ρ c (Proc.devRef .tc main_c_30) = zeroI := Read.layer3_corr (W20 m ρ c)

theorem var_3 : W22 m ρ c (Proc.devRef .tc main_v161) = Stage.var (kP3 a0 a1 a2 a3 a4 a5 a6 a7) zeroI := by
  refine (Read.layer3_var (W21 m ρ c)).trans ?_
  rw [pre_3 m ρ c, cz_3 m ρ c]

theorem sc_3 : W23 m ρ c (Proc.devRef .tc main_v172) = Stage.asRow (Stage.scale (Stage.row4 3 Cert.KernelIdeal.Facts₀.slices_S4x128_S1x128_3_0 a6) (Stage.var (kP3 a0 a1 a2 a3 a4 a5 a6 a7) zeroI)) := by
  refine (Read.layer3_scale (W22 m ρ c)).trans ?_
  rw [((W22_of m ρ c main_arg6 (by decide)).trans <| (W21_of m ρ c main_arg6 (by decide)).trans <| (W20_of_ne m ρ c main_arg6 (by decide)).trans <| (W19_of m ρ c main_arg6 (by decide)).trans <| (W18_of_ne m ρ c main_arg6 (by decide)).trans <| (W17_of m ρ c main_arg6 (by decide)).trans <| (W16_of m ρ c main_arg6 (by decide)).trans <| (W15_of m ρ c main_arg6 (by decide)).trans <| (W14_of_ne m ρ c main_arg6 (by decide)).trans <| (W13_of m ρ c main_arg6 (by decide)).trans <| (W12_of_ne m ρ c main_arg6 (by decide)).trans <| (W11_of m ρ c main_arg6 (by decide)).trans <| (W10_of m ρ c main_arg6 (by decide)).trans <| (W9_of m ρ c main_arg6 (by decide)).trans <| (W8_of_ne m ρ c main_arg6 (by decide)).trans <| (W7_of m ρ c main_arg6 (by decide)).trans <| (W6_of_ne m ρ c main_arg6 (by decide)).trans <| (W5_of m ρ c main_arg6 (by decide)).trans <| (W4_of m ρ c main_arg6 (by decide)).trans <| (W3_of m ρ c main_arg6 (by decide)).trans <| (W2_of_ne m ρ c main_arg6 (by decide)).trans <| (W1_of m ρ c main_arg6 (by decide)).trans rfl : W22 m ρ c (Proc.devRef .tc main_arg6) = a6), var_3 m ρ c]

theorem sh_3 : W23 m ρ c (Proc.devRef .tc main_v173) = Stage.asRow (Stage.shift (Stage.row4 3 Cert.KernelIdeal.Facts₀.slices_S4x128_S1x128_3_0 a7) (Stage.mean (kP3 a0 a1 a2 a3 a4 a5 a6 a7)) (Stage.scale (Stage.row4 3 Cert.KernelIdeal.Facts₀.slices_S4x128_S1x128_3_0 a6) (Stage.var (kP3 a0 a1 a2 a3 a4 a5 a6 a7) zeroI))) := by
  refine (Read.layer3_shift (W22 m ρ c)).trans ?_
  rw [((W22_of m ρ c main_arg7 (by decide)).trans <| (W21_of m ρ c main_arg7 (by decide)).trans <| (W20_of_ne m ρ c main_arg7 (by decide)).trans <| (W19_of m ρ c main_arg7 (by decide)).trans <| (W18_of_ne m ρ c main_arg7 (by decide)).trans <| (W17_of m ρ c main_arg7 (by decide)).trans <| (W16_of m ρ c main_arg7 (by decide)).trans <| (W15_of m ρ c main_arg7 (by decide)).trans <| (W14_of_ne m ρ c main_arg7 (by decide)).trans <| (W13_of m ρ c main_arg7 (by decide)).trans <| (W12_of_ne m ρ c main_arg7 (by decide)).trans <| (W11_of m ρ c main_arg7 (by decide)).trans <| (W10_of m ρ c main_arg7 (by decide)).trans <| (W9_of m ρ c main_arg7 (by decide)).trans <| (W8_of_ne m ρ c main_arg7 (by decide)).trans <| (W7_of m ρ c main_arg7 (by decide)).trans <| (W6_of_ne m ρ c main_arg7 (by decide)).trans <| (W5_of m ρ c main_arg7 (by decide)).trans <| (W4_of m ρ c main_arg7 (by decide)).trans <| (W3_of m ρ c main_arg7 (by decide)).trans <| (W2_of_ne m ρ c main_arg7 (by decide)).trans <| (W1_of m ρ c main_arg7 (by decide)).trans rfl : W22 m ρ c (Proc.devRef .tc main_arg7) = a7), ((W22_of m ρ c main_arg6 (by decide)).trans <| (W21_of m ρ c main_arg6 (by decide)).trans <| (W20_of_ne m ρ c main_arg6 (by decide)).trans <| (W19_of m ρ c main_arg6 (by decide)).trans <| (W18_of_ne m ρ c main_arg6 (by decide)).trans <| (W17_of m ρ c main_arg6 (by decide)).trans <| (W16_of m ρ c main_arg6 (by decide)).trans <| (W15_of m ρ c main_arg6 (by decide)).trans <| (W14_of_ne m ρ c main_arg6 (by decide)).trans <| (W13_of m ρ c main_arg6 (by decide)).trans <| (W12_of_ne m ρ c main_arg6 (by decide)).trans <| (W11_of m ρ c main_arg6 (by decide)).trans <| (W10_of m ρ c main_arg6 (by decide)).trans <| (W9_of m ρ c main_arg6 (by decide)).trans <| (W8_of_ne m ρ c main_arg6 (by decide)).trans <| (W7_of m ρ c main_arg6 (by decide)).trans <| (W6_of_ne m ρ c main_arg6 (by decide)).trans <| (W5_of m ρ c main_arg6 (by decide)).trans <| (W4_of m ρ c main_arg6 (by decide)).trans <| (W3_of m ρ c main_arg6 (by decide)).trans <| (W2_of_ne m ρ c main_arg6 (by decide)).trans <| (W1_of m ρ c main_arg6 (by decide)).trans rfl : W22 m ρ c (Proc.devRef .tc main_arg6) = a6), var_3 m ρ c, (((W22_of m ρ c main_v160 (by decide))).trans (mu_3 m ρ c))]

theorem act_3 : W24 m ρ c (Proc.devRef .tc main_v174) = kA3 a0 a1 a2 a3 a4 a5 a6 a7 := by
  refine (W24_arr m ρ c 3).trans ((Closed.arrAt7 (V23 m ρ) c).trans ?_)
  have e0 : V23 m ρ c (Pipeline.arrRef spec7 0) = kP3 a0 a1 a2 a3 a4 a5 a6 a7 := ((W23_of m ρ c main_v157 (by decide)).trans <| (W22_of m ρ c main_v157 (by decide))).trans (pre_3 m ρ c)
  have e1 : V23 m ρ c (Pipeline.arrRef spec7 1) = Stage.asRow (Stage.scale (Stage.row4 3 Cert.KernelIdeal.Facts₀.slices_S4x128_S1x128_3_0 a6) (Stage.var (kP3 a0 a1 a2 a3 a4 a5 a6 a7) zeroI)) := sc_3 m ρ c
  have e2 : V23 m ρ c (Pipeline.arrRef spec7 2) = Stage.asRow (Stage.shift (Stage.row4 3 Cert.KernelIdeal.Facts₀.slices_S4x128_S1x128_3_0 a7) (Stage.mean (kP3 a0 a1 a2 a3 a4 a5 a6 a7)) (Stage.scale (Stage.row4 3 Cert.KernelIdeal.Facts₀.slices_S4x128_S1x128_3_0 a6) (Stage.var (kP3 a0 a1 a2 a3 a4 a5 a6 a7) zeroI))) := sh_3 m ρ c
  rw [e0, e1, e2]
  rfl

/-! ## The head -/

theorem cat : W25 m ρ c (Proc.devRef .tc main_v175) = Stage.concat4 (kA0 a0 a1 a2 a3 a6 a7) (kA1 a0 a1 a2 a3 a4 a5 a6 a7) (kA2 a0 a1 a2 a3 a4 a5 a6 a7) (kA3 a0 a1 a2 a3 a4 a5 a6 a7) := by
  refine (Read.head_cat (W24 m ρ c)).trans ?_
  rw [(((W24_of_ne m ρ c main_v60 (by decide)).trans <| (W23_of m ρ c main_v60 (by decide)).trans <| (W22_of m ρ c main_v60 (by decide)).trans <| (W21_of m ρ c main_v60 (by decide)).trans <| (W20_of_ne m ρ c main_v60 (by decide)).trans <| (W19_of m ρ c main_v60 (by decide)).trans <| (W18_of_ne m ρ c main_v60 (by decide)).trans <| (W17_of m ρ c main_v60 (by decide)).trans <| (W16_of m ρ c main_v60 (by decide)).trans <| (W15_of m ρ c main_v60 (by decide)).trans <| (W14_of_ne m ρ c main_v60 (by decide)).trans <| (W13_of m ρ c main_v60 (by decide)).trans <| (W12_of_ne m ρ c main_v60 (by decide)).trans <| (W11_of m ρ c main_v60 (by decide)).trans <| (W10_of m ρ c main_v60 (by decide)).trans <| (W9_of m ρ c main_v60 (by decide)).trans <| (W8_in m ρ c 0 rfl).trans <| (W7_of m ρ c main_v60 (by decide))).trans (act_0 m ρ c)), (((W24_of_ne m ρ c main_v98 (by decide)).trans <| (W23_of m ρ c main_v98 (by decide)).trans <| (W22_of m ρ c main_v98 (by decide)).trans <| (W21_of m ρ c main_v98 (by decide)).trans <| (W20_of_ne m ρ c main_v98 (by decide)).trans <| (W19_of m ρ c main_v98 (by decide)).trans <| (W18_of_ne m ρ c main_v98 (by decide)).trans <| (W17_of m ρ c main_v98 (by decide)).trans <| (W16_of m ρ c main_v98 (by decide)).trans <| (W15_of m ρ c main_v98 (by decide)).trans <| (W14_in m ρ c 0 rfl).trans <| (W13_of m ρ c main_v98 (by decide))).trans (act_1 m ρ c)), (((W24_of_ne m ρ c main_v136 (by decide)).trans <| (W23_of m ρ c main_v136 (by decide)).trans <| (W22_of m ρ c main_v136 (by decide)).trans <| (W21_of m ρ c main_v136 (by decide)).trans <| (W20_in m ρ c 0 rfl).trans <| (W19_of m ρ c main_v136 (by decide))).trans (act_2 m ρ c)), act_3 m ρ c]

theorem hbias : W25 m ρ c (Proc.devRef .tc main_v176) = Stage.headBias a9 := by
  refine (Read.head_bias (W24 m ρ c)).trans ?_
  rw [((W24_of_ne m ρ c main_arg9 (by decide)).trans <| (W23_of m ρ c main_arg9 (by decide)).trans <| (W22_of m ρ c main_arg9 (by decide)).trans <| (W21_of m ρ c main_arg9 (by decide)).trans <| (W20_of_ne m ρ c main_arg9 (by decide)).trans <| (W19_of m ρ c main_arg9 (by decide)).trans <| (W18_of_ne m ρ c main_arg9 (by decide)).trans <| (W17_of m ρ c main_arg9 (by decide)).trans <| (W16_of m ρ c main_arg9 (by decide)).trans <| (W15_of m ρ c main_arg9 (by decide)).trans <| (W14_of_ne m ρ c main_arg9 (by decide)).trans <| (W13_of m ρ c main_arg9 (by decide)).trans <| (W12_of_ne m ρ c main_arg9 (by decide)).trans <| (W11_of m ρ c main_arg9 (by decide)).trans <| (W10_of m ρ c main_arg9 (by decide)).trans <| (W9_of m ρ c main_arg9 (by decide)).trans <| (W8_of_ne m ρ c main_arg9 (by decide)).trans <| (W7_of m ρ c main_arg9 (by decide)).trans <| (W6_of_ne m ρ c main_arg9 (by decide)).trans <| (W5_of m ρ c main_arg9 (by decide)).trans <| (W4_of m ρ c main_arg9 (by decide)).trans <| (W3_of m ρ c main_arg9 (by decide)).trans <| (W2_of_ne m ρ c main_arg9 (by decide)).trans <| (W1_of m ρ c main_arg9 (by decide)).trans rfl : W24 m ρ c (Proc.devRef .tc main_arg9) = a9)]

/-- The kernel program's result array is the network function of the launch contents of its ten arguments. -/
theorem kernel_value : W26 m ρ c (Proc.devRef .tc main_v177) = kOut a0 a1 a2 a3 a4 a5 a6 a7 a8 a9 := by
  refine (W26_arr m ρ c 3).trans ((Closed.arrAt8 (V25 m ρ) c).trans ?_)
  have e0 : V25 m ρ c (Pipeline.arrRef spec8 0) = Stage.concat4 (kA0 a0 a1 a2 a3 a6 a7) (kA1 a0 a1 a2 a3 a4 a5 a6 a7) (kA2 a0 a1 a2 a3 a4 a5 a6 a7) (kA3 a0 a1 a2 a3 a4 a5 a6 a7) := cat m ρ c
  have e1 : V25 m ρ c (Pipeline.arrRef spec8 1) = a8 := ((W25_of m ρ c main_arg8 (by decide)).trans <| (W24_of_ne m ρ c main_arg8 (by decide)).trans <| (W23_of m ρ c main_arg8 (by decide)).trans <| (W22_of m ρ c main_arg8 (by decide)).trans <| (W21_of m ρ c main_arg8 (by decide)).trans <| (W20_of_ne m ρ c main_arg8 (by decide)).trans <| (W19_of m ρ c main_arg8 (by decide)).trans <| (W18_of_ne m ρ c main_arg8 (by decide)).trans <| (W17_of m ρ c main_arg8 (by decide)).trans <| (W16_of m ρ c main_arg8 (by decide)).trans <| (W15_of m ρ c main_arg8 (by decide)).trans <| (W14_of_ne m ρ c main_arg8 (by decide)).trans <| (W13_of m ρ c main_arg8 (by decide)).trans <| (W12_of_ne m ρ c main_arg8 (by decide)).trans <| (W11_of m ρ c main_arg8 (by decide)).trans <| (W10_of m ρ c main_arg8 (by decide)).trans <| (W9_of m ρ c main_arg8 (by decide)).trans <| (W8_of_ne m ρ c main_arg8 (by decide)).trans <| (W7_of m ρ c main_arg8 (by decide)).trans <| (W6_of_ne m ρ c main_arg8 (by decide)).trans <| (W5_of m ρ c main_arg8 (by decide)).trans <| (W4_of m ρ c main_arg8 (by decide)).trans <| (W3_of m ρ c main_arg8 (by decide)).trans <| (W2_of_ne m ρ c main_arg8 (by decide)).trans <| (W1_of m ρ c main_arg8 (by decide)).trans rfl)
  have e2 : V25 m ρ c (Pipeline.arrRef spec8 2) = Stage.headBias a9 := hbias m ρ c
  rw [e0, e1, e2]
  rfl

end Cert.KernelIdeal.Flow

end
-- ==== Proof.Math.Real.lean ====
/-
  Finite entries. At the exact instance a float is an extended real; an array all of whose entries are
  (images of) real numbers behaves like a real array, and the laws that fail at the infinities
  (distributivity, cancellation) hold for it.
-/
import Mathlib.Data.EReal.Basic
import Mathlib.Data.EReal.Operations

namespace Cert.Math

/-- Every entry of the family is the image of a real number. -/
def AllReal {ι : Type*} (v : ι → EReal) : Prop := ∀ i, ∃ r : ℝ, v i = (r : EReal)

/-- Every entry of the family is the image of a positive real number. -/
def AllPos {ι : Type*} (v : ι → EReal) : Prop := ∀ i, ∃ r : ℝ, 0 < r ∧ v i = (r : EReal)

theorem AllPos.allReal {ι : Type*} {v : ι → EReal} (h : AllPos v) : AllReal v :=
  fun i => let ⟨r, _, hr⟩ := h i; ⟨r, hr⟩

end Cert.Math
-- ==== Proof.KIValue.PreReal.lean ====
/-
  Finite entries from the precondition. The precondition says that, on every device, the conjunction over the float
  argument arrays of "every entry has absolute value below +∞" evaluates to 1. Read back: the conjunction of bits is 1,
  so each conjunct is; a conjunct is a reduction by "and" over all axes, so every compared entry gave 1; an entry's
  comparison is `max x (-x) < ⊤` over the extended reals, which excludes both infinities, so the entry is a real.
-/
import proofs.«131845_j5600637354059_1_alg».proof.Defs
import proofs.«131845_j5600637354059_1_alg».proof.Proof.Gen.Pre_finite_inputs
import proofs.«131845_j5600637354059_1_alg».proof.Proof.Math.Real
import Idealize.ShloMosaic.Lib.ReduceAll
import Idealize.ShloMosaic.Lib.ValueIdx
import Idealize.ShloMosaic.PureOps.Ideal

namespace Cert.KernelIdeal.Pre

open Idealize.ShloMosaic Cert.Math

/-- The rank-0 shape has one index. -/
instance : Subsingleton (⟨0, ![]⟩ : Shape).Idx := ⟨fun a b => funext fun d => d.elim0⟩

/-- An extended real whose absolute value is below `+∞` is a real. -/
theorem real_of_abs_lt_top (x : EReal) (h : max x (-x) < ⊤) : ∃ r : ℝ, x = (r : EReal) := by
  induction x using EReal.rec with
  | bot => simp at h
  | coe r => exact ⟨r, rfl⟩
  | top => simp at h

/-- The single-precision pattern with all exponent bits set and no fraction bit denotes `+∞`. -/
theorem inf_bits : Ideal.ofBits .f32 0x7F800000#32 = (⊤ : EReal) := by
  simp [Ideal.ofBits, Ideal.ieee]

/-- One array, any shape: if "all entries have absolute value below `+∞`" (the reduction by "and" over all axes of the
    entrywise comparison against the broadcast `+∞`) is 1, every entry is a real. -/
theorem allReal_of_all {S : Shape} {axes : List (Fin S.rank)} (x : FVec Ideal S .f32)
    (hb : (⟨0, ![]⟩ : Shape).BroadcastsInDim S (![] : Fin 0 → Fin S.rank)) (hr : S.ReducesTo axes ⟨0, ![]⟩)
    (hu : 0 < (⟨0, ![]⟩ : Shape).numel) (j : (⟨0, ![]⟩ : Shape).Idx)
    (h : Host.reduce IntOp.andi (cmpf .olt (Host.absf x) (broadcastInDim S ![] hb (constant ⟨0, ![]⟩ .f32 0x7F800000#32)))
      (constantI ⟨0, ![]⟩ 1 1#1) hr hu j = 1#1) :
    AllReal x := fun i => by
  have hi := Host.reduce_andi_all _ _ hr hu j h i
  have hlt : max (x i) (-(x i)) < (⊤ : EReal) := by
    have h2 : Ideal.cmp .olt (max (x i) (-(x i))) (Ideal.ofBits .f32 0x7F800000#32) = 1#1 := hi
    rw [inf_bits] at h2
    unfold Ideal.cmp at h2
    by_contra hn
    simp [hn] at h2
  exact real_of_abs_lt_top _ hlt

/-- Under the precondition every float argument array has only real entries, on every device. -/
theorem allReal_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Math.AllReal (m ((c.tc : Thread Cert.KernelIdeal.nD Cert.KernelIdeal.τ).loc Cert.KernelIdeal.main_arg0))
    ∧ Cert.Math.AllReal (m ((c.tc : Thread Cert.KernelIdeal.nD Cert.KernelIdeal.τ).loc Cert.KernelIdeal.main_arg2))
    ∧ Cert.Math.AllReal (m ((c.tc : Thread Cert.KernelIdeal.nD Cert.KernelIdeal.τ).loc Cert.KernelIdeal.main_arg3))
    ∧ Cert.Math.AllReal (m ((c.tc : Thread Cert.KernelIdeal.nD Cert.KernelIdeal.τ).loc Cert.KernelIdeal.main_arg4))
    ∧ Cert.Math.AllReal (m ((c.tc : Thread Cert.KernelIdeal.nD Cert.KernelIdeal.τ).loc Cert.KernelIdeal.main_arg5))
    ∧ Cert.Math.AllReal (m ((c.tc : Thread Cert.KernelIdeal.nD Cert.KernelIdeal.τ).loc Cert.KernelIdeal.main_arg6))
    ∧ Cert.Math.AllReal (m ((c.tc : Thread Cert.KernelIdeal.nD Cert.KernelIdeal.τ).loc Cert.KernelIdeal.main_arg7))
    ∧ Cert.Math.AllReal (m ((c.tc : Thread Cert.KernelIdeal.nD Cert.KernelIdeal.τ).loc Cert.KernelIdeal.main_arg8))
    ∧ Cert.Math.AllReal (m ((c.tc : Thread Cert.KernelIdeal.nD Cert.KernelIdeal.τ).loc Cert.KernelIdeal.main_arg9)) := by
  have h0 := congrFun (h c) ValueIdx.ix0
  dsimp only [Cert.Pre_finite_inputs.fn, Cert.Pre_finite_inputs.fn_part1, Cert.Pre_finite_inputs.fn_part2,
    Idealize.ShloMosaic.andi] at h0
  simp only [IntOp.andi_eq_one] at h0
  obtain ⟨⟨⟨⟨⟨⟨⟨⟨a0, a2⟩, a3⟩, a4⟩, a5⟩, a6⟩, a7⟩, a8⟩, a9⟩ := h0
  exact ⟨allReal_of_all _ _ _ _ _ a0,
    allReal_of_all _ _ _ _ _ a2,
    allReal_of_all _ _ _ _ _ a3,
    allReal_of_all _ _ _ _ _ a4,
    allReal_of_all _ _ _ _ _ a5,
    allReal_of_all _ _ _ _ _ a6,
    allReal_of_all _ _ _ _ _ a7,
    allReal_of_all _ _ _ _ _ a8,
    allReal_of_all _ _ _ _ _ a9⟩

end Cert.KernelIdeal.Pre
-- ==== Proof.Math.BnLaw.lean ====
/-
  The pointwise law joining the two spellings of a normalization layer.

  One entry x of the array, the column's mean μ, its reciprocal standard deviation r, gain g and offset b, all REAL.
  One program folds the statistics into a scale s = g·r and a shift t = b − μ·s and computes x·s + t; the other
  computes ((x − μ)·r)·g + b. Over the reals the two are one polynomial. On the extended reals the same equation holds
  for images of reals, because every sum, difference and product of images of reals is the image of the real sum,
  difference and product. It is FALSE at the infinities, where distributivity fails: with x = 2, μ = 1, r = +∞, g = 1,
  b = 0 the first is 2·(+∞) + (0 − 1·(+∞)) = +∞ + (−∞), which the extended reals' convention makes −∞, while the second
  is ((2 − 1)·(+∞))·1 + 0 = +∞ (the example after `bn_affine`). That is why every operand is required to be real.

  The positive part max(·, 0) — or the maximum with any fixed value z — is applied to both sides alike.
-/
import Mathlib.Data.EReal.Basic
import Mathlib.Data.EReal.Operations
import Mathlib.Tactic.Ring
import Idealize.ShloMosaic.PureOps.Ideal

namespace Cert.Math

/-- The affine parts agree: x·(g·r) + (b − μ·(g·r)) = ((x − μ)·r)·g + b for real x, μ, r, g, b, as extended reals. -/
theorem bn_affine (x μ r g b : ℝ) :
    (x : EReal) * ((g : EReal) * r) + ((b : EReal) - (μ : EReal) * ((g : EReal) * r))
      = (((x : EReal) - μ) * r) * g + b := by
  simp only [← EReal.coe_mul, ← EReal.coe_sub, ← EReal.coe_add]
  exact congrArg _ (by ring)

/-- At an infinite r the two sides differ: x = 2, μ = 1, r = +∞, g = 1, b = 0 give −∞ and +∞. -/
example : (2 : EReal) * ((1 : EReal) * ⊤) + ((0 : EReal) - (1 : EReal) * ((1 : EReal) * ⊤))
    ≠ (((2 : EReal) - 1) * ⊤) * 1 + 0 := by
  have h2 : (2 : EReal) * ⊤ = ⊤ := EReal.mul_top_of_pos (by norm_num)
  have h1 : ((2 : EReal) - 1) = 1 := by
    rw [show (2 : EReal) = ((2 : ℝ) : EReal) from rfl, ← EReal.coe_one, ← EReal.coe_sub]; norm_num
  rw [one_mul, one_mul, h2, h1, one_mul, mul_one, add_zero, zero_sub, EReal.neg_top, EReal.add_bot]
  exact bot_ne_top

/-- The law with the positive part: max(x·(g·r) + (b − μ·(g·r)), 0) = max(((x − μ)·r)·g + b, 0). -/
theorem bn_law (x μ r g b : ℝ) :
    max ((x : EReal) * ((g : EReal) * r) + ((b : EReal) - (μ : EReal) * ((g : EReal) * r))) 0
      = max ((((x : EReal) - μ) * r) * g + b) 0 := by
  rw [bn_affine]

/-- The same against any fixed value z in place of 0. -/
theorem bn_law_max (x μ r g b : ℝ) (z : EReal) :
    max ((x : EReal) * ((g : EReal) * r) + ((b : EReal) - (μ : EReal) * ((g : EReal) * r))) z
      = max ((((x : EReal) - μ) * r) * g + b) z := by
  rw [bn_affine]

/-- The same for extended reals KNOWN to be images of reals (the form an array-level proof has: each operand comes with
    a real witness). -/
theorem bn_law_of_real {X U R G B : EReal} (z : EReal)
    (hX : ∃ x : ℝ, X = (x : EReal)) (hU : ∃ u : ℝ, U = (u : EReal)) (hR : ∃ r : ℝ, R = (r : EReal))
    (hG : ∃ g : ℝ, G = (g : EReal)) (hB : ∃ b : ℝ, B = (b : EReal)) :
    max (X * (G * R) + (B - U * (G * R))) z = max (((X - U) * R) * G + B) z := by
  obtain ⟨x, rfl⟩ := hX; obtain ⟨u, rfl⟩ := hU; obtain ⟨r, rfl⟩ := hR; obtain ⟨g, rfl⟩ := hG; obtain ⟨b, rfl⟩ := hB
  exact bn_law_max x u r g b z

open Idealize.ShloMosaic in
/-- The law through the exact instance's operation names, in the two programs' association: one multiplies x by
    s = g·r, adds t = b − μ·s and takes the maximum with z; the other subtracts μ, multiplies by r, then by g, adds b and
    takes the maximum with z. -/
theorem bn_law_ops {X U R G B : Ideal .f32} (z : Ideal .f32)
    (hX : ∃ x : ℝ, X = (x : EReal)) (hU : ∃ u : ℝ, U = (u : EReal)) (hR : ∃ r : ℝ, R = (r : EReal))
    (hG : ∃ g : ℝ, G = (g : EReal)) (hB : ∃ b : ℝ, B = (b : EReal)) :
    FloatOps.maximumf (FloatOps.addf (FloatOps.mulf X (FloatOps.mulf G R)) (FloatOps.subf B (FloatOps.mulf U (FloatOps.mulf G R)))) z
      = FloatOps.maximumf (FloatOps.addf (FloatOps.mulf (FloatOps.mulf (FloatOps.subf X U) R) G) B) z :=
  bn_law_of_real z hX hU hR hG hB

end Cert.Math
-- ==== Proof.Math.Nonneg.lean ====
/-
  Nonnegative entries. A family all of whose entries are images of nonnegative reals: what a sum of squares, and a
  quotient of one by a positive count, is; adding a positive real to such an entry gives the image of a positive real.
-/
import proofs.«131845_j5600637354059_1_alg».proof.Proof.Math.Real

namespace Cert.Math

/-- Every entry of the family is the image of a nonnegative real number. -/
def AllNonneg {ι : Type*} (v : ι → EReal) : Prop := ∀ i, ∃ r : ℝ, 0 ≤ r ∧ v i = (r : EReal)

theorem AllNonneg.allReal {ι : Type*} {v : ι → EReal} (h : AllNonneg v) : AllReal v :=
  fun i => let ⟨r, _, hr⟩ := h i; ⟨r, hr⟩

theorem AllPos.allNonneg {ι : Type*} {v : ι → EReal} (h : AllPos v) : AllNonneg v :=
  fun i => let ⟨r, h0, hr⟩ := h i; ⟨r, h0.le, hr⟩

/-- Re-indexing keeps real entries: every entry of `fun j => v (f j)` is an entry of `v`. -/
theorem AllReal.comp {ι κ : Type*} {v : ι → EReal} (h : AllReal v) (f : κ → ι) : AllReal (fun j => v (f j)) :=
  fun j => h (f j)

theorem AllPos.comp {ι κ : Type*} {v : ι → EReal} (h : AllPos v) (f : κ → ι) : AllPos (fun j => v (f j)) :=
  fun j => h (f j)

theorem AllNonneg.comp {ι κ : Type*} {v : ι → EReal} (h : AllNonneg v) (f : κ → ι) : AllNonneg (fun j => v (f j)) :=
  fun j => h (f j)

end Cert.Math
-- ==== Proof.Math.ClosureLayout.lean ====
/-
  Real entries are preserved by every re-indexing.

  A broadcast, a change of shape, a slice, a concatenation and a gather only MOVE elements: every entry of the
  result is an entry of an operand (for a gather, whatever the start indices are: they are clamped into the operand).
  So a property of every entry of the operand — being the image of a real, of a positive real, of a nonnegative
  real — is a property of every entry of the result.
-/
import proofs.«131845_j5600637354059_1_alg».proof.Proof.Math.Nonneg
import Idealize.ShloMosaic.PureOps.Ideal

namespace Cert.Math

open Idealize.ShloMosaic

variable {s t : Shape} {φ : FTy}

/-! ## A scalar broadcast to every index -/

theorem AllReal.broadcast (t : Shape) {x : Ideal φ} (hx : ∃ r : ℝ, x = (r : EReal)) :
    AllReal (Idealize.ShloMosaic.broadcast t x) := fun _ => hx

/-! ## `stablehlo.broadcast_in_dim` -/

theorem AllReal.broadcastInDim {x : FVec Ideal s φ} (hx : AllReal x) (dims : Fin s.rank → Fin t.rank)
    (h : s.BroadcastsInDim t dims) : AllReal (Idealize.ShloMosaic.broadcastInDim t dims h x) := fun _ => hx _

theorem AllPos.broadcastInDim {x : FVec Ideal s φ} (hx : AllPos x) (dims : Fin s.rank → Fin t.rank)
    (h : s.BroadcastsInDim t dims) : AllPos (Idealize.ShloMosaic.broadcastInDim t dims h x) := fun _ => hx _

theorem AllNonneg.broadcastInDim {x : FVec Ideal s φ} (hx : AllNonneg x) (dims : Fin s.rank → Fin t.rank)
    (h : s.BroadcastsInDim t dims) : AllNonneg (Idealize.ShloMosaic.broadcastInDim t dims h x) := fun _ => hx _

/-! ## `vector.broadcast` of a vector -/

theorem AllReal.broadcastTo {x : FVec Ideal s φ} (hx : AllReal x) (h : s.Broadcasts t) :
    AllReal (Idealize.ShloMosaic.broadcastTo t x h) := fun _ => hx _

theorem AllPos.broadcastTo {x : FVec Ideal s φ} (hx : AllPos x) (h : s.Broadcasts t) :
    AllPos (Idealize.ShloMosaic.broadcastTo t x h) := fun _ => hx _

/-! ## A change of shape (`vector.shape_cast`; a `stablehlo.reshape` writes this function of its operand) -/

theorem AllReal.shapeCast {x : FVec Ideal s φ} (hx : AllReal x) (h : s.ShapeCasts t) :
    AllReal (Idealize.ShloMosaic.shapeCast t x h) := fun _ => hx _

theorem AllPos.shapeCast {x : FVec Ideal s φ} (hx : AllPos x) (h : s.ShapeCasts t) :
    AllPos (Idealize.ShloMosaic.shapeCast t x h) := fun _ => hx _

/-! ## A slice -/

theorem AllReal.extractStridedSlice {x : FVec Ideal s φ} (hx : AllReal x) (off : Fin s.rank → Nat) (h : s.Slices off t) :
    AllReal (Idealize.ShloMosaic.extractStridedSlice t off x h) := fun _ => hx _

theorem AllPos.extractStridedSlice {x : FVec Ideal s φ} (hx : AllPos x) (off : Fin s.rank → Nat) (h : s.Slices off t) :
    AllPos (Idealize.ShloMosaic.extractStridedSlice t off x h) := fun _ => hx _

/-! ## A gather, at ANY start indices: each result element is the operand's at some index -/

theorem AllReal.gather {si : Shape} {w : Nat} {x : FVec Ideal s φ} (hx : AllReal x) (d : GatherDims s si t) (idx : IVec si w) :
    AllReal (Host.gather d x idx) := fun _ => hx _

theorem AllPos.gather {si : Shape} {w : Nat} {x : FVec Ideal s φ} (hx : AllPos x) (d : GatherDims s si t) (idx : IVec si w) :
    AllPos (Host.gather d x idx) := fun _ => hx _

theorem AllNonneg.gather {si : Shape} {w : Nat} {x : FVec Ideal s φ} (hx : AllNonneg x) (d : GatherDims s si t) (idx : IVec si w) :
    AllNonneg (Host.gather d x idx) := fun _ => hx _

/-! ## A concatenation: each result element is an element of one of the pieces -/

theorem AllReal.concatenate (a : Fin t.rank) (xs : List ((s : Shape) × FVec Ideal s φ))
    (h : Shape.Concatenates (xs.map (·.1)) t a) (hx : ∀ p ∈ xs, AllReal p.2) :
    AllReal (Idealize.ShloMosaic.concatenate t a xs h) := by
  intro j
  unfold Idealize.ShloMosaic.concatenate
  exact hx _ (List.getElem_mem _) _

end Cert.Math
-- ==== Proof.Math.ClosurePointwise.lean ====
/-
  Real entries are preserved by the pointwise operations.

  At the exact instance a product, sum, difference and maximum of two arrays is the extended reals' operation entry by
  entry, and the image of the reals is closed under each: the product of the images of x and y is the image of x·y, and
  so on. A quotient by the image of a NONZERO real is the product with the image of its reciprocal. The reciprocal square
  root of the image of a POSITIVE real r is the image of 1/√r, again positive. A change of format is the identity.
-/
import proofs.«131845_j5600637354059_1_alg».proof.Proof.Math.Nonneg
import Idealize.ShloMosaic.PureOps.Ideal

namespace Cert.Math

open Idealize.ShloMosaic

variable {s : Shape} {φ : FTy}

/-! ## Product, sum, difference, maximum -/

theorem AllReal.mulf {a b : FVec Ideal s φ} (ha : AllReal a) (hb : AllReal b) : AllReal (Idealize.ShloMosaic.mulf a b) := fun i => by
  obtain ⟨x, hx⟩ := ha i; obtain ⟨y, hy⟩ := hb i
  exact ⟨x * y, by show a i * b i = _; rw [hx, hy, EReal.coe_mul]⟩

theorem AllReal.addf {a b : FVec Ideal s φ} (ha : AllReal a) (hb : AllReal b) : AllReal (Idealize.ShloMosaic.addf a b) := fun i => by
  obtain ⟨x, hx⟩ := ha i; obtain ⟨y, hy⟩ := hb i
  exact ⟨x + y, by show a i + b i = _; rw [hx, hy, EReal.coe_add]⟩

theorem AllReal.subf {a b : FVec Ideal s φ} (ha : AllReal a) (hb : AllReal b) : AllReal (Idealize.ShloMosaic.subf a b) := fun i => by
  obtain ⟨x, hx⟩ := ha i; obtain ⟨y, hy⟩ := hb i
  exact ⟨x - y, by show a i - b i = _; rw [hx, hy, EReal.coe_sub]⟩

theorem AllReal.maximumf {a b : FVec Ideal s φ} (ha : AllReal a) (hb : AllReal b) : AllReal (Idealize.ShloMosaic.maximumf a b) := fun i => by
  obtain ⟨x, hx⟩ := ha i; obtain ⟨y, hy⟩ := hb i
  exact ⟨max x y, by show max (a i) (b i) = _; rw [hx, hy]; exact (EReal.coe_strictMono.monotone.map_max).symm⟩

/-- A product of positive entries is positive. -/
theorem AllPos.mulf {a b : FVec Ideal s φ} (ha : AllPos a) (hb : AllPos b) : AllPos (Idealize.ShloMosaic.mulf a b) := fun i => by
  obtain ⟨x, hx0, hx⟩ := ha i; obtain ⟨y, hy0, hy⟩ := hb i
  exact ⟨x * y, mul_pos hx0 hy0, by show a i * b i = _; rw [hx, hy, EReal.coe_mul]⟩

/-- A square (the product of an array of real entries with itself) has nonnegative entries. -/
theorem AllReal.mulf_self {a : FVec Ideal s φ} (ha : AllReal a) : AllNonneg (Idealize.ShloMosaic.mulf a a) := fun i => by
  obtain ⟨x, hx⟩ := ha i
  exact ⟨x * x, mul_self_nonneg x, by show a i * a i = _; rw [hx, EReal.coe_mul]⟩

/-- A nonnegative entry plus a positive one is positive. -/
theorem AllNonneg.addf_pos {a b : FVec Ideal s φ} (ha : AllNonneg a) (hb : AllPos b) : AllPos (Idealize.ShloMosaic.addf a b) := fun i => by
  obtain ⟨x, hx0, hx⟩ := ha i; obtain ⟨y, hy0, hy⟩ := hb i
  exact ⟨x + y, by linarith, by show a i + b i = _; rw [hx, hy, EReal.coe_add]⟩

/-! ## The host's quotient -/

/-- A quotient of real entries by NONZERO real entries has real entries. -/
theorem AllReal.hostDivf {x y : FVec Ideal s φ} (hx : AllReal x) (hy : AllReal y) (h0 : ∀ i, y i ≠ 0) :
    AllReal (Host.divf x y) := fun i => by
  obtain ⟨a, ha⟩ := hx i; obtain ⟨b, hb⟩ := hy i
  have hb0 : b ≠ 0 := fun h => h0 i (by rw [hb, h, EReal.coe_zero])
  refine ⟨a * (1 / b), ?_⟩
  show Ideal.div (x i) (y i) = _
  rw [ha, hb, Ideal.div_coe hb0, EReal.coe_mul]

/-- A quotient of real entries by positive entries has real entries. -/
theorem AllReal.hostDivf_pos {x y : FVec Ideal s φ} (hx : AllReal x) (hy : AllPos y) : AllReal (Host.divf x y) :=
  hx.hostDivf hy.allReal fun i h => by
    obtain ⟨b, hb0, hb⟩ := hy i
    rw [hb] at h
    exact hb0.ne' (by exact_mod_cast h)

/-- A quotient of nonnegative entries by positive entries has nonnegative entries. -/
theorem AllNonneg.hostDivf_pos {x y : FVec Ideal s φ} (hx : AllNonneg x) (hy : AllPos y) : AllNonneg (Host.divf x y) := fun i => by
  obtain ⟨a, ha0, ha⟩ := hx i; obtain ⟨b, hb0, hb⟩ := hy i
  refine ⟨a * (1 / b), mul_nonneg ha0 (by positivity), ?_⟩
  show Ideal.div (x i) (y i) = _
  rw [ha, hb, Ideal.div_coe hb0.ne', EReal.coe_mul]

/-! ## The host's reciprocal square root -/

/-- The reciprocal square root of positive entries has positive entries: at the image of r > 0 it is the image of 1/√r. -/
theorem AllPos.hostRsqrt {v : FVec Ideal s φ} (hv : AllPos v) : AllPos (Host.rsqrt v) := fun i => by
  obtain ⟨r, hr, hvr⟩ := hv i
  refine ⟨(Real.sqrt r)⁻¹, inv_pos.mpr (Real.sqrt_pos.mpr hr), ?_⟩
  show Ideal.rsqrt (v i) = _
  rw [hvr, Ideal.rsqrt_coe, if_neg (not_lt.mpr hr.le), if_neg hr.ne']

/-! ## Changes of format: the identity -/

theorem AllReal.truncf {ψ : FTy} {a : FVec Ideal s φ} (ha : AllReal a) (h : ψ.bits < φ.bits) :
    AllReal (Idealize.ShloMosaic.truncf ψ a h : FVec Ideal s ψ) := fun i => ha i

theorem AllReal.extf {ψ : FTy} {a : FVec Ideal s φ} (ha : AllReal a) (h : φ.bits < ψ.bits) :
    AllReal (Idealize.ShloMosaic.extf ψ a h : FVec Ideal s ψ) := fun i => ha i

end Cert.Math
-- ==== Proof.Math.ClosureSum.lean ====
/-
  Real entries are preserved by the operations that SUM.

  At the exact instance a host reduction is its initial value plus the finite sum of the operand's elements that reduce
  to each index; an accumulating scatter is the operand's element plus the finite sum of the update elements that land
  on it; a contraction (the kernel's matrix product, the host's dot) is the accumulator plus the finite sum of the
  products over the contracted index. A finite sum of images of reals is the image of the real sum (induction on the
  index set), so each of these has real entries when its operands do; and a finite sum of images of nonnegative reals
  is the image of a nonnegative real.
-/
import proofs.«131845_j5600637354059_1_alg».proof.Proof.Math.Nonneg
import Idealize.ShloMosaic.PureOps.Ideal
import Idealize.ShloMosaic.PureOps.Ideal.Laws

open scoped BigOperators

namespace Cert.Math

open Idealize.ShloMosaic

/-! ## Finite sums of images of reals -/

/-- A finite sum of images of reals is the image of a real. -/
theorem exists_real_sum {ι : Type*} (S : Finset ι) (f : ι → EReal) (h : ∀ i ∈ S, ∃ r : ℝ, f i = (r : EReal)) :
    ∃ r : ℝ, ∑ i ∈ S, f i = (r : EReal) := by
  classical
  induction S using Finset.induction_on with
  | empty => exact ⟨0, by simp⟩
  | insert a S ha ih =>
    obtain ⟨x, hx⟩ := h a (Finset.mem_insert_self a S)
    obtain ⟨y, hy⟩ := ih fun i hi => h i (Finset.mem_insert_of_mem hi)
    exact ⟨x + y, by rw [Finset.sum_insert ha, hx, hy, EReal.coe_add]⟩

/-- A finite sum of images of nonnegative reals is the image of a nonnegative real. -/
theorem exists_nonneg_sum {ι : Type*} (S : Finset ι) (f : ι → EReal) (h : ∀ i ∈ S, ∃ r : ℝ, 0 ≤ r ∧ f i = (r : EReal)) :
    ∃ r : ℝ, 0 ≤ r ∧ ∑ i ∈ S, f i = (r : EReal) := by
  classical
  induction S using Finset.induction_on with
  | empty => exact ⟨0, le_refl 0, by simp⟩
  | insert a S ha ih =>
    obtain ⟨x, hx0, hx⟩ := h a (Finset.mem_insert_self a S)
    obtain ⟨y, hy0, hy⟩ := ih fun i hi => h i (Finset.mem_insert_of_mem hi)
    exact ⟨x + y, add_nonneg hx0 hy0, by rw [Finset.sum_insert ha, hx, hy, EReal.coe_add]⟩

/-- The image of a real plus a finite sum of images of reals is the image of a real. -/
theorem exists_real_add_sum {ι : Type*} (a : EReal) (S : Finset ι) (f : ι → EReal) (ha : ∃ r : ℝ, a = (r : EReal))
    (h : ∀ i ∈ S, ∃ r : ℝ, f i = (r : EReal)) : ∃ r : ℝ, a + ∑ i ∈ S, f i = (r : EReal) := by
  obtain ⟨x, hx⟩ := ha
  obtain ⟨y, hy⟩ := exists_real_sum S f h
  exact ⟨x + y, by rw [hx, hy, EReal.coe_add]⟩

/-- The image of a nonnegative real plus a finite sum of such is the image of a nonnegative real. -/
theorem exists_nonneg_add_sum {ι : Type*} (a : EReal) (S : Finset ι) (f : ι → EReal) (ha : ∃ r : ℝ, 0 ≤ r ∧ a = (r : EReal))
    (h : ∀ i ∈ S, ∃ r : ℝ, 0 ≤ r ∧ f i = (r : EReal)) : ∃ r : ℝ, 0 ≤ r ∧ a + ∑ i ∈ S, f i = (r : EReal) := by
  obtain ⟨x, hx0, hx⟩ := ha
  obtain ⟨y, hy0, hy⟩ := exists_nonneg_sum S f h
  exact ⟨x + y, add_nonneg hx0 hy0, by rw [hx, hy, EReal.coe_add]⟩

/-! ## The host's sum over axes -/

/-- A host sum of real entries from a real initial value has real entries. -/
theorem AllReal.hostReduceAdd {s t u : Shape} {φ : FTy} {axes : List (Fin s.rank)} {x : FVec Ideal s φ} (hx : AllReal x)
    {init : u.Idx → Ideal φ} (hi : AllReal init) (h : s.ReducesTo axes t) (hu : 0 < u.numel) :
    AllReal (Host.reduceAdd (F := Ideal) x init h hu) := by
  intro j
  unfold Host.reduceAdd
  rw [Ideal.hostReduceAdd_def]
  unfold Ideal.hostReduceAdd
  exact exists_real_add_sum _ _ _ (hi _) (fun i _ => hx i)

/-- A host sum of nonnegative entries from a nonnegative initial value has nonnegative entries. -/
theorem AllNonneg.hostReduceAdd {s t u : Shape} {φ : FTy} {axes : List (Fin s.rank)} {x : FVec Ideal s φ} (hx : AllNonneg x)
    {init : u.Idx → Ideal φ} (hi : AllNonneg init) (h : s.ReducesTo axes t) (hu : 0 < u.numel) :
    AllNonneg (Host.reduceAdd (F := Ideal) x init h hu) := by
  intro j
  unfold Host.reduceAdd
  rw [Ideal.hostReduceAdd_def]
  unfold Ideal.hostReduceAdd
  exact exists_nonneg_add_sum _ _ _ (hi _) (fun i _ => hx i)

/-! ## The host's accumulating scatter, at ANY scatter indices -/

/-- An accumulating scatter of real updates into a real operand has real entries. -/
theorem AllReal.hostScatterAdd {s si su : Shape} {w : Nat} {φ : FTy} (d : ScatterDims s si su) {x : FVec Ideal s φ}
    (hx : AllReal x) (idx : IVec si w) {upd : FVec Ideal su φ} (hu : AllReal upd) :
    AllReal (Host.scatterAdd (F := Ideal) d x idx upd) := by
  intro i
  unfold Host.scatterAdd
  rw [Ideal.hostScatterAdd_def]
  unfold Ideal.hostScatterAdd
  exact exists_real_add_sum _ _ _ (hx i) (fun j _ => hu j)

/-- An accumulating scatter of nonnegative updates into a nonnegative operand has nonnegative entries. -/
theorem AllNonneg.hostScatterAdd {s si su : Shape} {w : Nat} {φ : FTy} (d : ScatterDims s si su) {x : FVec Ideal s φ}
    (hx : AllNonneg x) (idx : IVec si w) {upd : FVec Ideal su φ} (hu : AllNonneg upd) :
    AllNonneg (Host.scatterAdd (F := Ideal) d x idx upd) := by
  intro i
  unfold Host.scatterAdd
  rw [Ideal.hostScatterAdd_def]
  unfold Ideal.hostScatterAdd
  exact exists_nonneg_add_sum _ _ _ (hx i) (fun j _ => hu j)

/-! ## Contractions -/

/-- A product of two images of reals is the image of a real. -/
theorem exists_real_mul {a b : EReal} (ha : ∃ r : ℝ, a = (r : EReal)) (hb : ∃ r : ℝ, b = (r : EReal)) :
    ∃ r : ℝ, a * b = (r : EReal) := by
  obtain ⟨x, hx⟩ := ha; obtain ⟨y, hy⟩ := hb
  exact ⟨x * y, by rw [hx, hy, EReal.coe_mul]⟩

/-- The kernel's matrix product of real operands onto a real accumulator has real entries. -/
theorem AllReal.matmul {sl sr so : Shape} {φ₁ φ₂ : FTy} (d : DotDims sl sr so) (prec : Option ContractPrecision)
    {lhs : FVec Ideal sl φ₁} (hl : AllReal lhs) {rhs : FVec Ideal sr φ₂} (hr : AllReal rhs)
    {acc : FVec Ideal so .f32} (ha : AllReal acc) : AllReal (Idealize.ShloMosaic.matmul d prec lhs rhs acc) := by
  intro j
  show ∃ r : ℝ, FloatOps.matmul d prec lhs rhs acc j = (r : EReal)
  rw [Ideal.matmul_apply]
  exact exists_real_add_sum _ _ _ (ha j) (fun k _ => exists_real_mul (hl _) (hr _))

/-- The same onto the zero accumulator a kernel passes. -/
theorem AllReal.matmul_zero {sl sr so : Shape} {φ₁ φ₂ : FTy} (d : DotDims sl sr so) (prec : Option ContractPrecision)
    {lhs : FVec Ideal sl φ₁} (hl : AllReal lhs) {rhs : FVec Ideal sr φ₂} (hr : AllReal rhs) :
    AllReal (Idealize.ShloMosaic.matmul d prec lhs rhs (constant (F := Ideal) so .f32 0x00000000#32)) :=
  AllReal.matmul d prec hl hr fun _ => ⟨0, by show Ideal.ofBits .f32 0x00000000#32 = _; rw [Ideal.ofBits_zero_f32, EReal.coe_zero]⟩

/-- The host's dot of real operands has real entries. -/
theorem AllReal.dotGeneral {sl sr so : Shape} {φ₁ φ₂ : FTy} (d : DotDims sl sr so) (prec : Option ContractPrecision)
    {lhs : FVec Ideal sl φ₁} (hl : AllReal lhs) {rhs : FVec Ideal sr φ₂} (hr : AllReal rhs) :
    AllReal (Host.dotGeneral d prec lhs rhs) := by
  intro j
  show ∃ r : ℝ, FloatOps.dotGeneral d prec .single lhs rhs j = (r : EReal)
  rw [Ideal.dotGeneral_apply]
  exact exists_real_sum _ _ (fun k _ => exists_real_mul (hl _) (hr _))

end Cert.Math
-- ==== Proof.Math.Consts.lean ====
/-
  The four single-precision words the programs write as constants, as extended reals.

  0x00000000 is 0; 0x3F800000 is 1 (exponent field 127, no fraction); 0x47C35000 is 100000 (exponent field 143, fraction
  field 4411392: (2^23 + 4411392)·2^(143 − 127 − 23) = 12800000/128); 0x3727C5AC is (2^23 + 2606508)·2^(110 − 127 − 23) =
  10995116·2^(−40), the single-precision number nearest 10^(−5): a positive real, which is all that is used of it.
-/
import proofs.«131845_j5600637354059_1_alg».proof.Proof.Math.Nonneg
import Idealize.ShloMosaic.PureOps.Ideal
import Idealize.ShloMosaic.PureOps.Ideal.Laws

namespace Cert.Math

open Idealize.ShloMosaic

theorem ofBits_zero_f32 : Ideal.ofBits .f32 0x00000000#32 = ((0 : ℝ) : EReal) := by
  rw [Ideal.ofBits_zero_f32, EReal.coe_zero]

theorem ofBits_one_f32 : Ideal.ofBits .f32 0x3F800000#32 = ((1 : ℝ) : EReal) := by
  simp [Ideal.ofBits, Ideal.ieee, -EReal.coe_mul]
  norm_num

theorem ofBits_1e5_f32 : Ideal.ofBits .f32 0x47C35000#32 = ((100000 : ℝ) : EReal) := by
  simp [Ideal.ofBits, Ideal.ieee, -EReal.coe_mul]
  norm_num

theorem ofBits_eps_f32_pos : ∃ e : ℝ, 0 < e ∧ Ideal.ofBits .f32 0x3727C5AC#32 = (e : EReal) := by
  simp [Ideal.ofBits, Ideal.ieee, -EReal.coe_mul]

variable (s : Shape)

/-- The zero splat has real (indeed nonnegative) entries. -/
theorem AllNonneg.constant_zero : AllNonneg (constant (F := Ideal) s .f32 0x00000000#32) :=
  fun _ => ⟨0, le_refl 0, ofBits_zero_f32⟩
theorem AllReal.constant_zero : AllReal (constant (F := Ideal) s .f32 0x00000000#32) := (AllNonneg.constant_zero s).allReal

/-- The splat of 1 has positive entries. -/
theorem AllPos.constant_one : AllPos (constant (F := Ideal) s .f32 0x3F800000#32) :=
  fun _ => ⟨1, one_pos, ofBits_one_f32⟩
theorem AllReal.constant_one : AllReal (constant (F := Ideal) s .f32 0x3F800000#32) := (AllPos.constant_one s).allReal

/-- The splat of 100000 has positive entries. -/
theorem AllPos.constant_1e5 : AllPos (constant (F := Ideal) s .f32 0x47C35000#32) :=
  fun _ => ⟨100000, by norm_num, ofBits_1e5_f32⟩
theorem AllReal.constant_1e5 : AllReal (constant (F := Ideal) s .f32 0x47C35000#32) := (AllPos.constant_1e5 s).allReal

/-- The splat of the word 0x3727C5AC has positive entries. -/
theorem AllPos.constant_eps : AllPos (constant (F := Ideal) s .f32 0x3727C5AC#32) :=
  fun _ => ofBits_eps_f32_pos
theorem AllReal.constant_eps : AllReal (constant (F := Ideal) s .f32 0x3727C5AC#32) := (AllPos.constant_eps s).allReal

end Cert.Math
-- ==== Proof.Math.Variance.lean ====
/-
  The batch statistics of an array of real entries are real, the variance nonnegative, the reciprocal standard
  deviation positive.

  For an array P the host computes, column by column, the mean  μ = (0 + Σ_i P(i,·)) / n  and — in jnp.var's spelling —
  the variance  v = (0 + Σ_i (P(i,·) − μ)·(P(i,·) − μ)) / (n − c)  where n is the word for 100000 and c an integer
  correction (here 0) converted to a float, the whole selected against a not-a-number filler on the test n − c > 0.
  With c = 0 the divisor is the image of 100000 − 0 = 100000 > 0, so the test holds at every index and the selection is
  its first branch. If every entry of P is the image of a real then: each sum is the image of a real, so μ is; P − μ
  is; its square is the image of a NONNEGATIVE real; the sum of those is; its quotient by a positive real is. Adding the
  positive ε to a nonnegative real gives a positive real, whose reciprocal square root is a positive real.

  The statements take every shape and every piece of shape evidence as a variable, so that they apply to either
  program's spelling of these operations (the operations only move or combine entries; nothing here reads a
  coordinate).
-/
import proofs.«131845_j5600637354059_1_alg».proof.Proof.Math.ClosureLayout
import proofs.«131845_j5600637354059_1_alg».proof.Proof.Math.ClosurePointwise
import proofs.«131845_j5600637354059_1_alg».proof.Proof.Math.ClosureSum
import proofs.«131845_j5600637354059_1_alg».proof.Proof.Math.Consts
import Idealize.ShloMosaic.Lib.ValueIdx

noncomputable section

namespace Cert.Math

open Idealize.ShloMosaic Idealize.ShloMosaic.ValueIdx

section Stats
variable {sP sR sR1 sS : Shape} {axes : List (Fin sP.rank)}
  (red : sP.ReducesTo axes sR) (hS : 0 < sS.numel)
  {d1 : Fin sR.rank → Fin sR1.rank} (b1 : sR.BroadcastsInDim sR1 d1)
  {d2 : Fin sS.rank → Fin sR1.rank} (b2 : sS.BroadcastsInDim sR1 d2)
  {d3 : Fin sR1.rank → Fin sP.rank} (b3 : sR1.BroadcastsInDim sP d3)
  {d4 : Fin sS.rank → Fin sR.rank} (b4 : sS.BroadcastsInDim sR d4)

/-! ## The mean -/

/-- The column sums of an array of real entries, from the zero word, are real. -/
theorem colsum_allReal {P : FVec Ideal sP .f32} (hP : AllReal P) :
    AllReal (Host.reduceAdd (F := Ideal) P (constant (F := Ideal) sS .f32 0x00000000#32) red hS) :=
  hP.hostReduceAdd (AllReal.constant_zero sS) red hS

/-- The mean as the programs' main function writes it — the column sums divided by the broadcast of the word for
    100000 — is real. -/
theorem mean_allReal {P : FVec Ideal sP .f32} (hP : AllReal P) :
    AllReal (Host.divf (F := Ideal) (Host.reduceAdd (F := Ideal) P (constant (F := Ideal) sS .f32 0x00000000#32) red hS)
      (broadcastInDim sR d4 b4 (constant (F := Ideal) sS .f32 0x47C35000#32))) :=
  (colsum_allReal red hS hP).hostDivf_pos ((AllPos.constant_1e5 sS).broadcastInDim d4 b4)

/-! ## The variance, in jnp.var's spelling -/

/-- The count less the correction: the word for 100000 minus the integer `c` converted to a float. -/
def varCount (c : IVec sS 32) : FVec Ideal sS .f32 :=
  subf (constant (F := Ideal) sS .f32 0x47C35000#32) (sitofp .f32 c)

/-- The deviations from the mean: P less the broadcast of (column sums, laid out as one row, divided by the row of the
    word for 100000). -/
def varDev (P : FVec Ideal sP .f32) : FVec Ideal sP .f32 :=
  subf P (broadcastInDim sP d3 b3
    (Host.divf (F := Ideal)
      (broadcastInDim sR1 d1 b1 (Host.reduceAdd (F := Ideal) P (constant (F := Ideal) sS .f32 0x00000000#32) red hS))
      (broadcastInDim sR1 d2 b2 (constant (F := Ideal) sS .f32 0x47C35000#32))))

/-- The quotient: the column sums of the squared deviations divided by the broadcast of the count. -/
def varQuot (P : FVec Ideal sP .f32) (c : IVec sS 32) : FVec Ideal sR .f32 :=
  Host.divf (F := Ideal)
    (Host.reduceAdd (F := Ideal) (mulf (varDev red hS b1 b2 b3 P) (varDev red hS b1 b2 b3 P))
      (constant (F := Ideal) sS .f32 0x00000000#32) red hS)
    (broadcastInDim sR d4 b4 (varCount c))

/-- jnp.var's value: the quotient where the count is above zero, else the filler word 0x7FC00000. -/
def varTerm (P : FVec Ideal sP .f32) (c : IVec sS 32) : FVec Ideal sR .f32 :=
  select (broadcastInDim sR d4 b4 (cmpf .ogt (varCount c) (constant (F := Ideal) sS .f32 0x00000000#32)))
    (varQuot red hS b1 b2 b3 b4 P c)
    (broadcastInDim sR d4 b4 (constant (F := Ideal) sS .f32 0x7FC00000#32))

/-- With the correction 0 the count is the image of 100000 at every index. -/
theorem varCount_apply {c : IVec sS 32} (hc : ∀ k, c k = 0#32) (k : sS.Idx) :
    varCount c k = ((100000 : ℝ) : EReal) := by
  show Ideal.ofBits .f32 0x47C35000#32 - (((c k).toInt : ℝ) : EReal) = _
  rw [ofBits_1e5_f32, hc k, ← EReal.coe_sub]
  norm_num

theorem varCount_allPos {c : IVec sS 32} (hc : ∀ k, c k = 0#32) : AllPos (varCount c) :=
  fun k => ⟨100000, by norm_num, varCount_apply hc k⟩

/-- … so the test "count above zero" holds at every index. -/
theorem varCount_gt {c : IVec sS 32} (hc : ∀ k, c k = 0#32) (k : sS.Idx) :
    cmpf .ogt (varCount c) (constant (F := Ideal) sS .f32 0x00000000#32) k = 1#1 := by
  show Ideal.cmp .ogt (varCount c k) (Ideal.ofBits .f32 0x00000000#32) = 1#1
  rw [varCount_apply hc k, Ideal.ofBits_zero_f32]
  have h : (0 : EReal) < ((100000 : ℝ) : EReal) := EReal.coe_pos.mpr (by norm_num)
  simp [Ideal.cmp, h]

/-- … and jnp.var's value is the quotient. -/
theorem varTerm_eq (P : FVec Ideal sP .f32) {c : IVec sS 32} (hc : ∀ k, c k = 0#32) :
    varTerm red hS b1 b2 b3 b4 P c = varQuot red hS b1 b2 b3 b4 P c := by
  funext j
  show Scalar.select (cmpf .ogt (varCount c) (constant (F := Ideal) sS .f32 0x00000000#32) _) _ _ = _
  rw [varCount_gt hc]
  exact select_one _ _

/-- The deviations of an array of real entries are real. -/
theorem varDev_allReal {P : FVec Ideal sP .f32} (hP : AllReal P) : AllReal (varDev red hS b1 b2 b3 P) :=
  hP.subf ((((colsum_allReal red hS hP).broadcastInDim d1 b1).hostDivf_pos
    ((AllPos.constant_1e5 sS).broadcastInDim d2 b2)).broadcastInDim d3 b3)

/-- The quotient of an array of real entries has nonnegative entries. -/
theorem varQuot_allNonneg {P : FVec Ideal sP .f32} (hP : AllReal P) {c : IVec sS 32} (hc : ∀ k, c k = 0#32) :
    AllNonneg (varQuot red hS b1 b2 b3 b4 P c) :=
  ((varDev_allReal red hS b1 b2 b3 hP).mulf_self.hostReduceAdd (AllNonneg.constant_zero sS) red hS).hostDivf_pos
    ((varCount_allPos hc).broadcastInDim d4 b4)

/-- jnp.var's value of an array of real entries has nonnegative entries. -/
theorem varTerm_allNonneg {P : FVec Ideal sP .f32} (hP : AllReal P) {c : IVec sS 32} (hc : ∀ k, c k = 0#32) :
    AllNonneg (varTerm red hS b1 b2 b3 b4 P c) := by
  rw [varTerm_eq red hS b1 b2 b3 b4 P hc]
  exact varQuot_allNonneg red hS b1 b2 b3 b4 hP hc

/-! ## The reciprocal standard deviation -/

/-- A nonnegative array plus the broadcast of the word 0x3727C5AC, under the reciprocal square root, is positive. -/
theorem rstd_allPos_of_nonneg {v : FVec Ideal sR .f32} (hv : AllNonneg v) :
    AllPos (Host.rsqrt (F := Ideal) (addf v (broadcastInDim sR d4 b4 (constant (F := Ideal) sS .f32 0x3727C5AC#32)))) :=
  (hv.addf_pos ((AllPos.constant_eps sS).broadcastInDim d4 b4)).hostRsqrt

/-- The reciprocal standard deviation of an array of real entries is positive (hence real). -/
theorem rstd_allPos {P : FVec Ideal sP .f32} (hP : AllReal P) {c : IVec sS 32} (hc : ∀ k, c k = 0#32) :
    AllPos (Host.rsqrt (F := Ideal) (addf (varTerm red hS b1 b2 b3 b4 P c)
      (broadcastInDim sR d4 b4 (constant (F := Ideal) sS .f32 0x3727C5AC#32)))) :=
  rstd_allPos_of_nonneg b4 (varTerm_allNonneg red hS b1 b2 b3 b4 hP hc)

end Stats

end Cert.Math

end
-- ==== Proof.Math.NetLayer.lean ====
/-
  One layer's normalization: the two programs' spellings agree on rows of real entries.

  For the rows p of a layer, the gains g and the offsets b (row k of the stacked inputs), the column means μ of p and
  the column reciprocal standard deviations r = 1/√(v + ε) of p, one program forms the rows s = g·r and t = b − μ·s
  and stores max(p(i,j)·s(j) + t(j), 0); the other computes max(((p(i,j) − μ(j))·r(j))·g(j) + b(j), 0). Read at an
  entry (i, j): a row laid out as a one-row matrix, or repeated down the node axis, reads its entry j. If p, the gains
  and the offsets have real entries then μ is real and r is positive (the batch statistics of real entries), and the
  two expressions agree by the pointwise law.
-/
import proofs.«131845_j5600637354059_1_alg».proof.Proof.KIRead.Net
import proofs.«131845_j5600637354059_1_alg».proof.Proof.Math.BnLaw
import proofs.«131845_j5600637354059_1_alg».proof.Proof.Math.Variance
import Idealize.ShloMosaic.Lib.ValueLayout
import Idealize.ShloMosaic.Lib.Pipeline.Value

noncomputable section

namespace Cert.KernelIdeal.Net

open Cert.KernelIdeal Idealize.ShloMosaic Idealize.ShloMosaic.ValueIdx
open Cert.KernelIdeal.Stage Cert.KernelIdeal.Closed Cert.Math

/-! ## Rows read at an entry -/

/-- A row laid out as a one-row matrix reads, at (0, j), its entry j. -/
theorem asRow_apply (r : A S128) (j : Fin 128) : asRow r (ix2 (0 : Fin 1) j) = r (ix1 j) :=
  shapeCast_a_1a_apply r Facts₀.shapeCasts_S128_S1x128 0 j

/-- A row repeated down the node axis reads, at (i, j), its entry j. -/
theorem down_apply (r : A S128) (i : Fin 100000) (j : Fin 128) : down r (ix2 i j) = r (ix1 j) := by
  unfold down
  refine (broadcastInDim_apply _ Facts₀.bcast_S1x128_S100000x128_0_1 _ (ix2 i j) (ix2 (0 : Fin 1) j) fun a => ?_).trans
    (broadcastInDim_apply _ Facts₀.bcast_S128_S1x128_1 r (ix2 (0 : Fin 1) j) (ix1 j) fun a => ?_)
  · match a with
    | ⟨0, _⟩ =>
      show (0 : Nat) = if (1 : Nat) = 1 then 0 else i.val
      rw [if_pos rfl]
    | ⟨1, _⟩ =>
      show j.val = if (128 : Nat) = 1 then 0 else j.val
      rw [if_neg (by decide)]
  · match a with
    | ⟨0, _⟩ =>
      show j.val = if (128 : Nat) = 1 then 0 else j.val
      rw [if_neg (by decide)]

/-! ## The two spellings read at an entry -/

/-- The reciprocal standard deviation row of p: the reciprocal square root of the variance plus the printed ε. -/
abbrev rstd (p : A S100000x128) : A S128 :=
  Host.rsqrt (addf (var p zeroI) (broadcastInDim S128 ![] Facts₀.bcast_S_S128 (constant S_ .f32 0x3727C5AC#32)))

/-- The scale-and-shift spelling at (i, j). -/
theorem kAct_apply (gs betas : A S4x128) (k : ℕ) (hk : S4x128.Slices ![k, 0] S1x128) (p : A S100000x128)
    (i : Fin 100000) (j : Fin 128) :
    kAct gs betas k hk p (ix2 i j)
      = max (p (ix2 i j) * (row4 k hk gs (ix1 j) * rstd p (ix1 j))
          + (row4 k hk betas (ix1 j) - mean p (ix1 j) * (row4 k hk gs (ix1 j) * rstd p (ix1 j)))) 0 := by
  unfold kAct
  rw [affRelu_apply, asRow_apply, asRow_apply]
  rfl

/-- The centre-then-scale spelling at (i, j). -/
theorem rAct_apply (gs betas : A S4x128) (k : ℕ) (hk : S4x128.Slices ![k, 0] S1x128) (p : A S100000x128)
    (i : Fin 100000) (j : Fin 128) :
    rAct gs betas k hk p (ix2 i j)
      = max (((p (ix2 i j) - mean p (ix1 j)) * rstd p (ix1 j)) * row4 k hk gs (ix1 j) + row4 k hk betas (ix1 j)) 0 := by
  unfold rAct bnRef
  show max (((p (ix2 i j) - down (mean p) (ix2 i j)) * down (rstd p) (ix2 i j)) * down (row4 k hk gs) (ix2 i j)
      + down (row4 k hk betas) (ix2 i j)) (Ideal.ofBits .f32 0x00000000#32) = _
  rw [down_apply, down_apply, down_apply, down_apply, Ideal.ofBits_zero_f32]

/-! ## The statistics of real rows -/

/-- Row k of a four-row input with real entries has real entries. -/
theorem allReal_row4 (k : ℕ) (hk : S4x128.Slices ![k, 0] S1x128) {x : A S4x128} (hx : AllReal x) : AllReal (row4 k hk x) :=
  (hx.extractStridedSlice (φ := .f32) _ hk).shapeCast (φ := .f32) Facts₀.shapeCasts_S1x128_S128

/-- The column means of real rows are real. -/
theorem allReal_mean {p : A S100000x128} (hp : AllReal p) : AllReal (mean p) :=
  mean_allReal Facts₀.reducesTo_S100000x128_S128_d0 Facts₀.h_S_ Facts₀.bcast_S_S128 hp

/-- The column variances of real rows are nonnegative. -/
theorem allNonneg_var {p : A S100000x128} (hp : AllReal p) : AllNonneg (var p zeroI) :=
  varTerm_allNonneg Facts₀.reducesTo_S100000x128_S128_d0 Facts₀.h_S_ Facts₀.bcast_S128_S1x128_1 Facts₀.bcast_S_S1x128
    Facts₀.bcast_S1x128_S100000x128_0_1 Facts₀.bcast_S_S128 hp (fun _ => rfl)

/-- The column reciprocal standard deviations of real rows are positive. -/
theorem allPos_rstd {p : A S100000x128} (hp : AllReal p) : AllPos (rstd p) :=
  rstd_allPos_of_nonneg Facts₀.bcast_S_S128 (allNonneg_var hp)

/-! ## The layer -/

/-- THE LAYER'S NORMALIZATION: on rows, gains and offsets of real entries the two spellings are one array. -/
theorem kAct_eq_rAct (gs betas : A S4x128) (k : ℕ) (hk : S4x128.Slices ![k, 0] S1x128) (p : A S100000x128)
    (hp : AllReal p) (hg : AllReal gs) (hb : AllReal betas) : kAct gs betas k hk p = rAct gs betas k hk p := by
  funext i
  obtain ⟨r, q, rfl⟩ : ∃ (r : Fin 100000) (q : Fin 128), i = ix2 r q := ⟨i 0, i 1, eq_ix2 i⟩
  rw [kAct_apply, rAct_apply]
  exact bn_law_of_real 0 (hp _) (allReal_mean hp _) ((allPos_rstd hp).allReal _) (allReal_row4 k hk hg _) (allReal_row4 k hk hb _)

end Cert.KernelIdeal.Net

end
-- ==== Proof.Math.ScatterVec.lean ====
/-
  WHERE AN UPDATE LANDS in the accumulating scatter of a VECTOR.

  `jax.ops.segment_sum(u, ids, num_segments = n)` of a vector `u` of length `N` lowers to a scatter with an `add` body whose
  operand has shape `[n]`, whose scatter indices `ids` have shape `[N, 1]` and whose updates have shape `[N]`: no update
  window axis, the operand's one axis inserted, the one index component naming that axis, the index vector along axis 1
  of the indices. Update element `r` is a window of one element, placed at position `ids[r, 0]` of the operand.

  The mathematics. The position `ids[r, 0]` is read as a SIGNED integer and is NOT clamped: update `r` lands on operand
  element `ids[r, 0]` when `0 ≤ ids[r, 0] < n`, and is dropped otherwise (`resultIdx?_vec`). So update `r` lands on
  element `k` exactly when `ids[r, 0] = k` (`resultIdx?_vec_eq_some`).
-/
import Idealize.ShloMosaic.Lib.ValueIdx

noncomputable section

namespace Cert.Math

open Idealize.ShloMosaic Idealize.ShloMosaic.ValueIdx

/-- The dimension numbers of the vector scatter: operand `[n]`, scatter indices `[N, 1]`, updates `[N]`. -/
abbrev scatterVecDims (n N : Nat) (wf : ScatterDims.WF ⟨1, ![n]⟩ ⟨2, ![N, 1]⟩ ⟨1, ![N]⟩ [] [0] [0] 1) :
    ScatterDims ⟨1, ![n]⟩ ⟨2, ![N, 1]⟩ ⟨1, ![N]⟩ where
  updateWindowDims := []
  insertedWindowDims := [0]
  scatterDimsToOperandDims := [0]
  indexVectorDim := 1
  wf := wf

section
variable {n N w : Nat} (wf : ScatterDims.WF ⟨1, ![n]⟩ ⟨2, ![N, 1]⟩ ⟨1, ![N]⟩ [] [0] [0] 1)

/-- The window of update `r` starts at the position `ids[r, 0]`, read signed. -/
theorem scatterVec_start0 (idx : IVec ⟨2, ![N, 1]⟩ w) (r : Fin N) :
    (scatterVecDims n N wf).start (ix1 r) idx 0 = (idx (ix2 r 0)).toInt := by
  unfold ScatterDims.start
  rw [dif_pos (show (0 : Fin 1) ∈ (scatterVecDims n N wf).scatterDimsToOperandDims from List.mem_singleton.mpr rfl)]
  congr 2
  funext b
  refine Fin.ext ?_
  match b with
  | ⟨0, _⟩ => rfl
  | ⟨1, _⟩ => rfl

/-- The operand's one axis is an inserted window axis: the window coordinate there is `0`. -/
theorem scatterVec_window0 (r : Fin N) : (scatterVecDims n N wf).window (ix1 r) 0 = 0 := by
  unfold ScatterDims.window
  have h0 : (0 : Fin 1) ∉ (scatterVecDims n N wf).sKept := by
    show (0 : Fin 1) ∉ List.filter (fun x => decide (x ∉ [(0 : Fin 1)])) (List.finRange 1)
    decide
  rw [dif_neg h0]

/-- WHERE AN UPDATE LANDS: update `r` lands on operand element `ids[r, 0]` when that position, read as a signed integer,
    is in `[0, n)`; it is dropped (`none`) otherwise. The position is not clamped. -/
theorem resultIdx?_vec (idx : IVec ⟨2, ![N, 1]⟩ w) (r : Fin N) :
    (scatterVecDims n N wf).resultIdx? (ix1 r) idx =
      if h : 0 ≤ (idx (ix2 r 0)).toInt ∧ (idx (ix2 r 0)).toInt < n then
        some (ix1 ⟨(idx (ix2 r 0)).toInt.toNat, by omega⟩) else none := by
  unfold ScatterDims.resultIdx?
  by_cases h : 0 ≤ (idx (ix2 r 0)).toInt ∧ (idx (ix2 r 0)).toInt < n
  · have hall : ∀ a : Fin 1,
        0 ≤ (scatterVecDims n N wf).start (ix1 r) idx a + ((scatterVecDims n N wf).window (ix1 r) a : Int) ∧
        (scatterVecDims n N wf).start (ix1 r) idx a + ((scatterVecDims n N wf).window (ix1 r) a : Int)
          < (Shape.size ⟨1, ![n]⟩ a : Nat) := by
      intro a
      match a with
      | ⟨0, _⟩ =>
        show 0 ≤ (scatterVecDims n N wf).start (ix1 r) idx 0 + ((scatterVecDims n N wf).window (ix1 r) 0 : Int) ∧
          (scatterVecDims n N wf).start (ix1 r) idx 0 + ((scatterVecDims n N wf).window (ix1 r) 0 : Int) < (n : Int)
        rw [scatterVec_start0, scatterVec_window0]; simpa using h
    rw [dif_pos hall, dif_pos h]
    congr 1
    funext a
    refine Fin.ext ?_
    match a with
    | ⟨0, _⟩ =>
      show ((scatterVecDims n N wf).start (ix1 r) idx 0 + ((scatterVecDims n N wf).window (ix1 r) 0 : Int)).toNat = _
      rw [scatterVec_start0, scatterVec_window0]; simp
  · rw [dif_neg h, dif_neg]
    intro hall
    apply h
    have := hall 0
    rw [scatterVec_start0, scatterVec_window0] at this
    simpa using this

/-- Update `r` lands on operand element `k` exactly when its position `ids[r, 0]` is `k`. -/
theorem resultIdx?_vec_eq_some (idx : IVec ⟨2, ![N, 1]⟩ w) (r : Fin N) (k : Fin n) :
    (scatterVecDims n N wf).resultIdx? (ix1 r) idx = some (ix1 k) ↔ (idx (ix2 r 0)).toInt = (k.val : Int) := by
  rw [resultIdx?_vec]
  constructor
  · intro h
    split at h
    · have h' := Option.some.inj h
      have h0 := congrFun h' 0
      have h0v : (idx (ix2 r 0)).toInt.toNat = k.val := congrArg Fin.val h0
      omega
    · exact absurd h (by simp)
  · intro hk
    have hr : 0 ≤ (idx (ix2 r 0)).toInt ∧ (idx (ix2 r 0)).toInt < n := by have := k.isLt; omega
    rw [dif_pos hr]
    congr 2
    exact Fin.ext (by show (idx (ix2 r 0)).toInt.toNat = k.val; omega)

end

end Cert.Math

end
-- ==== Proof.Math.Degree.lean ====
/-
  The degree array is positive.

  The graph's edge targets are  dst = (e, 0, 1, …, 99999): the 1600000 given targets followed by one self-loop per
  node. The degree of node k is the accumulating scatter of 1700000 ones into 100000 zeros at the positions dst:

      deg(k) = 0 + Σ_{r : dst(r) = k} 1.

  Every term is the image of a nonnegative real, and the self-loop  r = 1600000 + k  has  dst(r) = k  (it reads entry k
  of the counting array 0, 1, 2, …, whose value k is below 2^31 and so is k as a signed integer); hence it is one of the
  terms and deg(k) is the image of a POSITIVE real, whatever the given targets e are — also when some of them are out
  of range and dropped. So its reciprocal square root is the image of a positive real too.

  First in general: an accumulating scatter of positive updates into a nonnegative operand is positive at every element
  that at least one update lands on.
-/
import proofs.«131845_j5600637354059_1_alg».proof.Proof.Math.ScatterVec
import proofs.«131845_j5600637354059_1_alg».proof.Proof.Math.ClosureLayout
import proofs.«131845_j5600637354059_1_alg».proof.Proof.Math.ClosurePointwise
import proofs.«131845_j5600637354059_1_alg».proof.Proof.Math.ClosureSum
import proofs.«131845_j5600637354059_1_alg».proof.Proof.Math.Consts
import Idealize.ShloMosaic.Lib.Pipeline.Value
import Idealize.ShloMosaic.Lib.ValueIdx

noncomputable section

open scoped BigOperators

namespace Cert.Math

open Idealize.ShloMosaic Idealize.ShloMosaic.ValueIdx

/-! ## A sum of nonnegative reals with a positive term is positive -/

/-- The image of a nonnegative real plus a finite sum of images of nonnegative reals, one of whose terms is the image of
    a positive real, is the image of a positive real. -/
theorem exists_pos_add_sum {ι : Type*} (a : EReal) (S : Finset ι) (f : ι → EReal) (ha : ∃ r : ℝ, 0 ≤ r ∧ a = (r : EReal))
    (h : ∀ i ∈ S, ∃ r : ℝ, 0 ≤ r ∧ f i = (r : EReal)) (i₀ : ι) (hi₀ : i₀ ∈ S) (h₀ : ∃ r : ℝ, 0 < r ∧ f i₀ = (r : EReal)) :
    ∃ r : ℝ, 0 < r ∧ a + ∑ i ∈ S, f i = (r : EReal) := by
  classical
  obtain ⟨x, hx0, hx⟩ := ha
  obtain ⟨p, hp0, hp⟩ := h₀
  obtain ⟨q, hq0, hq⟩ := exists_nonneg_sum (S.erase i₀) f fun i hi => h i (Finset.mem_of_mem_erase hi)
  refine ⟨x + (p + q), by linarith, ?_⟩
  rw [← Finset.add_sum_erase S f hi₀, hx, hp, hq, ← EReal.coe_add, ← EReal.coe_add]

/-- An accumulating scatter of positive updates into a nonnegative operand is positive wherever an update lands: if
    every element of the operand is the landing place of at least one update, the result has positive entries. -/
theorem AllPos.hostScatterAdd_of_hit {s si su : Shape} {w : Nat} {φ : FTy} (d : ScatterDims s si su) {x : FVec Ideal s φ}
    (hx : AllNonneg x) (idx : IVec si w) {upd : FVec Ideal su φ} (hu : AllPos upd)
    (hhit : ∀ i : s.Idx, ∃ j : su.Idx, d.resultIdx? j idx = some i) :
    AllPos (Host.scatterAdd (F := Ideal) d x idx upd) := by
  intro i
  obtain ⟨j₀, hj₀⟩ := hhit i
  unfold Host.scatterAdd
  rw [Ideal.hostScatterAdd_def]
  unfold Ideal.hostScatterAdd
  exact exists_pos_add_sum _ _ _ (hx i) (fun j _ => hu.allNonneg j) j₀
    (Finset.mem_filter.mpr ⟨Finset.mem_univ _, hj₀⟩) (hu j₀)

/-! ## The edge targets with the self-loops appended -/

/-- A number below 100000 written as a 32-bit word reads back, as a signed integer, as itself. -/
theorem toInt_ofNat32 (k : Nat) (hk : k < 100000) : (BitVec.ofNat 32 k).toInt = (k : Int) := by
  rw [BitVec.toInt_eq_toNat_cond, BitVec.toNat_ofNat, Nat.mod_eq_of_lt (by omega)]
  rw [if_pos (by omega)]

section Targets
variable (bc : (⟨1, ![1700000]⟩ : Shape).BroadcastsInDim ⟨2, ![1700000, 1]⟩ (![0] : Fin 1 → Fin (⟨2, ![1700000, 1]⟩ : Shape).rank))
  (conc : Shape.Concatenates [(⟨1, ![1600000]⟩ : Shape), (⟨1, ![100000]⟩ : Shape)] ⟨1, ![1700000]⟩ 0)

/-- The scatter positions: the given targets `e` followed by the counting array 0, 1, …, 99999, laid out as one column. -/
def dstIdx (e : IVec ⟨1, ![1600000]⟩ 32) : IVec ⟨2, ![1700000, 1]⟩ 32 :=
  broadcastInDim ⟨2, ![1700000, 1]⟩ ![0] bc
    (concatenate ⟨1, ![1700000]⟩ 0 [⟨⟨1, ![1600000]⟩, e⟩, ⟨⟨1, ![100000]⟩, iotaInDim ⟨1, ![100000]⟩ 32 0⟩] conc)

/-- The column of positions at row `r` is the concatenated array at `r`. -/
theorem dstIdx_apply (e : IVec ⟨1, ![1600000]⟩ 32) (r : Fin 1700000) :
    dstIdx bc conc e (ix2 r 0)
      = concatenate ⟨1, ![1700000]⟩ 0 [⟨⟨1, ![1600000]⟩, e⟩, ⟨⟨1, ![100000]⟩, iotaInDim ⟨1, ![100000]⟩ 32 0⟩] conc (ix1 r) := by
  unfold dstIdx
  refine broadcastInDim_apply _ bc _ (ix2 r 0) (ix1 r) fun a => ?_
  match a with
  | ⟨0, _⟩ =>
    show r.val = if (1700000 : Nat) = 1 then 0 else r.val
    rw [if_neg (by decide)]

/-- The self-loop of node `k`, row 1600000 + k, has position `k`. -/
theorem dstIdx_self (e : IVec ⟨1, ![1600000]⟩ 32) (k : Fin 100000) :
    (dstIdx bc conc e (ix2 (⟨1600000 + k.val, by omega⟩ : Fin 1700000) 0)).toInt = (k.val : Int) := by
  rw [dstIdx_apply]
  refine (congrArg BitVec.toInt (concatenate_pair_apply_right (0 : Fin 1) e (iotaInDim ⟨1, ![100000]⟩ 32 0) conc
    (ix1 (⟨1600000 + k.val, by omega⟩ : Fin 1700000)) rfl rfl (ix1 k)
    (fun b hb => absurd (Subsingleton.elim (α := Fin 1) _ _) hb)
    (by show k.val + 1600000 = 1600000 + k.val; omega))).trans ?_
  show (BitVec.ofNat 32 k.val).toInt = _
  exact toInt_ofNat32 k.val k.isLt

end Targets

/-! ## The degree -/

section Degree
variable (wf : ScatterDims.WF ⟨1, ![100000]⟩ ⟨2, ![1700000, 1]⟩ ⟨1, ![1700000]⟩ [] [0] [0] 1)
  (bc : (⟨1, ![1700000]⟩ : Shape).BroadcastsInDim ⟨2, ![1700000, 1]⟩ (![0] : Fin 1 → Fin (⟨2, ![1700000, 1]⟩ : Shape).rank))
  (conc : Shape.Concatenates [(⟨1, ![1600000]⟩ : Shape), (⟨1, ![100000]⟩ : Shape)] ⟨1, ![1700000]⟩ 0)

/-- Every node is the landing place of its self-loop. -/
theorem dstIdx_hit (e : IVec ⟨1, ![1600000]⟩ 32) (i : (⟨1, ![100000]⟩ : Shape).Idx) :
    ∃ j : (⟨1, ![1700000]⟩ : Shape).Idx, (scatterVecDims 100000 1700000 wf).resultIdx? j (dstIdx bc conc e) = some i := by
  obtain ⟨k, rfl⟩ : ∃ k : Fin 100000, i = ix1 k := ⟨i 0, eq_ix1 i⟩
  exact ⟨ix1 (⟨1600000 + k.val, by omega⟩ : Fin 1700000),
    (resultIdx?_vec_eq_some wf _ _ k).mpr (dstIdx_self bc conc e k)⟩

/-- THE DEGREE IS POSITIVE: positive updates scattered into a nonnegative operand at the positions `dst` give positive
    entries, for any record `d` that IS the vector scatter's dimension numbers (`hd`: a program's literal record with the
    fields `[]`, `[0]`, `[0]`, `1` is that record). -/
theorem deg_allPos (d : ScatterDims ⟨1, ![100000]⟩ ⟨2, ![1700000, 1]⟩ ⟨1, ![1700000]⟩)
    (hd : d = scatterVecDims 100000 1700000 wf) (e : IVec ⟨1, ![1600000]⟩ 32)
    {x : FVec Ideal ⟨1, ![100000]⟩ .f32} (hx : AllNonneg x) {upd : FVec Ideal ⟨1, ![1700000]⟩ .f32} (hu : AllPos upd) :
    AllPos (Host.scatterAdd (F := Ideal) d x (dstIdx bc conc e) upd) := by
  subst hd
  exact AllPos.hostScatterAdd_of_hit _ hx _ hu (dstIdx_hit wf bc conc e)

/-- The same with the operand and the updates as the programs write them: the broadcast of the zero word and the
    broadcast of the word for 1. -/
theorem deg_allPos_splat (d : ScatterDims ⟨1, ![100000]⟩ ⟨2, ![1700000, 1]⟩ ⟨1, ![1700000]⟩)
    (hd : d = scatterVecDims 100000 1700000 wf) (e : IVec ⟨1, ![1600000]⟩ 32)
    (b0 : (⟨0, ![]⟩ : Shape).BroadcastsInDim ⟨1, ![100000]⟩ (![] : Fin 0 → Fin (⟨1, ![100000]⟩ : Shape).rank))
    (b1 : (⟨0, ![]⟩ : Shape).BroadcastsInDim ⟨1, ![1700000]⟩ (![] : Fin 0 → Fin (⟨1, ![1700000]⟩ : Shape).rank)) :
    AllPos (Host.scatterAdd (F := Ideal) d
      (broadcastInDim ⟨1, ![100000]⟩ ![] b0 (constant (F := Ideal) ⟨0, ![]⟩ .f32 0x00000000#32))
      (dstIdx bc conc e)
      (broadcastInDim ⟨1, ![1700000]⟩ ![] b1 (constant (F := Ideal) ⟨0, ![]⟩ .f32 0x3F800000#32))) :=
  deg_allPos wf bc conc d hd e ((AllNonneg.constant_zero _).broadcastInDim _ b0) ((AllPos.constant_one _).broadcastInDim _ b1)

/-- … and its reciprocal square root is positive (hence real). -/
theorem rsqrt_deg_allPos (d : ScatterDims ⟨1, ![100000]⟩ ⟨2, ![1700000, 1]⟩ ⟨1, ![1700000]⟩)
    (hd : d = scatterVecDims 100000 1700000 wf) (e : IVec ⟨1, ![1600000]⟩ 32)
    (b0 : (⟨0, ![]⟩ : Shape).BroadcastsInDim ⟨1, ![100000]⟩ (![] : Fin 0 → Fin (⟨1, ![100000]⟩ : Shape).rank))
    (b1 : (⟨0, ![]⟩ : Shape).BroadcastsInDim ⟨1, ![1700000]⟩ (![] : Fin 0 → Fin (⟨1, ![1700000]⟩ : Shape).rank)) :
    AllPos (Host.rsqrt (F := Ideal) (Host.scatterAdd (F := Ideal) d
      (broadcastInDim ⟨1, ![100000]⟩ ![] b0 (constant (F := Ideal) ⟨0, ![]⟩ .f32 0x00000000#32))
      (dstIdx bc conc e)
      (broadcastInDim ⟨1, ![1700000]⟩ ![] b1 (constant (F := Ideal) ⟨0, ![]⟩ .f32 0x3F800000#32)))) :=
  (deg_allPos_splat wf bc conc d hd e b0 b1).hostRsqrt

end Degree

end Cert.Math

end
-- ==== Proof.Math.NetStages.lean ====
/-
  Every stage of the network keeps real entries.

  The degree of every node is positive (its self-loop is counted), so its reciprocal square root is positive; an edge's
  weight, the product of two gathered such values, is positive, whatever the edge list holds. The aggregation gathers
  rows, scales them by the weights, adds them up at the destinations and adds the bias: gathers move entries, products
  and finite sums of reals are real. A matrix product is a finite sum of products. The slices that pick a layer's
  weights move entries. The normalization of real rows with real gains and offsets has real entries (real statistics,
  then products, sums, differences and a maximum of reals).
-/
import proofs.«131845_j5600637354059_1_alg».proof.Proof.KIRead.Net
import proofs.«131845_j5600637354059_1_alg».proof.Proof.Math.ClosureLayout
import proofs.«131845_j5600637354059_1_alg».proof.Proof.Math.ClosurePointwise
import proofs.«131845_j5600637354059_1_alg».proof.Proof.Math.ClosureSum
import proofs.«131845_j5600637354059_1_alg».proof.Proof.Math.Consts
import proofs.«131845_j5600637354059_1_alg».proof.Proof.Math.Degree
import proofs.«131845_j5600637354059_1_alg».proof.Proof.Math.NetLayer

noncomputable section

namespace Cert.KernelIdeal.Net

open Cert.KernelIdeal Idealize.ShloMosaic Idealize.ShloMosaic.ValueIdx
open Cert.KernelIdeal.Stage Cert.KernelIdeal.Closed Cert.Math

/-! ## The edge weights -/

/-- The degree, with the scatter positions written as the targets followed by the self-loops. -/
theorem deg_eq (e : (⟨S2x1600000, .i32⟩ : BufTy).Contents (Elt Ideal)) :
    deg e = Host.scatterAdd (F := Ideal) scatter_S100000_S1700000x1_S1700000_n_0_0_1
      (broadcastInDim S100000 ![] Facts₀.bcast_S_S100000 (constant (F := Ideal) S_ .f32 0x00000000#32))
      (dstIdx Facts₀.bcast_S1700000_S1700000x1_0 Facts₀.concatenates_S1600000_S100000_S1700000_d0
        (shapeCast S1600000 (extractStridedSlice S1x1600000 ![1, 0] e Facts₀.slices_S2x1600000_S1x1600000_1_0)
          Facts₀.shapeCasts_S1x1600000_S1600000))
      (broadcastInDim S1700000 ![] Facts₀.bcast_S_S1700000 (constant (F := Ideal) S_ .f32 0x3F800000#32)) := rfl

/-- The degree of every node is positive. -/
theorem allPos_deg (e : (⟨S2x1600000, .i32⟩ : BufTy).Contents (Elt Ideal)) : AllPos (deg e) := by
  rw [deg_eq]
  exact deg_allPos_splat Facts₀.scatter_S100000_S1700000x1_S1700000_n_0_0_1_wf Facts₀.bcast_S1700000_S1700000x1_0
    Facts₀.concatenates_S1600000_S100000_S1700000_d0 scatter_S100000_S1700000x1_S1700000_n_0_0_1 rfl _
    Facts₀.bcast_S_S100000 Facts₀.bcast_S_S1700000

/-- The reciprocal square root of the degree is positive. -/
theorem allPos_dinv (e : (⟨S2x1600000, .i32⟩ : BufTy).Contents (Elt Ideal)) : AllPos (Host.rsqrt (deg e)) :=
  AllPos.hostRsqrt (φ := .f32) (allPos_deg e)

/-- The edge weights are positive, hence real. -/
theorem allPos_norm (e : (⟨S2x1600000, .i32⟩ : BufTy).Contents (Elt Ideal)) : AllPos (norm e) :=
  ((allPos_dinv e).gather (φ := .f32) _ _).mulf (φ := .f32) ((allPos_dinv e).gather (φ := .f32) _ _)

theorem allReal_norm (e : (⟨S2x1600000, .i32⟩ : BufTy).Contents (Elt Ideal)) : AllReal (norm e) := (allPos_norm e).allReal

/-! ## The aggregation -/

/-- The aggregation of real rows with real weights and a real bias has real entries, along any index lists. -/
theorem allReal_agg {h : A S100000x128} (hh : AllReal h) (s d : (⟨S1700000, .i32⟩ : BufTy).Contents (Elt Ideal))
    {w : A S1700000} (hw : AllReal w) {b : A S128} (hb : AllReal b) : AllReal (agg h s d w b) :=
  (AllReal.hostScatterAdd (φ := .f32) _ ((AllReal.constant_zero _).broadcastInDim (φ := .f32) _ Facts₀.bcast_S_S100000x128) _
      ((hh.gather (φ := .f32) _ _).mulf (φ := .f32) ((hw.broadcastInDim (φ := .f32) _ Facts₀.bcast_S1700000_S1700000x1_0).broadcastInDim (φ := .f32) _
        Facts₀.bcast_S1700000x1_S1700000x128_0_1))).addf (φ := .f32)
    ((hb.broadcastInDim (φ := .f32) _ Facts₀.bcast_S128_S1x128_1).broadcastInDim (φ := .f32) _ Facts₀.bcast_S1x128_S100000x128_0_1)

/-- A layer's rows before the normalization are real when the product rows and the bias are. -/
theorem allReal_pre (e : (⟨S2x1600000, .i32⟩ : BufTy).Contents (Elt Ideal)) {h : A S100000x128} (hh : AllReal h)
    {b : A S128} (hb : AllReal b) : AllReal (pre e h b) :=
  allReal_agg hh (src e) (dst e) (allReal_norm e) hb

/-! ## The slices of the stacked inputs -/

theorem allReal_row3 (k : ℕ) (hk : S3x128.Slices ![k, 0] S1x128) {x : A S3x128} (hx : AllReal x) : AllReal (row3 k hk x) :=
  (hx.extractStridedSlice (φ := .f32) _ hk).shapeCast (φ := .f32) Facts₀.shapeCasts_S1x128_S128

theorem allReal_mat3 (k : ℕ) (hk : S3x128x128.Slices ![k, 0, 0] S1x128x128) {x : A S3x128x128} (hx : AllReal x) :
    AllReal (mat3 k hk x) :=
  (hx.extractStridedSlice (φ := .f32) _ hk).shapeCast (φ := .f32) Facts₀.shapeCasts_S1x128x128_S128x128

/-! ## The matrix products -/

/-- Rows times a weight matrix, as the sum over the contracted axis: real for real operands. -/
theorem allReal_mm (Kd Q : ℕ) {x : (⟨2, ![100000, Kd]⟩ : Shape).Idx → EReal} (hx : AllReal x)
    {w : (⟨2, ![Kd, Q]⟩ : Shape).Idx → EReal} (hw : AllReal w) : AllReal (mm Kd Q x w) :=
  fun _ => exists_real_sum _ _ fun _ _ => exists_real_mul (hx _) (hw _)

/-- The host's general product: real for real operands. -/
theorem allReal_dot {sl sr so : Shape} (d : DotDims sl sr so) {x : A sl} (hx : AllReal x) {w : A sr} (hw : AllReal w) :
    AllReal (Host.dotGeneral (F := Ideal) (φ₁ := .f32) (φ₂ := .f32) d none x w) :=
  AllReal.dotGeneral (φ₁ := .f32) (φ₂ := .f32) d none hx hw

/-! ## The normalization -/

/-- A row repeated down the node axis keeps real entries. -/
theorem allReal_down {r : A S128} (hr : AllReal r) : AllReal (down r) :=
  (hr.broadcastInDim (φ := .f32) _ Facts₀.bcast_S128_S1x128_1).broadcastInDim (φ := .f32) _ Facts₀.bcast_S1x128_S100000x128_0_1

/-- The reference's normalization of real rows with real gains and offsets has real entries. -/
theorem allReal_rAct (gs betas : A S4x128) (k : ℕ) (hk : S4x128.Slices ![k, 0] S1x128) {p : A S100000x128}
    (hp : AllReal p) (hg : AllReal gs) (hb : AllReal betas) : AllReal (rAct gs betas k hk p) :=
  (((((hp.subf (φ := .f32) (allReal_down (allReal_mean hp))).mulf (φ := .f32) (allReal_down (allPos_rstd hp).allReal)).mulf (φ := .f32)
      (allReal_down (allReal_row4 k hk hg))).addf (φ := .f32) (allReal_down (allReal_row4 k hk hb))).maximumf (φ := .f32)
    ((AllReal.constant_zero _).broadcastInDim (φ := .f32) _ Facts₀.bcast_S_S100000x128))

/-- … and so has the kernel program's, the same array. -/
theorem allReal_kAct (gs betas : A S4x128) (k : ℕ) (hk : S4x128.Slices ![k, 0] S1x128) {p : A S100000x128}
    (hp : AllReal p) (hg : AllReal gs) (hb : AllReal betas) : AllReal (kAct gs betas k hk p) := by
  rw [kAct_eq_rAct gs betas k hk p hp hg hb]
  exact allReal_rAct gs betas k hk hp hg hb

end Cert.KernelIdeal.Net

end
-- ==== Proof.Math.NetEqOf.lean ====
/-
  The two programs compute one array, given that a matrix product spelt as a sum over the contracted axis is the host's
  general product.

  Layer by layer. Both programs build the same index lists and edge weights. In each layer the rows before the
  normalization are the aggregation of a matrix product: the two products are one array (the hypotheses), so the rows
  agree once the previous layer's outputs do. Those rows have real entries (real inputs; products, finite sums, gathers
  and positive edge weights keep real entries), so the two spellings of the normalization agree on them, and its output
  is real again. After four layers the outputs side by side go through the head: a product plus a bias row, again one
  array in both spellings.
-/
import proofs.«131845_j5600637354059_1_alg».proof.Proof.KIRead.Net
import proofs.«131845_j5600637354059_1_alg».proof.Proof.Math.NetLayer
import proofs.«131845_j5600637354059_1_alg».proof.Proof.Math.NetStages

noncomputable section

namespace Cert.KernelIdeal.Net

open Cert.KernelIdeal Idealize.ShloMosaic Idealize.ShloMosaic.ValueIdx
open Cert.KernelIdeal.Stage Cert.KernelIdeal.Closed Cert.Math

/-- THE NETWORK, given the three product identities: on real inputs (any edge list) the kernel program's result is the
    reference's. -/
theorem kOut_eq_rOut_of
    (hmm256 : ∀ (x : A S100000x256) (w : A S256x128), Closed.mm 256 128 x w
      = Host.dotGeneral (F := Ideal) (φ₁ := .f32) (φ₂ := .f32) Cert.ReferenceIdeal.dot_S100000x256_S256x128_S100000x128_1_0_0_1_n_n none x w)
    (hmm128 : ∀ (x : A S100000x128) (w : A S128x128), Closed.mm 128 128 x w
      = Host.dotGeneral (F := Ideal) (φ₁ := .f32) (φ₂ := .f32) Cert.ReferenceIdeal.dot_S100000x128_S128x128_S100000x128_1_0_0_1_n_n none x w)
    (hhead : ∀ (x : A S100000x512) (w : A S512x40) (b : A S40), Closed.mmBias x w (Stage.headBias b)
      = addf (Host.dotGeneral (F := Ideal) (φ₁ := .f32) (φ₂ := .f32) Cert.ReferenceIdeal.dot_S100000x512_S512x40_S100000x40_1_0_0_1_n_n none x w)
          (broadcastInDim S100000x40 ![0, 1] Cert.ReferenceIdeal.Facts₀.bcast_S1x40_S100000x40_0_1
            (broadcastInDim S1x40 ![1] Cert.ReferenceIdeal.Facts₀.bcast_S40_S1x40_1 b)))
    (x : A S100000x256) (e : (⟨S2x1600000, .i32⟩ : BufTy).Contents (Elt Ideal)) (W0 : A S256x128) (b0 : A S128)
    (Ws : A S3x128x128) (bs : A S3x128) (gs betas : A S4x128) (Wlin : A S512x40) (blin : A S40)
    (hx : AllReal x) (hW0 : AllReal W0) (hb0 : AllReal b0) (hWs : AllReal Ws) (hbs : AllReal bs)
    (hgs : AllReal gs) (hbetas : AllReal betas) :
    kOut x e W0 b0 Ws bs gs betas Wlin blin = rOut x e W0 b0 Ws bs gs betas Wlin blin := by
  -- layer 0
  have hP0 : kP0 x e W0 b0 = rP0 x e W0 b0 := by
    unfold kP0 rP0; rw [hmm256]
  have rP0real : AllReal (rP0 x e W0 b0) := allReal_pre e (allReal_dot _ hx hW0) hb0
  have hA0 : kA0 x e W0 b0 gs betas = rA0 x e W0 b0 gs betas := by
    unfold kA0 rA0; rw [hP0]; exact kAct_eq_rAct gs betas 0 _ _ rP0real hgs hbetas
  have rA0real : AllReal (rA0 x e W0 b0 gs betas) := allReal_rAct gs betas 0 _ rP0real hgs hbetas
  -- layer 1
  have hP1 : kP1 x e W0 b0 Ws bs gs betas = rP1 x e W0 b0 Ws bs gs betas := by
    unfold kP1 rP1; rw [hA0, hmm128]
  have rP1real : AllReal (rP1 x e W0 b0 Ws bs gs betas) :=
    allReal_pre e (allReal_dot _ rA0real (allReal_mat3 0 _ hWs)) (allReal_row3 0 _ hbs)
  have hA1 : kA1 x e W0 b0 Ws bs gs betas = rA1 x e W0 b0 Ws bs gs betas := by
    unfold kA1 rA1; rw [hP1]; exact kAct_eq_rAct gs betas 1 _ _ rP1real hgs hbetas
  have rA1real : AllReal (rA1 x e W0 b0 Ws bs gs betas) := allReal_rAct gs betas 1 _ rP1real hgs hbetas
  -- layer 2
  have hP2 : kP2 x e W0 b0 Ws bs gs betas = rP2 x e W0 b0 Ws bs gs betas := by
    unfold kP2 rP2; rw [hA1, hmm128]
  have rP2real : AllReal (rP2 x e W0 b0 Ws bs gs betas) :=
    allReal_pre e (allReal_dot _ rA1real (allReal_mat3 1 _ hWs)) (allReal_row3 1 _ hbs)
  have hA2 : kA2 x e W0 b0 Ws bs gs betas = rA2 x e W0 b0 Ws bs gs betas := by
    unfold kA2 rA2; rw [hP2]; exact kAct_eq_rAct gs betas 2 _ _ rP2real hgs hbetas
  have rA2real : AllReal (rA2 x e W0 b0 Ws bs gs betas) := allReal_rAct gs betas 2 _ rP2real hgs hbetas
  -- layer 3
  have hP3 : kP3 x e W0 b0 Ws bs gs betas = rP3 x e W0 b0 Ws bs gs betas := by
    unfold kP3 rP3; rw [hA2, hmm128]
  have rP3real : AllReal (rP3 x e W0 b0 Ws bs gs betas) :=
    allReal_pre e (allReal_dot _ rA2real (allReal_mat3 2 _ hWs)) (allReal_row3 2 _ hbs)
  have hA3 : kA3 x e W0 b0 Ws bs gs betas = rA3 x e W0 b0 Ws bs gs betas := by
    unfold kA3 rA3; rw [hP3]; exact kAct_eq_rAct gs betas 3 _ _ rP3real hgs hbetas
  -- the head
  unfold kOut rOut
  rw [hA0, hA1, hA2, hA3, hhead]

end Cert.KernelIdeal.Net

end
-- ==== Proof.KIValue.MmDot.lean ====
/- The kernel regions' whole-array functions against the reference's spelling of the same products: the sum over the
   inner axis of row times column IS the host's general product read at an entry, and the head's one-row bias added to
   every row IS the reference's bias broadcast first to one row and then down the rows. -/
import proofs.«131845_j5600637354059_1_alg».proof.Proof.KIValue.Spec
import proofs.«131845_j5600637354059_1_alg».proof.Proof.KIRead.Stage1
import proofs.«131845_j5600637354059_1_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Closed

open Cert.KernelIdeal Idealize.ShloMosaic Idealize.ShloMosaic.ValueIdx
open scoped BigOperators

/-! ### The reference's product `[100000, 256] · [256, 128]` -/

theorem hlhs256_0 (i : S100000x128.Idx) (q : Cert.ReferenceIdeal.dot_S100000x256_S256x128_S100000x128_1_0_0_1_n_n.contr.Idx) : (Cert.ReferenceIdeal.dot_S100000x256_S256x128_S100000x128_1_0_0_1_n_n.lhsIdx i q 0).val = (i 0).val := by
  unfold DotDims.lhsIdx
  rw [dif_neg (show ¬(0 : Fin S100000x256.rank) ∈ Cert.ReferenceIdeal.dot_S100000x256_S256x128_S100000x128_1_0_0_1_n_n.lhsBatch by decide), dif_pos (show (0 : Fin S100000x256.rank) ∈ Cert.ReferenceIdeal.dot_S100000x256_S256x128_S100000x128_1_0_0_1_n_n.lhsNonContracting by decide)]
  rfl

theorem hlhs256_1 (i : S100000x128.Idx) (q : Cert.ReferenceIdeal.dot_S100000x256_S256x128_S100000x128_1_0_0_1_n_n.contr.Idx) : (Cert.ReferenceIdeal.dot_S100000x256_S256x128_S100000x128_1_0_0_1_n_n.lhsIdx i q 1).val = (q ⟨0, by decide⟩).val :=
  Cert.ReferenceIdeal.dot_S100000x256_S256x128_S100000x128_1_0_0_1_n_n.lhsIdx_val_of_single rfl i q

theorem hrhs256_0 (i : S100000x128.Idx) (q : Cert.ReferenceIdeal.dot_S100000x256_S256x128_S100000x128_1_0_0_1_n_n.contr.Idx) : (Cert.ReferenceIdeal.dot_S100000x256_S256x128_S100000x128_1_0_0_1_n_n.rhsIdx i q 0).val = (q ⟨0, by decide⟩).val :=
  Cert.ReferenceIdeal.dot_S100000x256_S256x128_S100000x128_1_0_0_1_n_n.rhsIdx_val_of_single rfl i q

theorem hrhs256_1 (i : S100000x128.Idx) (q : Cert.ReferenceIdeal.dot_S100000x256_S256x128_S100000x128_1_0_0_1_n_n.contr.Idx) : (Cert.ReferenceIdeal.dot_S100000x256_S256x128_S100000x128_1_0_0_1_n_n.rhsIdx i q 1).val = (i 1).val := by
  unfold DotDims.rhsIdx
  rw [dif_neg (show ¬(1 : Fin S256x128.rank) ∈ Cert.ReferenceIdeal.dot_S100000x256_S256x128_S100000x128_1_0_0_1_n_n.rhsBatch by decide), dif_pos (show (1 : Fin S256x128.rank) ∈ Cert.ReferenceIdeal.dot_S100000x256_S256x128_S100000x128_1_0_0_1_n_n.rhsNonContracting by decide)]
  rfl

/-- The host's general product at entry `(r, q)`: the sum over the 256 inner positions of the left operand's row `r`
    times the right operand's column `q`. -/
theorem dotGeneral256_apply {φ₁ φ₂ : FTy} (lhs : FVec Ideal S100000x256 φ₁) (rhs : FVec Ideal S256x128 φ₂) (r : Fin 100000) (q : Fin 128) :
    Host.dotGeneral (F := Ideal) Cert.ReferenceIdeal.dot_S100000x256_S256x128_S100000x128_1_0_0_1_n_n none lhs rhs (ix2 r q)
      = ∑ k : Fin 256, lhs (ix2 r k) * rhs (ix2 k q) := by
  simp only [Host.dotGeneral]
  rw [Ideal.dotGeneral_apply, ← Equiv.sum_comp (contrEquiv1 Cert.ReferenceIdeal.dot_S100000x256_S256x128_S100000x128_1_0_0_1_n_n 256 rfl rfl).symm]
  refine Finset.sum_congr rfl fun k _ => ?_
  have hk := contrEquiv1_symm_val Cert.ReferenceIdeal.dot_S100000x256_S256x128_S100000x128_1_0_0_1_n_n 256 rfl rfl k
  have el : Cert.ReferenceIdeal.dot_S100000x256_S256x128_S100000x128_1_0_0_1_n_n.lhsIdx (ix2 r q) ((contrEquiv1 Cert.ReferenceIdeal.dot_S100000x256_S256x128_S100000x128_1_0_0_1_n_n 256 rfl rfl).symm k) = ix2 r k := funext fun a => Fin.ext (by
    match a with
    | ⟨0, _⟩ => exact hlhs256_0 _ _
    | ⟨1, _⟩ => exact (hlhs256_1 _ _).trans hk)
  have er : Cert.ReferenceIdeal.dot_S100000x256_S256x128_S100000x128_1_0_0_1_n_n.rhsIdx (ix2 r q) ((contrEquiv1 Cert.ReferenceIdeal.dot_S100000x256_S256x128_S100000x128_1_0_0_1_n_n 256 rfl rfl).symm k) = ix2 k q := funext fun a => Fin.ext (by
    match a with
    | ⟨0, _⟩ => exact (hrhs256_0 _ _).trans hk
    | ⟨1, _⟩ => exact hrhs256_1 _ _)
  rw [el, er]

/-! ### The reference's product `[100000, 128] · [128, 128]` -/

theorem hlhs128_0 (i : S100000x128.Idx) (q : Cert.ReferenceIdeal.dot_S100000x128_S128x128_S100000x128_1_0_0_1_n_n.contr.Idx) : (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl

theorem hlhs128_1 (i : S100000x128.Idx) (q : Cert.ReferenceIdeal.dot_S100000x128_S128x128_S100000x128_1_0_0_1_n_n.contr.Idx) : (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q

theorem hrhs128_0 (i : S100000x128.Idx) (q : Cert.ReferenceIdeal.dot_S100000x128_S128x128_S100000x128_1_0_0_1_n_n.contr.Idx) : (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q

theorem hrhs128_1 (i : S100000x128.Idx) (q : Cert.ReferenceIdeal.dot_S100000x128_S128x128_S100000x128_1_0_0_1_n_n.contr.Idx) : (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/-- The host's general product at entry `(r, q)`: the sum over the 128 inner positions of the left operand's row `r`
    times the right operand's column `q`. -/
theorem dotGeneral128_apply {φ₁ φ₂ : FTy} (lhs : FVec Ideal S100000x128 φ₁) (rhs : FVec Ideal S128x128 φ₂) (r : Fin 100000) (q : Fin 128) :
    Host.dotGeneral (F := Ideal) Cert.ReferenceIdeal.dot_S100000x128_S128x128_S100000x128_1_0_0_1_n_n none lhs rhs (ix2 r q)
      = ∑ k : Fin 128, lhs (ix2 r k) * rhs (ix2 k q) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n 128 rfl rfl).symm k) = ix2 r k := funext fun a => Fin.ext (by
    match a with
    | ⟨0, _⟩ => exact hlhs128_0 _ _
    | ⟨1, _⟩ => exact (hlhs128_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n 128 rfl rfl).symm k) = ix2 k q := funext fun a => Fin.ext (by
    match a with
    | ⟨0, _⟩ => exact (hrhs128_0 _ _).trans hk
    | ⟨1, _⟩ => exact hrhs128_1 _ _)
  rw [el, er]

/-! ### The reference's product `[100000, 512] · [512, 40]` -/

theorem hlhs512_0 (i : S100000x40.Idx) (q : Cert.ReferenceIdeal.dot_S100000x512_S512x40_S100000x40_1_0_0_1_n_n.contr.Idx) : (Cert.ReferenceIdeal.dot_S100000x512_S512x40_S100000x40_1_0_0_1_n_n.lhsIdx i q 0).val = (i 0).val := by
  unfold DotDims.lhsIdx
  rw [dif_neg (show ¬(0 : Fin S100000x512.rank) ∈ Cert.ReferenceIdeal.dot_S100000x512_S512x40_S100000x40_1_0_0_1_n_n.lhsBatch by decide), dif_pos (show (0 : Fin S100000x512.rank) ∈ Cert.ReferenceIdeal.dot_S100000x512_S512x40_S100000x40_1_0_0_1_n_n.lhsNonContracting by decide)]
  rfl

theorem hlhs512_1 (i : S100000x40.Idx) (q : Cert.ReferenceIdeal.dot_S100000x512_S512x40_S100000x40_1_0_0_1_n_n.contr.Idx) : (Cert.ReferenceIdeal.dot_S100000x512_S512x40_S100000x40_1_0_0_1_n_n.lhsIdx i q 1).val = (q ⟨0, by decide⟩).val :=
  Cert.ReferenceIdeal.dot_S100000x512_S512x40_S100000x40_1_0_0_1_n_n.lhsIdx_val_of_single rfl i q

theorem hrhs512_0 (i : S100000x40.Idx) (q : Cert.ReferenceIdeal.dot_S100000x512_S512x40_S100000x40_1_0_0_1_n_n.contr.Idx) : (Cert.ReferenceIdeal.dot_S100000x512_S512x40_S100000x40_1_0_0_1_n_n.rhsIdx i q 0).val = (q ⟨0, by decide⟩).val :=
  Cert.ReferenceIdeal.dot_S100000x512_S512x40_S100000x40_1_0_0_1_n_n.rhsIdx_val_of_single rfl i q

theorem hrhs512_1 (i : S100000x40.Idx) (q : Cert.ReferenceIdeal.dot_S100000x512_S512x40_S100000x40_1_0_0_1_n_n.contr.Idx) : (Cert.ReferenceIdeal.dot_S100000x512_S512x40_S100000x40_1_0_0_1_n_n.rhsIdx i q 1).val = (i 1).val := by
  unfold DotDims.rhsIdx
  rw [dif_neg (show ¬(1 : Fin S512x40.rank) ∈ Cert.ReferenceIdeal.dot_S100000x512_S512x40_S100000x40_1_0_0_1_n_n.rhsBatch by decide), dif_pos (show (1 : Fin S512x40.rank) ∈ Cert.ReferenceIdeal.dot_S100000x512_S512x40_S100000x40_1_0_0_1_n_n.rhsNonContracting by decide)]
  rfl

/-- The host's general product at entry `(r, q)`: the sum over the 512 inner positions of the left operand's row `r`
    times the right operand's column `q`. -/
theorem dotGeneral512_apply {φ₁ φ₂ : FTy} (lhs : FVec Ideal S100000x512 φ₁) (rhs : FVec Ideal S512x40 φ₂) (r : Fin 100000) (q : Fin 40) :
    Host.dotGeneral (F := Ideal) Cert.ReferenceIdeal.dot_S100000x512_S512x40_S100000x40_1_0_0_1_n_n none lhs rhs (ix2 r q)
      = ∑ k : Fin 512, lhs (ix2 r k) * rhs (ix2 k q) := by
  simp only [Host.dotGeneral]
  rw [Ideal.dotGeneral_apply, ← Equiv.sum_comp (contrEquiv1 Cert.ReferenceIdeal.dot_S100000x512_S512x40_S100000x40_1_0_0_1_n_n 512 rfl rfl).symm]
  refine Finset.sum_congr rfl fun k _ => ?_
  have hk := contrEquiv1_symm_val Cert.ReferenceIdeal.dot_S100000x512_S512x40_S100000x40_1_0_0_1_n_n 512 rfl rfl k
  have el : Cert.ReferenceIdeal.dot_S100000x512_S512x40_S100000x40_1_0_0_1_n_n.lhsIdx (ix2 r q) ((contrEquiv1 Cert.ReferenceIdeal.dot_S100000x512_S512x40_S100000x40_1_0_0_1_n_n 512 rfl rfl).symm k) = ix2 r k := funext fun a => Fin.ext (by
    match a with
    | ⟨0, _⟩ => exact hlhs512_0 _ _
    | ⟨1, _⟩ => exact (hlhs512_1 _ _).trans hk)
  have er : Cert.ReferenceIdeal.dot_S100000x512_S512x40_S100000x40_1_0_0_1_n_n.rhsIdx (ix2 r q) ((contrEquiv1 Cert.ReferenceIdeal.dot_S100000x512_S512x40_S100000x40_1_0_0_1_n_n 512 rfl rfl).symm k) = ix2 k q := funext fun a => Fin.ext (by
    match a with
    | ⟨0, _⟩ => exact (hrhs512_0 _ _).trans hk
    | ⟨1, _⟩ => exact hrhs512_1 _ _)
  rw [el, er]

/-! ### The regions' functions are the reference's operations -/

/-- The first layer's product. -/
theorem mm_eq_dot256 (x : (⟨S100000x256, .f32⟩ : BufTy).Contents (Elt Ideal)) (w : (⟨S256x128, .f32⟩ : BufTy).Contents (Elt Ideal)) :
    mm 256 128 x w = Host.dotGeneral (F := Ideal) (φ₁ := .f32) (φ₂ := .f32) Cert.ReferenceIdeal.dot_S100000x256_S256x128_S100000x128_1_0_0_1_n_n none x w := by
  funext i
  obtain ⟨r, q, rfl⟩ : ∃ (r : Fin 100000) (q : Fin 128), i = ix2 r q := ⟨i 0, i 1, eq_ix2 i⟩
  rw [mm_apply, dotGeneral256_apply]

/-- The later layers' product. -/
theorem mm_eq_dot128 (x : (⟨S100000x128, .f32⟩ : BufTy).Contents (Elt Ideal)) (w : (⟨S128x128, .f32⟩ : BufTy).Contents (Elt Ideal)) :
    mm 128 128 x w = Host.dotGeneral (F := Ideal) (φ₁ := .f32) (φ₂ := .f32) Cert.ReferenceIdeal.dot_S100000x128_S128x128_S100000x128_1_0_0_1_n_n none x w := by
  funext i
  obtain ⟨r, q, rfl⟩ : ∃ (r : Fin 100000) (q : Fin 128), i = ix2 r q := ⟨i 0, i 1, eq_ix2 i⟩
  rw [mm_apply, dotGeneral128_apply]

/-- The bias vector as a one-row matrix, at column `q`. -/
theorem headBias_apply (b : (⟨S40, .f32⟩ : BufTy).Contents (Elt Ideal)) (q : Fin 40) :
    Stage.headBias (F := Ideal) b (ix2 (0 : Fin 1) q) = b (ix1 q) := by
  unfold Stage.headBias
  exact shapeCast_a_1a_apply b _ (0 : Fin 1) q

/-- The reference's bias, broadcast to one row and then down the rows, at `(r, q)`. -/
theorem biasRows_apply (b : (⟨S40, .f32⟩ : BufTy).Contents (Elt Ideal)) (r : Fin 100000) (q : Fin 40) :
    broadcastInDim S100000x40 ![0, 1] Cert.ReferenceIdeal.Facts₀.bcast_S1x40_S100000x40_0_1
      (broadcastInDim S1x40 ![1] Cert.ReferenceIdeal.Facts₀.bcast_S40_S1x40_1 b) (ix2 r q) = b (ix1 q) := by
  rw [broadcastInDim_apply _ _ _ (ix2 r q) (ix2 (0 : Fin 1) q) (fun a => by
    match a with
    | ⟨0, _⟩ => rfl
    | ⟨1, _⟩ => rfl)]
  exact broadcastInDim_apply _ _ _ (ix2 (0 : Fin 1) q) (ix1 q) (fun a => by
    match a with
    | ⟨0, _⟩ => rfl)

/-- The head: the product plus the bias row. -/
theorem mmBias_eq_head (x : (⟨S100000x512, .f32⟩ : BufTy).Contents (Elt Ideal)) (w : (⟨S512x40, .f32⟩ : BufTy).Contents (Elt Ideal)) (b : (⟨S40, .f32⟩ : BufTy).Contents (Elt Ideal)) :
    mmBias x w (Stage.headBias b)
      = addf (Host.dotGeneral (F := Ideal) (φ₁ := .f32) (φ₂ := .f32) Cert.ReferenceIdeal.dot_S100000x512_S512x40_S100000x40_1_0_0_1_n_n none x w)
          (broadcastInDim S100000x40 ![0, 1] Cert.ReferenceIdeal.Facts₀.bcast_S1x40_S100000x40_0_1
            (broadcastInDim S1x40 ![1] Cert.ReferenceIdeal.Facts₀.bcast_S40_S1x40_1 b)) := by
  funext i
  obtain ⟨r, q, rfl⟩ : ∃ (r : Fin 100000) (q : Fin 40), i = ix2 r q := ⟨i 0, i 1, eq_ix2 i⟩
  rw [mmBias_apply, addf_apply, dotGeneral512_apply, biasRows_apply, headBias_apply]

end Cert.KernelIdeal.Closed

end
-- ==== Proof.Math.NetEq.lean ====
/-
  The two programs compute one array on real inputs.

  The matrix products spelt as sums over the contracted axis are the host's general products, so the layer-by-layer
  argument applies without hypotheses: on inputs all of whose float entries are images of reals, and for any edge list,
  the kernel program's result is the reference's.
-/
import proofs.«131845_j5600637354059_1_alg».proof.Proof.Math.NetEqOf
import proofs.«131845_j5600637354059_1_alg».proof.Proof.KIValue.MmDot

noncomputable section

namespace Cert.KernelIdeal.Net

open Cert.KernelIdeal Idealize.ShloMosaic Cert.Math

/-- THE NETWORK: on real inputs (any edge list) the kernel program's result is the reference's. -/
theorem kOut_eq_rOut (x : A S100000x256) (e : (⟨S2x1600000, .i32⟩ : BufTy).Contents (Elt Ideal)) (W0 : A S256x128) (b0 : A S128)
    (Ws : A S3x128x128) (bs : A S3x128) (gs betas : A S4x128) (Wlin : A S512x40) (blin : A S40)
    (hx : AllReal x) (hW0 : AllReal W0) (hb0 : AllReal b0) (hWs : AllReal Ws) (hbs : AllReal bs)
    (hgs : AllReal gs) (hbetas : AllReal betas) (hWlin : AllReal Wlin) (hblin : AllReal blin) :
    kOut x e W0 b0 Ws bs gs betas Wlin blin = rOut x e W0 b0 Ws bs gs betas Wlin blin :=
  kOut_eq_rOut_of Closed.mm_eq_dot256 Closed.mm_eq_dot128 Closed.mmBias_eq_head x e W0 b0 Ws bs gs betas Wlin blin
    hx hW0 hb0 hWs hbs hgs hbetas

end Cert.KernelIdeal.Net

end
-- ==== Proof.lean ====
/-
  The five claims. Each of the three programs runs to the end, faults nowhere and leaves its ten argument arrays
  as launched: for the two kernel programs by running @main item by item — a stretch of host operations changes only the
  buffers it writes, a kernel region only its output array — and for the reference by running its host operations in
  order. The idealization rewrote nothing. At the exact instance the kernel program's result is the network function
  of its arguments built from sums over the contracted axis and from scale and shift rows, the reference's the one built
  from the host's general products and the step-by-step normalization; on finite inputs every intermediate array is
  finite (each node has its own self-loop, so every degree is at least one and every edge weight is a positive real; a
  variance is a nonnegative real, so its sum with the positive epsilon has a positive inverse square root), and on
  finite arrays the two spellings of a layer agree by a ring identity, so the two results are equal entry by entry.
-/
import proofs.«131845_j5600637354059_1_alg».proof.Defs
import proofs.«131845_j5600637354059_1_alg».proof.Proof.Gen.Kernel
import proofs.«131845_j5600637354059_1_alg».proof.Proof.Gen.KernelIdeal
import proofs.«131845_j5600637354059_1_alg».proof.Proof.Gen.ReferenceIdeal
import proofs.«131845_j5600637354059_1_alg».proof.Proof.Gen.Pre_finite_inputs
import proofs.«131845_j5600637354059_1_alg».proof.Proof.KFrame.Run
import proofs.«131845_j5600637354059_1_alg».proof.Proof.KIFrame.Run
import proofs.«131845_j5600637354059_1_alg».proof.Proof.Ref.Run
import proofs.«131845_j5600637354059_1_alg».proof.Proof.Ref.RunValue
import proofs.«131845_j5600637354059_1_alg».proof.Proof.KIValue.Flow
import proofs.«131845_j5600637354059_1_alg».proof.Proof.KIValue.PreReal
import proofs.«131845_j5600637354059_1_alg».proof.Proof.Math.NetEq

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ => Cert.ReferenceIdeal.Hand.frame m ρ

/-- The network function of the kernel program's launch contents, per core: the common value of the two results. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v177) :=
  Cert.KernelIdeal.Net.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))

theorem algebraic : Cert.algebraic_KernelIdeal_ReferenceIdeal := by
  intro m ρ m' ρ' hpre hagree
  refine ⟨result m, ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v177 (by decide))).trans (Cert.KernelIdeal.Flow.kernel_value m ρ c),
      (h c _ (Cert.KernelIdeal.Hand.mem_uc Cert.KernelIdeal.main_arg0 (by decide))).trans (Cert.KernelIdeal.Hand.W26_main_arg0 m ρ c),
      (h c _ (Cert.KernelIdeal.Hand.mem_uc Cert.KernelIdeal.main_arg1 (by decide))).trans (Cert.KernelIdeal.Hand.W26_main_arg1 m ρ c),
      (h c _ (Cert.KernelIdeal.Hand.mem_uc Cert.KernelIdeal.main_arg2 (by decide))).trans (Cert.KernelIdeal.Hand.W26_main_arg2 m ρ c),
      (h c _ (Cert.KernelIdeal.Hand.mem_uc Cert.KernelIdeal.main_arg3 (by decide))).trans (Cert.KernelIdeal.Hand.W26_main_arg3 m ρ c),
      (h c _ (Cert.KernelIdeal.Hand.mem_uc Cert.KernelIdeal.main_arg4 (by decide))).trans (Cert.KernelIdeal.Hand.W26_main_arg4 m ρ c),
      (h c _ (Cert.KernelIdeal.Hand.mem_uc Cert.KernelIdeal.main_arg5 (by decide))).trans (Cert.KernelIdeal.Hand.W26_main_arg5 m ρ c),
      (h c _ (Cert.KernelIdeal.Hand.mem_uc Cert.KernelIdeal.main_arg6 (by decide))).trans (Cert.KernelIdeal.Hand.W26_main_arg6 m ρ c),
      (h c _ (Cert.KernelIdeal.Hand.mem_uc Cert.KernelIdeal.main_arg7 (by decide))).trans (Cert.KernelIdeal.Hand.W26_main_arg7 m ρ c),
      (h c _ (Cert.KernelIdeal.Hand.mem_uc Cert.KernelIdeal.main_arg8 (by decide))).trans (Cert.KernelIdeal.Hand.W26_main_arg8 m ρ c),
      (h c _ (Cert.KernelIdeal.Hand.mem_uc Cert.KernelIdeal.main_arg9 (by decide))).trans (Cert.KernelIdeal.Hand.W26_main_arg9 m ρ c)⟩
  · refine (θ_run Cert.ReferenceIdeal.defs _ _).mono (fun r h c => ?_) (Cert.ReferenceIdeal.Hand.ref_run m' ρ')
    obtain ⟨hx, hW0, hb0, hWs, hbs, hgs, hbetas, hWlin, hblin⟩ := Cert.KernelIdeal.Pre.allReal_of_pre m hpre c
    obtain ⟨g0, g1, g2, g3, g4, g5, g6, g7, g8, g9⟩ := hagree c
    refine ⟨(h c).1.trans ?_, (h c).2⟩
    rw [g0, g1, g2, g3, g4, g5, g6, g7, g8, g9]
    exact (Cert.KernelIdeal.Net.kOut_eq_rOut _ _ _ _ _ _ _ _ _ _ hx hW0 hb0 hWs hbs hgs hbetas hWlin hblin).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
